-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  main_v88

def fn_part4 {F : FTy → Type} [FloatOps F] (main_arg14 : FVec F S512x1024 .f32) (main_arg15 : FVec F S512 .f32) (main_arg16 : FVec F S512 .f32) (main_arg17 : FVec F S512 .f32) (main_v63 : IVec S_ 1) (main_v67 : IVec S_ 1) : IVec S_ 1 :=
  let main_v68 : IVec S_ 1 := andi main_v63 main_v67
  let main_v69 : FVec F S512x1024 .f32 := Host.absf main_arg14
  let main_cst_26 : FVec F S_ .f32 := constant S_ .f32 0x7F800000#32
  let main_v70 : FVec F S512x1024 .f32 := broadcastInDim S512x1024 ![] bcast_S_S512x1024 main_cst_26
  let main_v71 : IVec S512x1024 1 := cmpf .olt main_v69 main_v70
  let main_c_27 : IVec S_ 1 := constantI S_ 1 1#1
  let main_v72 : IVec S_ 1 := (fun x v => Host.reduce IntOp.andi x v reducesTo_S512x1024_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512 .f32) (main_arg12 : FVec F S512 .f32) (main_arg13 : FVec F S512 .f32) (main_arg14 : FVec F S512x1024 .f32) (main_arg15 : FVec F S512 .f32) (main_arg16 : FVec F S512 .f32) (main_arg17 : FVec F S512 .f32) (main_v48 : IVec S_ 1) (main_v49 : FVec F S512x1024 .f32) (main_v50 : FVec F S512x1024 .f32) : IVec S_ 1 :=
  let main_v51 : IVec S512x1024 1 := cmpf .olt main_v49 main_v50
  let main_c_19 : IVec S_ 1 := constantI S_ 1 1#1
  let main_v52 : IVec S_ 1 := (fun x v => Host.reduce IntOp.andi x v reducesTo_S512x1024_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_v63 main_v67

def fn_part2 {F : FTy → Type} [FloatOps F] (main_arg7 : FVec F S1024 .f32) (main_arg8 : FVec F S1024 .f32) (main_arg9 : FVec F S1024 .f32) (main_arg10 : FVec F S512x1024 .f32) (main_arg11 : FVec F S512 .f32) (main_arg12 : FVec F S512 .f32) (main_arg13 : FVec F S512 .f32) (main_arg14 : FVec F S512x1024 .f32) (main_arg15 : FVec F S512 .f32) (main_arg16 : FVec F S512 .f32) (main_arg17 : FVec F S512 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S512x1024 .f32 := Host.absf main_arg10
  let main_cst_18 : FVec F S_ .f32 := constant S_ .f32 0x7F800000#32
  let main_v50 : FVec F S512x1024 .f32 := broadcastInDim S512x1024 ![] bcast_S_S512x1024 main_cst_18
  fn_part3 (F := F) main_arg11 main_arg12 main_arg13 main_arg14 main_arg15 main_arg16 main_arg17 main_v48 main_v49 main_v50

def fn_part1 {F : FTy → Type} [FloatOps F] (main_arg4 : FVec F S1024 .f32) (main_arg5 : FVec F S1024 .f32) (main_arg6 : FVec F S1024x1024 .f32) (main_arg7 : FVec F S1024 .f32) (main_arg8 : FVec F S1024 .f32) (main_arg9 : FVec F S1024 .f32) (main_arg10 : FVec F S512x1024 .f32) (main_arg11 : FVec F S512 .f32) (main_arg12 : FVec F S512 .f32) (main_arg13 : FVec F S512 .f32) (main_arg14 : FVec F S512x1024 .f32) (main_arg15 : FVec F S512 .f32) (main_arg16 : FVec F S512 .f32) (main_arg17 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S8x2048x1024 .f32) (main_arg1 : FVec F S8x2048x1024 .f32) (main_arg2 : FVec F S1024x1024 .f32) (main_arg3 : FVec F S1024 .f32) (main_arg4 : FVec F S1024 .f32) (main_arg5 : FVec F S1024 .f32) (main_arg6 : FVec F S1024x1024 .f32) (main_arg7 : FVec F S1024 .f32) (main_arg8 : FVec F S1024 .f32) (main_arg9 : FVec F S1024 .f32) (main_arg10 : FVec F S512x1024 .f32) (main_arg11 : FVec F S512 .f32) (main_arg12 : FVec F S512 .f32) (main_arg13 : FVec F S512 .f32) (main_arg14 : FVec F S512x1024 .f32) (main_arg15 : FVec F S512 .f32) (main_arg16 : FVec F S512 .f32) (main_arg17 : FVec F S512 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S16384x1024 : Shape := ⟨2, ![16384, 1024]⟩
abbrev S1x1024 : Shape := ⟨2, ![1, 1024]⟩
abbrev S1x512 : Shape := ⟨2, ![1, 512]⟩
abbrev S16384x512 : Shape := ⟨2, ![16384, 512]⟩
abbrev S1024x512 : Shape := ⟨2, ![1024, 512]⟩
abbrev S1024x1 : Shape := ⟨2, ![1024, 1]⟩
abbrev S8x2048x512 : Shape := ⟨3, ![8, 2048, 512]⟩
abbrev S1x2048x1024 : Shape := ⟨3, ![1, 2048, 1024]⟩
abbrev S1x1024x1024 : Shape := ⟨3, ![1, 1024, 1024]⟩
abbrev S1x1024x512 : Shape := ⟨3, ![1, 1024, 512]⟩
abbrev S1x2048x512 : Shape := ⟨3, ![1, 2048, 512]⟩
abbrev S2048x1 : Shape := ⟨2, ![2048, 1]⟩
abbrev S2048x512 : Shape := ⟨2, ![2048, 512]⟩
abbrev S2048x1024 : Shape := ⟨2, ![2048, 1024]⟩
abbrev S2048 : Shape := ⟨1, ![2048]⟩

abbrev nBuf : Space → Nat
  | .hbm => 41
  | .vmem => 41
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S512x1024, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512x1024, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S16384x1024, .bf16⟩
  | .hbm, ⟨27, _⟩ => ⟨S16384x512, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S16384x1024, .bf16⟩
  | .hbm, ⟨35, _⟩ => ⟨S16384x512, .bf16⟩
  | .hbm, ⟨36, _⟩ => ⟨S8x2048x1024, .bf16⟩
  | .hbm, ⟨37, _⟩ => ⟨S8x2048x1024, .bf16⟩
  | .hbm, ⟨38, _⟩ => ⟨S8x2048x512, .bf16⟩
  | .hbm, ⟨39, _⟩ => ⟨S8x2048x512, .f32⟩
  | .hbm, ⟨40, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1024x1024, .bf16⟩
  | .local _ .vmem, ⟨12, _⟩ => ⟨S1024x512, .f32⟩
  | .local _ .vmem, ⟨13, _⟩ => ⟨S1024x512, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1024x1024, .bf16⟩
  | .local _ .vmem, ⟨25, _⟩ => ⟨S1024x1024, .bf16⟩
  | .local _ .vmem, ⟨26, _⟩ => ⟨S1024x512, .bf16⟩
  | .local _ .vmem, ⟨27, _⟩ => ⟨S1024x512, .bf16⟩
  | .local _ .vmem, ⟨28, _⟩ => ⟨S1x2048x1024, .bf16⟩
  | .local _ .vmem, ⟨29, _⟩ => ⟨S1x2048x1024, .bf16⟩
  | .local _ .vmem, ⟨30, _⟩ => ⟨S1x1024x1024, .bf16⟩
  | .local _ .vmem, ⟨31, _⟩ => ⟨S1x1024x1024, .bf16⟩
  | .local _ .vmem, ⟨32, _⟩ => ⟨S1x1024x512, .bf16⟩
  | .local _ .vmem, ⟨33, _⟩ => ⟨S1x1024x512, .bf16⟩
  | .local _ .vmem, ⟨34, _⟩ => ⟨S1x2048x512, .f32⟩
  | .local _ .vmem, ⟨35, _⟩ => ⟨S1x2048x512, .f32⟩
  | .local _ .vmem, ⟨36, _⟩ => ⟨S1x2048x1024, .f32⟩
  | .local _ .vmem, ⟨37, _⟩ => ⟨S1x2048x1024, .f32⟩
  | .local _ .vmem, ⟨38, _⟩ => ⟨S2048x1, .f32⟩
  | .local _ .vmem, ⟨39, _⟩ => ⟨S2048x1, .f32⟩
  | .local _ .vmem, ⟨40, _⟩ => ⟨S2048x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15_0 : Ref sig .tc := ⟨.hbm, 34, rfl⟩
abbrev main_v15_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_scratch0 : Ref sig .tc := ⟨.vmem, 38, rfl⟩
abbrev cc2_scratch1 : Ref sig .tc := ⟨.vmem, 39, rfl⟩
abbrev cc2_scratch2 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1024x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1024x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨2, ![8, 2], ![false, false]⟩

def k2_cond2 (i : grid2.Coords) : BitVec 1 :=
  let arg1 : BitVec 32 := BitVec.ofNat 32 (i 1).val
  let c1_i32 : BitVec 32 := 1#32
  let v40 : BitVec 1 := Scalar.cmpi .eq arg1 c1_i32
  let v41 : BitVec 32 := Scalar.extui v40
  let c0_i32_26 : BitVec 32 := 0#32
  let v42 : BitVec 1 := Scalar.cmpi .ne v41 c0_i32_26
  v42

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2048x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S8x2048x1024_S16384x1024 : S8x2048x1024.ShapeCasts S16384x1024
  shapeCasts_S1024_S1x1024 : S1024.ShapeCasts S1x1024
  shapeCasts_S512_S1x512 : S512.ShapeCasts S1x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  broadcasts_S1024x1_S1024x512 : S1024x1.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S16384x1024_S8x2048x1024 : S16384x1024.ShapeCasts S8x2048x1024
  shapeCasts_S16384x512_S8x2048x512 : S16384x512.ShapeCasts S8x2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S2048x1024_S2048 : S2048x1024.Reduces [1] S2048
  shapeCasts_S2048_S2048x1 : S2048.ShapeCasts S2048x1
  broadcasts_S2048x1_S2048x1024 : S2048x1.Broadcasts S2048x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  broadcasts_S2048x1_S2048x512 : S2048x1.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x2048x1024_S1x2048x512_0_0_0 : ∀ a, (![0, 0, 0] : Fin 3 → Nat) a + S1x2048x512.size a ≤ S1x2048x1024.size a
  shapeCasts_S2048x512_S1x2048x512 : S2048x512.ShapeCasts S1x2048x512
  inb_S1x2048x1024_S1x2048x512_0_0_512 : ∀ a, (![0, 0, 512] : Fin 3 → Nat) a + S1x2048x512.size a ≤ S1x2048x1024.size a
  dot_S1024x1024_S1024x1024_S1024x1024_1_1_0_0_n_n_wf : DotDims.WF S1024x1024 S1024x1024 S1024x1024 [1] [1] [0] [0] [] []
  dot_S1024x1024_S512x1024_S1024x512_1_1_0_0_n_n_wf : DotDims.WF S1024x1024 S512x1024 S1024x512 [1] [1] [0] [0] [] []
  dot_S2048x1024_S1024x1024_S2048x1024_1_1_0_0_n_n_wf : DotDims.WF S2048x1024 S1024x1024 S2048x1024 [1] [1] [0] [0] [] []
  dot_S2048x1024_S1024x512_S2048x512_1_0_0_1_n_n_wf : DotDims.WF S2048x1024 S1024x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S512x1024.size a
  hwx0_5 : ∀ i : grid0.Coords, EltTy.bits .f32 = 32 ∨ (Rect.block (s := S512x1024) S512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S16384x1024.size a
  hwx0_9 : ∀ i : grid0.Coords, EltTy.bits .bf16 = 32 ∨ (Rect.block (s := S16384x1024) S1024x1024.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S16384x512.size a
  hwx0_10 : ∀ i : grid0.Coords, EltTy.bits .f32 = 32 ∨ (Rect.block (s := S16384x512) S1024x512.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x1024.size a
  hwx1_0 : ∀ i : grid1.Coords, EltTy.bits .f32 = 32 ∨ (Rect.block (s := S16384x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S512x1024.size a
  hwx1_5 : ∀ i : grid1.Coords, EltTy.bits .f32 = 32 ∨ (Rect.block (s := S512x1024) S512x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x512.size a
  hwx1_8 : ∀ i : grid1.Coords, EltTy.bits .f32 = 32 ∨ (Rect.block (s := S1x512) S1x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1024x1024.size a ≤ S16384x1024.size a
  hwx1_9 : ∀ i : grid1.Coords, EltTy.bits .bf16 = 32 ∨ (Rect.block (s := S16384x1024) S1024x1024.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1024x512.size a ≤ S16384x512.size a
  hwx1_10 : ∀ i : grid1.Coords, EltTy.bits .bf16 = 32 ∨ (Rect.block (s := S16384x512) S1024x512.size (cc1_transform_10 i) (hinb1_10 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x1024.size a ≤ S8x2048x1024.size a
  hwx2_0 : ∀ i : grid2.Coords, EltTy.bits .bf16 = 32 ∨ (Rect.block (s := S8x2048x1024) S1x2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S8x2048x1024.size a
  hwx2_1 : ∀ i : grid2.Coords, EltTy.bits .bf16 = 32 ∨ (Rect.block (s := S8x2048x1024) S1x1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x512.size a ≤ S8x2048x512.size a
  hwx2_2 : ∀ i : grid2.Coords, EltTy.bits .bf16 = 32 ∨ (Rect.block (s := S8x2048x512) S1x1024x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x512.size a ≤ S8x2048x512.size a
  hwx2_3 : ∀ i : grid2.Coords, EltTy.bits .f32 = 32 ∨ (Rect.block (s := S8x2048x512) S1x2048x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x1024.size a ≤ S8x2048x1024.size a
  hwx2_4 : ∀ i : grid2.Coords, EltTy.bits .f32 = 32 ∨ (Rect.block (s := S8x2048x1024) S1x2048x1024.size (cc2_transform_4 i) (hinb2_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg14) S512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S1024x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S1024x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S512x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v14) S1x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15_0) S1024x1024.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v15_1) S1024x512.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v16) S1x2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x2048x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x2048x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S512x1024 : Shape := ⟨2, ![512, 1024]⟩
abbrev S512 : Shape := ⟨1, ![512]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S8x2048x512 : Shape := ⟨3, ![8, 2048, 512]⟩
abbrev S1x1x512 : Shape := ⟨3, ![1, 1, 512]⟩

abbrev nBuf : Space → Nat
  | .hbm => 179
  | .vmem => 0
  | .smem => 0
  | _ => 0

abbrev hbmTy0_0 (i : Nat) : BufTy := match i % 128 with
  | 0 => ⟨S8x2048x1024, .f32⟩
  | 1 => ⟨S8x2048x1024, .f32⟩
  | 2 => ⟨S1024x1024, .f32⟩
  | 3 => ⟨S1024, .f32⟩
  | 4 => ⟨S1024, .f32⟩
  | 5 => ⟨S1024, .f32⟩
  | 6 => ⟨S1024x1024, .f32⟩
  | 7 => ⟨S1024, .f32⟩
  | 8 => ⟨S1024, .f32⟩
  | 9 => ⟨S1024, .f32⟩
  | 10 => ⟨S512x1024, .f32⟩
  | 11 => ⟨S512, .f32⟩
  | 12 => ⟨S512, .f32⟩
  | 13 => ⟨S512, .f32⟩
  | 14 => ⟨S512x1024, .f32⟩
  | 15 => ⟨S512, .f32⟩
  | 16 => ⟨S512, .f32⟩
  | 17 => ⟨S512, .f32⟩
  | 18 => ⟨S8x2048x1024, .f32⟩
  | 19 => ⟨S1x1x1024, .f32⟩
  | 20 => ⟨S8x2048x1024, .f32⟩
  | 21 => ⟨S8x2048x1024, .f32⟩
  | 22 => ⟨S_, .f32⟩
  | 23 => ⟨S8x2048, .f32⟩
  | 24 => ⟨S8x2048x1, .f32⟩
  | 25 => ⟨S_, .f32⟩
  | 26 => ⟨S8x2048x1, .f32⟩
  | 27 => ⟨S8x2048x1, .f32⟩
  | 28 => ⟨S8x2048x1024, .f32⟩
  | 29 => ⟨S8x2048x1024, .f32⟩
  | 30 => ⟨S8x2048x1024, .f32⟩
  | 31 => ⟨S_, .f32⟩
  | 32 => ⟨S8x2048, .f32⟩
  | 33 => ⟨S8x2048x1, .f32⟩
  | 34 => ⟨S_, .f32⟩
  | 35 => ⟨S8x2048x1, .f32⟩
  | 36 => ⟨S8x2048x1, .f32⟩
  | 37 => ⟨S8x2048x1024, .f32⟩
  | 38 => ⟨S8x2048x1024, .f32⟩
  | 39 => ⟨S_, .f32⟩
  | 40 => ⟨S8x2048x1, .f32⟩
  | 41 => ⟨S8x2048x1, .f32⟩
  | 42 => ⟨S8x2048x1, .f32⟩
  | 43 => ⟨S8x2048x1024, .f32⟩
  | 44 => ⟨S8x2048x1024, .f32⟩
  | 45 => ⟨S1x1x1024, .f32⟩
  | 46 => ⟨S8x2048x1024, .f32⟩
  | 47 => ⟨S8x2048x1024, .f32⟩
  | 48 => ⟨S1x1x1024, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S8x2048x1024, .f32⟩
  | 55 => ⟨S1x1x1024, .f32⟩
  | 56 => ⟨S8x2048x1024, .f32⟩
  | 57 => ⟨S8x2048x1024, .f32⟩
  | 58 => ⟨S_, .f32⟩
  | 59 => ⟨S8x2048, .f32⟩
  | 60 => ⟨S8x2048x1, .f32⟩
  | 61 => ⟨S_, .f32⟩
  | 62 => ⟨S8x2048x1, .f32⟩
  | 63 => ⟨S8x2048x1, .f32⟩
  | 64 => ⟨S8x2048x1024, .f32⟩
  | 65 => ⟨S8x2048x1024, .f32⟩
  | 66 => ⟨S8x2048x1024, .f32⟩
  | 67 => ⟨S_, .f32⟩
  | 68 => ⟨S8x2048, .f32⟩
  | 69 => ⟨S8x2048x1, .f32⟩
  | 70 => ⟨S_, .f32⟩
  | 71 => ⟨S8x2048x1, .f32⟩
  | 72 => ⟨S8x2048x1, .f32⟩
  | 73 => ⟨S8x2048x1024, .f32⟩
  | 74 => ⟨S8x2048x1024, .f32⟩
  | 75 => ⟨S_, .f32⟩
  | 76 => ⟨S8x2048x1, .f32⟩
  | 77 => ⟨S8x2048x1, .f32⟩
  | 78 => ⟨S8x2048x1, .f32⟩
  | 79 => ⟨S8x2048x1024, .f32⟩
  | 80 => ⟨S8x2048x1024, .f32⟩
  | 81 => ⟨S1x1x1024, .f32⟩
  | 82 => ⟨S8x2048x1024, .f32⟩
  | 83 => ⟨S8x2048x1024, .f32⟩
  | 84 => ⟨S1x1x1024, .f32⟩
  | 85 => ⟨S8x2048x1024, .f32⟩
  | 86 => ⟨S8x2048x1024, .f32⟩
  | 87 => ⟨S_, .f32⟩
  | 88 => ⟨S8x2048x1024, .f32⟩
  | 89 => ⟨S8x2048x1024, .f32⟩
  | 90 => ⟨S8x2048x2048, .f32⟩
  | 91 => ⟨S_, .f32⟩
  | 92 => ⟨S8x2048, .f32⟩
  | 93 => ⟨S_, .f32⟩
  | 94 => ⟨S8x2048, .f32⟩
  | 95 => ⟨S8x2048, .f32⟩
  | 96 => ⟨S8x2048x1, .f32⟩
  | 97 => ⟨S8x2048x2048, .f32⟩
  | 98 => ⟨S8x2048x2048, .f32⟩
  | 99 => ⟨S8x2048x2048, .f32⟩
  | 100 => ⟨S_, .f32⟩
  | 101 => ⟨S8x2048, .f32⟩
  | 102 => ⟨S8x2048x1, .f32⟩
  | 103 => ⟨S8x2048x2048, .f32⟩
  | 104 => ⟨S8x2048x2048, .f32⟩
  | 105 => ⟨S8x2048x512, .f32⟩
  | 106 => ⟨S1x1x512, .f32⟩
  | 107 => ⟨S8x2048x512, .f32⟩
  | 108 => ⟨S8x2048x512, .f32⟩
  | 109 => ⟨S_, .f32⟩
  | 110 => ⟨S8x2048, .f32⟩
  | 111 => ⟨S8x2048x1, .f32⟩
  | 112 => ⟨S_, .f32⟩
  | 113 => ⟨S8x2048x1, .f32⟩
  | 114 => ⟨S8x2048x1, .f32⟩
  | 115 => ⟨S8x2048x512, .f32⟩
  | 116 => ⟨S8x2048x512, .f32⟩
  | 117 => ⟨S8x2048x512, .f32⟩
  | 118 => ⟨S_, .f32⟩
  | 119 => ⟨S8x2048, .f32⟩
  | 120 => ⟨S8x2048x1, .f32⟩
  | 121 => ⟨S_, .f32⟩
  | 122 => ⟨S8x2048x1, .f32⟩
  | 123 => ⟨S8x2048x1, .f32⟩
  | 124 => ⟨S8x2048x512, .f32⟩
  | 125 => ⟨S8x2048x512, .f32⟩
  | 126 => ⟨S_, .f32⟩
  | 127 => ⟨S8x2048x1, .f32⟩
  | _ => ⟨S8x2048x1024, .f32⟩

abbrev hbmTy0_1 (i : Nat) : BufTy := match i % 128 with
  | 0 => ⟨S8x2048x1, .f32⟩
  | 1 => ⟨S8x2048x1, .f32⟩
  | 2 => ⟨S8x2048x512, .f32⟩
  | 3 => ⟨S8x2048x512, .f32⟩
  | 4 => ⟨S1x1x512, .f32⟩
  | 5 => ⟨S8x2048x512, .f32⟩
  | 6 => ⟨S8x2048x512, .f32⟩
  | 7 => ⟨S1x1x512, .f32⟩
  | 8 => ⟨S8x2048x512, .f32⟩
  | 9 => ⟨S8x2048x512, .f32⟩
  | 10 => ⟨S_, .f32⟩
  | 11 => ⟨S8x2048x512, .f32⟩
  | 12 => ⟨S8x2048x512, .f32⟩
  | 13 => ⟨S8x2048x512, .f32⟩
  | 14 => ⟨S8x2048x512, .f32⟩
  | 15 => ⟨S1x1x512, .f32⟩
  | 16 => ⟨S8x2048x512, .f32⟩
  | 17 => ⟨S8x2048x512, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S8x2048x512, .f32⟩
  | 25 => ⟨S8x2048x512, .f32⟩
  | 26 => ⟨S8x2048x512, .f32⟩
  | 27 => ⟨S_, .f32⟩
  | 28 => ⟨S8x2048, .f32⟩
  | 29 => ⟨S8x2048x1, .f32⟩
  | 30 => ⟨S_, .f32⟩
  | 31 => ⟨S8x2048x1, .f32⟩
  | 32 => ⟨S8x2048x1, .f32⟩
  | 33 => ⟨S8x2048x512, .f32⟩
  | 34 => ⟨S8x2048x512, .f32⟩
  | 35 => ⟨S_, .f32⟩
  | 36 => ⟨S8x2048x1, .f32⟩
  | 37 => ⟨S8x2048x1, .f32⟩
  | 38 => ⟨S8x2048x1, .f32⟩
  | 39 => ⟨S8x2048x512, .f32⟩
  | 40 => ⟨S8x2048x512, .f32⟩
  | 41 => ⟨S1x1x512, .f32⟩
  | 42 => ⟨S8x2048x512, .f32⟩
  | 43 => ⟨S8x2048x512, .f32⟩
  | 44 => ⟨S1x1x512, .f32⟩
  | 45 => ⟨S8x2048x512, .f32⟩
  | 46 => ⟨S8x2048x512, .f32⟩
  | 47 => ⟨S_, .f32⟩
  | 48 => ⟨S8x2048x512, .f32⟩
  | 49 => ⟨S8x2048x512, .f32⟩
  | 50 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call0_cst : Ref sig .tc := ⟨.hbm, 51, rfl⟩
abbrev main_call0_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call1_cst : Ref sig .tc := ⟨.hbm, 87, rfl⟩
abbrev main_call1_v0 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_cst_13 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_14 : Ref sig .tc := ⟨.hbm, 118, rfl⟩
abbrev main_v81 : Ref sig .tc := ⟨.hbm, 119, rfl⟩
abbrev main_v82 : Ref sig .tc := ⟨.hbm, 120, rfl⟩
abbrev main_cst_15 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call2_cst : Ref sig .tc := ⟨.hbm, 138, rfl⟩
abbrev main_call2_v0 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_17 : Ref sig .tc := ⟨.hbm, 146, rfl⟩
abbrev main_v104 : Ref sig .tc := ⟨.hbm, 147, rfl⟩
abbrev main_v105 : Ref sig .tc := ⟨.hbm, 148, rfl⟩
abbrev main_cst_18 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_19 : Ref sig .tc := ⟨.hbm, 155, rfl⟩
abbrev main_v111 : Ref sig .tc := ⟨.hbm, 156, rfl⟩
abbrev main_v112 : Ref sig .tc := ⟨.hbm, 157, rfl⟩
abbrev main_cst_20 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_21 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_call3_cst : Ref sig .tc := ⟨.hbm, 175, rfl⟩
abbrev main_call3_v0 : Ref sig .tc := ⟨.hbm, 176, rfl⟩
abbrev main_v128 : Ref sig .tc := ⟨.hbm, 177, rfl⟩
abbrev main_v129 : Ref sig .tc := ⟨.hbm, 178, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S_S8x2048x1024 : S_.BroadcastsInDim S8x2048x1024 (![] : Fin 0 → Fin S8x2048x1024.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  reducesTo_S8x2048x512_S8x2048_d2 : S8x2048x512.ReducesTo [2] S8x2048
  bcast_S8x2048x1_S8x2048x512_0_1_2 : S8x2048x1.BroadcastsInDim S8x2048x512 (![0, 1, 2] : Fin 3 → Fin S8x2048x512.rank)
  bcast_S_S8x2048x512 : S_.BroadcastsInDim S8x2048x512 (![] : Fin 0 → Fin S8x2048x512.rank)
  concatenates_S8x2048x512_S8x2048x512_S8x2048x1024_d2 : Shape.Concatenates [S8x2048x512, S8x2048x512] S8x2048x1024 2
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x1024_S512x1024_S8x2048x512_2_1_01_0_n_n_wf : DotDims.WF S8x2048x1024 S512x1024 S8x2048x512 [2] [1] [0, 1] [0] [] []
  dot_S8x2048x2048_S8x2048x512_S8x2048x512_2_1_1_2_0_0_wf : DotDims.WF S8x2048x2048 S8x2048x512 S8x2048x512 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x1024_S512x1024_S8x2048x512_2_1_01_0_n_n : DotDims S8x2048x1024 S512x1024 S8x2048x512 where
  lhsContracting := [2]
  rhsContracting := [1]
  lhsNonContracting := [0, 1]
  rhsNonContracting := [0]
  lhsBatch := []
  rhsBatch := []
  wf := dot_S8x2048x1024_S512x1024_S8x2048x512_2_1_01_0_n_n_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.R2RunsK.lean ====
/-
  The attention region (the third pallas_call) of the program: what its case runs share.
  The grid is (batch b < 8) x (key tile j < 2); point t = 2 b + j. The body resets its three scratch buffers
  (running maximum, running mass, running weighted sum) when j = 0 and writes the output block when j = 1; between the
  two points of a batch the scratch carries the running triple. Stated here: the two branch conditions in closed form
  over the grid, where the output window is idle and where it is written back, the names of the staging and scratch
  memrefs, and the region's resting invariant split at the three scratch buffers.
-/
import proofs.«171265_j74741020885605_2_alg».proof.Proof.Gen.Kernel.Launch
import proofs.«171265_j74741020885605_2_alg».proof.Proof.Gen.Kernel.Skeleton
import proofs.«171265_j74741020885605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions -/

/-- "this is the first key tile of its batch": the reset branch's condition, from the grid coordinates. -/
abbrev cond2_0 (i : grid2.Coords) : Prop := (Scalar.cmpi .ne (Scalar.extui (Scalar.cmpi .eq (BitVec.ofNat 32 (i 1).val) 0#32)) 0#32) = 1#1
/-- It holds at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- "this is the last key tile of its batch": the finishing branch's condition. -/
abbrev cond2_1 (i : grid2.Coords) : Prop := k2_cond2 i = 1#1
/-- It holds at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At a first key tile the output block is idle: nothing is stored into it, -/
theorem idleAt2_4_A : ∀ t : Fin cfg2.N, cond2_0 (grid2.coords t) → ¬cond2_1 (grid2.coords t) → cfg2.idle 4 (grid2.coords t) = true := by decide +kernel
/-- and it is not written back there. -/
theorem noFlush2_4_A : ∀ t : Fin cfg2.N, cond2_0 (grid2.coords t) → ¬cond2_1 (grid2.coords t) → (cfg2.win 4).flush t = false := by decide +kernel
/-- At a last key tile the output block is live. -/
theorem liveAt2_4_B : ∀ t : Fin cfg2.N, ¬cond2_0 (grid2.coords t) → cond2_1 (grid2.coords t) → cfg2.idle 4 (grid2.coords t) = false := by decide +kernel

/-! ## The memrefs the body is called on -/

/-- One staging buffer of the output window, through which its contents are stated. -/
abbrev VO2_4 : View sig .tc .vmem S1x2048x1024 .f32 := (Memref.whole cc2_stg4_0 : Memref sig .tc .vmem S1x2048x1024 .f32).view
abbrev ms2_0 (t : Fin cfg2.N) : Memref sig .tc .vmem S1x2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048x1024 .f32 := win2_4.stage (cfg2.slots t 4)
abbrev hs2_4 (t : Fin cfg2.N) : (ms2_4 t).IsWhole := hstage2_4 ((cfg2.slots t 4).cast nbuf2_4)
/-- The scratch operands: the running maximum, the running mass, the running weighted sum. -/
abbrev scM2_0 : Memref sig .tc .vmem S2048x1 .f32 := Memref.whole cc2_scratch0
abbrev scM2_1 : Memref sig .tc .vmem S2048x1 .f32 := Memref.whole cc2_scratch1
abbrev scM2_2 : Memref sig .tc .vmem S2048x512 .f32 := Memref.whole cc2_scratch2
abbrev VS2_0 : View sig .tc .vmem S2048x1 .f32 := scM2_0.view
abbrev VS2_1 : View sig .tc .vmem S2048x1 .f32 := scM2_1.view
abbrev VS2_2 : View sig .tc .vmem S2048x512 .f32 := scM2_2.view

/-- Every other scoped buffer of the program, unopened. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The region's resting invariant with the three scratch operands as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ restBut2 (F := F) c) ∗ (∃ r, prngReg c r)) := by
  unfold Pipeline.ΦA; rw [scopedRest2_split]; simp only [scM2_0, scM2_1, scM2_2, owns_whole]; try rfl

end Cert.Kernel.Hand

end
-- ==== Proof.R2RunAK.lean ====
/-
  The attention body at a FIRST key tile (the reset branch taken, the finishing branch not): run on whole memrefs —
  the four inputs at their contents, the output block handed back untouched, the three scratch buffers at anything
  (the body overwrites each whole before it reads it) — it ends with each scratch buffer written by the pieces the
  run finds.
-/
import proofs.«171265_j74741020885605_2_alg».proof.Proof.R2RunsK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i)
    (x0 : Vec F S1x2048x1024 .bf16) (x1 : Vec F S1x1024x1024 .bf16) (x2 : Vec F S1x1024x512 .bf16) (x3 : Vec F S1x2048x512 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x512 .f32) //
      ∀ (xi4 : Vec F S1x2048x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Hand

end
-- ==== Proof.R2RunBK.lean ====
/-
  The attention body at a LAST key tile (the reset branch not taken, the finishing branch taken): run on whole
  memrefs — the four inputs at their contents, the output block at anything, the three scratch buffers at what the
  first key tile left in them — it ends with the output block and each scratch buffer written by the pieces the run
  finds.
-/
import proofs.«171265_j74741020885605_2_alg».proof.Proof.R2RunAK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i)
    (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Hand

end
-- ==== Proof.R2FrameK.lean ====
/-
  The attention region's frame data. After the body at point t = 2 b + j the scratch holds the running triple
  (maximum, mass, weighted sum) of batch b over key tiles 0..j; at j = 1 the output block holds, in columns 0..511,
  the pass-through block and, in columns 512..1023, the weighted sum divided by the mass. What each case leaves is
  read back from the pieces its run found; the accumulation over the grid is by recursion on the point, an odd point
  taking the scratch triple the even point before it left.
-/
import proofs.«171265_j74741020885605_2_alg».proof.Proof.R2RunBK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At a first key tile the pieces written into scratch 0 tile it. -/
theorem scover2_A_0 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) (y : S2048x1.Idx) :
    ∃ pc ∈ (kernelRun2_A c i arg2 harg2 arg3 harg3 arg4 harg4 arg5 harg5 arg6 harg6 arg7 harg7 arg8 harg8 arg9 harg9 hc0 hc1 x0 x1 x2 x3).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.1 S2048x1.size (by sl_kernel_rfl) y
/-- What a first key tile leaves in scratch 0. -/
def sout2_A_0 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) : Vec F S2048x1 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3).2.1)
/-- At a last key tile the pieces written into scratch 0 tile it. -/
theorem scover2_B_0 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) (y : S2048x1.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.1 S2048x1.size (by sl_kernel_rfl) y
/-- What a last key tile leaves in scratch 0. -/
def sout2_B_0 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) : Vec F S2048x1 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 xs0 xs1 xs2).2.1)

/-- At a first key tile the pieces written into scratch 1 tile it. -/
theorem scover2_A_1 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) (y : S2048x1.Idx) :
    ∃ pc ∈ (kernelRun2_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.2.1 S2048x1.size (by sl_kernel_rfl) y
/-- What a first key tile leaves in scratch 1. -/
def sout2_A_1 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) : Vec F S2048x1 .f32 :=
  VS2_1.read (Elt F) (VS2_1.writes (Elt F) VS2_1.junk (kernelRun2_A c i arg2 harg2 arg3 harg3 arg4 harg4 arg5 harg5 arg6 harg6 arg7 harg7 arg8 harg8 arg9 harg9 hc0 hc1 x0 x1 x2 x3).2.2.1)
/-- At a last key tile the pieces written into scratch 1 tile it. -/
theorem scover2_B_1 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) (y : S2048x1.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.2.1 S2048x1.size (by sl_kernel_rfl) y
/-- What a last key tile leaves in scratch 1. -/
def sout2_B_1 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) : Vec F S2048x1 .f32 :=
  VS2_1.read (Elt F) (VS2_1.writes (Elt F) VS2_1.junk (kernelRun2_B c i arg2 harg2 arg3 harg3 arg4 harg4 arg5 harg5 arg6 harg6 arg7 harg7 arg8 harg8 arg9 harg9 hc0 hc1 x0 x1 x2 x3 xs0 xs1 xs2).2.2.1)

/-- At a first key tile the pieces written into scratch 2 tile it. -/
theorem scover2_A_2 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) (y : S2048x512.Idx) :
    ∃ pc ∈ (kernelRun2_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.2.2.1 S2048x512.size (by sl_kernel_rfl) y
/-- What a first key tile leaves in scratch 2. -/
def sout2_A_2 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) : Vec F S2048x512 .f32 :=
  VS2_2.read (Elt F) (VS2_2.writes (Elt F) VS2_2.junk (kernelRun2_A c i arg2 harg2 arg3 harg3 arg4 harg4 arg5 harg5 arg6 harg6 arg7 harg7 arg8 harg8 arg9 harg9 hc0 hc1 x0 x1 x2 x3).2.2.2.1)
/-- At a last key tile the pieces written into scratch 2 tile it. -/
theorem scover2_B_2 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) (y : S2048x512.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.2.2.1 S2048x512.size (by sl_kernel_rfl) y
/-- What a last key tile leaves in scratch 2. -/
def sout2_B_2 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) : Vec F S2048x512 .f32 :=
  VS2_2.read (Elt F) (VS2_2.writes (Elt F) VS2_2.junk (kernelRun2_B c i arg2 harg2 arg3 harg3 arg4 harg4 arg5 harg5 arg6 harg6 arg7 harg7 arg8 harg8 arg9 harg9 hc0 hc1 x0 x1 x2 x3 xs0 xs1 xs2).2.2.2.1)

/-- A first key tile stores nothing into the output block: a placeholder nothing consults. -/
def out2_A_4 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) : Vec F S1x2048x1024 .f32 :=
  VO2_4.read (Elt F) (VO2_4.writes (Elt F) VO2_4.junk (kernelRun2_A c i arg2 harg2 arg3 harg3 arg4 harg4 arg5 harg5 arg6 harg6 arg7 harg7 arg8 harg8 arg9 harg9 hc0 hc1 x0 x1 x2 x3).1)
/-- At a last key tile the two half-width stores tile the output block. -/
theorem cover2_B_4 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) (y : S1x2048x1024.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).1 S1x2048x512.size (by sl_kernel_rfl) y
/-- What a last key tile leaves in the output block. -/
def out2_B_4 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) : Vec F S1x2048x1024 .f32 :=
  VO2_4.read (Elt F) (VO2_4.writes (Elt F) VO2_4.junk (kernelRun2_B c i arg2 harg2 arg3 harg3 arg4 harg4 arg5 harg5 arg6 harg6 arg7 harg7 arg8 harg8 arg9 harg9 hc0 hc1 x0 x1 x2 x3 xs0 xs1 xs2).1)

/-! ## Point by point -/

/-- What a first key tile leaves at point `t`: (output placeholder, maximum, mass, weighted sum). -/
def outsA2 (c : Dev nD) (t : Fin cfg2.N) (h : t.val % 2 = 0) : Vec F S1x2048x1024 .f32 × Vec F S2048x1 .f32 × Vec F S2048x1 .f32 × Vec F S2048x512 .f32 :=
  (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h) (fun hh => by have := (hcond2_1 t).mp hh; omega) (iblk2 V c 0 t) (iblk2 V c 1 t) (iblk2 V c 2 t) (iblk2 V c 3 t),
   sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h) (fun hh => by have := (hcond2_1 t).mp hh; omega) (iblk2 V c 0 t) (iblk2 V c 1 t) (iblk2 V c 2 t) (iblk2 V c 3 t),
   sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h) (fun hh => by have := (hcond2_1 t).mp hh; omega) (iblk2 V c 0 t) (iblk2 V c 1 t) (iblk2 V c 2 t) (iblk2 V c 3 t),
   sout2_A_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h) (fun hh => by have := (hcond2_1 t).mp hh; omega) (iblk2 V c 0 t) (iblk2 V c 1 t) (iblk2 V c 2 t) (iblk2 V c 3 t))
/-- What a last key tile leaves at point `t`, from the scratch triple it found. -/
def outsB2 (c : Dev nD) (t : Fin cfg2.N) (h : t.val % 2 = 1) (xs0 : Vec F S2048x1 .f32) (xs1 : Vec F S2048x1 .f32) (xs2 : Vec F S2048x512 .f32) : Vec F S1x2048x1024 .f32 × Vec F S2048x1 .f32 × Vec F S2048x1 .f32 × Vec F S2048x512 .f32 :=
  (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun hh => by have := (hcond2_0 t).mp hh; omega) ((hcond2_1 t).mpr h) (iblk2 V c 0 t) (iblk2 V c 1 t) (iblk2 V c 2 t) (iblk2 V c 3 t) xs0 xs1 xs2,
   sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun hh => by have := (hcond2_0 t).mp hh; omega) ((hcond2_1 t).mpr h) (iblk2 V c 0 t) (iblk2 V c 1 t) (iblk2 V c 2 t) (iblk2 V c 3 t) xs0 xs1 xs2,
   sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun hh => by have := (hcond2_0 t).mp hh; omega) ((hcond2_1 t).mpr h) (iblk2 V c 0 t) (iblk2 V c 1 t) (iblk2 V c 2 t) (iblk2 V c 3 t) xs0 xs1 xs2,
   sout2_B_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun hh => by have := (hcond2_0 t).mp hh; omega) ((hcond2_1 t).mpr h) (iblk2 V c 0 t) (iblk2 V c 1 t) (iblk2 V c 2 t) (iblk2 V c 3 t) xs0 xs1 xs2)

/-- THE ACCUMULATION over the grid: an even point is a first key tile; an odd point a last one, taking the scratch
    triple the point before left. -/
def outsAt2 (c : Dev nD) : (n : ℕ) → n < cfg2.N → Vec F S1x2048x1024 .f32 × Vec F S2048x1 .f32 × Vec F S2048x1 .f32 × Vec F S2048x512 .f32
  | 0, hn => outsA2 V c ⟨0, hn⟩ (Nat.zero_mod _)
  | n + 1, hn =>
    if h : (n + 1) % 2 = 0 then outsA2 V c ⟨n + 1, hn⟩ h
    else outsB2 V c ⟨n + 1, hn⟩ (show (n + 1) % 2 = 1 by omega)
      (outsAt2 c n (Nat.lt_of_succ_lt hn)).2.1 (outsAt2 c n (Nat.lt_of_succ_lt hn)).2.2.1 (outsAt2 c n (Nat.lt_of_succ_lt hn)).2.2.2

theorem outsAt2_A (c : Dev nD) (t : Fin cfg2.N) (h : t.val % 2 = 0) : outsAt2 V c t.val t.isLt = outsA2 V c t h := by
  obtain ⟨n, hn⟩ := t
  cases n with
  | zero => rfl
  | succ n => exact dif_pos h

theorem outsAt2_B (c : Dev nD) (t : Fin cfg2.N) (h : t.val % 2 = 1) :
    outsAt2 V c t.val t.isLt = outsB2 V c t h
      (outsAt2 V c (t.val - 1) (Nat.lt_of_le_of_lt (Nat.sub_le _ _) t.isLt)).2.1
      (outsAt2 V c (t.val - 1) (Nat.lt_of_le_of_lt (Nat.sub_le _ _) t.isLt)).2.2.1
      (outsAt2 V c (t.val - 1) (Nat.lt_of_le_of_lt (Nat.sub_le _ _) t.isLt)).2.2.2 := by
  obtain ⟨n, hn⟩ := t
  cases n with
  | zero => exact (by exfalso; (try dsimp only at h); omega)
  | succ n => exact dif_neg (show ¬(n + 1) % 2 = 0 by have : (n + 1) % 2 = 1 := h; omega)

/-! ## The invariant -/

/-- Before the first point the region's resting invariant; afterwards the three scratch buffers at what the point
    before left, every other scoped buffer unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 (F := F) c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2)) ∗ restBut2 (F := F) c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 2 = 0
  · rw [Dat.leavesExact_idle (dat2 V c) 4 t (idleAt2_4_A t ((hcond2_0 t).mpr h0) (fun hh => by have := (hcond2_1 t).mp hh; omega)) (noFlush2_4_A t ((hcond2_0 t).mpr h0) (fun hh => by have := (hcond2_1 t).mp hh; omega))]
    rw [outsAt2_A V c t h0]
    unfold outsA2 sout2_A_0 sout2_A_1 sout2_A_2; (try dsimp only)
    by_cases hz : t.val = 0
    · rw [PhiS2_castSucc V c t, PhiS2_zero V c _ _ hz, PhiA2_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun hh => by have := (hcond2_1 t).mp hh; omega) (iblk2 V c 0 t) (iblk2 V c 1 t) (iblk2 V c 2 t) (iblk2 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun hh => by have := (hcond2_1 t).mp hh; omega) (iblk2 V c 0 t) (iblk2 V c 1 t) (iblk2 V c 2 t) (iblk2 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat2 V c).leavesExact 4 t = owns (c : Thread nD τ) (ms2_4 t) fullShare ((dat2 V c).after 4 t) from by
      unfold Dat.leavesExact; rw [liveAt2_4_B t (fun hh => by have := (hcond2_0 t).mp hh; omega) ((hcond2_1 t).mpr h1)], after2_4]
    rw [outsAt2_B V c t h1]
    unfold outsB2 out2_B_4 sout2_B_0 sout2_B_1 sout2_B_2; (try dsimp only)
    rw [PhiS2_castSucc V c t, PhiS2_pos V c _ _ hz]
    iintro ⟨⟨⟨⟨HS0, HS1, HS2⟩, Hrest⟩, Hg⟩, Ho, ⟨%d0, H0⟩, ⟨%d1, H1⟩, ⟨%d2, H2⟩, ⟨%d3, H3⟩, ⟨%d4, H4⟩⟩
    iapply ((kernelRun2_B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun hh => by have := (hcond2_0 t).mp hh; omega) ((hcond2_1 t).mpr h1) (iblk2 V c 0 t) (iblk2 V c 1 t) (iblk2 V c 2 t) (iblk2 V c 3 t) _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_B_1 c _ _ _ _ _ _ _ _ _ _ _ _ _ _ _ _ _ _ _ _ _ _ _ _ _ _)
          unfold owns; iexists _; isplitr
          swap; · iexact HS2
          ipureintro; exact View.read_writes_of_cover _ _ _ _ _ (scover2_B_2 c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the resting one back: the scratch contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.Kernel.Hand

end
-- ==== Proof.BranchFrame0K.lean ====
/- The frame pieces of region 0 of @main (custom_call 0, the fused branch kernel on a grid of 16 row tiles), at a
   parameter `V` — the TensorCore's buffer contents when the region is entered: each window's block at a point, what the
   body leaves in each output window's staging buffer as the skeleton's payloads of the input blocks, the body's triple,
   the pipeline's proof data and the body obligation at every point. Generic in the float instance.

   The body loads each output's staging buffer (the value is not used) before it stores it whole; the triple therefore
   takes each output's buffer at anything and leaves it at the stored payload, and the obligation needs nothing about
   what an output's buffer holds when the body is entered. -/
import proofs.«171265_j74741020885605_2_alg».proof.Proof.Gen.Kernel.Launch
import proofs.«171265_j74741020885605_2_alg».proof.Proof.Gen.Kernel.Skeleton
import proofs.«171265_j74741020885605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s (`hA`) and whose body leaves the block in place (`hafter`): unfetched, the block index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s (`hA`) and whose body leaves the block in place (`hafter`): unfetched, the block index has not
    moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s (`hA`) and whose body leaves the block in place (`hafter`): unfetched, the block index has not
    moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s (`hA`) and whose body leaves the block in place (`hafter`): unfetched, the block index has not
    moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s (`hA`) and whose body leaves the block in place (`hafter`): unfetched, the block index has not
    moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is `V`'s (`hA`) and whose body leaves the block in place (`hafter`): unfetched, the block index has not
    moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is `V`'s (`hA`) and whose body leaves the block in place (`hafter`): unfetched, the block index has not
    moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof data
    whose array is `V`'s (`hA`) and whose body leaves the block in place (`hafter`): unfetched, the block index has not
    moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof data
    whose array is `V`'s (`hA`) and whose body leaves the block in place (`hafter`): unfetched, the block index has not
    moved; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rA0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0
abbrev rC0 : Rect S512x1024 := Rect.unit (s := S512x1024) ![0, 0] S512x1024.size inb_S512x1024_S512x1024_0_0
abbrev rD0 : Rect S1x512 := Rect.unit (s := S1x512) ![0, 0] S1x512.size inb_S1x512_S1x512_0_0
abbrev rE0 : Rect S1024x512 := Rect.unit (s := S1024x512) ![0, 0] S1024x512.size inb_S1024x512_S1024x512_0_0

/-! ## What the body leaves in each output window's buffer -/

/-- Window 9's staging buffer after the body, from the blocks of windows 0–4: its one store, of the first branch's
    payload (the skeleton's `k0_pay3`). -/
def out0_9 (x0 : Vec F S1024x1024 .f32) (x1 : Vec F S1024x1024 .f32) (x2 : Vec F S1x1024 .f32) (x3 : Vec F S1x1024 .f32) (x4 : Vec F S1x1024 .f32) : Vec F S1024x1024 .bf16 :=
  View.canon [⟨rA0, k0_pay3 (View.ld x0 rA0) (View.ld x1 rA0) (View.ld x2 rB0) (View.ld x3 rB0) (View.ld x4 rB0)⟩]

/-- Window 10's staging buffer after the body, from the blocks of windows 0 and 5–8: its one store, of the second
    branch's payload (the skeleton's `k0_pay1` of `k0_pay2` of the row tile). -/
def out0_10 (x0 : Vec F S1024x1024 .f32) (x5 : Vec F S512x1024 .f32) (x6 : Vec F S1x512 .f32) (x7 : Vec F S1x512 .f32) (x8 : Vec F S1x512 .f32) : Vec F S1024x512 .f32 :=
  View.canon [⟨rE0, k0_pay1 (k0_pay2 (View.ld x0 rA0)) (View.ld x5 rC0) (View.ld x6 rD0) (View.ld x7 rD0) (View.ld x8 rD0)⟩]

/-- The one store of window 9 covers its buffer (checked by evaluation). -/
theorem cover0_9 (p0 : Vec F S1024x1024 .bf16) (y : S1024x1024.Idx) :
    ∃ pc ∈ ([⟨rA0, p0⟩] : List (View.Piece (Elt F) S1024x1024 .bf16)), y ∈ pc.1.set :=
  View.cover_of_tiled [⟨rA0, p0⟩] S1024x1024.size (by rfl) y

/-- The one store of window 10 covers its buffer (checked by evaluation). -/
theorem cover0_10 (p0 : Vec F S1024x512 .f32) (y : S1024x512.Idx) :
    ∃ pc ∈ ([⟨rE0, p0⟩] : List (View.Piece (Elt F) S1024x512 .f32)), y ∈ pc.1.set :=
  View.cover_of_tiled [⟨rE0, p0⟩] S1024x512.size (by rfl) y

/-! ## The body's triple -/

set_option maxHeartbeats 4000000 in
/-- The kernel body on whole staging memrefs, the inputs' at read contents `xW` and the outputs' at anything, runs to the
    continuation holding the inputs' as they were and each output's at `out0_W` of the inputs'. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x512 .f32) (harg11 : arg11.IsWhole)
    (x0 : Vec F S1024x1024 .f32) (x1 : Vec F S1024x1024 .f32) (x2 : Vec F S1x1024 .f32) (x3 : Vec F S1x1024 .f32) (x4 : Vec F S1x1024 .f32) (x5 : Vec F S512x1024 .f32) (x6 : Vec F S1x512 .f32) (x7 : Vec F S1x512 .f32) (x8 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4) ∗ owns (c : Thread nD τ) arg11 fullShare (out0_10 x0 x5 x6 x7 x8)) -∗ K ⟨⟩))
      ⊢ wp frame (wpE (defs₀ (F := F)) Variants.none c none) E (cc0__fused_branch_kernel i arg1 harg1 arg2 harg2 arg3 harg3 arg4 harg4 arg5 harg5 arg6 harg6 arg7 harg7 arg8 harg8 arg9 harg9 arg10 harg10 arg11 harg11) K := by
  simp only [cc0__fused_branch_kernel_eq_skeleton]; unfold cc0__fused_branch_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t = out0_10 (iblk0 V c 0 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BranchFrame1K.lean ====
/- The frame pieces of region 1 of @main (custom_call 1, the fused branch kernel on a grid of 16 row tiles), at a
   parameter `V` — the TensorCore's buffer contents when the region is entered: each window's block at a point, what the
   body leaves in each output window's staging buffer as the skeleton's payloads of the input blocks, the body's triple,
   the pipeline's proof data and the body obligation at every point. Generic in the float instance.

   The body loads each output's staging buffer (the value is not used) before it stores it whole; the triple therefore
   takes each output's buffer at anything and leaves it at the stored payload, and the obligation needs nothing about
   what an output's buffer holds when the body is entered. -/
import proofs.«171265_j74741020885605_2_alg».proof.Proof.Gen.Kernel.Launch
import proofs.«171265_j74741020885605_2_alg».proof.Proof.Gen.Kernel.Skeleton
import proofs.«171265_j74741020885605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s (`hA`) and whose body leaves the block in place (`hafter`): unfetched, the block index has not
    moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s (`hA`) and whose body leaves the block in place (`hafter`): unfetched, the block index has not
    moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s (`hA`) and whose body leaves the block in place (`hafter`): unfetched, the block index has not
    moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s (`hA`) and whose body leaves the block in place (`hafter`): unfetched, the block index has not
    moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s (`hA`) and whose body leaves the block in place (`hafter`): unfetched, the block index has not
    moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s (`hA`) and whose body leaves the block in place (`hafter`): unfetched, the block index has not
    moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s (`hA`) and whose body leaves the block in place (`hafter`): unfetched, the block index has not
    moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s (`hA`) and whose body leaves the block in place (`hafter`): unfetched, the block index has not
    moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data
    whose array is `V`'s (`hA`) and whose body leaves the block in place (`hafter`): unfetched, the block index has not
    moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rA1 : Rect S1024x1024 := Rect.unit (s := S1024x1024) ![0, 0] S1024x1024.size inb_S1024x1024_S1024x1024_0_0
abbrev rB1 : Rect S1x1024 := Rect.unit (s := S1x1024) ![0, 0] S1x1024.size inb_S1x1024_S1x1024_0_0
abbrev rC1 : Rect S512x1024 := Rect.unit (s := S512x1024) ![0, 0] S512x1024.size inb_S512x1024_S512x1024_0_0
abbrev rD1 : Rect S1x512 := Rect.unit (s := S1x512) ![0, 0] S1x512.size inb_S1x512_S1x512_0_0
abbrev rE1 : Rect S1024x512 := Rect.unit (s := S1024x512) ![0, 0] S1024x512.size inb_S1024x512_S1024x512_0_0

/-! ## What the body leaves in each output window's buffer -/

/-- Window 9's staging buffer after the body, from the blocks of windows 0–4: its one store, of the first branch's
    payload (the skeleton's `k1_pay3`). -/
def out1_9 (x0 : Vec F S1024x1024 .f32) (x1 : Vec F S1024x1024 .f32) (x2 : Vec F S1x1024 .f32) (x3 : Vec F S1x1024 .f32) (x4 : Vec F S1x1024 .f32) : Vec F S1024x1024 .bf16 :=
  View.canon [⟨rA1, k1_pay3 (View.ld x0 rA1) (View.ld x1 rA1) (View.ld x2 rB1) (View.ld x3 rB1) (View.ld x4 rB1)⟩]

/-- Window 10's staging buffer after the body, from the blocks of windows 0 and 5–8: its one store, of the second
    branch's payload (the skeleton's `k1_pay1` of `k1_pay2` of the row tile). -/
def out1_10 (x0 : Vec F S1024x1024 .f32) (x5 : Vec F S512x1024 .f32) (x6 : Vec F S1x512 .f32) (x7 : Vec F S1x512 .f32) (x8 : Vec F S1x512 .f32) : Vec F S1024x512 .bf16 :=
  View.canon [⟨rE1, k1_pay1 (k1_pay2 (View.ld x0 rA1)) (View.ld x5 rC1) (View.ld x6 rD1) (View.ld x7 rD1) (View.ld x8 rD1)⟩]

/-- The one store of window 9 covers its buffer (checked by evaluation). -/
theorem cover1_9 (p0 : Vec F S1024x1024 .bf16) (y : S1024x1024.Idx) :
    ∃ pc ∈ ([⟨rA1, p0⟩] : List (View.Piece (Elt F) S1024x1024 .bf16)), y ∈ pc.1.set :=
  View.cover_of_tiled [⟨rA1, p0⟩] S1024x1024.size (by rfl) y

/-- The one store of window 10 covers its buffer (checked by evaluation). -/
theorem cover1_10 (p0 : Vec F S1024x512 .bf16) (y : S1024x512.Idx) :
    ∃ pc ∈ ([⟨rE1, p0⟩] : List (View.Piece (Elt F) S1024x512 .bf16)), y ∈ pc.1.set :=
  View.cover_of_tiled [⟨rE1, p0⟩] S1024x512.size (by rfl) y

/-! ## The body's triple -/

set_option maxHeartbeats 4000000 in
/-- The kernel body on whole staging memrefs, the inputs' at read contents `xW` and the outputs' at anything, runs to the
    continuation holding the inputs' as they were and each output's at `out1_W` of the inputs'. -/
theorem sound_kernel1 (c : Dev nD) (E : Set ℕ) (i : grid1.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x512 .bf16) (harg11 : arg11.IsWhole)
    (x0 : Vec F S1024x1024 .f32) (x1 : Vec F S1024x1024 .f32) (x2 : Vec F S1x1024 .f32) (x3 : Vec F S1x1024 .f32) (x4 : Vec F S1x1024 .f32) (x5 : Vec F S512x1024 .f32) (x6 : Vec F S1x512 .f32) (x7 : Vec F S1x512 .f32) (x8 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4) ∗ owns (c : Thread nD τ) arg11 fullShare (out1_10 x0 x5 x6 x7 x8)) -∗ K ⟨⟩))
      ⊢ wp frame (wpE (defs₀ (F := F)) Variants.none c none) E (cc1__fused_branch_kernel i arg1 harg1 arg2 harg2 arg3 harg3 arg4 harg4 arg5 harg5 arg6 harg6 arg7 harg7 arg8 harg8 arg9 harg9 arg10 harg10 arg11 harg11) K := by
  simp only [cc1__fused_branch_kernel_eq_skeleton]; unfold cc1__fused_branch_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover1_9 _)
  iexists _; isplitr
  swap; · iexact H10
  ipureintro
  exact View.read_writes_eq_canon _ _ _ (cover1_10 _)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) := by dsimp only [dat1]
theorem after1_10 (c : Dev nD) (t : Fin cfg1.N) : (dat1 V c).after 10 t = out1_10 (iblk1 V c 0 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.AssembleK.lean ====
/-
  The whole program as a run: three host stretches of reshapes, each followed by a kernel region. The buffers' contents
  at each boundary are a fold through the program — a host stretch applies its reshapes, a region replaces its arrays
  by what its pipeline leaves (an input array as entered, an output array with every block written back) and touches
  nothing else. Every weakly fair execution terminates with every unscoped buffer at the last boundary's contents;
  the argument arrays walk back through the fold to the launch memory, and the result buffer is the third region's
  output array.
-/
import proofs.«171265_j74741020885605_2_alg».proof.Proof.R2FrameK
import proofs.«171265_j74741020885605_2_alg».proof.Proof.BranchFrame0K
import proofs.«171265_j74741020885605_2_alg».proof.Proof.BranchFrame1K
import proofs.«171265_j74741020885605_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev Ve0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Ve0 m ρ) c).arrAt w cfg0.N
theorem W2_arr (c : Dev nD) (w : Fin cfg0.W) :
    W2 m ρ c (Proc.devRef .tc (Pipeline.arrRef spec0 w)) = (dat0 (Ve0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vx0 : (c : Dev nD) → (b : Ref sig .tc) → Buf (Elt F) ((c : Thread nD τ).loc b) := fun c b => W2 m ρ c b
theorem hF0 (c : Dev nD) (w : Fin cfg0.W) : (dat0 (Ve0 m ρ) c).arrAt w cfg0.N = Vx0 m ρ c (Pipeline.arrRef spec0 w) :=
  (W2_arr m ρ c w).symm
theorem hrest0 (c : Dev nD) : ∀ b, b ∉ Finset.univ.image (Pipeline.arrRef spec0) → Vx0 m ρ c b = Ve0 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev Ve1 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (Ve1 m ρ) c).arrAt w cfg1.N
theorem W4_arr (c : Dev nD) (w : Fin cfg1.W) :
    W4 m ρ c (Proc.devRef .tc (Pipeline.arrRef spec1 w)) = (dat1 (Ve1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vx1 : (c : Dev nD) → (b : Ref sig .tc) → Buf (Elt F) ((c : Thread nD τ).loc b) := fun c b => W4 m ρ c b
theorem hF1 (c : Dev nD) (w : Fin cfg1.W) : (dat1 (Ve1 m ρ) c).arrAt w cfg1.N = Vx1 m ρ c (Pipeline.arrRef spec1 w) :=
  (W4_arr m ρ c w).symm
theorem hrest1 (c : Dev nD) : ∀ b, b ∉ Finset.univ.image (Pipeline.arrRef spec1) → Vx1 m ρ c b = Ve1 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev Ve2 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (Ve2 m ρ) c).arrAt w cfg2.N
theorem W6_arr (c : Dev nD) (w : Fin cfg2.W) :
    W6 m ρ c (Proc.devRef .tc (Pipeline.arrRef spec2 w)) = (dat2 (Ve2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vx2 : (c : Dev nD) → (b : Ref sig .tc) → Buf (Elt F) ((c : Thread nD τ).loc b) := fun c b => W6 m ρ c b
theorem hF2 (c : Dev nD) (w : Fin cfg2.W) : (dat2 (Ve2 m ρ) c).arrAt w cfg2.N = Vx2 m ρ c (Pipeline.arrRef spec2 w) :=
  (W6_arr m ρ c w).symm
theorem hrest2 (c : Dev nD) : ∀ b, b ∉ Finset.univ.image (Pipeline.arrRef spec2) → Vx2 m ρ c b = Ve2 m ρ c b :=
  fun b hb => W6_of_ne m ρ c b fun w e => hb (Finset.mem_image.mpr ⟨w, Finset.mem_univ _, e⟩)

/-! ## The argument arrays end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 1).trans (((dat0 (Ve0 m ρ) c).arrAt_in 1 rfl _).trans (A_eq0 (Ve0 m ρ) c 1))
    _ = W0 m ρ c (Proc.devRef .tc main_arg2) := StableHlo.after_of_writes_sub hostOps0 _ hostOps0_writes (by decide : main_arg2 ∉ hostOps0_W)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := (W4_arr m ρ c 1).trans (((dat1 (Ve1 m ρ) c).arrAt_in 1 rfl _).trans (A_eq1 (Ve1 m ρ) c 1))
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide : main_arg10 ∉ hostOps2_W)
    _ = W3 m ρ c (Proc.devRef .tc main_arg10) := (W4_arr m ρ c 5).trans (((dat1 (Ve1 m ρ) c).arrAt_in 5 rfl _).trans (A_eq1 (Ve1 m ρ) c 5))
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide : main_arg11 ∉ hostOps2_W)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps2 _ hostOps2_writes (by decide : main_arg12 ∉ hostOps2_W)
    _ = W3 m ρ c (Proc.devRef .tc main_arg12) := W4_of_ne m ρ c main_arg12 (by decide)
    _ = W2 m ρ c (Proc.devRef .tc main_arg12) := StableHlo.after_of_writes_sub hostOps1 _ hostOps1_writes (by decide : main_arg12 ∉ hostOps1_W)
    _ = W1 m ρ c (Proc.devRef .tc main_arg12) := W2_of_ne m ρ c main_arg12 (by decide)
    _ = W0 m ρ c (Proc.devRef .tc main_arg12) := StableHlo.after_of_writes_sub hostOps0 _ hostOps0_writes (by decide : main_arg12 ∉ hostOps0_W)
    _ = m ((c : Thread nD τ).loc main_arg12) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps2 _ hostOps2_writes (by decide : main_arg13 ∉ hostOps2_W)
    _ = W3 m ρ c (Proc.devRef .tc main_arg13) := W4_of_ne m ρ c main_arg13 (by decide)
    _ = W2 m ρ c (Proc.devRef .tc main_arg13) := StableHlo.after_of_writes_sub hostOps1 _ hostOps1_writes (by decide : main_arg13 ∉ hostOps1_W)
    _ = W1 m ρ c (Proc.devRef .tc main_arg13) := W2_of_ne m ρ c main_arg13 (by decide)
    _ = W0 m ρ c (Proc.devRef .tc main_arg13) := StableHlo.after_of_writes_sub hostOps0 _ hostOps0_writes (by decide : main_arg13 ∉ hostOps0_W)
    _ = m ((c : Thread nD τ).loc main_arg13) := rfl

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps2 _ hostOps2_writes (by decide : main_arg14 ∉ hostOps2_W)
    _ = W3 m ρ c (Proc.devRef .tc main_arg14) := W4_of_ne m ρ c main_arg14 (by decide)
    _ = W2 m ρ c (Proc.devRef .tc main_arg14) := StableHlo.after_of_writes_sub hostOps1 _ hostOps1_writes (by decide : main_arg14 ∉ hostOps1_W)
    _ = W1 m ρ c (Proc.devRef .tc main_arg14) := (W2_arr m ρ c 5).trans (((dat0 (Ve0 m ρ) c).arrAt_in 5 rfl _).trans (A_eq0 (Ve0 m ρ) c 5))
    _ = W0 m ρ c (Proc.devRef .tc main_arg14) := StableHlo.after_of_writes_sub hostOps0 _ hostOps0_writes (by decide : main_arg14 ∉ hostOps0_W)
    _ = m ((c : Thread nD τ).loc main_arg14) := rfl

theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_writes_sub hostOps2 _ hostOps2_writes (by decide : main_arg15 ∉ hostOps2_W)
    _ = W3 m ρ c (Proc.devRef .tc main_arg15) := W4_of_ne m ρ c main_arg15 (by decide)
    _ = W2 m ρ c (Proc.devRef .tc main_arg15) := StableHlo.after_of_writes_sub hostOps1 _ hostOps1_writes (by decide : main_arg15 ∉ hostOps1_W)
    _ = W1 m ρ c (Proc.devRef .tc main_arg15) := W2_of_ne m ρ c main_arg15 (by decide)
    _ = W0 m ρ c (Proc.devRef .tc main_arg15) := StableHlo.after_of_writes_sub hostOps0 _ hostOps0_writes (by decide : main_arg15 ∉ hostOps0_W)
    _ = m ((c : Thread nD τ).loc main_arg15) := rfl

theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_writes_sub hostOps2 _ hostOps2_writes (by decide : main_arg16 ∉ hostOps2_W)
    _ = W3 m ρ c (Proc.devRef .tc main_arg16) := W4_of_ne m ρ c main_arg16 (by decide)
    _ = W2 m ρ c (Proc.devRef .tc main_arg16) := StableHlo.after_of_writes_sub hostOps1 _ hostOps1_writes (by decide : main_arg16 ∉ hostOps1_W)
    _ = W1 m ρ c (Proc.devRef .tc main_arg16) := W2_of_ne m ρ c main_arg16 (by decide)
    _ = W0 m ρ c (Proc.devRef .tc main_arg16) := StableHlo.after_of_writes_sub hostOps0 _ hostOps0_writes (by decide : main_arg16 ∉ hostOps0_W)
    _ = m ((c : Thread nD τ).loc main_arg16) := rfl

theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_writes_sub hostOps2 _ hostOps2_writes (by decide : main_arg17 ∉ hostOps2_W)
    _ = W3 m ρ c (Proc.devRef .tc main_arg17) := W4_of_ne m ρ c main_arg17 (by decide)
    _ = W2 m ρ c (Proc.devRef .tc main_arg17) := StableHlo.after_of_writes_sub hostOps1 _ hostOps1_writes (by decide : main_arg17 ∉ hostOps1_W)
    _ = W1 m ρ c (Proc.devRef .tc main_arg17) := W2_of_ne m ρ c main_arg17 (by decide)
    _ = W0 m ρ c (Proc.devRef .tc main_arg17) := StableHlo.after_of_writes_sub hostOps0 _ hostOps0_writes (by decide : main_arg17 ∉ hostOps0_W)
    _ = m ((c : Thread nD τ).loc main_arg17) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
  | ⟨2, _⟩ => fun c => dat2 (Ve2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: its arrays split out of the unscoped buffers and put back at the exit contents;
    the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (Vx0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents;
    the generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers and put back at the exit contents;
    the generator register into the invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ve2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (dat2 (Ve2 m ρ) c).Φ (Fin.last cfg2.N) ⊢ (iprop(Pipeline.scopedRest (Ix := Unit) (Name := ℕ) (U := UR sig nD τ) (Lvl := ℕ) (Val := Elt F) spec2 c ∗ ∃ r, prngReg c r) : sProp 𝕄) := by
      have h' := hout2 (Ve2 m ρ) c; unfold Pipeline.ΦA at h'; exact h'
    rw [show (pdats m ρ 2 c).Φ (Fin.last _) = (dat2 (Ve2 m ρ) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ve2 m ρ c) (Vx2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c),
    (h c _ (mem_uc main_arg13 (by decide))).trans (W6_main_arg13 m ρ c),
    (h c _ (mem_uc main_arg14 (by decide))).trans (W6_main_arg14 m ρ c),
    (h c _ (mem_uc main_arg15 (by decide))).trans (W6_main_arg15 m ρ c),
    (h c _ (mem_uc main_arg16 (by decide))).trans (W6_main_arg16 m ρ c),
    (h c _ (mem_uc main_arg17 (by decide))).trans (W6_main_arg17 m ρ c)⟩) (run_all m ρ)

/-- THE RESULT: the result buffer ends as the third region's output array with every block written back. -/
theorem result_eq_arrAt : θ_run defs (onTc (τ := τ) (main (F := F))) ⟨m, fun _ => 0, ρ⟩ (fun r => ∀ c : Dev nD,
      r.2.mem ((c.tc : Thread nD τ).loc main_v20) = (dat2 (Ve2 m ρ) c).arrAt 4 cfg2.N) :=
  (θ_run defs _ _).mono (fun r h c => (h c _ (mem_uc main_v20 (by decide))).trans (W6_arr m ρ c 4)) (run_all m ρ)

end Cert.Kernel.Hand

end
-- ==== Proof.R2Runs.lean ====
/-
  The attention region (the third pallas_call) of the program: what its case runs share.
  The grid is (batch b < 8) x (key tile j < 2); point t = 2 b + j. The body resets its three scratch buffers
  (running maximum, running mass, running weighted sum) when j = 0 and writes the output block when j = 1; between the
  two points of a batch the scratch carries the running triple. Stated here: the two branch conditions in closed form
  over the grid, where the output window is idle and where it is written back, the names of the staging and scratch
  memrefs, and the region's resting invariant split at the three scratch buffers.
-/
import proofs.«171265_j74741020885605_2_alg».proof.Proof.Gen.KernelIdeal.Launch
import proofs.«171265_j74741020885605_2_alg».proof.Proof.Gen.KernelIdeal.Skeleton
import proofs.«171265_j74741020885605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions -/

/-- "this is the first key tile of its batch": the reset branch's condition, from the grid coordinates. -/
abbrev cond2_0 (i : grid2.Coords) : Prop := (Scalar.cmpi .ne (Scalar.extui (Scalar.cmpi .eq (BitVec.ofNat 32 (i 1).val) 0#32)) 0#32) = 1#1
/-- It holds at the even points. -/
theorem hcond2_0 : ∀ t : Fin cfg2.N, cond2_0 (grid2.coords t) ↔ t.val % 2 = 0 :=
  (by decide +kernel : ∀ t : Fin grid2.N, cond2_0 (grid2.coords t) ↔ t.val % 2 = 0)

/-- "this is the last key tile of its batch": the finishing branch's condition. -/
abbrev cond2_1 (i : grid2.Coords) : Prop := k2_cond2 i = 1#1
/-- It holds at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- At a first key tile the output block is idle: nothing is stored into it, -/
theorem idleAt2_4_A : ∀ t : Fin cfg2.N, cond2_0 (grid2.coords t) → ¬cond2_1 (grid2.coords t) → cfg2.idle 4 (grid2.coords t) = true := by decide +kernel
/-- and it is not written back there. -/
theorem noFlush2_4_A : ∀ t : Fin cfg2.N, cond2_0 (grid2.coords t) → ¬cond2_1 (grid2.coords t) → (cfg2.win 4).flush t = false := by decide +kernel
/-- At a last key tile the output block is live. -/
theorem liveAt2_4_B : ∀ t : Fin cfg2.N, ¬cond2_0 (grid2.coords t) → cond2_1 (grid2.coords t) → cfg2.idle 4 (grid2.coords t) = false := by decide +kernel

/-! ## The memrefs the body is called on -/

/-- One staging buffer of the output window, through which its contents are stated. -/
abbrev VO2_4 : View sig .tc .vmem S1x2048x1024 .f32 := (Memref.whole cc2_stg4_0 : Memref sig .tc .vmem S1x2048x1024 .f32).view
abbrev ms2_0 (t : Fin cfg2.N) : Memref sig .tc .vmem S1x2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048x1024 .f32 := win2_4.stage (cfg2.slots t 4)
abbrev hs2_4 (t : Fin cfg2.N) : (ms2_4 t).IsWhole := hstage2_4 ((cfg2.slots t 4).cast nbuf2_4)
/-- The scratch operands: the running maximum, the running mass, the running weighted sum. -/
abbrev scM2_0 : Memref sig .tc .vmem S2048x1 .f32 := Memref.whole cc2_scratch0
abbrev scM2_1 : Memref sig .tc .vmem S2048x1 .f32 := Memref.whole cc2_scratch1
abbrev scM2_2 : Memref sig .tc .vmem S2048x512 .f32 := Memref.whole cc2_scratch2
abbrev VS2_0 : View sig .tc .vmem S2048x1 .f32 := scM2_0.view
abbrev VS2_1 : View sig .tc .vmem S2048x1 .f32 := scM2_1.view
abbrev VS2_2 : View sig .tc .vmem S2048x512 .f32 := scM2_2.view

/-- Every other scoped buffer of the program, unopened. -/
abbrev restBut2 (c : Dev nD) : sProp 𝕄 :=
  Pipeline.scopedRestBut (Ix := Unit) (Name := ℕ) (U := UR sig nD τ) (Lvl := ℕ) (Val := Elt F) spec2 c [cc2_scratch0, cc2_scratch1, cc2_scratch2]

/-- The region's resting invariant with the three scratch operands as memrefs owned at some contents. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ restBut2 (F := F) c) ∗ (∃ r, prngReg c r)) := by
  unfold Pipeline.ΦA; rw [scopedRest2_split]; simp only [scM2_0, scM2_1, scM2_2, owns_whole]; try rfl

end Cert.KernelIdeal.Hand

end
-- ==== Proof.R2RunA.lean ====
/-
  The attention body at a FIRST key tile (the reset branch taken, the finishing branch not): run on whole memrefs —
  the four inputs at their contents, the output block handed back untouched, the three scratch buffers at anything
  (the body overwrites each whole before it reads it) — it ends with each scratch buffer written by the pieces the
  run finds.
-/
import proofs.«171265_j74741020885605_2_alg».proof.Proof.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i)
    (x0 : Vec F S1x2048x1024 .bf16) (x1 : Vec F S1x1024x1024 .bf16) (x2 : Vec F S1x1024x512 .bf16) (x3 : Vec F S1x2048x512 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x512 .f32) //
      ∀ (xi4 : Vec F S1x2048x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨[], ?_, ?_, ?_, fun xi4 E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Hand

end
-- ==== Proof.R2RunB.lean ====
/-
  The attention body at a LAST key tile (the reset branch not taken, the finishing branch taken): run on whole
  memrefs — the four inputs at their contents, the output block at anything, the three scratch buffers at what the
  first key tile left in them — it ends with the output block and each scratch buffer written by the pieces the run
  finds.
-/
import proofs.«171265_j74741020885605_2_alg».proof.Proof.R2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i)
    (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) :
    Σ' (L4 : List (View.Piece (Elt F) S1x2048x1024 .f32)) (LS0 : List (View.Piece (Elt F) S2048x1 .f32)) (LS1 : List (View.Piece (Elt F) S2048x1 .f32)), { LS2 : List (View.Piece (Elt F) S2048x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc2__attn_kernel i arg2 harg2 arg3 harg3 arg4 harg4 arg5 harg5 arg6 harg6 arg7 harg7 arg8 harg8 arg9 harg9) K } := by
  refine ⟨?_, ?_, ?_, ?_, fun E K => ?run⟩
  case run =>
    simp only [cc2__attn_kernel_eq_skeleton]; unfold cc2__attn_kernel_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Hand

end
-- ==== Proof.R2Frame.lean ====
/-
  The attention region's frame data. After the body at point t = 2 b + j the scratch holds the running triple
  (maximum, mass, weighted sum) of batch b over key tiles 0..j; at j = 1 the output block holds, in columns 0..511,
  the pass-through block and, in columns 512..1023, the weighted sum divided by the mass. What each case leaves is
  read back from the pieces its run found; the accumulation over the grid is by recursion on the point, an odd point
  taking the scratch triple the even point before it left.
-/
import proofs.«171265_j74741020885605_2_alg».proof.Proof.R2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At a first key tile the pieces written into scratch 0 tile it. -/
theorem scover2_A_0 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) (y : S2048x1.Idx) :
    ∃ pc ∈ (kernelRun2_A c i arg2 harg2 arg3 harg3 arg4 harg4 arg5 harg5 arg6 harg6 arg7 harg7 arg8 harg8 arg9 harg9 hc0 hc1 x0 x1 x2 x3).2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.1 S2048x1.size (by sl_kernel_rfl) y
/-- What a first key tile leaves in scratch 0. -/
def sout2_A_0 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) : Vec F S2048x1 .f32 :=
  VS2_0.read (Elt F) (VS2_0.writes (Elt F) VS2_0.junk (kernelRun2_A c i arg2 harg2 arg3 harg3 arg4 harg4 arg5 harg5 arg6 harg6 arg7 harg7 arg8 harg8 arg9 harg9 hc0 hc1 x0 x1 x2 x3).2.1)
/-- At a last key tile the pieces written into scratch 0 tile it. -/
theorem scover2_B_0 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) (y : S2048x1.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.1 S2048x1.size (by sl_kernel_rfl) y
/-- What a last key tile leaves in scratch 0. -/
def sout2_B_0 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) : Vec F S2048x1 .f32 :=
  VS2_0.read (Elt F) (VS2_0.writes (Elt F) VS2_0.junk (kernelRun2_B c i arg2 harg2 arg3 harg3 arg4 harg4 arg5 harg5 arg6 harg6 arg7 harg7 arg8 harg8 arg9 harg9 hc0 hc1 x0 x1 x2 x3 xs0 xs1 xs2).2.1)

/-- At a first key tile the pieces written into scratch 1 tile it. -/
theorem scover2_A_1 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) (y : S2048x1.Idx) :
    ∃ pc ∈ (kernelRun2_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.2.1 S2048x1.size (by sl_kernel_rfl) y
/-- What a first key tile leaves in scratch 1. -/
def sout2_A_1 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) : Vec F S2048x1 .f32 :=
  VS2_1.read (Elt F) (VS2_1.writes (Elt F) VS2_1.junk (kernelRun2_A c i arg2 harg2 arg3 harg3 arg4 harg4 arg5 harg5 arg6 harg6 arg7 harg7 arg8 harg8 arg9 harg9 hc0 hc1 x0 x1 x2 x3).2.2.1)
/-- At a last key tile the pieces written into scratch 1 tile it. -/
theorem scover2_B_1 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) (y : S2048x1.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.2.1 S2048x1.size (by sl_kernel_rfl) y
/-- What a last key tile leaves in scratch 1. -/
def sout2_B_1 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) : Vec F S2048x1 .f32 :=
  VS2_1.read (Elt F) (VS2_1.writes (Elt F) VS2_1.junk (kernelRun2_B c i arg2 harg2 arg3 harg3 arg4 harg4 arg5 harg5 arg6 harg6 arg7 harg7 arg8 harg8 arg9 harg9 hc0 hc1 x0 x1 x2 x3 xs0 xs1 xs2).2.2.1)

/-- At a first key tile the pieces written into scratch 2 tile it. -/
theorem scover2_A_2 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) (y : S2048x512.Idx) :
    ∃ pc ∈ (kernelRun2_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun2_A c i arg2 harg2 arg3 harg3 arg4 harg4 arg5 harg5 arg6 harg6 arg7 harg7 arg8 harg8 arg9 harg9 hc0 hc1 x0 x1 x2 x3).2.2.2.1 S2048x512.size (by sl_kernel_rfl) y
/-- What a first key tile leaves in scratch 2. -/
def sout2_A_2 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) : Vec F S2048x512 .f32 :=
  VS2_2.read (Elt F) (VS2_2.writes (Elt F) VS2_2.junk (kernelRun2_A c i arg2 harg2 arg3 harg3 arg4 harg4 arg5 harg5 arg6 harg6 arg7 harg7 arg8 harg8 arg9 harg9 hc0 hc1 x0 x1 x2 x3).2.2.2.1)
/-- At a last key tile the pieces written into scratch 2 tile it. -/
theorem scover2_B_2 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) (y : S2048x512.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).2.2.2.1 S2048x512.size (by sl_kernel_rfl) y
/-- What a last key tile leaves in scratch 2. -/
def sout2_B_2 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) : Vec F S2048x512 .f32 :=
  VS2_2.read (Elt F) (VS2_2.writes (Elt F) VS2_2.junk (kernelRun2_B c i arg2 harg2 arg3 harg3 arg4 harg4 arg5 harg5 arg6 harg6 arg7 harg7 arg8 harg8 arg9 harg9 hc0 hc1 x0 x1 x2 x3 xs0 xs1 xs2).2.2.2.1)

/-- A first key tile stores nothing into the output block: a placeholder nothing consults. -/
def out2_A_4 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) : Vec F S1x2048x1024 .f32 :=
  VO2_4.read (Elt F) (VO2_4.writes (Elt F) VO2_4.junk (kernelRun2_A c i arg2 harg2 arg3 harg3 arg4 harg4 arg5 harg5 arg6 harg6 arg7 harg7 arg8 harg8 arg9 harg9 hc0 hc1 x0 x1 x2 x3).1)
/-- At a last key tile the two half-width stores tile the output block. -/
theorem cover2_B_4 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) (y : S1x2048x1024.Idx) :
    ∃ pc ∈ (kernelRun2_B c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun2_B c i arg2 harg2 arg3 harg3 arg4 harg4 arg5 harg5 arg6 harg6 arg7 harg7 arg8 harg8 arg9 harg9 hc0 hc1 x0 x1 x2 x3 xs0 xs1 xs2).1 S1x2048x512.size (by sl_kernel_rfl) y
/-- What a last key tile leaves in the output block. -/
def out2_B_4 (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) : Vec F S1x2048x1024 .f32 :=
  VO2_4.read (Elt F) (VO2_4.writes (Elt F) VO2_4.junk (kernelRun2_B c i arg2 harg2 arg3 harg3 arg4 harg4 arg5 harg5 arg6 harg6 arg7 harg7 arg8 harg8 arg9 harg9 hc0 hc1 x0 x1 x2 x3 xs0 xs1 xs2).1)

/-! ## Point by point -/

/-- What a first key tile leaves at point `t`: (output placeholder, maximum, mass, weighted sum). -/
def outsA2 (c : Dev nD) (t : Fin cfg2.N) (h : t.val % 2 = 0) : Vec F S1x2048x1024 .f32 × Vec F S2048x1 .f32 × Vec F S2048x1 .f32 × Vec F S2048x512 .f32 :=
  (out2_A_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h) (fun hh => by have := (hcond2_1 t).mp hh; omega) (iblk2 V c 0 t) (iblk2 V c 1 t) (iblk2 V c 2 t) (iblk2 V c 3 t),
   sout2_A_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h) (fun hh => by have := (hcond2_1 t).mp hh; omega) (iblk2 V c 0 t) (iblk2 V c 1 t) (iblk2 V c 2 t) (iblk2 V c 3 t),
   sout2_A_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h) (fun hh => by have := (hcond2_1 t).mp hh; omega) (iblk2 V c 0 t) (iblk2 V c 1 t) (iblk2 V c 2 t) (iblk2 V c 3 t),
   sout2_A_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h) (fun hh => by have := (hcond2_1 t).mp hh; omega) (iblk2 V c 0 t) (iblk2 V c 1 t) (iblk2 V c 2 t) (iblk2 V c 3 t))
/-- What a last key tile leaves at point `t`, from the scratch triple it found. -/
def outsB2 (c : Dev nD) (t : Fin cfg2.N) (h : t.val % 2 = 1) (xs0 : Vec F S2048x1 .f32) (xs1 : Vec F S2048x1 .f32) (xs2 : Vec F S2048x512 .f32) : Vec F S1x2048x1024 .f32 × Vec F S2048x1 .f32 × Vec F S2048x1 .f32 × Vec F S2048x512 .f32 :=
  (out2_B_4 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun hh => by have := (hcond2_0 t).mp hh; omega) ((hcond2_1 t).mpr h) (iblk2 V c 0 t) (iblk2 V c 1 t) (iblk2 V c 2 t) (iblk2 V c 3 t) xs0 xs1 xs2,
   sout2_B_0 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun hh => by have := (hcond2_0 t).mp hh; omega) ((hcond2_1 t).mpr h) (iblk2 V c 0 t) (iblk2 V c 1 t) (iblk2 V c 2 t) (iblk2 V c 3 t) xs0 xs1 xs2,
   sout2_B_1 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun hh => by have := (hcond2_0 t).mp hh; omega) ((hcond2_1 t).mpr h) (iblk2 V c 0 t) (iblk2 V c 1 t) (iblk2 V c 2 t) (iblk2 V c 3 t) xs0 xs1 xs2,
   sout2_B_2 c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun hh => by have := (hcond2_0 t).mp hh; omega) ((hcond2_1 t).mpr h) (iblk2 V c 0 t) (iblk2 V c 1 t) (iblk2 V c 2 t) (iblk2 V c 3 t) xs0 xs1 xs2)

/-- THE ACCUMULATION over the grid: an even point is a first key tile; an odd point a last one, taking the scratch
    triple the point before left. -/
def outsAt2 (c : Dev nD) : (n : ℕ) → n < cfg2.N → Vec F S1x2048x1024 .f32 × Vec F S2048x1 .f32 × Vec F S2048x1 .f32 × Vec F S2048x512 .f32
  | 0, hn => outsA2 V c ⟨0, hn⟩ (Nat.zero_mod _)
  | n + 1, hn =>
    if h : (n + 1) % 2 = 0 then outsA2 V c ⟨n + 1, hn⟩ h
    else outsB2 V c ⟨n + 1, hn⟩ (show (n + 1) % 2 = 1 by omega)
      (outsAt2 c n (Nat.lt_of_succ_lt hn)).2.1 (outsAt2 c n (Nat.lt_of_succ_lt hn)).2.2.1 (outsAt2 c n (Nat.lt_of_succ_lt hn)).2.2.2

theorem outsAt2_A (c : Dev nD) (t : Fin cfg2.N) (h : t.val % 2 = 0) : outsAt2 V c t.val t.isLt = outsA2 V c t h := by
  obtain ⟨n, hn⟩ := t
  cases n with
  | zero => rfl
  | succ n => exact dif_pos h

theorem outsAt2_B (c : Dev nD) (t : Fin cfg2.N) (h : t.val % 2 = 1) :
    outsAt2 V c t.val t.isLt = outsB2 V c t h
      (outsAt2 V c (t.val - 1) (Nat.lt_of_le_of_lt (Nat.sub_le _ _) t.isLt)).2.1
      (outsAt2 V c (t.val - 1) (Nat.lt_of_le_of_lt (Nat.sub_le _ _) t.isLt)).2.2.1
      (outsAt2 V c (t.val - 1) (Nat.lt_of_le_of_lt (Nat.sub_le _ _) t.isLt)).2.2.2 := by
  obtain ⟨n, hn⟩ := t
  cases n with
  | zero => exact (by exfalso; (try dsimp only at h); omega)
  | succ n => exact dif_neg (show ¬(n + 1) % 2 = 0 by have : (n + 1) % 2 = 1 := h; omega)

/-! ## The invariant -/

/-- Before the first point the region's resting invariant; afterwards the three scratch buffers at what the point
    before left, every other scoped buffer unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2.1) ∗ owns (c : Thread nD τ) scM2_2 fullShare ((outsAt2 V c n hn).2.2.2)) ∗ restBut2 (F := F) c) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2.1) ∗ owns (c : Thread nD τ) scM2_2 fullShare ((outsAt2 V c (n - 1) (by omega)).2.2.2)) ∗ restBut2 (F := F) c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val % 2 = 0
  · rw [Dat.leavesExact_idle (dat2 V c) 4 t (idleAt2_4_A t ((hcond2_0 t).mpr h0) (fun hh => by have := (hcond2_1 t).mp hh; omega)) (noFlush2_4_A t ((hcond2_0 t).mpr h0) (fun hh => by have := (hcond2_1 t).mp hh; omega))]
    rw [outsAt2_A V c t h0]
    unfold outsA2 sout2_A_0 sout2_A_1 sout2_A_2; (try dsimp only)
    by_cases hz : t.val = 0
    · rw [PhiS2_castSucc V c t, PhiS2_zero V c _ _ hz, PhiA2_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun hh => by have := (hcond2_1 t).mp hh; omega) (iblk2 V c 0 t) (iblk2 V c 1 t) (iblk2 V c 2 t) (iblk2 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
    · rw [PhiS2_castSucc V c t, PhiS2_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((kernelRun2_A c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) ((hcond2_0 t).mpr h0) (fun hh => by have := (hcond2_1 t).mp hh; omega) (iblk2 V c 0 t) (iblk2 V c 1 t) (iblk2 V c 2 t) (iblk2 V c 3 t)).2.2.2.2 _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover2_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover2_A_1 c _ _ _ _ _ _ _ _ _ _ _ _ _ _ _ _ _ _ _ _ _ _ _)
            unfold owns; iexists _; isplitr
            swap; · iexact HS2
            ipureintro; exact View.read_writes_of_cover _ _ _ _ _ (scover2_A_2 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4
  · have h1 : t.val % 2 = 1 := by omega
    have hz : t.val ≠ 0 := by omega
    rw [show (dat2 V c).leavesExact 4 t = owns (c : Thread nD τ) (ms2_4 t) fullShare ((dat2 V c).after 4 t) from by
      unfold Dat.leavesExact; rw [liveAt2_4_B t (fun hh => by have := (hcond2_0 t).mp hh; omega) ((hcond2_1 t).mpr h1)], after2_4]
    rw [outsAt2_B V c t h1]
    unfold outsB2 out2_B_4 sout2_B_0 sout2_B_1 sout2_B_2; (try dsimp only)
    rw [PhiS2_castSucc V c t, PhiS2_pos V c _ _ hz]
    iintro ⟨⟨⟨⟨HS0, HS1, HS2⟩, Hrest⟩, Hg⟩, Ho, ⟨%d0, H0⟩, ⟨%d1, H1⟩, ⟨%d2, H2⟩, ⟨%d3, H3⟩, ⟨%d4, H4⟩⟩
    iapply ((kernelRun2_B c (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _) scM2_2 (Memref.isWhole_whole _) (fun hh => by have := (hcond2_0 t).mp hh; omega) ((hcond2_1 t).mpr h1) (iblk2 V c 0 t) (iblk2 V c 1 t) (iblk2 V c 2 t) (iblk2 V c 3 t) _ _ _).2.2.2.2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iintro ⟨H0, H1, H2, H3, ⟨%e4, H4⟩, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scover2_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover2_B_1 c _ _ _ _ _ _ _ _ _ _ _ _ _ _ _ _ _ _ _ _ _ _ _ _ _ _)
          unfold owns; iexists _; isplitr
          swap; · iexact HS2
          ipureintro; exact View.read_writes_of_cover _ _ _ _ _ (scover2_B_2 c _ _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover2_B_4 c _ _ _ _ _ _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the resting one back: the scratch contents are forgotten. -/
theorem hout2 (c : Dev nD) : (dat2 V c).Φ (Fin.last cfg2.N) ⊢ Pipeline.ΦA spec2 c := by
  have hne : (Fin.last cfg2.N).val ≠ 0 := by rw [Fin.val_last]; have : cfg2.N = 16 := N_2; omega
  rw [show (dat2 V c).Φ (Fin.last cfg2.N) = PhiS2 V c (Fin.last cfg2.N).val (Nat.le_of_lt_succ (Fin.last cfg2.N).isLt) from rfl, PhiS2_pos V c _ _ hne, PhiA2_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.KernelIdeal.Hand

end
-- ==== Proof.BranchFrame0.lean ====
/- The frame pieces of region 0 of @main (custom_call 0, the fused branch kernel on a grid of 16 row tiles), at a
   parameter `V` — the TensorCore's buffer contents when the region is entered: each window's block at a point, what the
   body leaves in each output window's staging buffer as the skeleton's payloads of the input blocks, the body's triple,
   the pipeline's proof data and the body obligation at every point. Generic in the float instance.

   The body loads each output's staging buffer (the value is not used) before it stores it whole; the triple therefore
   takes each output's buffer at anything and leaves it at the stored payload, and the obligation needs nothing about
   what an output's buffer holds when the body is entered. -/
import proofs.«171265_j74741020885605_2_alg».proof.Proof.Gen.KernelIdeal.Launch
import proofs.«171265_j74741020885605_2_alg».proof.Proof.Gen.KernelIdeal.Skeleton
import proofs.«171265_j74741020885605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is `V`'s (`hA`) and whose body leaves the block in place (`hafter`): unfetched, the block index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is `V`'s (`hA`) and whose body leaves the block in place (`hafter`): unfetched, the block index has not
    moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is `V`'s (`hA`) and whose body leaves the block in place (`hafter`): unfetched, the block index has not
    moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is `V`'s (`hA`) and whose body leaves the block in place (`hafter`): unfetched, the block index has not
    moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is `V`'s (`hA`) and whose body leaves the block in place (`hafter`): unfetched, the block index has not
    moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is `V`'s (`hA`) and whose body leaves the block in place (`hafter`): unfetched, the block index has not
    moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is `V`'s (`hA`) and whose body leaves the block in place (`hafter`): unfetched, the block index has not
    moved; the window is uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not, for any proof data
    whose array is `V`'s (`hA`) and whose body leaves the block in place (`hafter`): unfetched, the block index has not
    moved; the window is uncut and never idle. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not, for any proof data
    whose array is `V`'s (`hA`) and whose body leaves the block in place (`hafter`): unfetched, the block index has not
    moved; the window is uncut and never idle. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rA0 : Rect S1024x1024 := Rect.unit (s := S1024x1024) ![0, 0] S1024x1024.size inb_S1024x1024_S1024x1024_0_0
abbrev rB0 : Rect S1x1024 := Rect.unit (s := S1x1024) ![0, 0] S1x1024.size inb_S1x1024_S1x1024_0_0
abbrev rC0 : Rect S512x1024 := Rect.unit (s := S512x1024) ![0, 0] S512x1024.size inb_S512x1024_S512x1024_0_0
abbrev rD0 : Rect S1x512 := Rect.unit (s := S1x512) ![0, 0] S1x512.size inb_S1x512_S1x512_0_0
abbrev rE0 : Rect S1024x512 := Rect.unit (s := S1024x512) ![0, 0] S1024x512.size inb_S1024x512_S1024x512_0_0

/-! ## What the body leaves in each output window's buffer -/

/-- Window 9's staging buffer after the body, from the blocks of windows 0–4: its one store, of the first branch's
    payload (the skeleton's `k0_pay3`). -/
def out0_9 (x0 : Vec F S1024x1024 .f32) (x1 : Vec F S1024x1024 .f32) (x2 : Vec F S1x1024 .f32) (x3 : Vec F S1x1024 .f32) (x4 : Vec F S1x1024 .f32) : Vec F S1024x1024 .bf16 :=
  View.canon [⟨rA0, k0_pay3 (View.ld x0 rA0) (View.ld x1 rA0) (View.ld x2 rB0) (View.ld x3 rB0) (View.ld x4 rB0)⟩]

/-- Window 10's staging buffer after the body, from the blocks of windows 0 and 5–8: its one store, of the second
    branch's payload (the skeleton's `k0_pay1` of `k0_pay2` of the row tile). -/
def out0_10 (x0 : Vec F S1024x1024 .f32) (x5 : Vec F S512x1024 .f32) (x6 : Vec F S1x512 .f32) (x7 : Vec F S1x512 .f32) (x8 : Vec F S1x512 .f32) : Vec F S1024x512 .f32 :=
  View.canon [⟨rE0, k0_pay1 (k0_pay2 (View.ld x0 rA0)) (View.ld x5 rC0) (View.ld x6 rD0) (View.ld x7 rD0) (View.ld x8 rD0)⟩]

/-- The one store of window 9 covers its buffer (checked by evaluation). -/
theorem cover0_9 (p0 : Vec F S1024x1024 .bf16) (y : S1024x1024.Idx) :
    ∃ pc ∈ ([⟨rA0, p0⟩] : List (View.Piece (Elt F) S1024x1024 .bf16)), y ∈ pc.1.set :=
  View.cover_of_tiled [⟨rA0, p0⟩] S1024x1024.size (by rfl) y

/-- The one store of window 10 covers its buffer (checked by evaluation). -/
theorem cover0_10 (p0 : Vec F S1024x512 .f32) (y : S1024x512.Idx) :
    ∃ pc ∈ ([⟨rE0, p0⟩] : List (View.Piece (Elt F) S1024x512 .f32)), y ∈ pc.1.set :=
  View.cover_of_tiled [⟨rE0, p0⟩] S1024x512.size (by rfl) y

/-! ## The body's triple -/

set_option maxHeartbeats 4000000 in
/-- The kernel body on whole staging memrefs, the inputs' at read contents `xW` and the outputs' at anything, runs to the
    continuation holding the inputs' as they were and each output's at `out0_W` of the inputs'. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x512 .f32) (harg11 : arg11.IsWhole)
    (x0 : Vec F S1024x1024 .f32) (x1 : Vec F S1024x1024 .f32) (x2 : Vec F S1x1024 .f32) (x3 : Vec F S1x1024 .f32) (x4 : Vec F S1x1024 .f32) (x5 : Vec F S512x1024 .f32) (x6 : Vec F S1x512 .f32) (x7 : Vec F S1x512 .f32) (x8 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4) ∗ owns (c : Thread nD τ) arg11 fullShare (out0_10 x0 x5 x6 x7 x8)) -∗ K ⟨⟩))
      ⊢ wp frame (wpE (defs₀ (F := F)) Variants.none c none) E (cc0__fused_branch_kernel i arg1 harg1 arg2 harg2 arg3 harg3 arg4 harg4 arg5 harg5 arg6 harg6 arg7 harg7 arg8 harg8 arg9 harg9 arg10 harg10 arg11 harg11) K := by
  simp only [cc0__fused_branch_kernel_eq_skeleton]; unfold cc0__fused_branch_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

/-! ## The pipeline's proof data -/

/-- The proof data of pipeline 0 on core `c`: the arrays as the region finds them (`V`); after the body at point `t`
    each input's buffer at its block and each output's at `out0_W` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t = out0_10 (iblk0 V c 0 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 1000000 in
/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.BranchFrame1.lean ====
/- The frame pieces of region 1 of @main (custom_call 1, the fused branch kernel on a grid of 16 row tiles), at a
   parameter `V` — the TensorCore's buffer contents when the region is entered: each window's block at a point, what the
   body leaves in each output window's staging buffer as the skeleton's payloads of the input blocks, the body's triple,
   the pipeline's proof data and the body obligation at every point. Generic in the float instance.

   The body loads each output's staging buffer (the value is not used) before it stores it whole; the triple therefore
   takes each output's buffer at anything and leaves it at the stored payload, and the obligation needs nothing about
   what an output's buffer holds when the body is entered. -/
import proofs.«171265_j74741020885605_2_alg».proof.Proof.Gen.KernelIdeal.Launch
import proofs.«171265_j74741020885605_2_alg».proof.Proof.Gen.KernelIdeal.Skeleton
import proofs.«171265_j74741020885605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s (`hA`) and whose body leaves the block in place (`hafter`): unfetched, the block index has not
    moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s (`hA`) and whose body leaves the block in place (`hafter`): unfetched, the block index has not
    moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s (`hA`) and whose body leaves the block in place (`hafter`): unfetched, the block index has not
    moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s (`hA`) and whose body leaves the block in place (`hafter`): unfetched, the block index has not
    moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s (`hA`) and whose body leaves the block in place (`hafter`): unfetched, the block index has not
    moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is `V`'s (`hA`) and whose body leaves the block in place (`hafter`): unfetched, the block index has not
    moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is `V`'s (`hA`) and whose body leaves the block in place (`hafter`): unfetched, the block index has not
    moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof data
    whose array is `V`'s (`hA`) and whose body leaves the block in place (`hafter`): unfetched, the block index has not
    moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not, for any proof data
    whose array is `V`'s (`hA`) and whose body leaves the block in place (`hafter`): unfetched, the block index has not
    moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and store is of a whole buffer -/

abbrev rA1 : Rect S1024x1024 := Rect.unit (s := S1024x1024) ![0, 0] S1024x1024.size inb_S1024x1024_S1024x1024_0_0
abbrev rB1 : Rect S1x1024 := Rect.unit (s := S1x1024) ![0, 0] S1x1024.size inb_S1x1024_S1x1024_0_0
abbrev rC1 : Rect S512x1024 := Rect.unit (s := S512x1024) ![0, 0] S512x1024.size inb_S512x1024_S512x1024_0_0
abbrev rD1 : Rect S1x512 := Rect.unit (s := S1x512) ![0, 0] S1x512.size inb_S1x512_S1x512_0_0
abbrev rE1 : Rect S1024x512 := Rect.unit (s := S1024x512) ![0, 0] S1024x512.size inb_S1024x512_S1024x512_0_0

/-! ## What the body leaves in each output window's buffer -/

/-- Window 9's staging buffer after the body, from the blocks of windows 0–4: its one store, of the first branch's
    payload (the skeleton's `k1_pay3`). -/
def out1_9 (x0 : Vec F S1024x1024 .f32) (x1 : Vec F S1024x1024 .f32) (x2 : Vec F S1x1024 .f32) (x3 : Vec F S1x1024 .f32) (x4 : Vec F S1x1024 .f32) : Vec F S1024x1024 .bf16 :=
  View.canon [⟨rA1, k1_pay3 (View.ld x0 rA1) (View.ld x1 rA1) (View.ld x2 rB1) (View.ld x3 rB1) (View.ld x4 rB1)⟩]

/-- Window 10's staging buffer after the body, from the blocks of windows 0 and 5–8: its one store, of the second
    branch's payload (the skeleton's `k1_pay1` of `k1_pay2` of the row tile). -/
def out1_10 (x0 : Vec F S1024x1024 .f32) (x5 : Vec F S512x1024 .f32) (x6 : Vec F S1x512 .f32) (x7 : Vec F S1x512 .f32) (x8 : Vec F S1x512 .f32) : Vec F S1024x512 .bf16 :=
  View.canon [⟨rE1, k1_pay1 (k1_pay2 (View.ld x0 rA1)) (View.ld x5 rC1) (View.ld x6 rD1) (View.ld x7 rD1) (View.ld x8 rD1)⟩]

/-- The one store of window 9 covers its buffer (checked by evaluation). -/
theorem cover1_9 (p0 : Vec F S1024x1024 .bf16) (y : S1024x1024.Idx) :
    ∃ pc ∈ ([⟨rA1, p0⟩] : List (View.Piece (Elt F) S1024x1024 .bf16)), y ∈ pc.1.set :=
  View.cover_of_tiled [⟨rA1, p0⟩] S1024x1024.size (by rfl) y

/-- The one store of window 10 covers its buffer (checked by evaluation). -/
theorem cover1_10 (p0 : Vec F S1024x512 .bf16) (y : S1024x512.Idx) :
    ∃ pc ∈ ([⟨rE1, p0⟩] : List (View.Piece (Elt F) S1024x512 .bf16)), y ∈ pc.1.set :=
  View.cover_of_tiled [⟨rE1, p0⟩] S1024x512.size (by rfl) y

/-! ## The body's triple -/

set_option maxHeartbeats 4000000 in
/-- The kernel body on whole staging memrefs, the inputs' at read contents `xW` and the outputs' at anything, runs to the
    continuation holding the inputs' as they were and each output's at `out1_W` of the inputs'. -/
theorem sound_kernel1 (c : Dev nD) (E : Set ℕ) (i : grid1.Coords) (arg1 : Memref sig .tc .vmem S1024x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x1024 .bf16) (harg10 : arg10.IsWhole) (arg11 : Memref sig .tc .vmem S1024x512 .bf16) (harg11 : arg11.IsWhole)
    (x0 : Vec F S1024x1024 .f32) (x1 : Vec F S1024x1024 .f32) (x2 : Vec F S1x1024 .f32) (x3 : Vec F S1x1024 .f32) (x4 : Vec F S1x1024 .f32) (x5 : Vec F S512x1024 .f32) (x6 : Vec F S1x512 .f32) (x7 : Vec F S1x512 .f32) (x8 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4) ∗ owns (c : Thread nD τ) arg11 fullShare (out1_10 x0 x5 x6 x7 x8)) -∗ K ⟨⟩))
      ⊢ wp frame (wpE (defs₀ (F := F)) Variants.none c none) E (cc1__fused_branch_kernel i arg1 harg1 arg2 harg2 arg3 harg3 arg4 harg4 arg5 harg5 arg6 harg6 arg7 harg7 arg8 harg8 arg9 harg9 arg10 harg10 arg11 harg11) K := by
  simp only [cc1__fused_branch_kernel_eq_skeleton]; unfold cc1__fused_branch_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover1_9 _)
  iexists _; isplitr
  swap; · iexact H10
  ipureintro
  exact View.read_writes_eq_canon _ _ _ (cover1_10 _)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t)
    | ⟨10, _⟩ => out1_10 (iblk1 V c 0 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) := by dsimp only [dat1]
theorem after1_10 (c : Dev nD) (t : Fin cfg1.N) : (dat1 V c).after 10 t = out1_10 (iblk1 V c 0 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Assemble.lean ====
/-
  The whole program as a run: three host stretches of reshapes, each followed by a kernel region. The buffers' contents
  at each boundary are a fold through the program — a host stretch applies its reshapes, a region replaces its arrays
  by what its pipeline leaves (an input array as entered, an output array with every block written back) and touches
  nothing else. Every weakly fair execution terminates with every unscoped buffer at the last boundary's contents;
  the argument arrays walk back through the fold to the launch memory, and the result buffer is the third region's
  output array.
-/
import proofs.«171265_j74741020885605_2_alg».proof.Proof.R2Frame
import proofs.«171265_j74741020885605_2_alg».proof.Proof.BranchFrame0
import proofs.«171265_j74741020885605_2_alg».proof.Proof.BranchFrame1
import proofs.«171265_j74741020885605_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev Ve0 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (Ve0 m ρ) c).arrAt w cfg0.N
theorem W2_arr (c : Dev nD) (w : Fin cfg0.W) :
    W2 m ρ c (Proc.devRef .tc (Pipeline.arrRef spec0 w)) = (dat0 (Ve0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vx0 : (c : Dev nD) → (b : Ref sig .tc) → Buf (Elt F) ((c : Thread nD τ).loc b) := fun c b => W2 m ρ c b
theorem hF0 (c : Dev nD) (w : Fin cfg0.W) : (dat0 (Ve0 m ρ) c).arrAt w cfg0.N = Vx0 m ρ c (Pipeline.arrRef spec0 w) :=
  (W2_arr m ρ c w).symm
theorem hrest0 (c : Dev nD) : ∀ b, b ∉ Finset.univ.image (Pipeline.arrRef spec0) → Vx0 m ρ c b = Ve0 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev Ve1 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (Ve1 m ρ) c).arrAt w cfg1.N
theorem W4_arr (c : Dev nD) (w : Fin cfg1.W) :
    W4 m ρ c (Proc.devRef .tc (Pipeline.arrRef spec1 w)) = (dat1 (Ve1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vx1 : (c : Dev nD) → (b : Ref sig .tc) → Buf (Elt F) ((c : Thread nD τ).loc b) := fun c b => W4 m ρ c b
theorem hF1 (c : Dev nD) (w : Fin cfg1.W) : (dat1 (Ve1 m ρ) c).arrAt w cfg1.N = Vx1 m ρ c (Pipeline.arrRef spec1 w) :=
  (W4_arr m ρ c w).symm
theorem hrest1 (c : Dev nD) : ∀ b, b ∉ Finset.univ.image (Pipeline.arrRef spec1) → Vx1 m ρ c b = Ve1 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev Ve2 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (Ve2 m ρ) c).arrAt w cfg2.N
theorem W6_arr (c : Dev nD) (w : Fin cfg2.W) :
    W6 m ρ c (Proc.devRef .tc (Pipeline.arrRef spec2 w)) = (dat2 (Ve2 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev Vx2 : (c : Dev nD) → (b : Ref sig .tc) → Buf (Elt F) ((c : Thread nD τ).loc b) := fun c b => W6 m ρ c b
theorem hF2 (c : Dev nD) (w : Fin cfg2.W) : (dat2 (Ve2 m ρ) c).arrAt w cfg2.N = Vx2 m ρ c (Pipeline.arrRef spec2 w) :=
  (W6_arr m ρ c w).symm
theorem hrest2 (c : Dev nD) : ∀ b, b ∉ Finset.univ.image (Pipeline.arrRef spec2) → Vx2 m ρ c b = Ve2 m ρ c b :=
  fun b hb => W6_of_ne m ρ c b fun w e => hb (Finset.mem_image.mpr ⟨w, Finset.mem_univ _, e⟩)

/-! ## The argument arrays end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := (W2_arr m ρ c 1).trans (((dat0 (Ve0 m ρ) c).arrAt_in 1 rfl _).trans (A_eq0 (Ve0 m ρ) c 1))
    _ = W0 m ρ c (Proc.devRef .tc main_arg2) := StableHlo.after_of_writes_sub hostOps0 _ hostOps0_writes (by decide : main_arg2 ∉ hostOps0_W)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := (W4_arr m ρ c 1).trans (((dat1 (Ve1 m ρ) c).arrAt_in 1 rfl _).trans (A_eq1 (Ve1 m ρ) c 1))
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps2 _ hostOps2_writes (by decide : main_arg10 ∉ hostOps2_W)
    _ = W3 m ρ c (Proc.devRef .tc main_arg10) := (W4_arr m ρ c 5).trans (((dat1 (Ve1 m ρ) c).arrAt_in 5 rfl _).trans (A_eq1 (Ve1 m ρ) c 5))
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps2 _ hostOps2_writes (by decide : main_arg11 ∉ hostOps2_W)
    _ = W3 m ρ c (Proc.devRef .tc main_arg11) := W4_of_ne m ρ c main_arg11 (by decide)
    _ = W2 m ρ c (Proc.devRef .tc main_arg11) := StableHlo.after_of_writes_sub hostOps1 _ hostOps1_writes (by decide : main_arg11 ∉ hostOps1_W)
    _ = W1 m ρ c (Proc.devRef .tc main_arg11) := W2_of_ne m ρ c main_arg11 (by decide)
    _ = W0 m ρ c (Proc.devRef .tc main_arg11) := StableHlo.after_of_writes_sub hostOps0 _ hostOps0_writes (by decide : main_arg11 ∉ hostOps0_W)
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps2 _ hostOps2_writes (by decide : main_arg12 ∉ hostOps2_W)
    _ = W3 m ρ c (Proc.devRef .tc main_arg12) := W4_of_ne m ρ c main_arg12 (by decide)
    _ = W2 m ρ c (Proc.devRef .tc main_arg12) := StableHlo.after_of_writes_sub hostOps1 _ hostOps1_writes (by decide : main_arg12 ∉ hostOps1_W)
    _ = W1 m ρ c (Proc.devRef .tc main_arg12) := W2_of_ne m ρ c main_arg12 (by decide)
    _ = W0 m ρ c (Proc.devRef .tc main_arg12) := StableHlo.after_of_writes_sub hostOps0 _ hostOps0_writes (by decide : main_arg12 ∉ hostOps0_W)
    _ = m ((c : Thread nD τ).loc main_arg12) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps2 _ hostOps2_writes (by decide : main_arg13 ∉ hostOps2_W)
    _ = W3 m ρ c (Proc.devRef .tc main_arg13) := W4_of_ne m ρ c main_arg13 (by decide)
    _ = W2 m ρ c (Proc.devRef .tc main_arg13) := StableHlo.after_of_writes_sub hostOps1 _ hostOps1_writes (by decide : main_arg13 ∉ hostOps1_W)
    _ = W1 m ρ c (Proc.devRef .tc main_arg13) := W2_of_ne m ρ c main_arg13 (by decide)
    _ = W0 m ρ c (Proc.devRef .tc main_arg13) := StableHlo.after_of_writes_sub hostOps0 _ hostOps0_writes (by decide : main_arg13 ∉ hostOps0_W)
    _ = m ((c : Thread nD τ).loc main_arg13) := rfl

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_writes_sub hostOps2 _ hostOps2_writes (by decide : main_arg14 ∉ hostOps2_W)
    _ = W3 m ρ c (Proc.devRef .tc main_arg14) := W4_of_ne m ρ c main_arg14 (by decide)
    _ = W2 m ρ c (Proc.devRef .tc main_arg14) := StableHlo.after_of_writes_sub hostOps1 _ hostOps1_writes (by decide : main_arg14 ∉ hostOps1_W)
    _ = W1 m ρ c (Proc.devRef .tc main_arg14) := (W2_arr m ρ c 5).trans (((dat0 (Ve0 m ρ) c).arrAt_in 5 rfl _).trans (A_eq0 (Ve0 m ρ) c 5))
    _ = W0 m ρ c (Proc.devRef .tc main_arg14) := StableHlo.after_of_writes_sub hostOps0 _ hostOps0_writes (by decide : main_arg14 ∉ hostOps0_W)
    _ = m ((c : Thread nD τ).loc main_arg14) := rfl

theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_writes_sub hostOps2 _ hostOps2_writes (by decide : main_arg15 ∉ hostOps2_W)
    _ = W3 m ρ c (Proc.devRef .tc main_arg15) := W4_of_ne m ρ c main_arg15 (by decide)
    _ = W2 m ρ c (Proc.devRef .tc main_arg15) := StableHlo.after_of_writes_sub hostOps1 _ hostOps1_writes (by decide : main_arg15 ∉ hostOps1_W)
    _ = W1 m ρ c (Proc.devRef .tc main_arg15) := W2_of_ne m ρ c main_arg15 (by decide)
    _ = W0 m ρ c (Proc.devRef .tc main_arg15) := StableHlo.after_of_writes_sub hostOps0 _ hostOps0_writes (by decide : main_arg15 ∉ hostOps0_W)
    _ = m ((c : Thread nD τ).loc main_arg15) := rfl

theorem W6_main_arg16 (c : Dev nD) : W6 m ρ c (Proc.devRef .tc main_arg16) = m ((c : Thread nD τ).loc main_arg16) :=
  calc W6 m ρ c (Proc.devRef .tc main_arg16)
    _ = W5 m ρ c (Proc.devRef .tc main_arg16) := W6_of_ne m ρ c main_arg16 (by decide)
    _ = W4 m ρ c (Proc.devRef .tc main_arg16) := StableHlo.after_of_writes_sub hostOps2 _ hostOps2_writes (by decide : main_arg16 ∉ hostOps2_W)
    _ = W3 m ρ c (Proc.devRef .tc main_arg16) := W4_of_ne m ρ c main_arg16 (by decide)
    _ = W2 m ρ c (Proc.devRef .tc main_arg16) := StableHlo.after_of_writes_sub hostOps1 _ hostOps1_writes (by decide : main_arg16 ∉ hostOps1_W)
    _ = W1 m ρ c (Proc.devRef .tc main_arg16) := W2_of_ne m ρ c main_arg16 (by decide)
    _ = W0 m ρ c (Proc.devRef .tc main_arg16) := StableHlo.after_of_writes_sub hostOps0 _ hostOps0_writes (by decide : main_arg16 ∉ hostOps0_W)
    _ = m ((c : Thread nD τ).loc main_arg16) := rfl

theorem W6_main_arg17 (c : Dev nD) : W6 m ρ c (Proc.devRef .tc main_arg17) = m ((c : Thread nD τ).loc main_arg17) :=
  calc W6 m ρ c (Proc.devRef .tc main_arg17)
    _ = W5 m ρ c (Proc.devRef .tc main_arg17) := W6_of_ne m ρ c main_arg17 (by decide)
    _ = W4 m ρ c (Proc.devRef .tc main_arg17) := StableHlo.after_of_writes_sub hostOps2 _ hostOps2_writes (by decide : main_arg17 ∉ hostOps2_W)
    _ = W3 m ρ c (Proc.devRef .tc main_arg17) := W4_of_ne m ρ c main_arg17 (by decide)
    _ = W2 m ρ c (Proc.devRef .tc main_arg17) := StableHlo.after_of_writes_sub hostOps1 _ hostOps1_writes (by decide : main_arg17 ∉ hostOps1_W)
    _ = W1 m ρ c (Proc.devRef .tc main_arg17) := W2_of_ne m ρ c main_arg17 (by decide)
    _ = W0 m ρ c (Proc.devRef .tc main_arg17) := StableHlo.after_of_writes_sub hostOps0 _ hostOps0_writes (by decide : main_arg17 ∉ hostOps0_W)
    _ = m ((c : Thread nD τ).loc main_arg17) := rfl

/-! ## The proof data family and the thread state -/

def pdats : (p : Fin 3) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
  | ⟨2, _⟩ => fun c => dat2 (Ve2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: its arrays split out of the unscoped buffers and put back at the exit contents;
    the generator register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (Vx0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents;
    the generator register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers and put back at the exit contents;
    the generator register into the invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ve2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (dat2 (Ve2 m ρ) c).Φ (Fin.last cfg2.N) ⊢ (iprop(Pipeline.scopedRest (Ix := Unit) (Name := ℕ) (U := UR sig nD τ) (Lvl := ℕ) (Val := Elt F) spec2 c ∗ ∃ r, prngReg c r) : sProp 𝕄) := by
      have h' := hout2 (Ve2 m ρ) c; unfold Pipeline.ΦA at h'; exact h'
    rw [show (pdats m ρ 2 c).Φ (Fin.last _) = (dat2 (Ve2 m ρ) c).Φ (Fin.last cfg2.N) from rfl]
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ve2 m ρ c) (Vx2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c),
    (h c _ (mem_uc main_arg11 (by decide))).trans (W6_main_arg11 m ρ c),
    (h c _ (mem_uc main_arg12 (by decide))).trans (W6_main_arg12 m ρ c),
    (h c _ (mem_uc main_arg13 (by decide))).trans (W6_main_arg13 m ρ c),
    (h c _ (mem_uc main_arg14 (by decide))).trans (W6_main_arg14 m ρ c),
    (h c _ (mem_uc main_arg15 (by decide))).trans (W6_main_arg15 m ρ c),
    (h c _ (mem_uc main_arg16 (by decide))).trans (W6_main_arg16 m ρ c),
    (h c _ (mem_uc main_arg17 (by decide))).trans (W6_main_arg17 m ρ c)⟩) (run_all m ρ)

/-- THE RESULT: the result buffer ends as the third region's output array with every block written back. -/
theorem result_eq_arrAt : θ_run defs (onTc (τ := τ) (main (F := F))) ⟨m, fun _ => 0, ρ⟩ (fun r => ∀ c : Dev nD,
      r.2.mem ((c.tc : Thread nD τ).loc main_v20) = (dat2 (Ve2 m ρ) c).arrAt 4 cfg2.N) :=
  (θ_run defs _ _).mono (fun r h c => (h c _ (mem_uc main_v20 (by decide))).trans (W6_arr m ρ c 4)) (run_all m ρ)

end Cert.KernelIdeal.Hand

end
-- ==== Proof.R2Value.lean ====
/-
  What the attention body leaves, as the body's own arithmetic. At a first key tile the scratch triple is the update
  step run from the reset values (maximum −inf, mass 0, weighted sum 0); at a last key tile it is the update step run
  from the triple found, and the output block holds the pass-through block in its low columns and the new weighted
  sum divided by the new mass in its high columns. Each is read off the pieces the run found: the last store
  through a whole buffer leaves its payload, a load through it of what one earlier store left reads that payload.
-/
import proofs.«171265_j74741020885605_2_alg».proof.Proof.R2Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The low and the high half (columns 0..511 and 512..1023) of the output block. -/
abbrev rLo : Rect S1x2048x1024 := Rect.unit (s := S1x2048x1024) ![0, 0, 0] S1x2048x512.size inb_S1x2048x1024_S1x2048x512_0_0_0
abbrev rHi : Rect S1x2048x1024 := Rect.unit (s := S1x2048x1024) ![0, 0, 512] S1x2048x512.size inb_S1x2048x1024_S1x2048x512_0_0_512

theorem lo_not_mem_hi (y : S1x2048x512.Idx) : rLo.emb y ∉ rHi.set :=
  Finset.disjoint_left.mp (Rect.unit_disjoint (s := S1x2048x1024) (2 : Fin 3) (Or.inl (by decide))) (rLo.toLoadRect.idx_mem y)

/-- Two stores, the later through the high half and the earlier through the low half: at an index of the low half the
    earlier store's payload shows through. -/
theorem canon_two_lo (w1 : rHi.shape.Idx → Elt F .f32) (w2 : rLo.shape.Idx → Elt F .f32) (y : S1x2048x512.Idx) :
    View.canon [(⟨rHi, w1⟩ : View.Piece (Elt F) S1x2048x1024 .f32), ⟨rLo, w2⟩] (rLo.emb y) = w2 y := by
  rw [View.canon_cons_of_not_mem (⟨rHi, w1⟩ : View.Piece (Elt F) S1x2048x1024 .f32) _ (lo_not_mem_hi y), View.canon_cons_emb]

/-! ## A first key tile -/

theorem sout2_A_0_eq (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) :
    sout2_A_0 c i arg2 harg2 arg3 harg3 arg4 harg4 arg5 harg5 arg6 harg6 arg7 harg7 arg8 harg8 arg9 harg9 hc0 hc1 x0 x1 x2 x3 = k2_pay2 (k2_pay9 x0 x1 (k2_pay5 (F := F))) := by
  unfold sout2_A_0
  rw [View.read_writes_eq_canon _ _ _ (scover2_A_0 c i arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S2048x1) hz2]
  simp only [View.readAt_eq_ld, harg2.read_unread, harg3.read_unread, harg4.read_unread, harg5.read_unread, harg7.read_unread, harg8.read_unread, harg9.read_unread,
    View.ld_unit_zero (S := S1x2048x1024) hz3, View.ld_unit_zero (S := S1x1024x1024) hz3, View.ld_unit_zero (S := S1x1024x512) hz3, View.ld_unit_zero (S := S1x2048x512) hz3,
    View.ld_unit_zero (S := S2048x1) hz2, View.ld_unit_zero (S := S2048x512) hz2,
    View.readCov_unit_zero (S := S2048x1) _ hz2, View.readCov_unit_zero (S := S2048x512) _ hz2]

theorem sout2_A_1_eq (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) :
    sout2_A_1 c i arg2 harg2 arg3 harg3 arg4 harg4 arg5 harg5 arg6 harg6 arg7 harg7 arg8 harg8 arg9 harg9 hc0 hc1 x0 x1 x2 x3 = k2_pay12 x0 x1 (k2_pay5 (F := F)) (k2_pay5 (F := F)) (k2_pay6 (F := F)) := by
  unfold sout2_A_1
  rw [View.read_writes_eq_canon _ _ _ (scover2_A_1 c i arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S2048x1) hz2]
  simp only [View.readAt_eq_ld, harg2.read_unread, harg3.read_unread, harg4.read_unread, harg5.read_unread, harg7.read_unread, harg8.read_unread, harg9.read_unread,
    View.ld_unit_zero (S := S1x2048x1024) hz3, View.ld_unit_zero (S := S1x1024x1024) hz3, View.ld_unit_zero (S := S1x1024x512) hz3, View.ld_unit_zero (S := S1x2048x512) hz3,
    View.ld_unit_zero (S := S2048x1) hz2, View.ld_unit_zero (S := S2048x512) hz2,
    View.readCov_unit_zero (S := S2048x1) _ hz2, View.readCov_unit_zero (S := S2048x512) _ hz2]

theorem sout2_A_2_eq (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond2_0 i) (hc1 : ¬cond2_1 i) (x0 : Vec F S1x2048x1024 .bf16) (x1 : Vec F S1x1024x1024 .bf16) (x2 : Vec F S1x1024x512 .bf16) (x3 : Vec F S1x2048x512 .f32) :
    sout2_A_2 c i arg2 harg2 arg3 harg3 arg4 harg4 arg5 harg5 arg6 harg6 arg7 harg7 arg8 harg8 arg9 harg9 hc0 hc1 x0 x1 x2 x3 = k2_pay1 (k2_pay13 x2) (k2_pay14 x0 x1 (k2_pay5 (F := F)) (k2_pay5 (F := F)) (k2_pay7 (F := F))) (k2_pay15 x0 x1 (k2_pay5 (F := F))) := by
  unfold sout2_A_2
  rw [View.read_writes_eq_canon _ _ _ (scover2_A_2 c i arg2 harg2 arg3 harg3 arg4 harg4 arg5 harg5 arg6 harg6 arg7 harg7 arg8 harg8 arg9 harg9 hc0 hc1 x0 x1 x2 x3)]
  unfold kernelRun2_A
  dsimp only
  sl_unfold_words
  rw [View.canon_cons_unit_zero (S := S2048x512) hz2]
  simp only [View.readAt_eq_ld, harg2.read_unread, harg3.read_unread, harg4.read_unread, harg5.read_unread, harg7.read_unread, harg8.read_unread, harg9.read_unread,
    View.ld_unit_zero (S := S1x2048x1024) hz3, View.ld_unit_zero (S := S1x1024x1024) hz3, View.ld_unit_zero (S := S1x1024x512) hz3, View.ld_unit_zero (S := S1x2048x512) hz3,
    View.ld_unit_zero (S := S2048x1) hz2, View.ld_unit_zero (S := S2048x512) hz2,
    View.readCov_unit_zero (S := S2048x1) _ hz2, View.readCov_unit_zero (S := S2048x512) _ hz2]

/-! ## A last key tile -/

theorem sout2_B_0_eq (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) :
    sout2_B_0 c i arg2 harg2 arg3 harg3 arg4 harg4 arg5 harg5 arg6 harg6 arg7 harg7 arg8 harg8 arg9 harg9 hc0 hc1 x0 x1 x2 x3 xs0 xs1 xs2 = k2_pay2 (k2_pay9 x0 x1 xs0) := by
  unfold sout2_B_0
  rw [View.read_writes_eq_canon _ _ _ (scover2_B_0 c i arg2 harg2 arg3 harg3 arg4 harg4 arg5 harg5 arg6 harg6 arg7 harg7 arg8 harg8 arg9 harg9 hc0 hc1 x0 x1 x2 x3 xs0 xs1 xs2)]
  unfold kernelRun2_B
  dsimp only
  sl_unfold_words
  rw [View.canon_cons_unit_zero (S := S2048x1) hz2]
  simp only [View.readAt_eq_ld, harg2.read_unread, harg3.read_unread, harg4.read_unread, harg5.read_unread, harg7.read_unread, harg8.read_unread, harg9.read_unread,
    View.ld_unit_zero (S := S1x2048x1024) hz3, View.ld_unit_zero (S := S1x1024x1024) hz3, View.ld_unit_zero (S := S1x1024x512) hz3, View.ld_unit_zero (S := S1x2048x512) hz3,
    View.ld_unit_zero (S := S2048x1) hz2, View.ld_unit_zero (S := S2048x512) hz2,
    View.readCov_unit_zero (S := S2048x1) _ hz2, View.readCov_unit_zero (S := S2048x512) _ hz2]

theorem sout2_B_1_eq (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) :
    sout2_B_1 c i arg2 harg2 arg3 harg3 arg4 harg4 arg5 harg5 arg6 harg6 arg7 harg7 arg8 harg8 arg9 harg9 hc0 hc1 x0 x1 x2 x3 xs0 xs1 xs2 = k2_pay12 x0 x1 xs0 xs0 xs1 := by
  unfold sout2_B_1
  rw [View.read_writes_eq_canon _ _ _ (scover2_B_1 c i arg2 harg2 arg3 harg3 arg4 harg4 arg5 harg5 arg6 harg6 arg7 harg7 arg8 harg8 arg9 harg9 hc0 hc1 x0 x1 x2 x3 xs0 xs1 xs2)]
  unfold kernelRun2_B
  dsimp only
  sl_unfold_words
  rw [View.canon_cons_unit_zero (S := S2048x1) hz2]
  simp only [View.readAt_eq_ld, harg2.read_unread, harg3.read_unread, harg4.read_unread, harg5.read_unread, harg7.read_unread, harg8.read_unread, harg9.read_unread,
    View.ld_unit_zero (S := S1x2048x1024) hz3, View.ld_unit_zero (S := S1x1024x1024) hz3, View.ld_unit_zero (S := S1x1024x512) hz3, View.ld_unit_zero (S := S1x2048x512) hz3,
    View.ld_unit_zero (S := S2048x1) hz2, View.ld_unit_zero (S := S2048x512) hz2,
    View.readCov_unit_zero (S := S2048x1) _ hz2, View.readCov_unit_zero (S := S2048x512) _ hz2]

theorem sout2_B_2_eq (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) :
    sout2_B_2 c i arg2 harg2 arg3 harg3 arg4 harg4 arg5 harg5 arg6 harg6 arg7 harg7 arg8 harg8 arg9 harg9 hc0 hc1 x0 x1 x2 x3 xs0 xs1 xs2 = k2_pay1 (k2_pay13 x2) (k2_pay14 x0 x1 xs0 xs0 xs2) (k2_pay15 x0 x1 xs0) := by
  unfold sout2_B_2
  rw [View.read_writes_eq_canon _ _ _ (scover2_B_2 c i arg2 harg2 arg3 harg3 arg4 harg4 arg5 harg5 arg6 harg6 arg7 harg7 arg8 harg8 arg9 harg9 hc0 hc1 x0 x1 x2 x3 xs0 xs1 xs2)]
  unfold kernelRun2_B
  dsimp only
  sl_unfold_words
  rw [View.canon_cons_unit_zero (S := S2048x512) hz2]
  simp only [View.readAt_eq_ld, harg2.read_unread, harg3.read_unread, harg4.read_unread, harg5.read_unread, harg7.read_unread, harg8.read_unread, harg9.read_unread,
    View.ld_unit_zero (S := S1x2048x1024) hz3, View.ld_unit_zero (S := S1x1024x1024) hz3, View.ld_unit_zero (S := S1x1024x512) hz3, View.ld_unit_zero (S := S1x2048x512) hz3,
    View.ld_unit_zero (S := S2048x1) hz2, View.ld_unit_zero (S := S2048x512) hz2,
    View.readCov_unit_zero (S := S2048x1) _ hz2, View.readCov_unit_zero (S := S2048x512) _ hz2]

/-- The output block's high columns: the new weighted sum divided by the new mass. -/
theorem out2_B_4_hi (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) (y : S1x2048x512.Idx) :
    out2_B_4 c i arg2 harg2 arg3 harg3 arg4 harg4 arg5 harg5 arg6 harg6 arg7 harg7 arg8 harg8 arg9 harg9 hc0 hc1 x0 x1 x2 x3 xs0 xs1 xs2 (rHi.emb y) = k2_pay4 (k2_pay1 (k2_pay13 x2) (k2_pay14 x0 x1 xs0 xs0 xs2) (k2_pay15 x0 x1 xs0)) (k2_pay12 x0 x1 xs0 xs0 xs1) y := by
  unfold out2_B_4
  rw [View.read_writes_eq_canon _ _ _ (cover2_B_4 c i arg2 harg2 arg3 harg3 arg4 harg4 arg5 harg5 arg6 harg6 arg7 harg7 arg8 harg8 arg9 harg9 hc0 hc1 x0 x1 x2 x3 xs0 xs1 xs2)]
  unfold kernelRun2_B
  dsimp only
  sl_unfold_words
  rw [View.canon_cons_emb]
  simp only [View.readAt_eq_ld, harg2.read_unread, harg3.read_unread, harg4.read_unread, harg5.read_unread, harg7.read_unread, harg8.read_unread, harg9.read_unread,
    View.ld_unit_zero (S := S1x2048x1024) hz3, View.ld_unit_zero (S := S1x1024x1024) hz3, View.ld_unit_zero (S := S1x1024x512) hz3, View.ld_unit_zero (S := S1x2048x512) hz3,
    View.ld_unit_zero (S := S2048x1) hz2, View.ld_unit_zero (S := S2048x512) hz2,
    View.readCov_unit_zero (S := S2048x1) _ hz2, View.readCov_unit_zero (S := S2048x512) _ hz2]

/-- The output block's low columns: the pass-through block. -/
theorem out2_B_4_lo (c : Dev nD) (i : grid2.Coords) (arg2 : Memref sig .tc .vmem S1x2048x1024 .bf16) (harg2 : arg2.IsWhole) (arg3 : Memref sig .tc .vmem S1x1024x1024 .bf16) (harg3 : arg3.IsWhole) (arg4 : Memref sig .tc .vmem S1x1024x512 .bf16) (harg4 : arg4.IsWhole) (arg5 : Memref sig .tc .vmem S1x2048x512 .f32) (harg5 : arg5.IsWhole) (arg6 : Memref sig .tc .vmem S1x2048x1024 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond2_0 i) (hc1 : cond2_1 i) (x0 : Vec F S1x2048x1024 .bf16) (x1 : Vec F S1x1024x1024 .bf16) (x2 : Vec F S1x1024x512 .bf16) (x3 : Vec F S1x2048x512 .f32) (xs0 : Vec F S2048x1 .f32) (xs1 : Vec F S2048x1 .f32) (xs2 : Vec F S2048x512 .f32) (y : S1x2048x512.Idx) :
    out2_B_4 c i arg2 harg2 arg3 harg3 arg4 harg4 arg5 harg5 arg6 harg6 arg7 harg7 arg8 harg8 arg9 harg9 hc0 hc1 x0 x1 x2 x3 xs0 xs1 xs2 (rLo.emb y) = k2_pay3 x3 y := by
  unfold out2_B_4
  rw [View.read_writes_eq_canon _ _ _ (cover2_B_4 c i arg2 harg2 arg3 harg3 arg4 harg4 arg5 harg5 arg6 harg6 arg7 harg7 arg8 harg8 arg9 harg9 hc0 hc1 x0 x1 x2 x3 xs0 xs1 xs2)]
  unfold kernelRun2_B
  dsimp only
  sl_unfold_words
  refine (canon_two_lo _ _ y).trans ?_
  simp only [View.readAt_eq_ld, harg2.read_unread, harg3.read_unread, harg4.read_unread, harg5.read_unread, harg7.read_unread, harg8.read_unread, harg9.read_unread,
    View.ld_unit_zero (S := S1x2048x1024) hz3, View.ld_unit_zero (S := S1x1024x1024) hz3, View.ld_unit_zero (S := S1x1024x512) hz3, View.ld_unit_zero (S := S1x2048x512) hz3,
    View.ld_unit_zero (S := S2048x1) hz2, View.ld_unit_zero (S := S2048x512) hz2,
    View.readCov_unit_zero (S := S2048x1) _ hz2, View.readCov_unit_zero (S := S2048x512) _ hz2]

end Cert.KernelIdeal.Hand

end
-- ==== Proof.R2Array.lean ====
/-
  From blocks to the array, for the attention region. Point t = 2 b + j stages batch b's query block and pass-through
  block, key tile j of batch b's keys and values, and batch b's output block; the output block is written back at
  the odd points. So the output array after the region is, at (b, n, col), what point 2 b + 1 left in its output
  block at (0, n, col); and an input block read at a local index is its array read at the batch (and key tile)
  the point names.
-/
import proofs.«171265_j74741020885605_2_alg».proof.Proof.R2Value
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-! ## The printed index maps, decided over the grid -/

/-- Every window's block index: the batch on the leading axis; the key tile on the middle axis of the two
    key-side windows; zero elsewhere. -/
theorem idx_facts2 : ∀ t : Fin cfg2.N,
    win2_0.index t (0 : Fin 3) = t.val / 2 ∧ win2_0.index t (1 : Fin 3) = 0 ∧ win2_0.index t (2 : Fin 3) = 0
    ∧ win2_1.index t (0 : Fin 3) = t.val / 2 ∧ win2_1.index t (1 : Fin 3) = t.val % 2 ∧ win2_1.index t (2 : Fin 3) = 0
    ∧ win2_2.index t (0 : Fin 3) = t.val / 2 ∧ win2_2.index t (1 : Fin 3) = t.val % 2 ∧ win2_2.index t (2 : Fin 3) = 0
    ∧ win2_3.index t (0 : Fin 3) = t.val / 2 ∧ win2_3.index t (1 : Fin 3) = 0 ∧ win2_3.index t (2 : Fin 3) = 0
    ∧ win2_4.index t (0 : Fin 3) = t.val / 2 ∧ win2_4.index t (1 : Fin 3) = 0 ∧ win2_4.index t (2 : Fin 3) = 0 :=
  (by decide +kernel : ∀ t : Fin grid2.N, _)

/-! ## The output array -/

/-- The last point of batch `b` (reduced so that it is a point for every `b`). -/
def ptB (b : ℕ) : Fin cfg2.N := ⟨(2 * b + 1) % 16, by rw [show cfg2.N = 16 from N_2]; omega⟩
/-- What point `t` leaves in the output block. -/
def outBlk (c : Dev nD) (t : Fin cfg2.N) : Vec F S1x2048x1024 .f32 := (outsAt2 V c t.val t.isLt).1
/-- An index of the output array, inside its batch's block. -/
def inBlk2 (i : S8x2048x1024.Idx) : S1x2048x1024.Idx :=
  ix3 (0 : Fin 1) (⟨(i 1).val, idx3_lt1 i⟩ : Fin 2048) (⟨(i 2).val, idx3_lt2 i⟩ : Fin 1024)
/-- The output array after the region. -/
def arr2_4 (c : Dev nD) : S8x2048x1024.Idx → Elt F .f32 := fun i => outBlk V c (ptB (i 0).val) (inBlk2 i)

/-- What a last point of a batch writes back is its block of `arr2_4`. -/
theorem flushed2_4_eq (c : Dev nD) (t : Fin cfg2.N) (hf : (cfg2.win 4).flush t = true) :
    (dat2 V c).flushed 4 t = ((cfg2.win 4).blk t).view.read (Elt F) (arr2_4 V c) := by
  have hodd : t.val % 2 = 1 := (flush2_4 t).mp hf
  show (cfg2.win 4).cut (grid2.coords t) ((dat2 V c).after 4 t) = _
  rw [after2_4]
  obtain ⟨-, -, -, -, -, -, -, -, -, -, -, -, e0, e1, e2⟩ := idx_facts2 t
  have hN : cfg2.N = 16 := N_2
  have htN : t.val < cfg2.N := t.isLt
  funext j
  show outBlk V c t j = arr2_4 V c (((cfg2.win 4).blk t).view.emb j)
  have hj0 : (j 0).val < 1 := (j 0).isLt
  have v0 : ((((cfg2.win 4).blk t).view.emb j) 0).val = t.val / 2 := by
    show win2_4.index t (0 : Fin 3) * 1 + 1 * (j 0).val = _; rw [e0]; omega
  have v1 : ((((cfg2.win 4).blk t).view.emb j) 1).val = (j 1).val := by
    show win2_4.index t (1 : Fin 3) * 2048 + 1 * (j 1).val = _; rw [e1]; omega
  have v2 : ((((cfg2.win 4).blk t).view.emb j) 2).val = (j 2).val := by
    show win2_4.index t (2 : Fin 3) * 1024 + 1 * (j 2).val = _; rw [e2]; omega
  have ht : ptB ((((cfg2.win 4).blk t).view.emb j) 0).val = t :=
    Fin.ext (by show (2 * ((((cfg2.win 4).blk t).view.emb j) 0).val + 1) % 16 = t.val; rw [v0]; omega)
  have hj : inBlk2 (((cfg2.win 4).blk t).view.emb j) = j := by
    funext a
    match a with
    | ⟨0, _⟩ => exact Fin.ext (by show (0 : ℕ) = (j 0).val; omega)
    | ⟨1, _⟩ => exact Fin.ext v1
    | ⟨2, _⟩ => exact Fin.ext v2
  show _ = outBlk V c (ptB ((((cfg2.win 4).blk t).view.emb j) 0).val) (inBlk2 (((cfg2.win 4).blk t).view.emb j))
  rw [ht, hj]

theorem mem_blk2_4 (t : Fin cfg2.N) (i : S8x2048x1024.Idx) :
    i ∈ ((cfg2.win 4).blk t).view.set ↔ ∀ a : Fin 3, win2_4.index t a * S1x2048x1024.size a ≤ (i a).val ∧ (i a).val < win2_4.index t a * S1x2048x1024.size a + S1x2048x1024.size a := by
  show i ∈ ((View.whole main_v20).slice (win2_4.rect t)).set ↔ _
  rw [View.set_slice_whole, Rect.mem_set_unit]
  exact Iff.rfl

/-- Every index of the output array is in its batch's block, which the batch's last point writes back. -/
theorem covered2_4 (i : S8x2048x1024.Idx) :
    ∃ t : Fin cfg2.N, (cfg2.win 4).flush t = true ∧ i ∈ ((cfg2.win 4).blk t).view.set := by
  have hi0 : (i 0).val < 8 := idx3_lt0 i
  have hi1 : (i 1).val < 2048 := idx3_lt1 i
  have hi2 : (i 2).val < 1024 := idx3_lt2 i
  have hv : (ptB (i 0).val).val = (2 * (i 0).val + 1) % 16 := rfl
  refine ⟨ptB (i 0).val, (flush2_4 _).mpr (by rw [hv]; omega), ?_⟩
  obtain ⟨-, -, -, -, -, -, -, -, -, -, -, -, e0, e1, e2⟩ := idx_facts2 (ptB (i 0).val)
  rw [mem_blk2_4]
  intro a
  match a with
  | ⟨0, _⟩ =>
    show win2_4.index (ptB (i 0).val) (0 : Fin 3) * 1 ≤ (i 0).val ∧ (i 0).val < win2_4.index (ptB (i 0).val) (0 : Fin 3) * 1 + 1
    rw [e0, hv]; omega
  | ⟨1, _⟩ =>
    show win2_4.index (ptB (i 0).val) (1 : Fin 3) * 2048 ≤ (i 1).val ∧ (i 1).val < win2_4.index (ptB (i 0).val) (1 : Fin 3) * 2048 + 2048
    rw [e1]; omega
  | ⟨2, _⟩ =>
    show win2_4.index (ptB (i 0).val) (2 : Fin 3) * 1024 ≤ (i 2).val ∧ (i 2).val < win2_4.index (ptB (i 0).val) (2 : Fin 3) * 1024 + 1024
    rw [e2]; omega

/-- The output array after the region. -/
theorem final2_4 (c : Dev nD) : (dat2 V c).arrAt 4 cfg2.N = arr2_4 V c :=
  (dat2 V c).arrAt_eq_of_cover 4 (arr2_4 V c) (fun t hf => flushed2_4_eq V c t hf) covered2_4

/-! ## The input blocks, read off the entry contents -/

/-- Window 0's block at point `t`, at a local index, is its array at the batch the point names. -/
theorem iblk2_0_apply (c : Dev nD) (t : Fin cfg2.N) (y : S1x2048x1024.Idx) (k : S8x2048x1024.Idx)
    (hk0 : (k 0).val = t.val / 2) (hk1 : (k 1).val = (y 1).val) (hk2 : (k 2).val = (y 2).val) :
    (iblk2 V c 0 t : Vec F S1x2048x1024 .bf16) y = (V c (Pipeline.arrRef spec2 0) : S8x2048x1024.Idx → Elt F .bf16) k := by
  obtain ⟨e0, e1, e2, -⟩ := idx_facts2 t
  have hy0 : (y 0).val < 1 := (y 0).isLt
  unfold iblk2
  rw [View.read_apply]
  show V c (Pipeline.arrRef spec2 0) _ = V c (Pipeline.arrRef spec2 0) _
  congr 1
  funext a
  apply Fin.ext
  match a with
  | ⟨0, _⟩ => show win2_0.index t (0 : Fin 3) * 1 + 1 * (y 0).val = (k 0).val; rw [e0, hk0]; omega
  | ⟨1, _⟩ => show win2_0.index t (1 : Fin 3) * 2048 + 1 * (y 1).val = (k 1).val; rw [e1, hk1]; omega
  | ⟨2, _⟩ => show win2_0.index t (2 : Fin 3) * 1024 + 1 * (y 2).val = (k 2).val; rw [e2, hk2]; omega

/-- Window 1's block at point `t`, at a local index, is its array at the batch and key tile the point names. -/
theorem iblk2_1_apply (c : Dev nD) (t : Fin cfg2.N) (y : S1x1024x1024.Idx) (k : S8x2048x1024.Idx)
    (hk0 : (k 0).val = t.val / 2) (hk1 : (k 1).val = t.val % 2 * 1024 + (y 1).val) (hk2 : (k 2).val = (y 2).val) :
    (iblk2 V c 1 t : Vec F S1x1024x1024 .bf16) y = (V c (Pipeline.arrRef spec2 1) : S8x2048x1024.Idx → Elt F .bf16) k := by
  obtain ⟨-, -, -, e0, e1, e2, -⟩ := idx_facts2 t
  have hy0 : (y 0).val < 1 := (y 0).isLt
  unfold iblk2
  rw [View.read_apply]
  show V c (Pipeline.arrRef spec2 1) _ = V c (Pipeline.arrRef spec2 1) _
  congr 1
  funext a
  apply Fin.ext
  match a with
  | ⟨0, _⟩ => show win2_1.index t (0 : Fin 3) * 1 + 1 * (y 0).val = (k 0).val; rw [e0, hk0]; omega
  | ⟨1, _⟩ => show win2_1.index t (1 : Fin 3) * 1024 + 1 * (y 1).val = (k 1).val; rw [e1, hk1]; omega
  | ⟨2, _⟩ => show win2_1.index t (2 : Fin 3) * 1024 + 1 * (y 2).val = (k 2).val; rw [e2, hk2]; omega

/-- Window 2's block at point `t`, at a local index, is its array at the batch and key tile the point names. -/
theorem iblk2_2_apply (c : Dev nD) (t : Fin cfg2.N) (y : S1x1024x512.Idx) (k : S8x2048x512.Idx)
    (hk0 : (k 0).val = t.val / 2) (hk1 : (k 1).val = t.val % 2 * 1024 + (y 1).val) (hk2 : (k 2).val = (y 2).val) :
    (iblk2 V c 2 t : Vec F S1x1024x512 .bf16) y = (V c (Pipeline.arrRef spec2 2) : S8x2048x512.Idx → Elt F .bf16) k := by
  obtain ⟨-, -, -, -, -, -, e0, e1, e2, -⟩ := idx_facts2 t
  have hy0 : (y 0).val < 1 := (y 0).isLt
  unfold iblk2
  rw [View.read_apply]
  show V c (Pipeline.arrRef spec2 2) _ = V c (Pipeline.arrRef spec2 2) _
  congr 1
  funext a
  apply Fin.ext
  match a with
  | ⟨0, _⟩ => show win2_2.index t (0 : Fin 3) * 1 + 1 * (y 0).val = (k 0).val; rw [e0, hk0]; omega
  | ⟨1, _⟩ => show win2_2.index t (1 : Fin 3) * 1024 + 1 * (y 1).val = (k 1).val; rw [e1, hk1]; omega
  | ⟨2, _⟩ => show win2_2.index t (2 : Fin 3) * 512 + 1 * (y 2).val = (k 2).val; rw [e2, hk2]; omega

/-- Window 3's block at point `t`, at a local index, is its array at the batch the point names. -/
theorem iblk2_3_apply (c : Dev nD) (t : Fin cfg2.N) (y : S1x2048x512.Idx) (k : S8x2048x512.Idx)
    (hk0 : (k 0).val = t.val / 2) (hk1 : (k 1).val = (y 1).val) (hk2 : (k 2).val = (y 2).val) :
    (iblk2 V c 3 t : Vec F S1x2048x512 .f32) y = (V c (Pipeline.arrRef spec2 3) : S8x2048x512.Idx → Elt F .f32) k := by
  obtain ⟨-, -, -, -, -, -, -, -, -, e0, e1, e2, -⟩ := idx_facts2 t
  have hy0 : (y 0).val < 1 := (y 0).isLt
  unfold iblk2
  rw [View.read_apply]
  show V c (Pipeline.arrRef spec2 3) _ = V c (Pipeline.arrRef spec2 3) _
  congr 1
  funext a
  apply Fin.ext
  match a with
  | ⟨0, _⟩ => show win2_3.index t (0 : Fin 3) * 1 + 1 * (y 0).val = (k 0).val; rw [e0, hk0]; omega
  | ⟨1, _⟩ => show win2_3.index t (1 : Fin 3) * 2048 + 1 * (y 1).val = (k 1).val; rw [e1, hk1]; omega
  | ⟨2, _⟩ => show win2_3.index t (2 : Fin 3) * 512 + 1 * (y 2).val = (k 2).val; rw [e2, hk2]; omega

end Cert.KernelIdeal.Hand

end
-- ==== Proof.R2Chain.lean ====
/-
  A batch's two points as one chain. The first point runs the update step from the reset values on key tile 0 and
  leaves the triple (maximum, mass, weighted sum); the second runs it from that triple on key tile 1, and its output
  block holds the pass-through block in the low columns and weighted sum / mass in the high columns.
-/
import proofs.«171265_j74741020885605_2_alg».proof.Proof.R2Array

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The triple a first key tile leaves, from the point's input blocks. -/
def triA (c : Dev nD) (t : Fin cfg2.N) : Vec F S2048x1 .f32 × Vec F S2048x1 .f32 × Vec F S2048x512 .f32 :=
  (k2_pay2 (k2_pay9 (iblk2 V c 0 t) (iblk2 V c 1 t) (k2_pay5 (F := F))),
   k2_pay12 (iblk2 V c 0 t) (iblk2 V c 1 t) (k2_pay5 (F := F)) (k2_pay5 (F := F)) (k2_pay6 (F := F)),
   k2_pay1 (k2_pay13 (iblk2 V c 2 t)) (k2_pay14 (iblk2 V c 0 t) (iblk2 V c 1 t) (k2_pay5 (F := F)) (k2_pay5 (F := F)) (k2_pay7 (F := F))) (k2_pay15 (iblk2 V c 0 t) (iblk2 V c 1 t) (k2_pay5 (F := F))))

/-- The triple a last key tile leaves, from the point's input blocks and the triple found. -/
def triB (c : Dev nD) (t : Fin cfg2.N) (xs : Vec F S2048x1 .f32 × Vec F S2048x1 .f32 × Vec F S2048x512 .f32) : Vec F S2048x1 .f32 × Vec F S2048x1 .f32 × Vec F S2048x512 .f32 :=
  (k2_pay2 (k2_pay9 (iblk2 V c 0 t) (iblk2 V c 1 t) xs.1),
   k2_pay12 (iblk2 V c 0 t) (iblk2 V c 1 t) xs.1 xs.1 xs.2.1,
   k2_pay1 (k2_pay13 (iblk2 V c 2 t)) (k2_pay14 (iblk2 V c 0 t) (iblk2 V c 1 t) xs.1 xs.1 xs.2.2) (k2_pay15 (iblk2 V c 0 t) (iblk2 V c 1 t) xs.1))

theorem outsAt2_even (c : Dev nD) (t : Fin cfg2.N) (h : t.val % 2 = 0) : (outsAt2 V c t.val t.isLt).2 = triA V c t := by
  rw [outsAt2_A V c t h]
  unfold outsA2 triA
  rw [sout2_A_0_eq, sout2_A_1_eq, sout2_A_2_eq]

/-- The output block a last key tile leaves, high columns, over the triple found. -/
theorem outsB2_hi (c : Dev nD) (t : Fin cfg2.N) (h1 : t.val % 2 = 1) (xs : Vec F S2048x1 .f32 × Vec F S2048x1 .f32 × Vec F S2048x512 .f32) (y : S1x2048x512.Idx) :
    (outsB2 V c t h1 xs.1 xs.2.1 xs.2.2).1 (rHi.emb y) = k2_pay4 (triB V c t xs).2.2 (triB V c t xs).2.1 y := by
  unfold outsB2 triB
  dsimp only
  rw [out2_B_4_hi]

/-- The output block a last key tile leaves, low columns. -/
theorem outsB2_lo (c : Dev nD) (t : Fin cfg2.N) (h1 : t.val % 2 = 1) (xs0 : Vec F S2048x1 .f32) (xs1 : Vec F S2048x1 .f32) (xs2 : Vec F S2048x512 .f32) (y : S1x2048x512.Idx) :
    (outsB2 V c t h1 xs0 xs1 xs2).1 (rLo.emb y) = k2_pay3 (iblk2 V c 3 t) y := by
  unfold outsB2
  dsimp only
  rw [out2_B_4_lo]

/-- At a batch's last point the output block's high columns hold the chain's weighted sum over its mass. -/
theorem outBlk_hi (c : Dev nD) (t t' : Fin cfg2.N) (h1 : t.val % 2 = 1) (ht' : t'.val = t.val - 1) (y : S1x2048x512.Idx) :
    outBlk V c t (rHi.emb y) = k2_pay4 (triB V c t (triA V c t')).2.2 (triB V c t (triA V c t')).2.1 y := by
  have e : (outsAt2 V c (t.val - 1) (Nat.lt_of_le_of_lt (Nat.sub_le _ _) t.isLt)).2 = triA V c t' := by
    obtain ⟨n', p'⟩ := t'
    have hn : n' = t.val - 1 := ht'
    subst hn
    exact outsAt2_even V c ⟨t.val - 1, p'⟩ (by show (t.val - 1) % 2 = 0; omega)
  unfold outBlk
  rw [outsAt2_B V c t h1, ← e]
  exact outsB2_hi V c t h1 _ y

/-- And its low columns hold the pass-through block. -/
theorem outBlk_lo (c : Dev nD) (t : Fin cfg2.N) (h1 : t.val % 2 = 1) (y : S1x2048x512.Idx) :
    outBlk V c t (rLo.emb y) = k2_pay3 (iblk2 V c 3 t) y := by
  unfold outBlk
  rw [outsAt2_B V c t h1]
  exact outsB2_lo V c t h1 _ _ _ y

end Cert.KernelIdeal.Hand

end
-- ==== Proof.SpecDefs.lean ====
/-
  The two sides of the claim as plain functions on the extended reals.

  Every array is a function of explicit `Fin` coordinates with values in `EReal`; every
  operation is the one the exact-arithmetic float instance uses (`Ideal.div`, `Ideal.sqrt`,
  `Ideal.rsqrt`, `Ideal.exp`, `max`, and `+`, `-`, `*` of `EReal`).  Float literals stay
  as the bit patterns they are written with; only the zero pattern is read as `0` (so a sum
  reduced from the initial value `0`, or accumulated into a zero array, is the bare sum).

  Two spellings are given of each stage:
  * the `Ref` spelling follows the plain-array program: normalisation divides by a square
    root, the row maximum of the scores is taken once over all keys, and the softmax weights
    are divided by their sum before they meet the values;
  * the `Ker` spelling follows the tiled program: normalisation multiplies by a reciprocal
    square root, and the softmax is accumulated over two key tiles
    of 1024 keys with a running maximum, a running sum and a running weighted sum, divided at
    the end.
-/
import Idealize.ShloMosaic.PureOps.Ideal

noncomputable section

namespace Cert.Spec

open Idealize.ShloMosaic
open scoped BigOperators

/-! ### The literals -/

/-- The variance offset, the single-precision number nearest `1e-5`. -/
abbrev eps : EReal := Ideal.ofBits .f32 0x3727C5AC#32
/-- `1024.0`. -/
abbrev n1024 : EReal := Ideal.ofBits .f32 0x44800000#32
/-- `512.0`. -/
abbrev n512 : EReal := Ideal.ofBits .f32 0x44000000#32
/-- `-∞`. -/
abbrev negInf : EReal := Ideal.ofBits .f32 0xFF800000#32

/-! ### The affine map -/

/-- `x · Wᵀ + b`: at row `r` and output feature `o`, the sum over the 1024 input features of
    `x r d * W o d`, plus `b o`. -/
def lin {R C : ℕ} (x : Fin R → Fin 1024 → EReal) (W : Fin C → Fin 1024 → EReal) (b : Fin C → EReal) :
    Fin R → Fin C → EReal :=
  fun r o => (∑ d, x r d * W o d) + b o

/-! ### Normalisation of one row, then the positive part

`n` is the literal the sums are divided by (`n1024` or `n512`, the row's length). -/

/-- The row mean. -/
def mu {C : ℕ} (n : EReal) (y : Fin C → EReal) : EReal :=
  Ideal.div (∑ o, y o) n

/-- The row variance: the mean of the squared deviations from the row mean. -/
def var {C : ℕ} (n : EReal) (y : Fin C → EReal) : EReal :=
  Ideal.div (∑ o, (y o - mu n y) * (y o - mu n y)) n

/-- `max ((y - μ) / √(σ² + ε) * g + β) 0`. -/
def normRef {C : ℕ} (n : EReal) (y g beta : Fin C → EReal) (o : Fin C) : EReal :=
  max (Ideal.div (y o - mu n y) (Ideal.sqrt (var n y + eps)) * g o + beta o) 0

/-- `max ((y - μ) * rsqrt (σ² + ε) * g + β) 0`. -/
def normKer {C : ℕ} (n : EReal) (y g beta : Fin C → EReal) (o : Fin C) : EReal :=
  max ((y o - mu n y) * Ideal.rsqrt (var n y + eps) * g o + beta o) 0

/-- One branch, first spelling: affine map, row normalisation, positive part. -/
def branchRef {R C : ℕ} (n : EReal) (x : Fin R → Fin 1024 → EReal) (W : Fin C → Fin 1024 → EReal)
    (b g beta : Fin C → EReal) : Fin R → Fin C → EReal :=
  fun r => normRef n (lin x W b r) g beta

/-- One branch, second spelling. -/
def branchKer {R C : ℕ} (n : EReal) (x : Fin R → Fin 1024 → EReal) (W : Fin C → Fin 1024 → EReal)
    (b g beta : Fin C → EReal) : Fin R → Fin C → EReal :=
  fun r => normKer n (lin x W b r) g beta

/-! ### Attention, one batch: 2048 queries, 2048 keys, 1024 features, 512 value features -/

/-- The maximum of a finite family, folded from `init`. -/
def rowMax {M : ℕ} (init : EReal) (f : Fin M → EReal) : EReal :=
  (Finset.univ : Finset (Fin M)).fold max init f

/-- Scores: `s n m = ∑ c, q n c * k m c`. -/
def scores (q k : Fin 2048 → Fin 1024 → EReal) (n m : Fin 2048) : EReal :=
  ∑ c, q n c * k m c

/-- The row maximum of the scores over all keys, folded from `-∞`. -/
def mxRef (q k : Fin 2048 → Fin 1024 → EReal) (n : Fin 2048) : EReal :=
  rowMax negInf (scores q k n)

/-- Unnormalised weights `exp (s - max)`. -/
def eRef (q k : Fin 2048 → Fin 1024 → EReal) (n m : Fin 2048) : EReal :=
  Ideal.exp (scores q k n m - mxRef q k n)

/-- One-shot softmax attention: weights divided by their row sum, then summed against the values. -/
def attnRef (q k : Fin 2048 → Fin 1024 → EReal) (v : Fin 2048 → Fin 512 → EReal)
    (n : Fin 2048) (h : Fin 512) : EReal :=
  ∑ m, Ideal.div (eRef q k n m) (∑ m', eRef q k n m') * v m h

/-- Key `c` of key tile `j`: key number `1024 * j + c`. -/
def key (j : Fin 2) (c : Fin 1024) : Fin 2048 :=
  ⟨1024 * j.val + c.val, by have := j.isLt; have := c.isLt; omega⟩

/-- Scores against key tile `j`. -/
def sTile (q k : Fin 2048 → Fin 1024 → EReal) (j : Fin 2) (n : Fin 2048) (c : Fin 1024) : EReal :=
  ∑ d, q n d * k (key j c) d

/-- One step of the running maximum: the old maximum against the tile's row maximum. -/
def mStep (mOld : EReal) (s : Fin 1024 → EReal) : EReal :=
  max mOld (rowMax negInf s)

/-- One step of the running sum: `exp (mOld - mNew) * lOld + ∑ c, exp (s c - mNew)`. -/
def lStep (mOld mNew lOld : EReal) (s : Fin 1024 → EReal) : EReal :=
  Ideal.exp (mOld - mNew) * lOld + ∑ c, Ideal.exp (s c - mNew)

/-- One step of the running weighted sum:
    `exp (mOld - mNew) * accOld + ∑ c, exp (s c - mNew) * v c`. -/
def accStep (mOld mNew accOld : EReal) (s v : Fin 1024 → EReal) : EReal :=
  Ideal.exp (mOld - mNew) * accOld + ∑ c, Ideal.exp (s c - mNew) * v c

/-- Running maximum after key tile 0 (from `-∞`). -/
def kM1 (q k : Fin 2048 → Fin 1024 → EReal) (n : Fin 2048) : EReal :=
  mStep negInf (sTile q k 0 n)
/-- Running sum after key tile 0 (from `0`). -/
def kL1 (q k : Fin 2048 → Fin 1024 → EReal) (n : Fin 2048) : EReal :=
  lStep negInf (kM1 q k n) 0 (sTile q k 0 n)
/-- Running weighted sum after key tile 0 (from `0`). -/
def kAcc1 (q k : Fin 2048 → Fin 1024 → EReal) (v : Fin 2048 → Fin 512 → EReal)
    (n : Fin 2048) (h : Fin 512) : EReal :=
  accStep negInf (kM1 q k n) 0 (sTile q k 0 n) (fun c => v (key 0 c) h)

/-- Running maximum after key tile 1. -/
def kM2 (q k : Fin 2048 → Fin 1024 → EReal) (n : Fin 2048) : EReal :=
  mStep (kM1 q k n) (sTile q k 1 n)
/-- Running sum after key tile 1. -/
def kL2 (q k : Fin 2048 → Fin 1024 → EReal) (n : Fin 2048) : EReal :=
  lStep (kM1 q k n) (kM2 q k n) (kL1 q k n) (sTile q k 1 n)
/-- Running weighted sum after key tile 1. -/
def kAcc2 (q k : Fin 2048 → Fin 1024 → EReal) (v : Fin 2048 → Fin 512 → EReal)
    (n : Fin 2048) (h : Fin 512) : EReal :=
  accStep (kM1 q k n) (kM2 q k n) (kAcc1 q k v n h) (sTile q k 1 n) (fun c => v (key 1 c) h)

/-- Two-tile streaming softmax attention: the running weighted sum divided by the running sum. -/
def attnKer (q k : Fin 2048 → Fin 1024 → EReal) (v : Fin 2048 → Fin 512 → EReal)
    (n : Fin 2048) (h : Fin 512) : EReal :=
  Ideal.div (kAcc2 q k v n h) (kL2 q k n)

/-! ### The whole result

Columns `0 … 511` are the fourth branch (of the first input); columns `512 … 1023` are the
attention of the first branch (queries, of the first input) over the second (keys) and third
(values), both of the second input. -/

/-- The result, first spelling. -/
def specRef (sgm velo : Fin 8 → Fin 2048 → Fin 1024 → EReal)
    (Wq : Fin 1024 → Fin 1024 → EReal) (bq gq betaq : Fin 1024 → EReal)
    (Wk : Fin 1024 → Fin 1024 → EReal) (bk gk betak : Fin 1024 → EReal)
    (Wv1 : Fin 512 → Fin 1024 → EReal) (bv1 gv1 betav1 : Fin 512 → EReal)
    (Wv2 : Fin 512 → Fin 1024 → EReal) (bv2 gv2 betav2 : Fin 512 → EReal) :
    Fin 8 → Fin 2048 → Fin 1024 → EReal :=
  fun bt n col =>
    if hc : col.val < 512 then
      branchRef n512 (sgm bt) Wv2 bv2 gv2 betav2 n ⟨col.val, hc⟩
    else
      attnRef (branchRef n1024 (sgm bt) Wq bq gq betaq) (branchRef n1024 (velo bt) Wk bk gk betak)
        (branchRef n512 (velo bt) Wv1 bv1 gv1 betav1) n
        ⟨col.val - 512, by have := col.isLt; omega⟩

/-- The result, second spelling. -/
def specKer (sgm velo : Fin 8 → Fin 2048 → Fin 1024 → EReal)
    (Wq : Fin 1024 → Fin 1024 → EReal) (bq gq betaq : Fin 1024 → EReal)
    (Wk : Fin 1024 → Fin 1024 → EReal) (bk gk betak : Fin 1024 → EReal)
    (Wv1 : Fin 512 → Fin 1024 → EReal) (bv1 gv1 betav1 : Fin 512 → EReal)
    (Wv2 : Fin 512 → Fin 1024 → EReal) (bv2 gv2 betav2 : Fin 512 → EReal) :
    Fin 8 → Fin 2048 → Fin 1024 → EReal :=
  fun bt n col =>
    if hc : col.val < 512 then
      branchKer n512 (sgm bt) Wv2 bv2 gv2 betav2 n ⟨col.val, hc⟩
    else
      attnKer (branchKer n1024 (sgm bt) Wq bq gq betaq) (branchKer n1024 (velo bt) Wk bk gk betak)
        (branchKer n512 (velo bt) Wv1 bv1 gv1 betav1) n
        ⟨col.val - 512, by have := col.isLt; omega⟩

end Cert.Spec
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibTileLayout.lean ====
import Idealize.ShloMosaic.Lib.ValueLayout
import Idealize.ShloMosaic.PureOps.Ideal.Laws

/-!
# Columns, one-entry blocks and sums along one axis, read at an index

A tile's loss is first summed along each row, the row sums are stood up as a column, and the column is summed into
one number, which is then spread over a small block. Each of these steps moves numbers without changing them, or adds
them up along one axis. Here each step is read at an index written by its coordinates:

* a column `[a, 1]` spread over `[a, b]` has, at `(p, c)`, the column's entry `p`;
* a one-entry block `[1, 1]` spread over `[a, b]` has that entry everywhere;
* a vector `[a]` stood up as a column `[a, 1]` has, at `(i, 0)`, the vector's entry `i`;
* the sum of an `[a, b]` array along axis 1, started from zero, is at `p` the sum over `q < b` of the entry `(p, q)`,
  and along axis 0 it is at `c` the sum over `p < a` of the entry `(p, c)`.
-/

namespace Cert.TileLayout

open Idealize.ShloMosaic Idealize.ShloMosaic.ValueIdx
open scoped BigOperators

variable {α : Type}

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry block `[1, 1]` broadcast to `[a, b]` reads that one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A vector `[a]` cast to a column `[a, 1]` reads, at `(i, u)`, the vector's entry `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array along axis 1, started from zero, is at `p` the sum over the row `p`. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  show ∑ q : Fin b, src (h.lift (ix1 p) q) = _
  refine Finset.sum_congr rfl fun q _ => congrArg src ?_
  funext c
  refine Fin.ext ?_
  match c with
  | ⟨0, _⟩ => rfl
  | ⟨1, _⟩ => rfl

/-- The sum of an `[a, b]` array along axis 0, started from zero, is at `c` the sum over the column `c`. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ p : Fin a, src (ix2 p c) := by
  refine (Ideal.multiReduction_add_single src acc h hφ hacc (ix1 c)).trans ?_
  show ∑ p : Fin a, src (h.lift (ix1 c) p) = _
  refine Finset.sum_congr rfl fun p _ => congrArg src ?_
  funext d
  refine Fin.ext ?_
  match d with
  | ⟨0, _⟩ => rfl
  | ⟨1, _⟩ => rfl

end Cert.TileLayout
-- ==== Proof.AttnLib.lean ====
/-
  One step of a streaming softmax over a tile, read at an index, at the exact-arithmetic float
  instance, for `a` query rows, a tile of `b` keys and `e` value features.

  From the tile's scores `s`, the old column of row maxima (read as `m` for the maximum and as
  `m'` for the rescaling), the old column of row sums `l` and the old weighted sums `acc`, the
  program forms: the new maximum, `max m (row maximum of s, folded from -∞)`; the rescaling
  factor `exp (m' - new maximum)`; the weights `exp (s - new maximum)`; the new row sum,
  `factor * l + row sum of the weights`; the rescaled old weighted sums `factor * acc`.  Each is
  read here at row `p` (and column `q`) as the plain formula.
-/
import proofs.«171265_j74741020885605_2_alg».proof.Proof.SpecDefs
import proofs.«171265_j74741020885605_2_alg».proof.Proof.LibTileLayout
import Idealize.ShloMosaic.PureOps.Ideal.Laws
import Idealize.ShloMosaic.Lib.ValueIdx
import Idealize.ShloMosaic.Lib.ValueLayout
import Idealize.ShloMosaic.Lib.Pipeline.Value

noncomputable section

namespace Cert.AttnLib

open Idealize.ShloMosaic Idealize.ShloMosaic.ValueIdx
open scoped BigOperators

/-- The maximum of an `[a, b]` array along axis 1, folded from the accumulator's value, is at
    `p` the fold of `max` over the row `p`. -/
theorem max_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (Ideal.ofBits φ acc) (fun q => src (ix2 p q)) := by
  refine (Ideal.multiReduction_maximumf_single src acc h hφ hacc (ix1 p)).trans ?_
  show (Finset.univ : Finset (Fin b)).fold max (Ideal.ofBits φ acc) (fun q => src (h.lift (ix1 p) q)) = _
  refine Finset.fold_congr fun q _ => congrArg src ?_
  funext c
  refine Fin.ext ?_
  match c with
  | ⟨0, _⟩ => rfl
  | ⟨1, _⟩ => rfl

section Step

variable {a b e : ℕ}
  (s : FVec Ideal ⟨2, ![a, b]⟩ .f32) (m m' l : FVec Ideal ⟨2, ![a, 1]⟩ .f32)
  (acc : FVec Ideal ⟨2, ![a, e]⟩ .f32)
  (hred : (⟨2, ![a, b]⟩ : Shape).Reduces [1] ⟨1, ![a]⟩)
  (hcast : (⟨1, ![a]⟩ : Shape).ShapeCasts ⟨2, ![a, 1]⟩)
  (hcol : (⟨2, ![a, 1]⟩ : Shape).Broadcasts ⟨2, ![a, b]⟩)
  (hcole : (⟨2, ![a, 1]⟩ : Shape).Broadcasts ⟨2, ![a, e]⟩)
  (hφ : FKind.Formats .f32)
  (hmax : (0xFF800000#32 : BitVec 32) = FKind.maximumf.neutral .f32 hφ)
  (hadd : (0x00000000#32 : BitVec 32) = FKind.add.neutral .f32 hφ)

/-- The new column of row maxima. -/
abbrev newMax : FVec Ideal ⟨2, ![a, 1]⟩ .f32 :=
  maximumf m (shapeCast ⟨2, ![a, 1]⟩ (multiReduction .maximumf [1] ⟨1, ![a]⟩ s 0xFF800000#32 hred hφ hmax) hcast)

/-- The rescaling factors. -/
abbrev factor : FVec Ideal ⟨2, ![a, 1]⟩ .f32 :=
  exp (subf m' (newMax s m hred hcast hφ hmax))

/-- The tile's weights. -/
abbrev weights : FVec Ideal ⟨2, ![a, b]⟩ .f32 :=
  exp (subf s (broadcastTo ⟨2, ![a, b]⟩ (newMax s m hred hcast hφ hmax) hcol))

/-- The new column of row sums. -/
abbrev newSum : FVec Ideal ⟨2, ![a, 1]⟩ .f32 :=
  addf (mulf (factor s m m' hred hcast hφ hmax) l)
    (shapeCast ⟨2, ![a, 1]⟩
      (multiReduction .add [1] ⟨1, ![a]⟩ (weights s m hred hcast hcol hφ hmax) 0x00000000#32 hred hφ hadd) hcast)

/-- The rescaled old weighted sums. -/
abbrev rescaled : FVec Ideal ⟨2, ![a, e]⟩ .f32 :=
  mulf (broadcastTo ⟨2, ![a, e]⟩ (factor s m m' hred hcast hφ hmax) hcole) acc

theorem newMax_apply (p : Fin a) :
    newMax s m hred hcast hφ hmax (ix2 p (0 : Fin 1))
      = max (m (ix2 p (0 : Fin 1))) (Cert.Spec.rowMax Cert.Spec.negInf (fun q => s (ix2 p q))) := by
  show max (m (ix2 p (0 : Fin 1)))
      (shapeCast ⟨2, ![a, 1]⟩ (multiReduction .maximumf [1] ⟨1, ![a]⟩ s 0xFF800000#32 hred hφ hmax) hcast
        (ix2 p (0 : Fin 1))) = _
  rw [Cert.TileLayout.shapeCast_a_a1_apply, max_axis1_apply]
  rfl

theorem factor_apply (p : Fin a) :
    factor s m m' hred hcast hφ hmax (ix2 p (0 : Fin 1))
      = Ideal.exp (m' (ix2 p (0 : Fin 1))
          - max (m (ix2 p (0 : Fin 1))) (Cert.Spec.rowMax Cert.Spec.negInf (fun q => s (ix2 p q)))) := by
  show Ideal.exp (m' (ix2 p (0 : Fin 1)) - newMax s m hred hcast hφ hmax (ix2 p (0 : Fin 1))) = _
  rw [newMax_apply]

theorem weights_apply (p : Fin a) (q : Fin b) :
    weights s m hred hcast hcol hφ hmax (ix2 p q)
      = Ideal.exp (s (ix2 p q)
          - max (m (ix2 p (0 : Fin 1))) (Cert.Spec.rowMax Cert.Spec.negInf (fun q => s (ix2 p q)))) := by
  show Ideal.exp (s (ix2 p q)
      - broadcastTo ⟨2, ![a, b]⟩ (newMax s m hred hcast hφ hmax) hcol (ix2 p q)) = _
  rw [Cert.TileLayout.broadcastTo_a1_ab_apply, newMax_apply]

theorem newSum_apply (p : Fin a) :
    newSum s m m' l hred hcast hcol hφ hmax hadd (ix2 p (0 : Fin 1))
      = Ideal.exp (m' (ix2 p (0 : Fin 1))
            - max (m (ix2 p (0 : Fin 1))) (Cert.Spec.rowMax Cert.Spec.negInf (fun q => s (ix2 p q))))
          * l (ix2 p (0 : Fin 1))
        + ∑ q : Fin b, Ideal.exp (s (ix2 p q)
            - max (m (ix2 p (0 : Fin 1))) (Cert.Spec.rowMax Cert.Spec.negInf (fun q => s (ix2 p q)))) := by
  show factor s m m' hred hcast hφ hmax (ix2 p (0 : Fin 1)) * l (ix2 p (0 : Fin 1))
      + shapeCast ⟨2, ![a, 1]⟩
          (multiReduction .add [1] ⟨1, ![a]⟩ (weights s m hred hcast hcol hφ hmax) 0x00000000#32 hred hφ hadd)
          hcast (ix2 p (0 : Fin 1)) = _
  rw [Cert.TileLayout.shapeCast_a_a1_apply, Cert.TileLayout.sum_axis1_apply, factor_apply]
  refine congrArg (fun t => _ + t) (Finset.sum_congr rfl fun q _ => ?_)
  exact weights_apply s m hred hcast hcol hφ hmax p q

theorem rescaled_apply (p : Fin a) (h : Fin e) :
    rescaled s m m' acc hred hcast hcole hφ hmax (ix2 p h)
      = Ideal.exp (m' (ix2 p (0 : Fin 1))
            - max (m (ix2 p (0 : Fin 1))) (Cert.Spec.rowMax Cert.Spec.negInf (fun q => s (ix2 p q))))
          * acc (ix2 p h) := by
  show broadcastTo ⟨2, ![a, e]⟩ (factor s m m' hred hcast hφ hmax) hcole (ix2 p h) * acc (ix2 p h) = _
  rw [Cert.TileLayout.broadcastTo_a1_ab_apply, factor_apply]

end Step

end Cert.AttnLib

end
-- ==== Proof.AttnIdeal.lean ====
/-
  The attention payloads at the exact-arithmetic float instance, read at an index.

  One grid step of the streaming softmax holds the batch's 2048 query rows, one tile of 1024
  key rows and the matching tile of 1024 value rows, and three running arrays: a column of
  row maxima, a column of row sums, and a [2048, 512] array of weighted sums.  Read at row `n`
  (and value feature `h`), each payload is the plain formula of the step: the scores are the
  sums `∑ d, q n d * k c d`; the new maximum is the old one against the tile's row maximum
  folded from `-∞`; the new row sum is `exp (m - m') * l + ∑ c, exp (s c - m')`; the new
  weighted sum is `exp (m - m') * acc + ∑ c, exp (s c - m') * v c h`; the last step divides the
  weighted sum by the row sum.  A change of float format is the identity at this instance, a
  product into a zero accumulator is the plain sum, a lane sum from the zero word is the plain
  sum, and a shape cast that only drops or adds a leading unit axis moves nothing.
-/
import proofs.«171265_j74741020885605_2_alg».proof.Proof.SpecDefs
import proofs.«171265_j74741020885605_2_alg».proof.Proof.LibDotRows
import proofs.«171265_j74741020885605_2_alg».proof.Proof.LibPlainDot
import proofs.«171265_j74741020885605_2_alg».proof.Proof.LibTileLayout
import proofs.«171265_j74741020885605_2_alg».proof.Proof.AttnLib
import proofs.«171265_j74741020885605_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx
open scoped BigOperators

/-! ### The payloads of one grid step -/

section Step

variable (x0 : Vec Ideal S1x2048x1024 .bf16) (x1 : Vec Ideal S1x1024x1024 .bf16)
  (x2 : Vec Ideal S1x1024x512 .bf16)

/-- The scores of the batch's query rows against the key tile's rows. -/
def sK (n : Fin 2048) (c : Fin 1024) : EReal :=
  ∑ d : Fin 1024, (x0 (ix3 (0 : Fin 1) n d) : EReal) * (x1 (ix3 (0 : Fin 1) c d) : EReal)

/-- The scores: a rows-with-rows product into a zero accumulator, of the two blocks with their
    leading unit axis dropped. -/
theorem k2_pay8_apply (n : Fin 2048) (c : Fin 1024) :
    k2_pay8 (F := Ideal) x0 x1 (ix2 n c) = sK x0 x1 n c := by
  unfold sK
  refine (Cert.LibDotRows.matmul_zero_apply _ ⟨rfl, rfl, rfl, rfl, rfl, rfl⟩ none _ _ n c).trans ?_
  refine Finset.sum_congr rfl fun d _ => ?_
  rw [shapeCast_1ab_ab_apply, shapeCast_1ab_ab_apply]

/-- The new running maximum. -/
theorem k2_pay9_apply (ms : Vec Ideal S2048x1 .f32) (n : Fin 2048) :
    k2_pay9 (F := Ideal) x0 x1 ms (ix2 n (0 : Fin 1))
      = Cert.Spec.mStep (ms (ix2 n (0 : Fin 1))) (sK x0 x1 n) := by
  refine (Cert.AttnLib.newMax_apply (k2_pay8 (F := Ideal) x0 x1) ms reduces_S2048x1024_S2048
    shapeCasts_S2048_S2048x1 (.inl rfl) rfl n).trans ?_
  exact congrArg (fun f => max (ms (ix2 n (0 : Fin 1))) (Cert.Spec.rowMax Cert.Spec.negInf f))
    (funext fun q => k2_pay8_apply x0 x1 n q)

/-- The rescaling factor `exp (m - m')`. -/
theorem k2_pay10_apply (ms ms' : Vec Ideal S2048x1 .f32) (n : Fin 2048) :
    k2_pay10 (F := Ideal) x0 x1 ms ms' (ix2 n (0 : Fin 1))
      = Ideal.exp (ms' (ix2 n (0 : Fin 1)) - Cert.Spec.mStep (ms (ix2 n (0 : Fin 1))) (sK x0 x1 n)) := by
  show Ideal.exp (ms' (ix2 n (0 : Fin 1)) - k2_pay9 (F := Ideal) x0 x1 ms (ix2 n (0 : Fin 1))) = _
  rw [k2_pay9_apply]

/-- The tile's weights `exp (s - m')`. -/
theorem k2_pay11_apply (ms : Vec Ideal S2048x1 .f32) (n : Fin 2048) (c : Fin 1024) :
    k2_pay11 (F := Ideal) x0 x1 ms (ix2 n c)
      = Ideal.exp (sK x0 x1 n c - Cert.Spec.mStep (ms (ix2 n (0 : Fin 1))) (sK x0 x1 n)) := by
  refine (Cert.AttnLib.weights_apply (k2_pay8 (F := Ideal) x0 x1) ms reduces_S2048x1024_S2048
    shapeCasts_S2048_S2048x1 broadcasts_S2048x1_S2048x1024 (.inl rfl) rfl n c).trans ?_
  rw [k2_pay8_apply]
  exact congrArg
    (fun f => Ideal.exp (sK x0 x1 n c - max (ms (ix2 n (0 : Fin 1))) (Cert.Spec.rowMax Cert.Spec.negInf f)))
    (funext fun q => k2_pay8_apply x0 x1 n q)

/-- The same weights after the change of float format. -/
theorem k2_pay15_apply (ms : Vec Ideal S2048x1 .f32) (n : Fin 2048) (c : Fin 1024) :
    k2_pay15 (F := Ideal) x0 x1 ms (ix2 n c)
      = Ideal.exp (sK x0 x1 n c - Cert.Spec.mStep (ms (ix2 n (0 : Fin 1))) (sK x0 x1 n)) :=
  k2_pay11_apply x0 x1 ms n c

/-- The new running sum, with the old maximum read twice (as the rescaling's minuend `ms'` and
    as the maximum's operand `ms`). -/
theorem k2_pay12_apply' (ms ms' ls : Vec Ideal S2048x1 .f32) (n : Fin 2048) :
    k2_pay12 (F := Ideal) x0 x1 ms ms' ls (ix2 n (0 : Fin 1))
      = Ideal.exp (ms' (ix2 n (0 : Fin 1)) - Cert.Spec.mStep (ms (ix2 n (0 : Fin 1))) (sK x0 x1 n))
          * ls (ix2 n (0 : Fin 1))
        + ∑ c : Fin 1024, Ideal.exp (sK x0 x1 n c - Cert.Spec.mStep (ms (ix2 n (0 : Fin 1))) (sK x0 x1 n)) := by
  refine (congrFun (shapeCast_self
    (Cert.AttnLib.newSum (k2_pay8 (F := Ideal) x0 x1) ms ms' ls reduces_S2048x1024_S2048
      shapeCasts_S2048_S2048x1 broadcasts_S2048x1_S2048x1024 (.inl rfl) rfl rfl)
    shapeCasts_S2048x1_S2048x1) (ix2 n (0 : Fin 1))).trans ?_
  refine (Cert.AttnLib.newSum_apply (k2_pay8 (F := Ideal) x0 x1) ms ms' ls reduces_S2048x1024_S2048
    shapeCasts_S2048_S2048x1 broadcasts_S2048x1_S2048x1024 (.inl rfl) rfl rfl n).trans ?_
  simp only [k2_pay8_apply]
  rfl

/-- The new running sum as one step. -/
theorem k2_pay12_apply (ms ls : Vec Ideal S2048x1 .f32) (n : Fin 2048) :
    k2_pay12 (F := Ideal) x0 x1 ms ms ls (ix2 n (0 : Fin 1))
      = Cert.Spec.lStep (ms (ix2 n (0 : Fin 1))) (Cert.Spec.mStep (ms (ix2 n (0 : Fin 1))) (sK x0 x1 n))
          (ls (ix2 n (0 : Fin 1))) (sK x0 x1 n) :=
  k2_pay12_apply' x0 x1 ms ms ls n

/-- The value tile with its leading unit axis dropped. -/
theorem k2_pay13_apply (c : Fin 1024) (h : Fin 512) :
    k2_pay13 (F := Ideal) x2 (ix2 c h) = x2 (ix3 (0 : Fin 1) c h) :=
  shapeCast_1ab_ab_apply x2 _ c h

/-- The rescaled old weighted sum. -/
theorem k2_pay14_apply (ms ms' : Vec Ideal S2048x1 .f32) (accs : Vec Ideal S2048x512 .f32)
    (n : Fin 2048) (h : Fin 512) :
    k2_pay14 (F := Ideal) x0 x1 ms ms' accs (ix2 n h)
      = Ideal.exp (ms' (ix2 n (0 : Fin 1)) - Cert.Spec.mStep (ms (ix2 n (0 : Fin 1))) (sK x0 x1 n))
          * accs (ix2 n h) := by
  refine (Cert.AttnLib.rescaled_apply (k2_pay8 (F := Ideal) x0 x1) ms ms' accs reduces_S2048x1024_S2048
    shapeCasts_S2048_S2048x1 broadcasts_S2048x1_S2048x512 (.inl rfl) rfl n h).trans ?_
  exact congrArg
    (fun f => Ideal.exp (ms' (ix2 n (0 : Fin 1))
        - max (ms (ix2 n (0 : Fin 1))) (Cert.Spec.rowMax Cert.Spec.negInf f)) * accs (ix2 n h))
    (funext fun q => k2_pay8_apply x0 x1 n q)

/-- The accumulation: the old array plus a rows-by-columns product into a zero accumulator. -/
theorem k2_pay1_apply (v27 : FVec Ideal S1024x512 .bf16) (v30 : FVec Ideal S2048x512 .f32)
    (v31 : FVec Ideal S2048x1024 .bf16) (n : Fin 2048) (h : Fin 512) :
    k2_pay1 (F := Ideal) v27 v30 v31 (ix2 n h)
      = v30 (ix2 n h) + ∑ c : Fin 1024, v31 (ix2 n c) * v27 (ix2 c h) := by
  show shapeCast S2048x512
      (addf v30 (matmul dot_S2048x1024_S1024x512_S2048x512_1_0_0_1_n_n none v31 v27
        (constant S2048x512 .f32 0x00000000#32)))
      shapeCasts_S2048x512_S2048x512 (ix2 n h) = _
  rw [shapeCast_self]
  show v30 (ix2 n h)
      + FloatOps.matmul dot_S2048x1024_S1024x512_S2048x512_1_0_0_1_n_n none v31 v27
          (constant S2048x512 .f32 0x00000000#32) (ix2 n h) = _
  rw [Cert.LibPlainDot.matmul_zero_apply _ ⟨rfl, rfl, rfl, rfl, rfl, rfl⟩]

/-- The new running weighted sum, with the old maximum read twice. -/
theorem k2_acc_apply' (ms ms' : Vec Ideal S2048x1 .f32) (accs : Vec Ideal S2048x512 .f32)
    (n : Fin 2048) (h : Fin 512) :
    k2_pay1 (F := Ideal) (k2_pay13 x2) (k2_pay14 x0 x1 ms ms' accs) (k2_pay15 x0 x1 ms) (ix2 n h)
      = Ideal.exp (ms' (ix2 n (0 : Fin 1)) - Cert.Spec.mStep (ms (ix2 n (0 : Fin 1))) (sK x0 x1 n))
          * accs (ix2 n h)
        + ∑ c : Fin 1024,
            Ideal.exp (sK x0 x1 n c - Cert.Spec.mStep (ms (ix2 n (0 : Fin 1))) (sK x0 x1 n))
              * x2 (ix3 (0 : Fin 1) c h) := by
  rw [k2_pay1_apply, k2_pay14_apply]
  simp only [k2_pay15_apply, k2_pay13_apply]

/-- The new running weighted sum as one step. -/
theorem k2_acc_apply (ms : Vec Ideal S2048x1 .f32) (accs : Vec Ideal S2048x512 .f32)
    (n : Fin 2048) (h : Fin 512) :
    k2_pay1 (F := Ideal) (k2_pay13 x2) (k2_pay14 x0 x1 ms ms accs) (k2_pay15 x0 x1 ms) (ix2 n h)
      = Cert.Spec.accStep (ms (ix2 n (0 : Fin 1))) (Cert.Spec.mStep (ms (ix2 n (0 : Fin 1))) (sK x0 x1 n))
          (accs (ix2 n h)) (sK x0 x1 n) (fun c => x2 (ix3 (0 : Fin 1) c h)) :=
  k2_acc_apply' x0 x1 x2 ms ms accs n h

end Step

/-! ### The stores' payloads -/

/-- The running maximum is stored as it is. -/
theorem k2_pay2_eq (v : FVec Ideal S2048x1 .f32) : k2_pay2 (F := Ideal) v = v :=
  shapeCast_self v _

/-- The reset value of the running maximum. -/
theorem k2_pay5_apply (n : Fin 2048) : k2_pay5 (F := Ideal) (ix2 n (0 : Fin 1)) = Cert.Spec.negInf := by
  show shapeCast S2048x1 (broadcast S2048x1 (Scalar.ofBits (F := Ideal) .f32 0xFF800000#32))
      shapeCasts_S2048x1_S2048x1 (ix2 n (0 : Fin 1)) = _
  rw [shapeCast_self]
  rfl

/-- The reset value of the running sum. -/
theorem k2_pay6_apply (n : Fin 2048) : k2_pay6 (F := Ideal) (ix2 n (0 : Fin 1)) = 0 := by
  show shapeCast S2048x1 (broadcast S2048x1 (Scalar.ofBits (F := Ideal) .f32 0x00000000#32))
      shapeCasts_S2048x1_S2048x1 (ix2 n (0 : Fin 1)) = _
  rw [shapeCast_self]
  exact Ideal.ofBits_zero_f32

/-- The reset value of the running weighted sum. -/
theorem k2_pay7_apply (n : Fin 2048) (h : Fin 512) : k2_pay7 (F := Ideal) (ix2 n h) = 0 := by
  show shapeCast S2048x512 (broadcast S2048x512 (Scalar.ofBits (F := Ideal) .f32 0x00000000#32))
      shapeCasts_S2048x512_S2048x512 (ix2 n h) = _
  rw [shapeCast_self]
  exact Ideal.ofBits_zero_f32

/-- The pass-through block is stored as it is. -/
theorem k2_pay3_eq (x3 : Vec Ideal S1x2048x512 .f32) : k2_pay3 (F := Ideal) x3 = x3 :=
  shapeCast_shapeCast x3 _ _

/-- The output's attention half: the weighted sum divided by the row sum. -/
theorem k2_pay4_apply (accs : FVec Ideal S2048x512 .f32) (ls : FVec Ideal S2048x1 .f32)
    (n : Fin 2048) (h : Fin 512) :
    k2_pay4 (F := Ideal) accs ls (ix3 (0 : Fin 1) n h)
      = Ideal.div (accs (ix2 n h)) (ls (ix2 n (0 : Fin 1))) := by
  show shapeCast S1x2048x512 (divf accs (broadcastTo S2048x512 ls broadcasts_S2048x1_S2048x512))
      shapeCasts_S2048x512_S1x2048x512 (ix3 (0 : Fin 1) n h) = _
  rw [shapeCast_ab_1ab_apply]
  show Ideal.div (accs (ix2 n h)) (broadcastTo S2048x512 ls broadcasts_S2048x1_S2048x512 (ix2 n h)) = _
  rw [Cert.TileLayout.broadcastTo_a1_ab_apply]

end Cert.KernelIdeal.Hand

end
-- ==== Proof.AttnSteps.lean ====
/-
  The two grid steps of the streaming softmax in the vocabulary of the plain formulas.

  When the blocks a grid step holds are the batch's query rows, the rows of key tile `j` and
  the rows of value tile `j`, the step's new running maximum, running sum and running
  weighted sum at row `n` are `mStep`, `lStep` and `accStep` of the old ones and of the
  scores against tile `j`.  Started from the reset values `-∞`, `0`, `0`, the first step
  therefore leaves `kM1`, `kL1`, `kAcc1`; the second step, run from those against tile 1,
  leaves `kM2`, `kL2`, `kAcc2`; and the output's attention half, the weighted sum divided by
  the row sum, is `attnKer`.
-/
import proofs.«171265_j74741020885605_2_alg».proof.Proof.SpecDefs
import proofs.«171265_j74741020885605_2_alg».proof.Proof.AttnIdeal

noncomputable section

namespace Cert.KernelIdeal.Hand

open Cert.KernelIdeal Cert.KernelIdeal.Gen
open Idealize.ShloMosaic Idealize.ShloMosaic.ValueIdx
open scoped BigOperators

section Steps

variable (q k : Fin 2048 → Fin 1024 → EReal) (v : Fin 2048 → Fin 512 → EReal)
  (x0 : Vec Ideal S1x2048x1024 .bf16) (x1 : Vec Ideal S1x1024x1024 .bf16)
  (x2 : Vec Ideal S1x1024x512 .bf16)

/-- The scores of the blocks are the scores against tile `j`. -/
theorem sK_eq_sTile (j : Fin 2) (hx0 : ∀ n d, x0 (ix3 (0 : Fin 1) n d) = q n d)
    (hx1 : ∀ c d, x1 (ix3 (0 : Fin 1) c d) = k (Cert.Spec.key j c) d) (n : Fin 2048) :
    sK x0 x1 n = Cert.Spec.sTile q k j n := by
  funext c
  unfold sK Cert.Spec.sTile
  exact Finset.sum_congr rfl fun d _ => by rw [hx0, hx1]

/-- One step of the running maximum. -/
theorem step_m (j : Fin 2) (hx0 : ∀ n d, x0 (ix3 (0 : Fin 1) n d) = q n d)
    (hx1 : ∀ c d, x1 (ix3 (0 : Fin 1) c d) = k (Cert.Spec.key j c) d)
    (ms : Vec Ideal S2048x1 .f32) (n : Fin 2048) (mOld : EReal)
    (hm : ms (ix2 n (0 : Fin 1)) = mOld) :
    k2_pay9 (F := Ideal) x0 x1 ms (ix2 n (0 : Fin 1))
      = Cert.Spec.mStep mOld (Cert.Spec.sTile q k j n) := by
  rw [k2_pay9_apply, hm, sK_eq_sTile q k x0 x1 j hx0 hx1 n]

/-- One step of the running sum. -/
theorem step_l (j : Fin 2) (hx0 : ∀ n d, x0 (ix3 (0 : Fin 1) n d) = q n d)
    (hx1 : ∀ c d, x1 (ix3 (0 : Fin 1) c d) = k (Cert.Spec.key j c) d)
    (ms ls : Vec Ideal S2048x1 .f32) (n : Fin 2048) (mOld lOld : EReal)
    (hm : ms (ix2 n (0 : Fin 1)) = mOld) (hl : ls (ix2 n (0 : Fin 1)) = lOld) :
    k2_pay12 (F := Ideal) x0 x1 ms ms ls (ix2 n (0 : Fin 1))
      = Cert.Spec.lStep mOld (Cert.Spec.mStep mOld (Cert.Spec.sTile q k j n)) lOld
          (Cert.Spec.sTile q k j n) := by
  rw [k2_pay12_apply, hm, hl, sK_eq_sTile q k x0 x1 j hx0 hx1 n]

/-- One step of the running weighted sum. -/
theorem step_acc (j : Fin 2) (hx0 : ∀ n d, x0 (ix3 (0 : Fin 1) n d) = q n d)
    (hx1 : ∀ c d, x1 (ix3 (0 : Fin 1) c d) = k (Cert.Spec.key j c) d)
    (hx2 : ∀ c h, x2 (ix3 (0 : Fin 1) c h) = v (Cert.Spec.key j c) h)
    (ms : Vec Ideal S2048x1 .f32) (accs : Vec Ideal S2048x512 .f32) (n : Fin 2048) (h : Fin 512)
    (mOld accOld : EReal) (hm : ms (ix2 n (0 : Fin 1)) = mOld) (ha : accs (ix2 n h) = accOld) :
    k2_pay1 (F := Ideal) (k2_pay13 x2) (k2_pay14 x0 x1 ms ms accs) (k2_pay15 x0 x1 ms) (ix2 n h)
      = Cert.Spec.accStep mOld (Cert.Spec.mStep mOld (Cert.Spec.sTile q k j n)) accOld
          (Cert.Spec.sTile q k j n) (fun c => v (Cert.Spec.key j c) h) := by
  rw [k2_acc_apply, hm, ha, sK_eq_sTile q k x0 x1 j hx0 hx1 n]
  simp only [hx2]

/-! ### The first key tile, from the reset values -/

theorem tile0_m (hx0 : ∀ n d, x0 (ix3 (0 : Fin 1) n d) = q n d)
    (hx1 : ∀ c d, x1 (ix3 (0 : Fin 1) c d) = k (Cert.Spec.key 0 c) d)
    (ms : Vec Ideal S2048x1 .f32) (n : Fin 2048) (hm : ms (ix2 n (0 : Fin 1)) = Cert.Spec.negInf) :
    k2_pay9 (F := Ideal) x0 x1 ms (ix2 n (0 : Fin 1)) = Cert.Spec.kM1 q k n :=
  step_m q k x0 x1 0 hx0 hx1 ms n _ hm

theorem tile0_l (hx0 : ∀ n d, x0 (ix3 (0 : Fin 1) n d) = q n d)
    (hx1 : ∀ c d, x1 (ix3 (0 : Fin 1) c d) = k (Cert.Spec.key 0 c) d)
    (ms ls : Vec Ideal S2048x1 .f32) (n : Fin 2048) (hm : ms (ix2 n (0 : Fin 1)) = Cert.Spec.negInf)
    (hl : ls (ix2 n (0 : Fin 1)) = 0) :
    k2_pay12 (F := Ideal) x0 x1 ms ms ls (ix2 n (0 : Fin 1)) = Cert.Spec.kL1 q k n :=
  step_l q k x0 x1 0 hx0 hx1 ms ls n _ _ hm hl

theorem tile0_acc (hx0 : ∀ n d, x0 (ix3 (0 : Fin 1) n d) = q n d)
    (hx1 : ∀ c d, x1 (ix3 (0 : Fin 1) c d) = k (Cert.Spec.key 0 c) d)
    (hx2 : ∀ c h, x2 (ix3 (0 : Fin 1) c h) = v (Cert.Spec.key 0 c) h)
    (ms : Vec Ideal S2048x1 .f32) (accs : Vec Ideal S2048x512 .f32) (n : Fin 2048) (h : Fin 512)
    (hm : ms (ix2 n (0 : Fin 1)) = Cert.Spec.negInf) (ha : accs (ix2 n h) = 0) :
    k2_pay1 (F := Ideal) (k2_pay13 x2) (k2_pay14 x0 x1 ms ms accs) (k2_pay15 x0 x1 ms) (ix2 n h)
      = Cert.Spec.kAcc1 q k v n h :=
  step_acc q k v x0 x1 x2 0 hx0 hx1 hx2 ms accs n h _ _ hm ha

/-! ### The second key tile, from what the first left -/

theorem tile1_m (hx0 : ∀ n d, x0 (ix3 (0 : Fin 1) n d) = q n d)
    (hx1 : ∀ c d, x1 (ix3 (0 : Fin 1) c d) = k (Cert.Spec.key 1 c) d)
    (ms : Vec Ideal S2048x1 .f32) (n : Fin 2048) (hm : ms (ix2 n (0 : Fin 1)) = Cert.Spec.kM1 q k n) :
    k2_pay9 (F := Ideal) x0 x1 ms (ix2 n (0 : Fin 1)) = Cert.Spec.kM2 q k n :=
  step_m q k x0 x1 1 hx0 hx1 ms n _ hm

theorem tile1_l (hx0 : ∀ n d, x0 (ix3 (0 : Fin 1) n d) = q n d)
    (hx1 : ∀ c d, x1 (ix3 (0 : Fin 1) c d) = k (Cert.Spec.key 1 c) d)
    (ms ls : Vec Ideal S2048x1 .f32) (n : Fin 2048) (hm : ms (ix2 n (0 : Fin 1)) = Cert.Spec.kM1 q k n)
    (hl : ls (ix2 n (0 : Fin 1)) = Cert.Spec.kL1 q k n) :
    k2_pay12 (F := Ideal) x0 x1 ms ms ls (ix2 n (0 : Fin 1)) = Cert.Spec.kL2 q k n :=
  step_l q k x0 x1 1 hx0 hx1 ms ls n _ _ hm hl

theorem tile1_acc (hx0 : ∀ n d, x0 (ix3 (0 : Fin 1) n d) = q n d)
    (hx1 : ∀ c d, x1 (ix3 (0 : Fin 1) c d) = k (Cert.Spec.key 1 c) d)
    (hx2 : ∀ c h, x2 (ix3 (0 : Fin 1) c h) = v (Cert.Spec.key 1 c) h)
    (ms : Vec Ideal S2048x1 .f32) (accs : Vec Ideal S2048x512 .f32) (n : Fin 2048) (h : Fin 512)
    (hm : ms (ix2 n (0 : Fin 1)) = Cert.Spec.kM1 q k n) (ha : accs (ix2 n h) = Cert.Spec.kAcc1 q k v n h) :
    k2_pay1 (F := Ideal) (k2_pay13 x2) (k2_pay14 x0 x1 ms ms accs) (k2_pay15 x0 x1 ms) (ix2 n h)
      = Cert.Spec.kAcc2 q k v n h :=
  step_acc q k v x0 x1 x2 1 hx0 hx1 hx2 ms accs n h _ _ hm ha

/-- The output's attention half, from what the second step left. -/
theorem out_attn (accs : Vec Ideal S2048x512 .f32) (ls : Vec Ideal S2048x1 .f32) (n : Fin 2048) (h : Fin 512)
    (ha : accs (ix2 n h) = Cert.Spec.kAcc2 q k v n h) (hl : ls (ix2 n (0 : Fin 1)) = Cert.Spec.kL2 q k n) :
    k2_pay4 (F := Ideal) accs ls (ix3 (0 : Fin 1) n h) = Cert.Spec.attnKer q k v n h := by
  rw [k2_pay4_apply, ha, hl]
  rfl

end Steps

end Cert.KernelIdeal.Hand

end
-- ==== Proof.R2Ideal.lean ====
/-
  The attention region's output array at the exact-arithmetic instance. For batch b, query row n:
  columns 0..511 are the pass-through array's row; column 512 + h is the two-tile streaming softmax of the batch's
  queries, keys and values at (n, h): the update step run from (−inf, 0, 0) on keys 0..1023, then from what that
  leaves on keys 1024..2047, and the weighted sum divided by the mass.
-/
import proofs.«171265_j74741020885605_2_alg».proof.Proof.R2Chain
import proofs.«171265_j74741020885605_2_alg».proof.Proof.AttnSteps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## Two update steps and the division, over plain blocks -/

section Plain
variable (q k : Fin 2048 → Fin 1024 → EReal) (v : Fin 2048 → Fin 512 → EReal)
  (x0 x0' : Vec Ideal S1x2048x1024 .bf16) (x1 x1' : Vec Ideal S1x1024x1024 .bf16) (x2 x2' : Vec Ideal S1x1024x512 .bf16)

theorem two_tiles
    (hx0' : ∀ n d, x0' (ix3 (0 : Fin 1) n d) = q n d) (hx1' : ∀ c d, x1' (ix3 (0 : Fin 1) c d) = k (Cert.Spec.key 0 c) d)
    (hx2' : ∀ c h, x2' (ix3 (0 : Fin 1) c h) = v (Cert.Spec.key 0 c) h)
    (hx0 : ∀ n d, x0 (ix3 (0 : Fin 1) n d) = q n d) (hx1 : ∀ c d, x1 (ix3 (0 : Fin 1) c d) = k (Cert.Spec.key 1 c) d)
    (hx2 : ∀ c h, x2 (ix3 (0 : Fin 1) c h) = v (Cert.Spec.key 1 c) h) (n : Fin 2048) (h : Fin 512) :
    k2_pay4 (F := Ideal)
        (k2_pay1 (F := Ideal) (k2_pay13 x2) (k2_pay14 x0 x1 (k2_pay2 (F := Ideal) (k2_pay9 x0' x1' (k2_pay5 (F := Ideal)))) (k2_pay2 (F := Ideal) (k2_pay9 x0' x1' (k2_pay5 (F := Ideal)))) (k2_pay1 (F := Ideal) (k2_pay13 x2') (k2_pay14 x0' x1' (k2_pay5 (F := Ideal)) (k2_pay5 (F := Ideal)) (k2_pay7 (F := Ideal))) (k2_pay15 x0' x1' (k2_pay5 (F := Ideal))))) (k2_pay15 x0 x1 (k2_pay2 (F := Ideal) (k2_pay9 x0' x1' (k2_pay5 (F := Ideal))))))
        (k2_pay12 (F := Ideal) x0 x1 (k2_pay2 (F := Ideal) (k2_pay9 x0' x1' (k2_pay5 (F := Ideal)))) (k2_pay2 (F := Ideal) (k2_pay9 x0' x1' (k2_pay5 (F := Ideal)))) (k2_pay12 (F := Ideal) x0' x1' (k2_pay5 (F := Ideal)) (k2_pay5 (F := Ideal)) (k2_pay6 (F := Ideal)))) (ix3 (0 : Fin 1) n h)
      = Cert.Spec.attnKer q k v n h := by
  have hm : ∀ n, (k2_pay2 (F := Ideal) (k2_pay9 x0' x1' (k2_pay5 (F := Ideal)))) (ix2 n (0 : Fin 1)) = Cert.Spec.kM1 q k n := fun n => by
    rw [k2_pay2_eq]; exact tile0_m q k x0' x1' hx0' hx1' (k2_pay5 (F := Ideal)) n (k2_pay5_apply n)
  have hl : ∀ n, (k2_pay12 (F := Ideal) x0' x1' (k2_pay5 (F := Ideal)) (k2_pay5 (F := Ideal)) (k2_pay6 (F := Ideal))) (ix2 n (0 : Fin 1)) = Cert.Spec.kL1 q k n := fun n =>
    tile0_l q k x0' x1' hx0' hx1' (k2_pay5 (F := Ideal)) (k2_pay6 (F := Ideal)) n (k2_pay5_apply n) (k2_pay6_apply n)
  have ha : ∀ n h, (k2_pay1 (F := Ideal) (k2_pay13 x2') (k2_pay14 x0' x1' (k2_pay5 (F := Ideal)) (k2_pay5 (F := Ideal)) (k2_pay7 (F := Ideal))) (k2_pay15 x0' x1' (k2_pay5 (F := Ideal)))) (ix2 n h) = Cert.Spec.kAcc1 q k v n h := fun n h =>
    tile0_acc q k v x0' x1' x2' hx0' hx1' hx2' (k2_pay5 (F := Ideal)) (k2_pay7 (F := Ideal)) n h (k2_pay5_apply n) (k2_pay7_apply n h)
  exact out_attn q k v _ _ n h
    (tile1_acc q k v x0 x1 x2 hx0 hx1 hx2 (k2_pay2 (F := Ideal) (k2_pay9 x0' x1' (k2_pay5 (F := Ideal)))) (k2_pay1 (F := Ideal) (k2_pay13 x2') (k2_pay14 x0' x1' (k2_pay5 (F := Ideal)) (k2_pay5 (F := Ideal)) (k2_pay7 (F := Ideal))) (k2_pay15 x0' x1' (k2_pay5 (F := Ideal)))) n h (hm n) (ha n h))
    (tile1_l q k x0 x1 hx0 hx1 (k2_pay2 (F := Ideal) (k2_pay9 x0' x1' (k2_pay5 (F := Ideal)))) (k2_pay12 (F := Ideal) x0' x1' (k2_pay5 (F := Ideal)) (k2_pay5 (F := Ideal)) (k2_pay6 (F := Ideal))) n (hm n) (hl n))

end Plain

/-! ## At the region's entry arrays -/

variable (V : (c : Dev nD) → (b : Ref sig .tc) → Buf (Elt Ideal) ((c : Thread nD τ).loc b))

/-- Batch b's queries, keys, values and pass-through rows, as the region finds them. -/
def qOf (c : Dev nD) (b : Fin 8) : Fin 2048 → Fin 1024 → EReal := fun n d => (V c (Pipeline.arrRef spec2 0) : S8x2048x1024.Idx → EReal) (ix3 b n d)
def kOf (c : Dev nD) (b : Fin 8) : Fin 2048 → Fin 1024 → EReal := fun m d => (V c (Pipeline.arrRef spec2 1) : S8x2048x1024.Idx → EReal) (ix3 b m d)
def vOf (c : Dev nD) (b : Fin 8) : Fin 2048 → Fin 512 → EReal := fun m h => (V c (Pipeline.arrRef spec2 2) : S8x2048x512.Idx → EReal) (ix3 b m h)
def pOf (c : Dev nD) (b : Fin 8) : Fin 2048 → Fin 512 → EReal := fun n h => (V c (Pipeline.arrRef spec2 3) : S8x2048x512.Idx → EReal) (ix3 b n h)

theorem blk_q (c : Dev nD) (b : Fin 8) (t : Fin cfg2.N) (hb : b.val = t.val / 2) (n : Fin 2048) (d : Fin 1024) :
    (iblk2 V c 0 t : Vec Ideal S1x2048x1024 .bf16) (ix3 (0 : Fin 1) n d) = qOf V c b n d :=
  iblk2_0_apply V c t (ix3 (0 : Fin 1) n d) (ix3 b n d) hb rfl rfl
theorem blk_k (c : Dev nD) (b : Fin 8) (t : Fin cfg2.N) (hb : b.val = t.val / 2) (j : Fin 2) (hj : t.val % 2 = j.val) (c' : Fin 1024) (d : Fin 1024) :
    (iblk2 V c 1 t : Vec Ideal S1x1024x1024 .bf16) (ix3 (0 : Fin 1) c' d) = kOf V c b (Cert.Spec.key j c') d :=
  iblk2_1_apply V c t (ix3 (0 : Fin 1) c' d) (ix3 b (Cert.Spec.key j c') d) hb
    (by show 1024 * j.val + c'.val = t.val % 2 * 1024 + c'.val; rw [hj]; omega) rfl
theorem blk_v (c : Dev nD) (b : Fin 8) (t : Fin cfg2.N) (hb : b.val = t.val / 2) (j : Fin 2) (hj : t.val % 2 = j.val) (c' : Fin 1024) (h : Fin 512) :
    (iblk2 V c 2 t : Vec Ideal S1x1024x512 .bf16) (ix3 (0 : Fin 1) c' h) = vOf V c b (Cert.Spec.key j c') h :=
  iblk2_2_apply V c t (ix3 (0 : Fin 1) c' h) (ix3 b (Cert.Spec.key j c') h) hb
    (by show 1024 * j.val + c'.val = t.val % 2 * 1024 + c'.val; rw [hj]; omega) rfl
theorem blk_p (c : Dev nD) (b : Fin 8) (t : Fin cfg2.N) (hb : b.val = t.val / 2) (n : Fin 2048) (h : Fin 512) :
    (iblk2 V c 3 t : Vec Ideal S1x2048x512 .f32) (ix3 (0 : Fin 1) n h) = pOf V c b n h :=
  iblk2_3_apply V c t (ix3 (0 : Fin 1) n h) (ix3 b n h) hb rfl rfl

theorem ptB_val (b : Fin 8) : (ptB b.val).val = 2 * b.val + 1 := by
  show (2 * b.val + 1) % 16 = 2 * b.val + 1; have := b.isLt; omega

/-- The output array's high columns: the streaming softmax of the batch. -/
theorem arr2_4_hi (c : Dev nD) (b : Fin 8) (n : Fin 2048) (h : Fin 512) :
    arr2_4 V c (ix3 b n (⟨h.val + 512, by have := h.isLt; omega⟩ : Fin 1024)) = Cert.Spec.attnKer (qOf V c b) (kOf V c b) (vOf V c b) n h := by
  have hb := b.isLt
  have hv := ptB_val b
  have hN : cfg2.N = 16 := N_2
  have h1 : (ptB b.val).val % 2 = 1 := by rw [hv]; omega
  have hin : inBlk2 (ix3 b n (⟨h.val + 512, by have := h.isLt; omega⟩ : Fin 1024)) = rHi.emb (ix3 (0 : Fin 1) n h) := by
    funext a
    match a with
    | ⟨0, _⟩ => exact Fin.ext rfl
    | ⟨1, _⟩ => exact Fin.ext (by show n.val = 0 + 1 * n.val; omega)
    | ⟨2, _⟩ => exact Fin.ext (by show h.val + 512 = 512 + 1 * h.val; omega)
  show outBlk V c (ptB b.val) (inBlk2 (ix3 b n (⟨h.val + 512, by have := h.isLt; omega⟩ : Fin 1024))) = _
  rw [hin, outBlk_hi V c (ptB b.val) (⟨2 * b.val, by rw [hN]; omega⟩ : Fin cfg2.N) h1 (by show 2 * b.val = (ptB b.val).val - 1; rw [hv]; omega) (ix3 (0 : Fin 1) n h)]
  exact two_tiles (qOf V c b) (kOf V c b) (vOf V c b)
    (iblk2 V c 0 (ptB b.val)) (iblk2 V c 0 (⟨2 * b.val, by rw [hN]; omega⟩ : Fin cfg2.N))
    (iblk2 V c 1 (ptB b.val)) (iblk2 V c 1 (⟨2 * b.val, by rw [hN]; omega⟩ : Fin cfg2.N))
    (iblk2 V c 2 (ptB b.val)) (iblk2 V c 2 (⟨2 * b.val, by rw [hN]; omega⟩ : Fin cfg2.N))
    (blk_q V c b _ (by show b.val = 2 * b.val / 2; omega))
    (blk_k V c b _ (by show b.val = 2 * b.val / 2; omega) 0 (by show 2 * b.val % 2 = 0; omega))
    (blk_v V c b _ (by show b.val = 2 * b.val / 2; omega) 0 (by show 2 * b.val % 2 = 0; omega))
    (blk_q V c b _ (by rw [hv]; omega))
    (blk_k V c b _ (by rw [hv]; omega) 1 (by rw [hv]; show (2 * b.val + 1) % 2 = 1; omega))
    (blk_v V c b _ (by rw [hv]; omega) 1 (by rw [hv]; show (2 * b.val + 1) % 2 = 1; omega))
    n h

/-- The output array's low columns: the pass-through array. -/
theorem arr2_4_lo (c : Dev nD) (b : Fin 8) (n : Fin 2048) (h : Fin 512) :
    arr2_4 V c (ix3 b n (⟨h.val, by have := h.isLt; omega⟩ : Fin 1024)) = pOf V c b n h := by
  have hb := b.isLt
  have hv := ptB_val b
  have h1 : (ptB b.val).val % 2 = 1 := by rw [hv]; omega
  have hin : inBlk2 (ix3 b n (⟨h.val, by have := h.isLt; omega⟩ : Fin 1024)) = rLo.emb (ix3 (0 : Fin 1) n h) := by
    funext a
    match a with
    | ⟨0, _⟩ => exact Fin.ext rfl
    | ⟨1, _⟩ => exact Fin.ext (by show n.val = 0 + 1 * n.val; omega)
    | ⟨2, _⟩ => exact Fin.ext (by show h.val = 0 + 1 * h.val; omega)
  show outBlk V c (ptB b.val) (inBlk2 (ix3 b n (⟨h.val, by have := h.isLt; omega⟩ : Fin 1024))) = _
  rw [hin, outBlk_lo V c (ptB b.val) h1 (ix3 (0 : Fin 1) n h), k2_pay3_eq]
  exact blk_p V c b _ (by rw [hv]; omega) n h

end Cert.KernelIdeal.Hand

end
-- ==== Proof.BranchValue0.lean ====
/- The value of region 0 of @main (custom_call 0, the fused branch kernel on 16 row tiles of 1024 rows): what the
   body leaves in each output window's staging buffer IS the skeleton's payload of the input blocks (the one store is of
   the whole buffer and every load is of a whole buffer); so each output array after the region, read at row `r` and
   column `o`, is the payload of row tile `r / 1024` read at `(r % 1024, o)`. Generic in the float instance. -/
import proofs.«171265_j74741020885605_2_alg».proof.Proof.BranchFrame0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

theorem zero_off0 : (![0, 0] : Fin 2 → Nat) = fun _ => 0 := funext fun a => by fin_cases a <;> rfl

/-! ## The staging buffers after the body are the payloads -/

/-- Window 9's buffer after the body is the first branch's payload of the blocks of windows 0–4. -/
theorem out0_9_eq (x0 : Vec F S1024x1024 .f32) (x1 : Vec F S1024x1024 .f32) (x2 : Vec F S1x1024 .f32) (x3 : Vec F S1x1024 .f32) (x4 : Vec F S1x1024 .f32) :
    out0_9 x0 x1 x2 x3 x4 = k0_pay3 x0 x1 x2 x3 x4 := by
  unfold out0_9
  rw [View.canon_unit_zero zero_off0]
  simp only [View.ld_unit_zero (S := S1024x1024) zero_off0, View.ld_unit_zero (S := S1x1024) zero_off0]

/-- Window 10's buffer after the body is the second branch's payload of the blocks of windows 0 and 5–8. -/
theorem out0_10_eq (x0 : Vec F S1024x1024 .f32) (x5 : Vec F S512x1024 .f32) (x6 : Vec F S1x512 .f32) (x7 : Vec F S1x512 .f32) (x8 : Vec F S1x512 .f32) :
    out0_10 x0 x5 x6 x7 x8 = k0_pay1 (k0_pay2 x0) x5 x6 x7 x8 := by
  unfold out0_10
  rw [View.canon_unit_zero zero_off0]
  simp only [View.ld_unit_zero (S := S1024x1024) zero_off0, View.ld_unit_zero (S := S512x1024) zero_off0, View.ld_unit_zero (S := S1x512) zero_off0]

/-! ## The printed index maps, decided over the grid -/

/-- Windows 0, 9 and 10 move down one row tile per point and stay at column block 0; every other window stays at
    block (0, 0). -/
theorem idx_facts0 : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The row tile of a row, and an array index inside its tile -/

/-- The point whose row tile holds row `r` (of the 16384 rows; reduced mod 16 so that it is a point for every `r`). -/
def tile0 (r : ℕ) : Fin cfg0.N := ⟨r / 1024 % 16, by rw [show cfg0.N = 16 from N_0]; omega⟩

theorem tile0_val (r : ℕ) (h : r < 16384) : (tile0 r).val = r / 1024 := by
  show r / 1024 % 16 = r / 1024; omega

/-- An index of window 9's array, inside its row tile: `(r % 1024, o)`. -/
def inTile0_9 (i : S16384x1024.Idx) : S1024x1024.Idx :=
  ix2 (⟨(i 0).val % 1024, Nat.mod_lt _ (by decide)⟩ : Fin 1024) (⟨(i 1).val, idx2_lt1 i⟩ : Fin 1024)
/-- An index of window 10's array, inside its row tile: `(r % 1024, o)`. -/
def inTile0_10 (i : S16384x512.Idx) : S1024x512.Idx :=
  ix2 (⟨(i 0).val % 1024, Nat.mod_lt _ (by decide)⟩ : Fin 1024) (⟨(i 1).val, idx2_lt1 i⟩ : Fin 512)

/-! ## The output arrays after the region -/

/-- Window 9's array after the region: at row `r`, column `o`, the first branch's payload of row tile `r / 1024` at
    `(r % 1024, o)`. -/
def arr0_9 (c : Dev nD) : S16384x1024.Idx → Elt F .bf16 := fun i =>
  k0_pay3 (iblk0 V c 0 (tile0 (i 0).val)) (iblk0 V c 1 (tile0 (i 0).val)) (iblk0 V c 2 (tile0 (i 0).val)) (iblk0 V c 3 (tile0 (i 0).val)) (iblk0 V c 4 (tile0 (i 0).val)) (inTile0_9 i)

/-- Window 10's array after the region: at row `r`, column `o`, the second branch's payload of row tile `r / 1024` at
    `(r % 1024, o)`. -/
def arr0_10 (c : Dev nD) : S16384x512.Idx → Elt F .f32 := fun i =>
  k0_pay1 (k0_pay2 (iblk0 V c 0 (tile0 (i 0).val))) (iblk0 V c 5 (tile0 (i 0).val)) (iblk0 V c 6 (tile0 (i 0).val)) (iblk0 V c 7 (tile0 (i 0).val)) (iblk0 V c 8 (tile0 (i 0).val)) (inTile0_10 i)

/-- What point `t` writes back of window 9 is block `t` of `arr0_9`. -/
theorem flushed0_9_eq (c : Dev nD) (t : Fin cfg0.N) :
    (dat0 V c).flushed 9 t = ((cfg0.win 9).blk t).view.read (Elt F) (arr0_9 V c) := by
  show (cfg0.win 9).cut (grid0.coords t) ((dat0 V c).after 9 t) = _
  rw [after0_9, out0_9_eq]
  obtain ⟨-, -, e0, e1, -⟩ := idx_facts0 t
  have hN : cfg0.N = 16 := N_0
  have htN : t.val < cfg0.N := t.isLt
  funext j
  show k0_pay3 (iblk0 V c 0 t) (iblk0 V c 1 t) (iblk0 V c 2 t) (iblk0 V c 3 t) (iblk0 V c 4 t) j = arr0_9 V c (((cfg0.win 9).blk t).view.emb j)
  have hj0 : (j 0).val < 1024 := (j 0).isLt
  have v0 : ((((cfg0.win 9).blk t).view.emb j) 0).val = t.val * 1024 + (j 0).val := by
    show win0_9.index t (0 : Fin 2) * 1024 + 1 * (j 0).val = _; rw [e0]; omega
  have v1 : ((((cfg0.win 9).blk t).view.emb j) 1).val = (j 1).val := by
    show win0_9.index t (1 : Fin 2) * 1024 + 1 * (j 1).val = _; rw [e1]; omega
  have ht : tile0 ((((cfg0.win 9).blk t).view.emb j) 0).val = t :=
    Fin.ext (by show ((((cfg0.win 9).blk t).view.emb j) 0).val / 1024 % 16 = t.val; rw [v0]; omega)
  have hj : inTile0_9 (((cfg0.win 9).blk t).view.emb j) = j := by
    funext a
    match a with
    | ⟨0, _⟩ => exact Fin.ext (by show ((((cfg0.win 9).blk t).view.emb j) 0).val % 1024 = (j 0).val; rw [v0]; omega)
    | ⟨1, _⟩ => exact Fin.ext v1
  show _ = k0_pay3 (iblk0 V c 0 (tile0 ((((cfg0.win 9).blk t).view.emb j) 0).val)) (iblk0 V c 1 (tile0 ((((cfg0.win 9).blk t).view.emb j) 0).val)) (iblk0 V c 2 (tile0 ((((cfg0.win 9).blk t).view.emb j) 0).val)) (iblk0 V c 3 (tile0 ((((cfg0.win 9).blk t).view.emb j) 0).val)) (iblk0 V c 4 (tile0 ((((cfg0.win 9).blk t).view.emb j) 0).val)) (inTile0_9 (((cfg0.win 9).blk t).view.emb j))
  rw [ht]
  exact congrArg _ hj.symm

/-- What point `t` writes back of window 10 is block `t` of `arr0_10`. -/
theorem flushed0_10_eq (c : Dev nD) (t : Fin cfg0.N) :
    (dat0 V c).flushed 10 t = ((cfg0.win 10).blk t).view.read (Elt F) (arr0_10 V c) := by
  show (cfg0.win 10).cut (grid0.coords t) ((dat0 V c).after 10 t) = _
  rw [after0_10, out0_10_eq]
  obtain ⟨-, -, -, -, e0, e1, -⟩ := idx_facts0 t
  have hN : cfg0.N = 16 := N_0
  have htN : t.val < cfg0.N := t.isLt
  funext j
  show k0_pay1 (k0_pay2 (iblk0 V c 0 t)) (iblk0 V c 5 t) (iblk0 V c 6 t) (iblk0 V c 7 t) (iblk0 V c 8 t) j = arr0_10 V c (((cfg0.win 10).blk t).view.emb j)
  have hj0 : (j 0).val < 1024 := (j 0).isLt
  have v0 : ((((cfg0.win 10).blk t).view.emb j) 0).val = t.val * 1024 + (j 0).val := by
    show win0_10.index t (0 : Fin 2) * 1024 + 1 * (j 0).val = _; rw [e0]; omega
  have v1 : ((((cfg0.win 10).blk t).view.emb j) 1).val = (j 1).val := by
    show win0_10.index t (1 : Fin 2) * 512 + 1 * (j 1).val = _; rw [e1]; omega
  have ht : tile0 ((((cfg0.win 10).blk t).view.emb j) 0).val = t :=
    Fin.ext (by show ((((cfg0.win 10).blk t).view.emb j) 0).val / 1024 % 16 = t.val; rw [v0]; omega)
  have hj : inTile0_10 (((cfg0.win 10).blk t).view.emb j) = j := by
    funext a
    match a with
    | ⟨0, _⟩ => exact Fin.ext (by show ((((cfg0.win 10).blk t).view.emb j) 0).val % 1024 = (j 0).val; rw [v0]; omega)
    | ⟨1, _⟩ => exact Fin.ext v1
  show _ = k0_pay1 (k0_pay2 (iblk0 V c 0 (tile0 ((((cfg0.win 10).blk t).view.emb j) 0).val))) (iblk0 V c 5 (tile0 ((((cfg0.win 10).blk t).view.emb j) 0).val)) (iblk0 V c 6 (tile0 ((((cfg0.win 10).blk t).view.emb j) 0).val)) (iblk0 V c 7 (tile0 ((((cfg0.win 10).blk t).view.emb j) 0).val)) (iblk0 V c 8 (tile0 ((((cfg0.win 10).blk t).view.emb j) 0).val)) (inTile0_10 (((cfg0.win 10).blk t).view.emb j))
  rw [ht]
  exact congrArg _ hj.symm

/-- An index of window 9's array is in point `t`'s block iff each coordinate is in the block's range on its axis. -/
theorem mem_blk0_9 (t : Fin cfg0.N) (i : S16384x1024.Idx) :
    i ∈ ((cfg0.win 9).blk t).view.set ↔ ∀ a : Fin 2, win0_9.index t a * S1024x1024.size a ≤ (i a).val ∧ (i a).val < win0_9.index t a * S1024x1024.size a + S1024x1024.size a := by
  show i ∈ ((View.whole main_v8_0).slice (win0_9.rect t)).set ↔ _
  rw [View.set_slice_whole, Rect.mem_set_unit]
  exact Iff.rfl

/-- Every index of window 9's array is in the block of its row's tile, which is written back. -/
theorem covered0_9 (i : S16384x1024.Idx) :
    ∃ t : Fin cfg0.N, (cfg0.win 9).flush t = true ∧ i ∈ ((cfg0.win 9).blk t).view.set := by
  refine ⟨tile0 (i 0).val, flush0_9 _, ?_⟩
  obtain ⟨-, -, e0, e1, -⟩ := idx_facts0 (tile0 (i 0).val)
  have hi0 : (i 0).val < 16384 := idx2_lt0 i
  have hi1 : (i 1).val < 1024 := idx2_lt1 i
  have hv : (tile0 (i 0).val).val = (i 0).val / 1024 % 16 := rfl
  rw [mem_blk0_9]
  intro a
  match a with
  | ⟨0, _⟩ =>
    show win0_9.index (tile0 (i 0).val) (0 : Fin 2) * 1024 ≤ (i 0).val ∧ (i 0).val < win0_9.index (tile0 (i 0).val) (0 : Fin 2) * 1024 + 1024
    rw [e0, hv]; omega
  | ⟨1, _⟩ =>
    show win0_9.index (tile0 (i 0).val) (1 : Fin 2) * 1024 ≤ (i 1).val ∧ (i 1).val < win0_9.index (tile0 (i 0).val) (1 : Fin 2) * 1024 + 1024
    rw [e1]; omega

/-- An index of window 10's array is in point `t`'s block iff each coordinate is in the block's range on its axis. -/
theorem mem_blk0_10 (t : Fin cfg0.N) (i : S16384x512.Idx) :
    i ∈ ((cfg0.win 10).blk t).view.set ↔ ∀ a : Fin 2, win0_10.index t a * S1024x512.size a ≤ (i a).val ∧ (i a).val < win0_10.index t a * S1024x512.size a + S1024x512.size a := by
  show i ∈ ((View.whole main_v8_1).slice (win0_10.rect t)).set ↔ _
  rw [View.set_slice_whole, Rect.mem_set_unit]
  exact Iff.rfl

/-- Every index of window 10's array is in the block of its row's tile, which is written back. -/
theorem covered0_10 (i : S16384x512.Idx) :
    ∃ t : Fin cfg0.N, (cfg0.win 10).flush t = true ∧ i ∈ ((cfg0.win 10).blk t).view.set := by
  refine ⟨tile0 (i 0).val, flush0_10 _, ?_⟩
  obtain ⟨-, -, -, -, e0, e1, -⟩ := idx_facts0 (tile0 (i 0).val)
  have hi0 : (i 0).val < 16384 := idx2_lt0 i
  have hi1 : (i 1).val < 512 := idx2_lt1 i
  have hv : (tile0 (i 0).val).val = (i 0).val / 1024 % 16 := rfl
  rw [mem_blk0_10]
  intro a
  match a with
  | ⟨0, _⟩ =>
    show win0_10.index (tile0 (i 0).val) (0 : Fin 2) * 1024 ≤ (i 0).val ∧ (i 0).val < win0_10.index (tile0 (i 0).val) (0 : Fin 2) * 1024 + 1024
    rw [e0, hv]; omega
  | ⟨1, _⟩ =>
    show win0_10.index (tile0 (i 0).val) (1 : Fin 2) * 512 ≤ (i 1).val ∧ (i 1).val < win0_10.index (tile0 (i 0).val) (1 : Fin 2) * 512 + 512
    rw [e1]; omega

/-- Window 9's array after the region. -/
theorem final0_9 (c : Dev nD) : (dat0 V c).arrAt 9 cfg0.N = arr0_9 V c :=
  (dat0 V c).arrAt_eq_of_cover 9 (arr0_9 V c) (fun t _ => flushed0_9_eq V c t) covered0_9

/-- Window 10's array after the region. -/
theorem final0_10 (c : Dev nD) : (dat0 V c).arrAt 10 cfg0.N = arr0_10 V c :=
  (dat0 V c).arrAt_eq_of_cover 10 (arr0_10 V c) (fun t _ => flushed0_10_eq V c t) covered0_10

/-! ## The input blocks, read off the entry contents -/

/-- Window 0's block at point `t` is rows `1024 t … 1024 t + 1023` of its array. -/
theorem iblk0_0_apply (c : Dev nD) (t : Fin cfg0.N) (y : S1024x1024.Idx) (k : S16384x1024.Idx)
    (hk0 : (k 0).val = t.val * 1024 + (y 0).val) (hk1 : (k 1).val = (y 1).val) :
    (iblk0 V c 0 t : Vec F S1024x1024 .f32) y = (V c (Pipeline.arrRef spec0 0) : S16384x1024.Idx → Elt F .f32) k := by
  obtain ⟨e0, e1, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 1024 + 1 * (y 1).val = (k 1).val; rw [e1, hk1]; omega

/-- Window 1's block at every point is its whole array. -/
theorem iblk0_1_eq (c : Dev nD) (t : Fin cfg0.N) :
    (iblk0 V c 1 t : Vec F S1024x1024 .f32) = (V c (Pipeline.arrRef spec0 1) : S1024x1024.Idx → Elt F .f32) := by
  obtain ⟨-, -, -, -, -, -, e0, e1, -⟩ := idx_facts0 t
  funext y
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- Window 2's block at every point is its whole array. -/
theorem iblk0_2_eq (c : Dev nD) (t : Fin cfg0.N) :
    (iblk0 V c 2 t : Vec F S1x1024 .f32) = (V c (Pipeline.arrRef spec0 2) : S1x1024.Idx → Elt F .f32) := by
  obtain ⟨-, -, -, -, -, -, -, -, e0, e1, -⟩ := idx_facts0 t
  funext y
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- Window 3's block at every point is its whole array. -/
theorem iblk0_3_eq (c : Dev nD) (t : Fin cfg0.N) :
    (iblk0 V c 3 t : Vec F S1x1024 .f32) = (V c (Pipeline.arrRef spec0 3) : S1x1024.Idx → Elt F .f32) := by
  obtain ⟨-, -, -, -, -, -, -, -, -, -, e0, e1, -⟩ := idx_facts0 t
  funext y
  unfold iblk0
  rw [View.read_apply]
  show V c (Pipeline.arrRef spec0 3) _ = V c (Pipeline.arrRef spec0 3) _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega

/-- Window 4's block at every point is its whole array. -/
theorem iblk0_4_eq (c : Dev nD) (t : Fin cfg0.N) :
    (iblk0 V c 4 t : Vec F S1x1024 .f32) = (V c (Pipeline.arrRef spec0 4) : S1x1024.Idx → Elt F .f32) := by
  obtain ⟨-, -, -, -, -, -, -, -, -, -, -, -, e0, e1, -⟩ := idx_facts0 t
  funext y
  unfold iblk0
  rw [View.read_apply]
  show V c (Pipeline.arrRef spec0 4) _ = V c (Pipeline.arrRef spec0 4) _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 1024 + 1 * (y 1).val = (y 1).val; rw [e1]; omega

/-- Window 5's block at every point is its whole array. -/
theorem iblk0_5_eq (c : Dev nD) (t : Fin cfg0.N) :
    (iblk0 V c 5 t : Vec F S512x1024 .f32) = (V c (Pipeline.arrRef spec0 5) : S512x1024.Idx → Elt F .f32) := by
  obtain ⟨-, -, -, -, -, -, -, -, -, -, -, -, -, -, e0, e1, -⟩ := idx_facts0 t
  funext y
  unfold iblk0
  rw [View.read_apply]
  show V c (Pipeline.arrRef spec0 5) _ = V c (Pipeline.arrRef spec0 5) _
  congr 1
  funext a
  apply Fin.ext
  match a with
  | ⟨0, _⟩ => show win0_5.index t (0 : Fin 2) * 512 + 1 * (y 0).val = (y 0).val; rw [e0]; omega
  | ⟨1, _⟩ => show win0_5.index t (1 : Fin 2) * 1024 + 1 * (y 1).val = (y 1).val; rw [e1]; omega

/-- Window 6's block at every point is its whole array. -/
theorem iblk0_6_eq (c : Dev nD) (t : Fin cfg0.N) :
    (iblk0 V c 6 t : Vec F S1x512 .f32) = (V c (Pipeline.arrRef spec0 6) : S1x512.Idx → Elt F .f32) := by
  obtain ⟨-, -, -, -, -, -, -, -, -, -, -, -, -, -, -, -, e0, e1, -⟩ := idx_facts0 t
  funext y
  unfold iblk0
  rw [View.read_apply]
  show V c (Pipeline.arrRef spec0 6) _ = V c (Pipeline.arrRef spec0 6) _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 512 + 1 * (y 1).val = (y 1).val; rw [e1]; omega

/-- Window 7's block at every point is its whole array. -/
theorem iblk0_7_eq (c : Dev nD) (t : Fin cfg0.N) :
    (iblk0 V c 7 t : Vec F S1x512 .f32) = (V c (Pipeline.arrRef spec0 7) : S1x512.Idx → Elt F .f32) := by
  obtain ⟨-, -, -, -, -, -, -, -, -, -, -, -, -, -, -, -, -, -, e0, e1, -⟩ := idx_facts0 t
  funext y
  unfold iblk0
  rw [View.read_apply]
  show V c (Pipeline.arrRef spec0 7) _ = V c (Pipeline.arrRef spec0 7) _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 512 + 1 * (y 1).val = (y 1).val; rw [e1]; omega

/-- Window 8's block at every point is its whole array. -/
theorem iblk0_8_eq (c : Dev nD) (t : Fin cfg0.N) :
    (iblk0 V c 8 t : Vec F S1x512 .f32) = (V c (Pipeline.arrRef spec0 8) : S1x512.Idx → Elt F .f32) := by
  obtain ⟨-, -, -, -, -, -, -, -, -, -, -, -, -, -, -, -, -, -, -, -, e0, e1⟩ := idx_facts0 t
  funext y
  unfold iblk0
  rw [View.read_apply]
  show V c (Pipeline.arrRef spec0 8) _ = V c (Pipeline.arrRef spec0 8) _
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 512 + 1 * (y 1).val = (y 1).val; rw [e1]; omega

end Cert.KernelIdeal.Hand

end
-- ==== Proof.BranchLib.lean ====
/- One branch of the tiled program read at an index, at the exact-arithmetic float instance, for a tile of `a` rows and `b`
   output features: the affine map `x · Wᵀ + b` as a rows-with-rows product into a zero accumulator plus a row broadcast,
   and the row normalisation as the program writes it — the row sum divided by a literal, the deviations, their squares'
   row sum divided by the same literal, the reciprocal square root of that plus a literal, the scale and shift rows, the
   positive part — are, at row `p` and feature `o`, the plain formulas `Cert.Spec.lin` and `Cert.Spec.normKer` of row `p`. -/
import proofs.«171265_j74741020885605_2_alg».proof.Proof.SpecDefs
import proofs.«171265_j74741020885605_2_alg».proof.Proof.LibDotRows
import proofs.«171265_j74741020885605_2_alg».proof.Proof.LibTileLayout
import Idealize.ShloMosaic.PureOps.Ideal.Laws
import Idealize.ShloMosaic.Lib.ValueIdx
import Idealize.ShloMosaic.Lib.ValueLayout

noncomputable section

namespace Cert.BranchLib

open Idealize.ShloMosaic Idealize.ShloMosaic.ValueIdx
open scoped BigOperators

/-! ## The affine map -/

/-- A rows-with-rows product into a zero accumulator plus a bias row, at `(p, o)`: `(∑ d, l (p, d) * r (o, d)) + bias o`. -/
theorem lin_apply {M K N : ℕ} {φ₁ φ₂ : FTy} (d : DotDims ⟨2, ![M, K]⟩ ⟨2, ![N, K]⟩ ⟨2, ![M, N]⟩) (hd : Cert.LibDotRows.RowsRows d)
    (prec : Option ContractPrecision) (l : FVec Ideal ⟨2, ![M, K]⟩ φ₁) (r : FVec Ideal ⟨2, ![N, K]⟩ φ₂) (bias : FVec Ideal ⟨2, ![1, N]⟩ .f32)
    (hrow : (⟨2, ![1, N]⟩ : Shape).Broadcasts ⟨2, ![M, N]⟩) (p : Fin M) (o : Fin N) :
    addf (matmul d prec l r (constant ⟨2, ![M, N]⟩ .f32 0x00000000#32)) (broadcastTo ⟨2, ![M, N]⟩ bias hrow) (ix2 p o)
      = (∑ k : Fin K, l (ix2 p k) * r (ix2 o k)) + bias (ix2 (0 : Fin 1) o) := by
  show FloatOps.matmul d prec l r (constant ⟨2, ![M, N]⟩ .f32 0x00000000#32) (ix2 p o) + broadcastTo ⟨2, ![M, N]⟩ bias hrow (ix2 p o) = _
  rw [Cert.LibDotRows.matmul_zero_apply d hd, broadcastTo_1b_ab_apply]

/-! ## The row normalisation, as the program writes it -/

section Norm

variable {a b : ℕ} (nw : BitVec 32) (y : FVec Ideal ⟨2, ![a, b]⟩ .f32)
  (hred : (⟨2, ![a, b]⟩ : Shape).Reduces [1] ⟨1, ![a]⟩) (hcast : (⟨1, ![a]⟩ : Shape).ShapeCasts ⟨2, ![a, 1]⟩)
  (hcol : (⟨2, ![a, 1]⟩ : Shape).Broadcasts ⟨2, ![a, b]⟩)
  (hφ : FKind.Formats .f32) (hacc : (0x00000000#32 : BitVec 32) = FKind.add.neutral .f32 hφ)

/-- The column of row means: each row's sum (from the zero word), stood up as a column, divided by the literal `nw`. -/
abbrev meanCol : FVec Ideal ⟨2, ![a, 1]⟩ .f32 :=
  divf (shapeCast ⟨2, ![a, 1]⟩ (multiReduction .add [1] ⟨1, ![a]⟩ y 0x00000000#32 hred hφ hacc) hcast)
    (broadcast ⟨2, ![a, 1]⟩ (Scalar.ofBits .f32 nw))

/-- The deviations from the row means. -/
abbrev devs : FVec Ideal ⟨2, ![a, b]⟩ .f32 :=
  subf y (broadcastTo ⟨2, ![a, b]⟩ (meanCol nw y hred hcast hφ hacc) hcol)

/-- The column of row variances: each row's sum of squared deviations, divided by the literal `nw`. -/
abbrev varCol : FVec Ideal ⟨2, ![a, 1]⟩ .f32 :=
  divf (shapeCast ⟨2, ![a, 1]⟩ (multiReduction .add [1] ⟨1, ![a]⟩
      (mulf (devs nw y hred hcast hcol hφ hacc) (devs nw y hred hcast hcol hφ hacc)) 0x00000000#32 hred hφ hacc) hcast)
    (broadcast ⟨2, ![a, 1]⟩ (Scalar.ofBits .f32 nw))

theorem meanCol_apply (p : Fin a) :
    meanCol nw y hred hcast hφ hacc (ix2 p (0 : Fin 1)) = Cert.Spec.mu (Ideal.ofBits .f32 nw) (fun q => y (ix2 p q)) := by
  show Ideal.div (shapeCast ⟨2, ![a, 1]⟩ (multiReduction .add [1] ⟨1, ![a]⟩ y 0x00000000#32 hred hφ hacc) hcast (ix2 p (0 : Fin 1)))
      (Ideal.ofBits .f32 nw) = Ideal.div (∑ q, y (ix2 p q)) (Ideal.ofBits .f32 nw)
  rw [Cert.TileLayout.shapeCast_a_a1_apply, Cert.TileLayout.sum_axis1_apply]

theorem devs_apply (p : Fin a) (q : Fin b) :
    devs nw y hred hcast hcol hφ hacc (ix2 p q) = y (ix2 p q) - Cert.Spec.mu (Ideal.ofBits .f32 nw) (fun q => y (ix2 p q)) := by
  show y (ix2 p q) - broadcastTo ⟨2, ![a, b]⟩ (meanCol nw y hred hcast hφ hacc) hcol (ix2 p q) = _
  rw [Cert.TileLayout.broadcastTo_a1_ab_apply, meanCol_apply]

theorem varCol_apply (p : Fin a) :
    varCol nw y hred hcast hcol hφ hacc (ix2 p (0 : Fin 1)) = Cert.Spec.var (Ideal.ofBits .f32 nw) (fun q => y (ix2 p q)) := by
  show Ideal.div (shapeCast ⟨2, ![a, 1]⟩ (multiReduction .add [1] ⟨1, ![a]⟩
      (mulf (devs nw y hred hcast hcol hφ hacc) (devs nw y hred hcast hcol hφ hacc)) 0x00000000#32 hred hφ hacc) hcast (ix2 p (0 : Fin 1)))
      (Ideal.ofBits .f32 nw)
    = Ideal.div (∑ q, (y (ix2 p q) - Cert.Spec.mu (Ideal.ofBits .f32 nw) (fun q => y (ix2 p q)))
        * (y (ix2 p q) - Cert.Spec.mu (Ideal.ofBits .f32 nw) (fun q => y (ix2 p q)))) (Ideal.ofBits .f32 nw)
  rw [Cert.TileLayout.shapeCast_a_a1_apply, Cert.TileLayout.sum_axis1_apply]
  refine congrArg (fun s => Ideal.div s (Ideal.ofBits .f32 nw)) (Finset.sum_congr rfl fun q _ => ?_)
  show devs nw y hred hcast hcol hφ hacc (ix2 p q) * devs nw y hred hcast hcol hφ hacc (ix2 p q) = _
  rw [devs_apply]

/-- The whole chain at `(p, o)`: the deviation times the reciprocal square root of the variance plus the offset literal,
    times the scale row, plus the shift row, then the positive part. -/
theorem normChain_apply (g beta : FVec Ideal ⟨2, ![1, b]⟩ .f32) (hrow : (⟨2, ![1, b]⟩ : Shape).Broadcasts ⟨2, ![a, b]⟩)
    (p : Fin a) (o : Fin b) :
    maximumf
      (addf
        (mulf
          (mulf (devs nw y hred hcast hcol hφ hacc)
            (broadcastTo ⟨2, ![a, b]⟩
              (rsqrt (addf (varCol nw y hred hcast hcol hφ hacc) (broadcast ⟨2, ![a, 1]⟩ (Scalar.ofBits .f32 0x3727C5AC#32)))) hcol))
          (broadcastTo ⟨2, ![a, b]⟩ g hrow))
        (broadcastTo ⟨2, ![a, b]⟩ beta hrow))
      (broadcast ⟨2, ![a, b]⟩ (Scalar.ofBits .f32 0x00000000#32)) (ix2 p o)
    = Cert.Spec.normKer (Ideal.ofBits .f32 nw) (fun q => y (ix2 p q)) (fun q => g (ix2 (0 : Fin 1) q)) (fun q => beta (ix2 (0 : Fin 1) q)) o := by
  show max (devs nw y hred hcast hcol hφ hacc (ix2 p o)
        * broadcastTo ⟨2, ![a, b]⟩
            (rsqrt (addf (varCol nw y hred hcast hcol hφ hacc) (broadcast ⟨2, ![a, 1]⟩ (Scalar.ofBits .f32 0x3727C5AC#32)))) hcol (ix2 p o)
        * broadcastTo ⟨2, ![a, b]⟩ g hrow (ix2 p o) + broadcastTo ⟨2, ![a, b]⟩ beta hrow (ix2 p o)) (Ideal.ofBits .f32 0x00000000#32) = _
  rw [devs_apply, Cert.TileLayout.broadcastTo_a1_ab_apply, broadcastTo_1b_ab_apply, broadcastTo_1b_ab_apply, Ideal.ofBits_zero_f32]
  show max ((y (ix2 p o) - Cert.Spec.mu (Ideal.ofBits .f32 nw) (fun q => y (ix2 p q)))
        * Ideal.rsqrt (varCol nw y hred hcast hcol hφ hacc (ix2 p (0 : Fin 1)) + Ideal.ofBits .f32 0x3727C5AC#32)
        * g (ix2 (0 : Fin 1) o) + beta (ix2 (0 : Fin 1) o)) 0 = _
  rw [varCol_apply]
  rfl

/-- The same chain followed by a change of float format, which is the identity at this instance. -/
theorem normChain_trunc_apply (ψ : FTy) (hlt : ψ.bits < FTy.f32.bits) (g beta : FVec Ideal ⟨2, ![1, b]⟩ .f32)
    (hrow : (⟨2, ![1, b]⟩ : Shape).Broadcasts ⟨2, ![a, b]⟩) (p : Fin a) (o : Fin b) :
    truncf ψ
      (maximumf
        (addf
          (mulf
            (mulf (devs nw y hred hcast hcol hφ hacc)
              (broadcastTo ⟨2, ![a, b]⟩
                (rsqrt (addf (varCol nw y hred hcast hcol hφ hacc) (broadcast ⟨2, ![a, 1]⟩ (Scalar.ofBits .f32 0x3727C5AC#32)))) hcol))
            (broadcastTo ⟨2, ![a, b]⟩ g hrow))
          (broadcastTo ⟨2, ![a, b]⟩ beta hrow))
        (broadcast ⟨2, ![a, b]⟩ (Scalar.ofBits .f32 0x00000000#32))) hlt (ix2 p o)
    = Cert.Spec.normKer (Ideal.ofBits .f32 nw) (fun q => y (ix2 p q)) (fun q => g (ix2 (0 : Fin 1) q)) (fun q => beta (ix2 (0 : Fin 1) q)) o :=
  normChain_apply nw y hred hcast hcol hφ hacc g beta hrow p o

end Norm

end Cert.BranchLib

end
-- ==== Proof.BranchIdeal0.lean ====
/- The two branch payloads of region 0's kernel at the exact-arithmetic float instance, read at row `p` and feature
   `o` of a row tile: `Cert.Spec.branchKer` of the tile's rows, the weight rows and the bias, scale and shift rows — a
   change of float format is the identity there, the matrix unit's product into zeros is the plain sum, a lane sum from
   the zero word is the plain sum. -/
import proofs.«171265_j74741020885605_2_alg».proof.Proof.BranchLib
import proofs.«171265_j74741020885605_2_alg».proof.Proof.Gen.KernelIdeal.Skeleton
import Idealize.ShloMosaic.Lib.Pipeline.Value

noncomputable section

namespace Cert.KernelIdeal.Hand

open Cert.KernelIdeal Cert.KernelIdeal.Gen
open Idealize.ShloMosaic Idealize.ShloMosaic.ValueIdx
open scoped BigOperators

/-- The row tile as the matrix unit's left operand: a shape cast to the same shape and a change of format, both the
    identity. -/
theorem k0_pay2_eq (x0 : Vec Ideal S1024x1024 .f32) : (k0_pay2 (F := Ideal) x0 : S1024x1024.Idx → EReal) = x0 := by
  unfold k0_pay2
  exact shapeCast_self x0 _

/-- The first branch (1024 features) at `(p, o)`. -/
theorem k0_pay3_apply (x0 x1 : Vec Ideal S1024x1024 .f32) (x2 x3 x4 : Vec Ideal S1x1024 .f32) (p o : Fin 1024) :
    k0_pay3 (F := Ideal) x0 x1 x2 x3 x4 (ix2 p o)
      = Cert.Spec.branchKer Cert.Spec.n1024 (fun r d => x0 (ix2 r d)) (fun o d => x1 (ix2 o d))
          (fun o => x2 (ix2 (0 : Fin 1) o)) (fun o => x3 (ix2 (0 : Fin 1) o)) (fun o => x4 (ix2 (0 : Fin 1) o)) p o := by
  refine (Cert.BranchLib.normChain_trunc_apply 0x44800000#32 _ reduces_S1024x1024_S1024 shapeCasts_S1024_S1024x1
    broadcasts_S1024x1_S1024x1024 (.inl rfl) rfl .bf16 bitsLt_bf16_f32 _ _ broadcasts_S1x1024_S1024x1024 p o).trans ?_
  rw [shapeCast_self x3, shapeCast_self x4]
  show Cert.Spec.normKer Cert.Spec.n1024 _ _ _ o = Cert.Spec.normKer Cert.Spec.n1024
    (Cert.Spec.lin (fun r d => x0 (ix2 r d)) (fun o d => x1 (ix2 o d)) (fun o => x2 (ix2 (0 : Fin 1) o)) p) _ _ o
  refine congrArg (fun y => Cert.Spec.normKer Cert.Spec.n1024 y (fun o => x3 (ix2 (0 : Fin 1) o)) (fun o => x4 (ix2 (0 : Fin 1) o)) o) (funext fun q => ?_)
  refine (Cert.BranchLib.lin_apply _ ⟨rfl, rfl, rfl, rfl, rfl, rfl⟩ none _ _ _ _ p q).trans ?_
  rw [k0_pay2_eq, shapeCast_self x2]
  rfl

/-- The second branch (512 features) at `(p, o)`, of the row tile as the matrix unit's left operand. -/
theorem k0_pay1_apply (x0 : Vec Ideal S1024x1024 .f32) (x5 : Vec Ideal S512x1024 .f32) (x6 x7 x8 : Vec Ideal S1x512 .f32) (p : Fin 1024) (o : Fin 512) :
    k0_pay1 (F := Ideal) (k0_pay2 x0) x5 x6 x7 x8 (ix2 p o)
      = Cert.Spec.branchKer Cert.Spec.n512 (fun r d => x0 (ix2 r d)) (fun o d => x5 (ix2 o d))
          (fun o => x6 (ix2 (0 : Fin 1) o)) (fun o => x7 (ix2 (0 : Fin 1) o)) (fun o => x8 (ix2 (0 : Fin 1) o)) p o := by
  refine (Cert.BranchLib.normChain_apply 0x44000000#32 _ reduces_S1024x512_S1024 shapeCasts_S1024_S1024x1
    broadcasts_S1024x1_S1024x512 (.inl rfl) rfl _ _ broadcasts_S1x512_S1024x512 p o).trans ?_
  rw [shapeCast_self x7, shapeCast_self x8]
  show Cert.Spec.normKer Cert.Spec.n512 _ _ _ o = Cert.Spec.normKer Cert.Spec.n512
    (Cert.Spec.lin (fun r d => x0 (ix2 r d)) (fun o d => x5 (ix2 o d)) (fun o => x6 (ix2 (0 : Fin 1) o)) p) _ _ o
  refine congrArg (fun y => Cert.Spec.normKer Cert.Spec.n512 y (fun o => x7 (ix2 (0 : Fin 1) o)) (fun o => x8 (ix2 (0 : Fin 1) o)) o) (funext fun q => ?_)
  refine (Cert.BranchLib.lin_apply _ ⟨rfl, rfl, rfl, rfl, rfl, rfl⟩ none _ _ _ _ p q).trans ?_
  rw [k0_pay2_eq, shapeCast_self x6]
  rfl

end Cert.KernelIdeal.Hand

end
-- ==== Proof.BranchArray0.lean ====
/- Region 0's two output arrays at the exact-arithmetic float instance, read at row `r` (of all 16384) and feature `o`:
   `Cert.Spec.branchKer` of the region's input arrays as it finds them — the row tile that holds row `r` contributes
   only row `r` (the affine map and the normalisation are row by row), so the tiling disappears. -/
import proofs.«171265_j74741020885605_2_alg».proof.Proof.BranchValue0
import proofs.«171265_j74741020885605_2_alg».proof.Proof.BranchIdeal0

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- One branch at row `r` reads only row `r` of its first operand. -/
theorem branchKer_row0 {R R' C : ℕ} (n : EReal) (x : Fin R → Fin 1024 → EReal) (x' : Fin R' → Fin 1024 → EReal)
    (W : Fin C → Fin 1024 → EReal) (b g beta : Fin C → EReal) (r : Fin R) (r' : Fin R') (h : x r = x' r') :
    Cert.Spec.branchKer n x W b g beta r = Cert.Spec.branchKer n x' W b g beta r' := by
  unfold Cert.Spec.branchKer Cert.Spec.lin
  rw [h]

/-- Row `r % 1024` of the row tile that holds row `r` is row `r` of window 0's array. -/
theorem tile_row0 (c : Dev nD) (r : Fin 16384) :
    (fun d : Fin 1024 => (iblk0 V c 0 (tile0 r.val) : Vec Ideal S1024x1024 .f32) (ix2 (⟨r.val % 1024, Nat.mod_lt _ (by decide)⟩ : Fin 1024) d))
      = fun d : Fin 1024 => (V c (Pipeline.arrRef spec0 0) : S16384x1024.Idx → EReal) (ix2 r d) := by
  funext d
  refine iblk0_0_apply V c (tile0 r.val) _ _ ?_ rfl
  show r.val = (tile0 r.val).val * 1024 + r.val % 1024
  rw [tile0_val r.val r.isLt]; omega

/-- Window 9's array after the region, at `(r, o)`: the first branch of the input arrays. -/
theorem final0_9_apply (c : Dev nD) (r : Fin 16384) (o : Fin 1024) :
    ((dat0 V c).arrAt 9 cfg0.N : S16384x1024.Idx → EReal) (ix2 r o)
      = Cert.Spec.branchKer Cert.Spec.n1024 (fun r d => (V c (Pipeline.arrRef spec0 0) : S16384x1024.Idx → EReal) (ix2 r d)) (fun o d => (V c (Pipeline.arrRef spec0 1) : S1024x1024.Idx → EReal) (ix2 o d))
          (fun o => (V c (Pipeline.arrRef spec0 2) : S1x1024.Idx → EReal) (ix2 (0 : Fin 1) o)) (fun o => (V c (Pipeline.arrRef spec0 3) : S1x1024.Idx → EReal) (ix2 (0 : Fin 1) o))
          (fun o => (V c (Pipeline.arrRef spec0 4) : S1x1024.Idx → EReal) (ix2 (0 : Fin 1) o)) r o := by
  rw [final0_9]
  show k0_pay3 (F := Ideal) (iblk0 V c 0 (tile0 r.val)) (iblk0 V c 1 (tile0 r.val)) (iblk0 V c 2 (tile0 r.val))
      (iblk0 V c 3 (tile0 r.val)) (iblk0 V c 4 (tile0 r.val))
      (ix2 (⟨r.val % 1024, Nat.mod_lt _ (by decide)⟩ : Fin 1024) o) = _
  rw [k0_pay3_apply, iblk0_1_eq, iblk0_2_eq, iblk0_3_eq, iblk0_4_eq]
  exact congrFun (branchKer_row0 _ _ _ _ _ _ _ _ r (tile_row0 V c r)) o

/-- Window 10's array after the region, at `(r, o)`: the second branch of the input arrays. -/
theorem final0_10_apply (c : Dev nD) (r : Fin 16384) (o : Fin 512) :
    ((dat0 V c).arrAt 10 cfg0.N : S16384x512.Idx → EReal) (ix2 r o)
      = Cert.Spec.branchKer Cert.Spec.n512 (fun r d => (V c (Pipeline.arrRef spec0 0) : S16384x1024.Idx → EReal) (ix2 r d)) (fun o d => (V c (Pipeline.arrRef spec0 5) : S512x1024.Idx → EReal) (ix2 o d))
          (fun o => (V c (Pipeline.arrRef spec0 6) : S1x512.Idx → EReal) (ix2 (0 : Fin 1) o)) (fun o => (V c (Pipeline.arrRef spec0 7) : S1x512.Idx → EReal) (ix2 (0 : Fin 1) o))
          (fun o => (V c (Pipeline.arrRef spec0 8) : S1x512.Idx → EReal) (ix2 (0 : Fin 1) o)) r o := by
  rw [final0_10]
  show k0_pay1 (F := Ideal) (k0_pay2 (iblk0 V c 0 (tile0 r.val))) (iblk0 V c 5 (tile0 r.val)) (iblk0 V c 6 (tile0 r.val))
      (iblk0 V c 7 (tile0 r.val)) (iblk0 V c 8 (tile0 r.val))
      (ix2 (⟨r.val % 1024, Nat.mod_lt _ (by decide)⟩ : Fin 1024) o) = _
  rw [k0_pay1_apply, iblk0_5_eq, iblk0_6_eq, iblk0_7_eq, iblk0_8_eq]
  exact congrFun (branchKer_row0 _ _ _ _ _ _ _ _ r (tile_row0 V c r)) o

end Cert.KernelIdeal.Hand

end
-- ==== Proof.ComposeLib.lean ====
/- Two readings of a reshape at an index written by coordinates — a `[B·N, C]` array seen as `[B, N, C]` and back: entry
   `(b, n, o)` of the one is entry `(b·N + n, o)` of the other — and the rows of a batch: one branch of the whole
   `[B·N, 1024]` input at row `b·N + n` is the branch of batch `b`'s rows at row `n`, the branch being row by row. -/
import proofs.«171265_j74741020885605_2_alg».proof.Proof.SpecDefs
import Idealize.ShloMosaic.Lib.ValueLayout

noncomputable section

namespace Cert.ComposeLib

open Idealize.ShloMosaic Idealize.ShloMosaic.ValueIdx

variable {α : Type}

/-- A `[R, C]` array cast to `[B, N, C]` reads, at `(b, n, o)`, the operand at `(b·N + n, o)`. -/
theorem shapeCast_rows_split_apply {R B N C : ℕ} (x : (⟨2, ![R, C]⟩ : Shape).Idx → α)
    (h : (⟨2, ![R, C]⟩ : Shape).ShapeCasts ⟨3, ![B, N, C]⟩) (b : Fin B) (n : Fin N) (o : Fin C) (r : Fin R)
    (hr : r.val = b.val * N + n.val) : shapeCast ⟨3, ![B, N, C]⟩ x h (ix3 b n o) = x (ix2 r o) :=
  shapeCast_apply x h _ _ (by
    rw [Shape.rowMajor_val_two, Shape.rowMajor_val_three]
    show r.val * C + o.val = (b.val * N + n.val) * C + o.val
    rw [hr])

/-- A `[B, N, C]` array cast to `[R, C]` reads, at `(b·N + n, o)`, the operand at `(b, n, o)`. -/
theorem shapeCast_rows_merge_apply {R B N C : ℕ} (x : (⟨3, ![B, N, C]⟩ : Shape).Idx → α)
    (h : (⟨3, ![B, N, C]⟩ : Shape).ShapeCasts ⟨2, ![R, C]⟩) (b : Fin B) (n : Fin N) (o : Fin C) (r : Fin R)
    (hr : r.val = b.val * N + n.val) : shapeCast ⟨2, ![R, C]⟩ x h (ix2 r o) = x (ix3 b n o) :=
  shapeCast_apply x h _ _ (by
    rw [Shape.rowMajor_val_two, Shape.rowMajor_val_three]
    show (b.val * N + n.val) * C + o.val = r.val * C + o.val
    rw [hr])

/-- One branch at row `r` reads only row `r` of its first operand. -/
theorem branchKer_row {R R' C : ℕ} (n : EReal) (x : Fin R → Fin 1024 → EReal) (x' : Fin R' → Fin 1024 → EReal)
    (W : Fin C → Fin 1024 → EReal) (b g beta : Fin C → EReal) (r : Fin R) (r' : Fin R') (h : x r = x' r') :
    Cert.Spec.branchKer n x W b g beta r = Cert.Spec.branchKer n x' W b g beta r' := by
  unfold Cert.Spec.branchKer Cert.Spec.lin
  rw [h]

end Cert.ComposeLib

end
-- ==== Proof.RefArr.lean ====
/- Arrays as functions of explicit coordinates.  A rank-three array of extents n0 × n1 × n2 is read
   as the function (a, b, c) ↦ its entry at the index with those coordinates; likewise for ranks two
   and one.  The specification is stated over such functions. -/
import Idealize.ShloMosaic.PureOps.Ideal
import Idealize.ShloMosaic.Lib.ValueIdx

noncomputable section

namespace Cert.Arr

open Idealize.ShloMosaic Idealize.ShloMosaic.ValueIdx

/-- A rank-three array as a function of its three coordinates. -/
abbrev arr3 {n0 n1 n2 : Nat} (x : (⟨3, ![n0, n1, n2]⟩ : Shape).Idx → EReal) : Fin n0 → Fin n1 → Fin n2 → EReal :=
  fun a b c => x (ix3 a b c)

/-- A rank-two array as a function of its two coordinates. -/
abbrev arr2 {n0 n1 : Nat} (x : (⟨2, ![n0, n1]⟩ : Shape).Idx → EReal) : Fin n0 → Fin n1 → EReal :=
  fun a b => x (ix2 a b)

/-- A rank-one array as a function of its coordinate. -/
abbrev arr1 {n : Nat} (x : (⟨1, ![n]⟩ : Shape).Idx → EReal) : Fin n → EReal :=
  fun a => x (ix1 a)

end Cert.Arr

end
-- ==== Proof.Compose0.lean ====
/- Region 0's two outputs as region 2 finds them — reshaped to `[8, 2048, ·]` by the last host stretch — in terms of
   the program's arguments: at batch `b`, row `n`, feature `o`, one branch (`Cert.Spec.branchKer`) of batch `b`'s rows
   of the input, the weight rows and the bias, scale and shift vectors. The host stretches only reshape: a `[8, 2048, C]`
   array and the `[16384, C]` one hold the same numbers, entry `(b, n, o)` at `(2048 b + n, o)`; a vector and its
   `[1, C]` row likewise; and the branch is row by row. -/
import proofs.«171265_j74741020885605_2_alg».proof.Proof.Assemble
import proofs.«171265_j74741020885605_2_alg».proof.Proof.BranchArray0
import proofs.«171265_j74741020885605_2_alg».proof.Proof.ComposeLib
import proofs.«171265_j74741020885605_2_alg».proof.Proof.RefArr
import Idealize.ShloMosaic.Lib.StableHlo.Run
import Idealize.ShloMosaic.Lib.ValueLayout

set_option maxRecDepth 16384

noncomputable section

namespace Cert.KernelIdeal.Hand

open Cert.KernelIdeal Cert.KernelIdeal.Gen Cert.Arr
open Idealize.ShloMosaic Idealize.ShloMosaic.TcCoe Idealize.ShloMosaic.ValueIdx Idealize.ShloMosaic.StableHlo Idealize.SL.Sem
open Idealize.ShloMosaic.Pipeline (Dat)

variable (m : (ℓ : Loc nD τ sig) → Buf (Elt Ideal) ℓ) (ρ : Dev nD → PrngReg)

/-! ## The region's input arrays as it finds them, from the arguments -/
theorem Ve0_w0 (c : Dev nD) : (Ve0 m ρ c (Pipeline.arrRef spec0 0) : S16384x1024.Idx → EReal) = shapeCast S16384x1024 (m ((c : Thread nD τ).loc main_arg0) : S8x2048x1024.Idx → EReal) shapeCasts_S8x2048x1024_S16384x1024 := by
  show StableHlo.after hostOps0 (W0 m ρ c) (Proc.devRef .tc main_v0) = _
  dsimp only [hostOps0]
  after_results
  rfl
theorem Ve0_w1 (c : Dev nD) : (Ve0 m ρ c (Pipeline.arrRef spec0 1) : S1024x1024.Idx → EReal) = (m ((c : Thread nD τ).loc main_arg2) : S1024x1024.Idx → EReal) := by
  exact (StableHlo.after_of_writes_sub hostOps0 _ hostOps0_writes (by decide : main_arg2 ∉ hostOps0_W)).trans rfl
theorem Ve0_w2 (c : Dev nD) : (Ve0 m ρ c (Pipeline.arrRef spec0 2) : S1x1024.Idx → EReal) = shapeCast S1x1024 (m ((c : Thread nD τ).loc main_arg3) : S1024.Idx → EReal) shapeCasts_S1024_S1x1024 := by
  show StableHlo.after hostOps0 (W0 m ρ c) (Proc.devRef .tc main_v2) = _
  dsimp only [hostOps0]
  after_results
  rfl
theorem Ve0_w3 (c : Dev nD) : (Ve0 m ρ c (Pipeline.arrRef spec0 3) : S1x1024.Idx → EReal) = shapeCast S1x1024 (m ((c : Thread nD τ).loc main_arg4) : S1024.Idx → EReal) shapeCasts_S1024_S1x1024 := by
  show StableHlo.after hostOps0 (W0 m ρ c) (Proc.devRef .tc main_v3) = _
  dsimp only [hostOps0]
  after_results
  rfl
theorem Ve0_w4 (c : Dev nD) : (Ve0 m ρ c (Pipeline.arrRef spec0 4) : S1x1024.Idx → EReal) = shapeCast S1x1024 (m ((c : Thread nD τ).loc main_arg5) : S1024.Idx → EReal) shapeCasts_S1024_S1x1024 := by
  show StableHlo.after hostOps0 (W0 m ρ c) (Proc.devRef .tc main_v4) = _
  dsimp only [hostOps0]
  after_results
  rfl
theorem Ve0_w5 (c : Dev nD) : (Ve0 m ρ c (Pipeline.arrRef spec0 5) : S512x1024.Idx → EReal) = (m ((c : Thread nD τ).loc main_arg14) : S512x1024.Idx → EReal) := by
  exact (StableHlo.after_of_writes_sub hostOps0 _ hostOps0_writes (by decide : main_arg14 ∉ hostOps0_W)).trans rfl
theorem Ve0_w6 (c : Dev nD) : (Ve0 m ρ c (Pipeline.arrRef spec0 6) : S1x512.Idx → EReal) = shapeCast S1x512 (m ((c : Thread nD τ).loc main_arg15) : S512.Idx → EReal) shapeCasts_S512_S1x512 := by
  show StableHlo.after hostOps0 (W0 m ρ c) (Proc.devRef .tc main_v5) = _
  dsimp only [hostOps0]
  after_results
  rfl
theorem Ve0_w7 (c : Dev nD) : (Ve0 m ρ c (Pipeline.arrRef spec0 7) : S1x512.Idx → EReal) = shapeCast S1x512 (m ((c : Thread nD τ).loc main_arg16) : S512.Idx → EReal) shapeCasts_S512_S1x512 := by
  show StableHlo.after hostOps0 (W0 m ρ c) (Proc.devRef .tc main_v6) = _
  dsimp only [hostOps0]
  after_results
  rfl
theorem Ve0_w8 (c : Dev nD) : (Ve0 m ρ c (Pipeline.arrRef spec0 8) : S1x512.Idx → EReal) = shapeCast S1x512 (m ((c : Thread nD τ).loc main_arg17) : S512.Idx → EReal) shapeCasts_S512_S1x512 := by
  show StableHlo.after hostOps0 (W0 m ρ c) (Proc.devRef .tc main_v7) = _
  dsimp only [hostOps0]
  after_results
  rfl

/-! ## The region's output arrays, and their reshapes as region 2 finds them -/

theorem W4_out0_9 (c : Dev nD) : W4 m ρ c (Proc.devRef .tc main_v8_0) = (dat0 (Ve0 m ρ) c).arrAt 9 cfg0.N :=
  (W4_of_ne m ρ c main_v8_0 (by decide)).trans
    ((StableHlo.after_of_writes_sub hostOps1 _ hostOps1_writes (by decide : main_v8_0 ∉ hostOps1_W)).trans (W2_arr m ρ c 9))

theorem W4_out0_10 (c : Dev nD) : W4 m ρ c (Proc.devRef .tc main_v8_1) = (dat0 (Ve0 m ρ) c).arrAt 10 cfg0.N :=
  (W4_of_ne m ρ c main_v8_1 (by decide)).trans
    ((StableHlo.after_of_writes_sub hostOps1 _ hostOps1_writes (by decide : main_v8_1 ∉ hostOps1_W)).trans (W2_arr m ρ c 10))

theorem Ve2_main_v16 (c : Dev nD) : (Ve2 m ρ c main_v16 : S8x2048x1024.Idx → EReal)
    = shapeCast S8x2048x1024 (W4 m ρ c (Proc.devRef .tc main_v8_0) : S16384x1024.Idx → EReal) shapeCasts_S16384x1024_S8x2048x1024 := by
  show StableHlo.after hostOps2 (W4 m ρ c) (Proc.devRef .tc main_v16) = _
  dsimp only [hostOps2]
  after_results
  rfl

theorem Ve2_main_v19 (c : Dev nD) : (Ve2 m ρ c main_v19 : S8x2048x512.Idx → EReal)
    = shapeCast S8x2048x512 (W4 m ρ c (Proc.devRef .tc main_v8_1) : S16384x512.Idx → EReal) shapeCasts_S16384x512_S8x2048x512 := by
  show StableHlo.after hostOps2 (W4 m ρ c) (Proc.devRef .tc main_v19) = _
  dsimp only [hostOps2]
  after_results
  rfl

/-! ## The two branches at batch `b`, row `n`, feature `o` -/

/-- A vector's `[1, C]` row read along the row is the vector. -/
theorem row_of_vec0 {C : ℕ} (a : (⟨1, ![C]⟩ : Shape).Idx → EReal) (h : (⟨1, ![C]⟩ : Shape).ShapeCasts ⟨2, ![1, C]⟩) :
    (fun o : Fin C => shapeCast ⟨2, ![1, C]⟩ a h (ix2 (0 : Fin 1) o)) = arr1 a :=
  funext fun o => shapeCast_a_1a_apply a h 0 o

/-- The `[16384, 1024]` reshape of a `[8, 2048, 1024]` array at row `2048 b + n` is batch `b`'s row `n`. -/
theorem batch_row0 (a : S8x2048x1024.Idx → EReal) (b : Fin 8) (n : Fin 2048) (r : Fin 16384) (hr : r.val = b.val * 2048 + n.val) :
    (fun d : Fin 1024 => shapeCast S16384x1024 a shapeCasts_S8x2048x1024_S16384x1024 (ix2 r d)) = arr3 a b n :=
  funext fun d => Cert.ComposeLib.shapeCast_rows_merge_apply a _ b n d r hr

/-- `q` as region 2 finds it. -/
theorem q_apply (c : Dev nD) (b : Fin 8) (n : Fin 2048) (o : Fin 1024) :
    (Ve2 m ρ c main_v16 : S8x2048x1024.Idx → EReal) (ix3 b n o)
      = Cert.Spec.branchKer Cert.Spec.n1024 (arr3 (m ((c : Thread nD τ).loc main_arg0) : S8x2048x1024.Idx → EReal) b) (arr2 (m ((c : Thread nD τ).loc main_arg2) : S1024x1024.Idx → EReal))
          (arr1 (m ((c : Thread nD τ).loc main_arg3) : S1024.Idx → EReal)) (arr1 (m ((c : Thread nD τ).loc main_arg4) : S1024.Idx → EReal)) (arr1 (m ((c : Thread nD τ).loc main_arg5) : S1024.Idx → EReal)) n o := by
  have hr : b.val * 2048 + n.val < 16384 := by have := b.isLt; have := n.isLt; omega
  rw [Ve2_main_v16, Cert.ComposeLib.shapeCast_rows_split_apply _ _ b n o ⟨b.val * 2048 + n.val, hr⟩ rfl, W4_out0_9,
    final0_9_apply (Ve0 m ρ) c _ o, Ve0_w0, Ve0_w1, Ve0_w2, Ve0_w3, Ve0_w4,
    row_of_vec0, row_of_vec0, row_of_vec0]
  exact congrFun (Cert.ComposeLib.branchKer_row _ _ _ _ _ _ _ _ n (batch_row0 _ b n _ rfl)) o

/-- `v2` as region 2 finds it. -/
theorem v2_apply (c : Dev nD) (b : Fin 8) (n : Fin 2048) (o : Fin 512) :
    (Ve2 m ρ c main_v19 : S8x2048x512.Idx → EReal) (ix3 b n o)
      = Cert.Spec.branchKer Cert.Spec.n512 (arr3 (m ((c : Thread nD τ).loc main_arg0) : S8x2048x1024.Idx → EReal) b) (arr2 (m ((c : Thread nD τ).loc main_arg14) : S512x1024.Idx → EReal))
          (arr1 (m ((c : Thread nD τ).loc main_arg15) : S512.Idx → EReal)) (arr1 (m ((c : Thread nD τ).loc main_arg16) : S512.Idx → EReal)) (arr1 (m ((c : Thread nD τ).loc main_arg17) : S512.Idx → EReal)) n o := by
  have hr : b.val * 2048 + n.val < 16384 := by have := b.isLt; have := n.isLt; omega
  rw [Ve2_main_v19, Cert.ComposeLib.shapeCast_rows_split_apply _ _ b n o ⟨b.val * 2048 + n.val, hr⟩ rfl, W4_out0_10,
    final0_10_apply (Ve0 m ρ) c _ o, Ve0_w0, Ve0_w5, Ve0_w6, Ve0_w7, Ve0_w8,
    row_of_vec0, row_of_vec0, row_of_vec0]
  exact congrFun (Cert.ComposeLib.branchKer_row _ _ _ _ _ _ _ _ n (batch_row0 _ b n _ rfl)) o

end Cert.KernelIdeal.Hand

end
-- ==== Proof.BranchValue1.lean ====
/- The value of region 1 of @main (custom_call 1, the fused branch kernel on 16 row tiles of 1024 rows): what the
   body leaves in each output window's staging buffer IS the skeleton's payload of the input blocks (the one store is of
   the whole buffer and every load is of a whole buffer); so each output array after the region, read at row `r` and
   column `o`, is the payload of row tile `r / 1024` read at `(r % 1024, o)`. Generic in the float instance. -/
import proofs.«171265_j74741020885605_2_alg».proof.Proof.BranchFrame1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

variable (V : (c : Dev nD) → (b : Ref sig .tc) → Buf (Elt F) ((c : Thread nD τ).loc b))

theorem zero_off1 : (![0, 0] : Fin 2 → Nat) = fun _ => 0 := funext fun a => by fin_cases a <;> rfl

/-! ## The staging buffers after the body are the payloads -/

/-- Window 9's buffer after the body is the first branch's payload of the blocks of windows 0–4. -/
theorem out1_9_eq (x0 : Vec F S1024x1024 .f32) (x1 : Vec F S1024x1024 .f32) (x2 : Vec F S1x1024 .f32) (x3 : Vec F S1x1024 .f32) (x4 : Vec F S1x1024 .f32) :
    out1_9 x0 x1 x2 x3 x4 = k1_pay3 x0 x1 x2 x3 x4 := by
  unfold out1_9
  rw [View.canon_unit_zero zero_off1]
  simp only [View.ld_unit_zero (S := S1024x1024) zero_off1, View.ld_unit_zero (S := S1x1024) zero_off1]

/-- Window 10's buffer after the body is the second branch's payload of the blocks of windows 0 and 5–8. -/
theorem out1_10_eq (x0 : Vec F S1024x1024 .f32) (x5 : Vec F S512x1024 .f32) (x6 : Vec F S1x512 .f32) (x7 : Vec F S1x512 .f32) (x8 : Vec F S1x512 .f32) :
    out1_10 x0 x5 x6 x7 x8 = k1_pay1 (k1_pay2 x0) x5 x6 x7 x8 := by
  unfold out1_10
  rw [View.canon_unit_zero zero_off1]
  simp only [View.ld_unit_zero (S := S1024x1024) zero_off1, View.ld_unit_zero (S := S512x1024) zero_off1, View.ld_unit_zero (S := S1x512) zero_off1]

/-! ## The printed index maps, decided over the grid -/

/-- Windows 0, 9 and 10 move down one row tile per point and stay at column block 0; every other window stays at
    block (0, 0). -/
theorem idx_facts1 : ∀ t : Fin cfg1.N,
    win1_0.index t (0 : Fin 2) = t.val ∧ win1_0.index t (1 : Fin 2) = 0
    ∧ win1_9.index t (0 : Fin 2) = t.val ∧ win1_9.index t (1 : Fin 2) = 0
    ∧ win1_10.index t (0 : Fin 2) = t.val ∧ win1_10.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-! ## The row tile of a row, and an array index inside its tile -/

/-- The point whose row tile holds row `r` (of the 16384 rows; reduced mod 16 so that it is a point for every `r`). -/
def tile1 (r : ℕ) : Fin cfg1.N := ⟨r / 1024 % 16, by rw [show cfg1.N = 16 from N_1]; omega⟩

theorem tile1_val (r : ℕ) (h : r < 16384) : (tile1 r).val = r / 1024 := by
  show r / 1024 % 16 = r / 1024; omega

/-- An index of window 9's array, inside its row tile: `(r % 1024, o)`. -/
def inTile1_9 (i : S16384x1024.Idx) : S1024x1024.Idx :=
  ix2 (⟨(i 0).val % 1024, Nat.mod_lt _ (by decide)⟩ : Fin 1024) (⟨(i 1).val, idx2_lt1 i⟩ : Fin 1024)
/-- An index of window 10's array, inside its row tile: `(r % 1024, o)`. -/
def inTile1_10 (i : S16384x512.Idx) : S1024x512.Idx :=
  ix2 (⟨(i 0).val % 1024, Nat.mod_lt _ (by decide)⟩ : Fin 1024) (⟨(i 1).val, idx2_lt1 i⟩ : Fin 512)

/-! ## The output arrays after the region -/

/-- Window 9's array after the region: at row `r`, column `o`, the first branch's payload of row tile `r / 1024` at
    `(r % 1024, o)`. -/
def arr1_9 (c : Dev nD) : S16384x1024.Idx → Elt F .bf16 := fun i =>
  k1_pay3 (iblk1 V c 0 (tile1 (i 0).val)) (iblk1 V c 1 (tile1 (i 0).val)) (iblk1 V c 2 (tile1 (i 0).val)) (iblk1 V c 3 (tile1 (i 0).val)) (iblk1 V c 4 (tile1 (i 0).val)) (inTile1_9 i)

/-- Window 10's array after the region: at row `r`, column `o`, the second branch's payload of row tile `r / 1024` at
    `(r % 1024, o)`. -/
def arr1_10 (c : Dev nD) : S16384x512.Idx → Elt F .bf16 := fun i =>
  k1_pay1 (k1_pay2 (iblk1 V c 0 (tile1 (i 0).val))) (iblk1 V c 5 (tile1 (i 0).val)) (iblk1 V c 6 (tile1 (i 0).val)) (iblk1 V c 7 (tile1 (i 0).val)) (iblk1 V c 8 (tile1 (i 0).val)) (inTile1_10 i)

/-- What point `t` writes back of window 9 is block `t` of `arr1_9`. -/
theorem flushed1_9_eq (c : Dev nD) (t : Fin cfg1.N) :
    (dat1 V c).flushed 9 t = ((cfg1.win 9).blk t).view.read (Elt F) (arr1_9 V c) := by
  show (cfg1.win 9).cut (grid1.coords t) ((dat1 V c).after 9 t) = _
  rw [after1_9, out1_9_eq]
  obtain ⟨-, -, e0, e1, -⟩ := idx_facts1 t
  have hN : cfg1.N = 16 := N_1
  have htN : t.val < cfg1.N := t.isLt
  funext j
  show k1_pay3 (iblk1 V c 0 t) (iblk1 V c 1 t) (iblk1 V c 2 t) (iblk1 V c 3 t) (iblk1 V c 4 t) j = arr1_9 V c (((cfg1.win 9).blk t).view.emb j)
  have hj0 : (j 0).val < 1024 := (j 0).isLt
  have v0 : ((((cfg1.win 9).blk t).view.emb j) 0).val = t.val * 1024 + (j 0).val := by
    show win1_9.index t (0 : Fin 2) * 1024 + 1 * (j 0).val = _; rw [e0]; omega
  have v1 : ((((cfg1.win 9).blk t).view.emb j) 1).val = (j 1).val := by
    show win1_9.index t (1 : Fin 2) * 1024 + 1 * (j 1).val = _; rw [e1]; omega
  have ht : tile1 ((((cfg1.win 9).blk t).view.emb j) 0).val = t :=
    Fin.ext (by show ((((cfg1.win 9).blk t).view.emb j) 0).val / 1024 % 16 = t.val; rw [v0]; omega)
  have hj : inTile1_9 (((cfg1.win 9).blk t).view.emb j) = j := by
    funext a
    match a with
    | ⟨0, _⟩ => exact Fin.ext (by show ((((cfg1.win 9).blk t).view.emb j) 0).val % 1024 = (j 0).val; rw [v0]; omega)
    | ⟨1, _⟩ => exact Fin.ext v1
  show _ = k1_pay3 (iblk1 V c 0 (tile1 ((((cfg1.win 9).blk t).view.emb j) 0).val)) (iblk1 V c 1 (tile1 ((((cfg1.win 9).blk t).view.emb j) 0).val)) (iblk1 V c 2 (tile1 ((((cfg1.win 9).blk t).view.emb j) 0).val)) (iblk1 V c 3 (tile1 ((((cfg1.win 9).blk t).view.emb j) 0).val)) (iblk1 V c 4 (tile1 ((((cfg1.win 9).blk t).view.emb j) 0).val)) (inTile1_9 (((cfg1.win 9).blk t).view.emb j))
  rw [ht]
  exact congrArg _ hj.symm

/-- What point `t` writes back of window 10 is block `t` of `arr1_10`. -/
theorem flushed1_10_eq (c : Dev nD) (t : Fin cfg1.N) :
    (dat1 V c).flushed 10 t = ((cfg1.win 10).blk t).view.read (Elt F) (arr1_10 V c) := by
  show (cfg1.win 10).cut (grid1.coords t) ((dat1 V c).after 10 t) = _
  rw [after1_10, out1_10_eq]
  obtain ⟨-, -, -, -, e0, e1, -⟩ := idx_facts1 t
  have hN : cfg1.N = 16 := N_1
  have htN : t.val < cfg1.N := t.isLt
  funext j
  show k1_pay1 (k1_pay2 (iblk1 V c 0 t)) (iblk1 V c 5 t) (iblk1 V c 6 t) (iblk1 V c 7 t) (iblk1 V c 8 t) j = arr1_10 V c (((cfg1.win 10).blk t).view.emb j)
  have hj0 : (j 0).val < 1024 := (j 0).isLt
  have v0 : ((((cfg1.win 10).blk t).view.emb j) 0).val = t.val * 1024 + (j 0).val := by
    show win1_10.index t (0 : Fin 2) * 1024 + 1 * (j 0).val = _; rw [e0]; omega
  have v1 : ((((cfg1.win 10).blk t).view.emb j) 1).val = (j 1).val := by
    show win1_10.index t (1 : Fin 2) * 512 + 1 * (j 1).val = _; rw [e1]; omega
  have ht : tile1 ((((cfg1.win 10).blk t).view.emb j) 0).val = t :=
    Fin.ext (by show ((((cfg1.win 10).blk t).view.emb j) 0).val / 1024 % 16 = t.val; rw [v0]; omega)
  have hj : inTile1_10 (((cfg1.win 10).blk t).view.emb j) = j := by
    funext a
    match a with
    | ⟨0, _⟩ => exact Fin.ext (by show ((((cfg1.win 10).blk t).view.emb j) 0).val % 1024 = (j 0).val; rw [v0]; omega)
    | ⟨1, _⟩ => exact Fin.ext v1
  show _ = k1_pay1 (k1_pay2 (iblk1 V c 0 (tile1 ((((cfg1.win 10).blk t).view.emb j) 0).val))) (iblk1 V c 5 (tile1 ((((cfg1.win 10).blk t).view.emb j) 0).val)) (iblk1 V c 6 (tile1 ((((cfg1.win 10).blk t).view.emb j) 0).val)) (iblk1 V c 7 (tile1 ((((cfg1.win 10).blk t).view.emb j) 0).val)) (iblk1 V c 8 (tile1 ((((cfg1.win 10).blk t).view.emb j) 0).val)) (inTile1_10 (((cfg1.win 10).blk t).view.emb j))
  rw [ht]
  exact congrArg _ hj.symm

/-- An index of window 9's array is in point `t`'s block iff each coordinate is in the block's range on its axis. -/
theorem mem_blk1_9 (t : Fin cfg1.N) (i : S16384x1024.Idx) :
    i ∈ ((cfg1.win 9).blk t).view.set ↔ ∀ a : Fin 2, win1_9.index t a * S1024x1024.size a ≤ (i a).val ∧ (i a).val < win1_9.index t a * S1024x1024.size a + S1024x1024.size a := by
  show i ∈ ((View.whole main_v15_0).slice (win1_9.rect t)).set ↔ _
  rw [View.set_slice_whole, Rect.mem_set_unit]
  exact Iff.rfl

/-- Every index of window 9's array is in the block of its row's tile, which is written back. -/
theorem covered1_9 (i : S16384x1024.Idx) :
    ∃ t : Fin cfg1.N, (cfg1.win 9).flush t = true ∧ i ∈ ((cfg1.win 9).blk t).view.set := by
  refine ⟨tile1 (i 0).val, flush1_9 _, ?_⟩
  obtain ⟨-, -, e0, e1, -⟩ := idx_facts1 (tile1 (i 0).val)
  have hi0 : (i 0).val < 16384 := idx2_lt0 i
  have hi1 : (i 1).val < 1024 := idx2_lt1 i
  have hv : (tile1 (i 0).val).val = (i 0).val / 1024 % 16 := rfl
  rw [mem_blk1_9]
  intro a
  match a with
  | ⟨0, _⟩ =>
    show win1_9.index (tile1 (i 0).val) (0 : Fin 2) * 1024 ≤ (i 0).val ∧ (i 0).val < win1_9.index (tile1 (i 0).val) (0 : Fin 2) * 1024 + 1024
    rw [e0, hv]; omega
  | ⟨1, _⟩ =>
    show win1_9.index (tile1 (i 0).val) (1 : Fin 2) * 1024 ≤ (i 1).val ∧ (i 1).val < win1_9.index (tile1 (i 0).val) (1 : Fin 2) * 1024 + 1024
    rw [e1]; omega

/-- An index of window 10's array is in point `t`'s block iff each coordinate is in the block's range on its axis. -/
theorem mem_blk1_10 (t : Fin cfg1.N) (i : S16384x512.Idx) :
    i ∈ ((cfg1.win 10).blk t).view.set ↔ ∀ a : Fin 2, win1_10.index t a * S1024x512.size a ≤ (i a).val ∧ (i a).val < win1_10.index t a * S1024x512.size a + S1024x512.size a := by
  show i ∈ ((View.whole main_v15_1).slice (win1_10.rect t)).set ↔ _
  rw [View.set_slice_whole, Rect.mem_set_unit]
  exact Iff.rfl

/-- Every index of window 10's array is in the block of its row's tile, which is written back. -/
theorem covered1_10 (i : S16384x512.Idx) :
    ∃ t : Fin cfg1.N, (cfg1.win 10).flush t = true ∧ i ∈ ((cfg1.win 10).blk t).view.set := by
  refine ⟨tile1 (i 0).val, flush1_10 _, ?_⟩
  obtain ⟨-, -, -, -, e0, e1, -⟩ := idx_facts1 (tile1 (i 0).val)
  have hi0 : (i 0).val < 16384 := idx2_lt0 i
  have hi1 : (i 1).val < 512 := idx2_lt1 i
  have hv : (tile1 (i 0).val).val = (i 0).val / 1024 % 16 := rfl
  rw [mem_blk1_10]
  intro a
  match a with
  | ⟨0, _⟩ =>
    show win1_10.index (tile1 (i 0).val) (0 : Fin 2) * 1024 ≤ (i 0).val ∧ (i 0).val < win1_10.index (tile1 (i 0).val) (0 : Fin 2) * 1024 + 1024
    rw [e0, hv]; omega
  | ⟨1, _⟩ =>
    show win1_10.index (tile1 (i 0).val) (1 : Fin 2) * 512 ≤ (i 1).val ∧ (i 1).val < win1_10.index (tile1 (i 0).val) (1 : Fin 2) * 512 + 512
    rw [e1]; omega

/-- Window 9's array after the region. -/
theorem final1_9 (c : Dev nD) : (dat1 V c).arrAt 9 cfg1.N = arr1_9 V c :=
  (dat1 V c).arrAt_eq_of_cover 9 (arr1_9 V c) (fun t _ => flushed1_9_eq V c t) covered1_9

/-- Window 10's array after the region. -/
theorem final1_10 (c : Dev nD) : (dat1 V c).arrAt 10 cfg1.N = arr1_10 V c :=
  (dat1 V c).arrAt_eq_of_cover 10 (arr1_10 V c) (fun t _ => flushed1_10_eq V c t) covered1_10

/-! ## The input blocks, read off the entry contents -/

/-- Window 0's block at point `t` is rows `1024 t … 1024 t + 1023` of its array. -/
theorem iblk1_0_apply (c : Dev nD) (t : Fin cfg1.N) (y : S1024x1024.Idx) (k : S16384x1024.Idx)
    (hk0 : (k 0).val = t.val * 1024 + (y 0).val) (hk1 : (k 1).val = (y 1).val) :
    (iblk1 V c 0 t : Vec F S1024x1024 .f32) y = (V c (Pipeline.arrRef spec1 0) : S16384x1024.Idx → Elt F .f32) k := by
  obtain ⟨e0, e1, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 1024 + 1 * (y 0).val = (k 0).val; rw [e0, hk0]; omega
  | ⟨1, _⟩ => show win1_0.index t (1 : Fin 2) * 1024 + 1 * (y 1).val = (k 1).val; rw [e1, hk1]; omega

/-- Window 1's block at every point is its whole array. -/
theorem iblk1_1_eq (c : Dev nD) (t : Fin cfg1.N) :
    (iblk1 V c 1 t : Vec F S1024x1024 .f32) = (V c (Pipeline.arrRef spec1 1) : S1024x1024.Idx → Elt F .f32) := by
  obtain ⟨-, -, -, -, -, -, e0, e1, -⟩ := idx_facts1 t
  funext y
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1024 + 1 * (y 0).val = (y 0).val; rw [e0]; omega
  | ⟨1, _⟩ => show win1_1.index t (1 : Fin 2) * 1024 + 1 * (y 1).val = (y 1).val; rw [e1]; omega

/-- Window 2's block at every point is its whole array. -/
theorem iblk1_2_eq (c : Dev nD) (t : Fin cfg1.N) :
    (iblk1 V c 2 t : Vec F S1x1024 .f32) = (V c (Pipeline.arrRef spec1 2) : S1x1024.Idx → Elt F .f32) := by
  obtain ⟨-, -, -, -, -, -, -, -, e0, e1, -⟩ := idx_facts1 t
  funext y
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 1024 + 1 * (y 1).val = (y 1).val; rw [e1]; omega

/-- Window 3's block at every point is its whole array. -/
theorem iblk1_3_eq (c : Dev nD) (t : Fin cfg1.N) :
    (iblk1 V c 3 t : Vec F S1x1024 .f32) = (V c (Pipeline.arrRef spec1 3) : S1x1024.Idx → Elt F .f32) := by
  obtain ⟨-, -, -, -, -, -, -, -, -, -, e0, e1, -⟩ := idx_facts1 t
  funext y
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 1024 + 1 * (y 1).val = (y 1).val; rw [e1]; omega

/-- Window 4's block at every point is its whole array. -/
theorem iblk1_4_eq (c : Dev nD) (t : Fin cfg1.N) :
    (iblk1 V c 4 t : Vec F S1x1024 .f32) = (V c (Pipeline.arrRef spec1 4) : S1x1024.Idx → Elt F .f32) := by
  obtain ⟨-, -, -, -, -, -, -, -, -, -, -, -, e0, e1, -⟩ := idx_facts1 t
  funext y
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 1024 + 1 * (y 1).val = (y 1).val; rw [e1]; omega

/-- Window 5's block at every point is its whole array. -/
theorem iblk1_5_eq (c : Dev nD) (t : Fin cfg1.N) :
    (iblk1 V c 5 t : Vec F S512x1024 .f32) = (V c (Pipeline.arrRef spec1 5) : S512x1024.Idx → Elt F .f32) := by
  obtain ⟨-, -, -, -, -, -, -, -, -, -, -, -, -, -, e0, e1, -⟩ := idx_facts1 t
  funext y
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 512 + 1 * (y 0).val = (y 0).val; rw [e0]; omega
  | ⟨1, _⟩ => show win1_5.index t (1 : Fin 2) * 1024 + 1 * (y 1).val = (y 1).val; rw [e1]; omega

/-- Window 6's block at every point is its whole array. -/
theorem iblk1_6_eq (c : Dev nD) (t : Fin cfg1.N) :
    (iblk1 V c 6 t : Vec F S1x512 .f32) = (V c (Pipeline.arrRef spec1 6) : S1x512.Idx → Elt F .f32) := by
  obtain ⟨-, -, -, -, -, -, -, -, -, -, -, -, -, -, -, -, e0, e1, -⟩ := idx_facts1 t
  funext y
  unfold iblk1
  rw [View.read_apply]
  show V c (Pipeline.arrRef spec1 6) _ = V c (Pipeline.arrRef spec1 6) _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 512 + 1 * (y 1).val = (y 1).val; rw [e1]; omega

/-- Window 7's block at every point is its whole array. -/
theorem iblk1_7_eq (c : Dev nD) (t : Fin cfg1.N) :
    (iblk1 V c 7 t : Vec F S1x512 .f32) = (V c (Pipeline.arrRef spec1 7) : S1x512.Idx → Elt F .f32) := by
  obtain ⟨-, -, -, -, -, -, -, -, -, -, -, -, -, -, -, -, -, -, e0, e1, -⟩ := idx_facts1 t
  funext y
  unfold iblk1
  rw [View.read_apply]
  show V c (Pipeline.arrRef spec1 7) _ = V c (Pipeline.arrRef spec1 7) _
  congr 1
  funext a
  apply Fin.ext
  match a with
  | ⟨0, _⟩ => show win1_7.index t (0 : Fin 2) * 1 + 1 * (y 0).val = (y 0).val; rw [e0]; omega
  | ⟨1, _⟩ => show win1_7.index t (1 : Fin 2) * 512 + 1 * (y 1).val = (y 1).val; rw [e1]; omega

/-- Window 8's block at every point is its whole array. -/
theorem iblk1_8_eq (c : Dev nD) (t : Fin cfg1.N) :
    (iblk1 V c 8 t : Vec F S1x512 .f32) = (V c (Pipeline.arrRef spec1 8) : S1x512.Idx → Elt F .f32) := by
  obtain ⟨-, -, -, -, -, -, -, -, -, -, -, -, -, -, -, -, -, -, -, -, e0, e1⟩ := idx_facts1 t
  funext y
  unfold iblk1
  rw [View.read_apply]
  show V c (Pipeline.arrRef spec1 8) _ = V c (Pipeline.arrRef spec1 8) _
  congr 1
  funext a
  apply Fin.ext
  match a with
  | ⟨0, _⟩ => show win1_8.index t (0 : Fin 2) * 1 + 1 * (y 0).val = (y 0).val; rw [e0]; omega
  | ⟨1, _⟩ => show win1_8.index t (1 : Fin 2) * 512 + 1 * (y 1).val = (y 1).val; rw [e1]; omega

end Cert.KernelIdeal.Hand

end
-- ==== Proof.BranchIdeal1.lean ====
/- The two branch payloads of region 1's kernel at the exact-arithmetic float instance, read at row `p` and feature
   `o` of a row tile: `Cert.Spec.branchKer` of the tile's rows, the weight rows and the bias, scale and shift rows — a
   change of float format is the identity there, the matrix unit's product into zeros is the plain sum, a lane sum from
   the zero word is the plain sum. -/
import proofs.«171265_j74741020885605_2_alg».proof.Proof.BranchLib
import proofs.«171265_j74741020885605_2_alg».proof.Proof.Gen.KernelIdeal.Skeleton
import Idealize.ShloMosaic.Lib.Pipeline.Value

noncomputable section

namespace Cert.KernelIdeal.Hand

open Cert.KernelIdeal Cert.KernelIdeal.Gen
open Idealize.ShloMosaic Idealize.ShloMosaic.ValueIdx
open scoped BigOperators

/-- The row tile as the matrix unit's left operand: a shape cast to the same shape and a change of format, both the
    identity. -/
theorem k1_pay2_eq (x0 : Vec Ideal S1024x1024 .f32) : (k1_pay2 (F := Ideal) x0 : S1024x1024.Idx → EReal) = x0 := by
  unfold k1_pay2
  exact shapeCast_self x0 _

/-- The first branch (1024 features) at `(p, o)`. -/
theorem k1_pay3_apply (x0 x1 : Vec Ideal S1024x1024 .f32) (x2 x3 x4 : Vec Ideal S1x1024 .f32) (p o : Fin 1024) :
    k1_pay3 (F := Ideal) x0 x1 x2 x3 x4 (ix2 p o)
      = Cert.Spec.branchKer Cert.Spec.n1024 (fun r d => x0 (ix2 r d)) (fun o d => x1 (ix2 o d))
          (fun o => x2 (ix2 (0 : Fin 1) o)) (fun o => x3 (ix2 (0 : Fin 1) o)) (fun o => x4 (ix2 (0 : Fin 1) o)) p o := by
  refine (Cert.BranchLib.normChain_trunc_apply 0x44800000#32 _ reduces_S1024x1024_S1024 shapeCasts_S1024_S1024x1
    broadcasts_S1024x1_S1024x1024 (.inl rfl) rfl .bf16 bitsLt_bf16_f32 _ _ broadcasts_S1x1024_S1024x1024 p o).trans ?_
  rw [shapeCast_self x3, shapeCast_self x4]
  show Cert.Spec.normKer Cert.Spec.n1024 _ _ _ o = Cert.Spec.normKer Cert.Spec.n1024
    (Cert.Spec.lin (fun r d => x0 (ix2 r d)) (fun o d => x1 (ix2 o d)) (fun o => x2 (ix2 (0 : Fin 1) o)) p) _ _ o
  refine congrArg (fun y => Cert.Spec.normKer Cert.Spec.n1024 y (fun o => x3 (ix2 (0 : Fin 1) o)) (fun o => x4 (ix2 (0 : Fin 1) o)) o) (funext fun q => ?_)
  refine (Cert.BranchLib.lin_apply _ ⟨rfl, rfl, rfl, rfl, rfl, rfl⟩ none _ _ _ _ p q).trans ?_
  rw [k1_pay2_eq, shapeCast_self x2]
  rfl

/-- The second branch (512 features) at `(p, o)`, of the row tile as the matrix unit's left operand. -/
theorem k1_pay1_apply (x0 : Vec Ideal S1024x1024 .f32) (x5 : Vec Ideal S512x1024 .f32) (x6 x7 x8 : Vec Ideal S1x512 .f32) (p : Fin 1024) (o : Fin 512) :
    k1_pay1 (F := Ideal) (k1_pay2 x0) x5 x6 x7 x8 (ix2 p o)
      = Cert.Spec.branchKer Cert.Spec.n512 (fun r d => x0 (ix2 r d)) (fun o d => x5 (ix2 o d))
          (fun o => x6 (ix2 (0 : Fin 1) o)) (fun o => x7 (ix2 (0 : Fin 1) o)) (fun o => x8 (ix2 (0 : Fin 1) o)) p o := by
  refine (Cert.BranchLib.normChain_trunc_apply 0x44000000#32 _ reduces_S1024x512_S1024 shapeCasts_S1024_S1024x1
    broadcasts_S1024x1_S1024x512 (.inl rfl) rfl .bf16 bitsLt_bf16_f32 _ _ broadcasts_S1x512_S1024x512 p o).trans ?_
  rw [shapeCast_self x7, shapeCast_self x8]
  show Cert.Spec.normKer Cert.Spec.n512 _ _ _ o = Cert.Spec.normKer Cert.Spec.n512
    (Cert.Spec.lin (fun r d => x0 (ix2 r d)) (fun o d => x5 (ix2 o d)) (fun o => x6 (ix2 (0 : Fin 1) o)) p) _ _ o
  refine congrArg (fun y => Cert.Spec.normKer Cert.Spec.n512 y (fun o => x7 (ix2 (0 : Fin 1) o)) (fun o => x8 (ix2 (0 : Fin 1) o)) o) (funext fun q => ?_)
  refine (Cert.BranchLib.lin_apply _ ⟨rfl, rfl, rfl, rfl, rfl, rfl⟩ none _ _ _ _ p q).trans ?_
  rw [k1_pay2_eq, shapeCast_self x6]
  rfl

end Cert.KernelIdeal.Hand

end
-- ==== Proof.BranchArray1.lean ====
/- Region 1's two output arrays at the exact-arithmetic float instance, read at row `r` (of all 16384) and feature `o`:
   `Cert.Spec.branchKer` of the region's input arrays as it finds them — the row tile that holds row `r` contributes
   only row `r` (the affine map and the normalisation are row by row), so the tiling disappears. -/
import proofs.«171265_j74741020885605_2_alg».proof.Proof.BranchValue1
import proofs.«171265_j74741020885605_2_alg».proof.Proof.BranchIdeal1

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- One branch at row `r` reads only row `r` of its first operand. -/
theorem branchKer_row1 {R R' C : ℕ} (n : EReal) (x : Fin R → Fin 1024 → EReal) (x' : Fin R' → Fin 1024 → EReal)
    (W : Fin C → Fin 1024 → EReal) (b g beta : Fin C → EReal) (r : Fin R) (r' : Fin R') (h : x r = x' r') :
    Cert.Spec.branchKer n x W b g beta r = Cert.Spec.branchKer n x' W b g beta r' := by
  unfold Cert.Spec.branchKer Cert.Spec.lin
  rw [h]

/-- Row `r % 1024` of the row tile that holds row `r` is row `r` of window 0's array. -/
theorem tile_row1 (c : Dev nD) (r : Fin 16384) :
    (fun d : Fin 1024 => (iblk1 V c 0 (tile1 r.val) : Vec Ideal S1024x1024 .f32) (ix2 (⟨r.val % 1024, Nat.mod_lt _ (by decide)⟩ : Fin 1024) d))
      = fun d : Fin 1024 => (V c (Pipeline.arrRef spec1 0) : S16384x1024.Idx → EReal) (ix2 r d) := by
  funext d
  refine iblk1_0_apply V c (tile1 r.val) _ _ ?_ rfl
  show r.val = (tile1 r.val).val * 1024 + r.val % 1024
  rw [tile1_val r.val r.isLt]; omega

/-- Window 9's array after the region, at `(r, o)`: the first branch of the input arrays. -/
theorem final1_9_apply (c : Dev nD) (r : Fin 16384) (o : Fin 1024) :
    ((dat1 V c).arrAt 9 cfg1.N : S16384x1024.Idx → EReal) (ix2 r o)
      = Cert.Spec.branchKer Cert.Spec.n1024 (fun r d => (V c (Pipeline.arrRef spec1 0) : S16384x1024.Idx → EReal) (ix2 r d)) (fun o d => (V c (Pipeline.arrRef spec1 1) : S1024x1024.Idx → EReal) (ix2 o d))
          (fun o => (V c (Pipeline.arrRef spec1 2) : S1x1024.Idx → EReal) (ix2 (0 : Fin 1) o)) (fun o => (V c (Pipeline.arrRef spec1 3) : S1x1024.Idx → EReal) (ix2 (0 : Fin 1) o))
          (fun o => (V c (Pipeline.arrRef spec1 4) : S1x1024.Idx → EReal) (ix2 (0 : Fin 1) o)) r o := by
  rw [final1_9]
  show k1_pay3 (F := Ideal) (iblk1 V c 0 (tile1 r.val)) (iblk1 V c 1 (tile1 r.val)) (iblk1 V c 2 (tile1 r.val))
      (iblk1 V c 3 (tile1 r.val)) (iblk1 V c 4 (tile1 r.val))
      (ix2 (⟨r.val % 1024, Nat.mod_lt _ (by decide)⟩ : Fin 1024) o) = _
  rw [k1_pay3_apply, iblk1_1_eq, iblk1_2_eq, iblk1_3_eq, iblk1_4_eq]
  exact congrFun (branchKer_row1 _ _ _ _ _ _ _ _ r (tile_row1 V c r)) o

/-- Window 10's array after the region, at `(r, o)`: the second branch of the input arrays. -/
theorem final1_10_apply (c : Dev nD) (r : Fin 16384) (o : Fin 512) :
    ((dat1 V c).arrAt 10 cfg1.N : S16384x512.Idx → EReal) (ix2 r o)
      = Cert.Spec.branchKer Cert.Spec.n512 (fun r d => (V c (Pipeline.arrRef spec1 0) : S16384x1024.Idx → EReal) (ix2 r d)) (fun o d => (V c (Pipeline.arrRef spec1 5) : S512x1024.Idx → EReal) (ix2 o d))
          (fun o => (V c (Pipeline.arrRef spec1 6) : S1x512.Idx → EReal) (ix2 (0 : Fin 1) o)) (fun o => (V c (Pipeline.arrRef spec1 7) : S1x512.Idx → EReal) (ix2 (0 : Fin 1) o))
          (fun o => (V c (Pipeline.arrRef spec1 8) : S1x512.Idx → EReal) (ix2 (0 : Fin 1) o)) r o := by
  rw [final1_10]
  show k1_pay1 (F := Ideal) (k1_pay2 (iblk1 V c 0 (tile1 r.val))) (iblk1 V c 5 (tile1 r.val)) (iblk1 V c 6 (tile1 r.val))
      (iblk1 V c 7 (tile1 r.val)) (iblk1 V c 8 (tile1 r.val))
      (ix2 (⟨r.val % 1024, Nat.mod_lt _ (by decide)⟩ : Fin 1024) o) = _
  rw [k1_pay1_apply, iblk1_5_eq, iblk1_6_eq, iblk1_7_eq, iblk1_8_eq]
  exact congrFun (branchKer_row1 _ _ _ _ _ _ _ _ r (tile_row1 V c r)) o

end Cert.KernelIdeal.Hand

end
-- ==== Proof.Compose1.lean ====
/- Region 1's two outputs as region 2 finds them — reshaped to `[8, 2048, ·]` by the last host stretch — in terms of
   the program's arguments: at batch `b`, row `n`, feature `o`, one branch (`Cert.Spec.branchKer`) of batch `b`'s rows
   of the input, the weight rows and the bias, scale and shift vectors. The host stretches only reshape: a `[8, 2048, C]`
   array and the `[16384, C]` one hold the same numbers, entry `(b, n, o)` at `(2048 b + n, o)`; a vector and its
   `[1, C]` row likewise; and the branch is row by row. -/
import proofs.«171265_j74741020885605_2_alg».proof.Proof.Assemble
import proofs.«171265_j74741020885605_2_alg».proof.Proof.BranchArray1
import proofs.«171265_j74741020885605_2_alg».proof.Proof.ComposeLib
import proofs.«171265_j74741020885605_2_alg».proof.Proof.RefArr
import Idealize.ShloMosaic.Lib.StableHlo.Run
import Idealize.ShloMosaic.Lib.ValueLayout

set_option maxRecDepth 16384

noncomputable section

namespace Cert.KernelIdeal.Hand

open Cert.KernelIdeal Cert.KernelIdeal.Gen Cert.Arr
open Idealize.ShloMosaic Idealize.ShloMosaic.TcCoe Idealize.ShloMosaic.ValueIdx Idealize.ShloMosaic.StableHlo Idealize.SL.Sem
open Idealize.ShloMosaic.Pipeline (Dat)

variable (m : (ℓ : Loc nD τ sig) → Buf (Elt Ideal) ℓ) (ρ : Dev nD → PrngReg)

/-! ## The region's input arrays as it finds them, from the arguments -/

/-- An argument that region 0 does not stage and the first host stretch does not write is, after region 0, as launched. -/
theorem W2_launch (c : Dev nD) (r : Ref sig .tc) (h0 : ∀ w, Pipeline.arrRef spec0 w ≠ r) (h1 : r ∉ hostOps0_W) :
    W2 m ρ c (Proc.devRef .tc r) = W0 m ρ c (Proc.devRef .tc r) :=
  (W2_of_ne m ρ c r h0).trans (StableHlo.after_of_writes_sub hostOps0 _ hostOps0_writes h1)
theorem Ve1_w0 (c : Dev nD) : (Ve1 m ρ c (Pipeline.arrRef spec1 0) : S16384x1024.Idx → EReal) = shapeCast S16384x1024 (m ((c : Thread nD τ).loc main_arg1) : S8x2048x1024.Idx → EReal) shapeCasts_S8x2048x1024_S16384x1024 := by
  refine (StableHlo.after_of_writes_sub hostOps1 _ hostOps1_writes (by decide : main_v1 ∉ hostOps1_W)).trans ?_
  refine (W2_of_ne m ρ c main_v1 (by decide)).trans ?_
  show StableHlo.after hostOps0 (W0 m ρ c) (Proc.devRef .tc main_v1) = _
  dsimp only [hostOps0]
  after_results
  rfl
theorem Ve1_w1 (c : Dev nD) : (Ve1 m ρ c (Pipeline.arrRef spec1 1) : S1024x1024.Idx → EReal) = (m ((c : Thread nD τ).loc main_arg6) : S1024x1024.Idx → EReal) := by
  refine (StableHlo.after_of_writes_sub hostOps1 _ hostOps1_writes (by decide : main_arg6 ∉ hostOps1_W)).trans ?_
  exact (W2_launch m ρ c main_arg6 (by decide) (by decide)).trans rfl
theorem Ve1_w2 (c : Dev nD) : (Ve1 m ρ c (Pipeline.arrRef spec1 2) : S1x1024.Idx → EReal) = shapeCast S1x1024 (m ((c : Thread nD τ).loc main_arg7) : S1024.Idx → EReal) shapeCasts_S1024_S1x1024 := by
  have e : (W2 m ρ c (Proc.devRef .tc main_arg7) : S1024.Idx → EReal) = (m ((c : Thread nD τ).loc main_arg7) : S1024.Idx → EReal) :=
    (W2_launch m ρ c main_arg7 (by decide) (by decide)).trans rfl
  refine Eq.trans ?_ (congrArg (fun a : S1024.Idx → EReal => shapeCast S1x1024 a shapeCasts_S1024_S1x1024) e)
  show StableHlo.after hostOps1 (W2 m ρ c) (Proc.devRef .tc main_v9) = _
  dsimp only [hostOps1]
  after_results
  rfl
theorem Ve1_w3 (c : Dev nD) : (Ve1 m ρ c (Pipeline.arrRef spec1 3) : S1x1024.Idx → EReal) = shapeCast S1x1024 (m ((c : Thread nD τ).loc main_arg8) : S1024.Idx → EReal) shapeCasts_S1024_S1x1024 := by
  have e : (W2 m ρ c (Proc.devRef .tc main_arg8) : S1024.Idx → EReal) = (m ((c : Thread nD τ).loc main_arg8) : S1024.Idx → EReal) :=
    (W2_launch m ρ c main_arg8 (by decide) (by decide)).trans rfl
  refine Eq.trans ?_ (congrArg (fun a : S1024.Idx → EReal => shapeCast S1x1024 a shapeCasts_S1024_S1x1024) e)
  show StableHlo.after hostOps1 (W2 m ρ c) (Proc.devRef .tc main_v10) = _
  dsimp only [hostOps1]
  after_results
  rfl
theorem Ve1_w4 (c : Dev nD) : (Ve1 m ρ c (Pipeline.arrRef spec1 4) : S1x1024.Idx → EReal) = shapeCast S1x1024 (m ((c : Thread nD τ).loc main_arg9) : S1024.Idx → EReal) shapeCasts_S1024_S1x1024 := by
  have e : (W2 m ρ c (Proc.devRef .tc main_arg9) : S1024.Idx → EReal) = (m ((c : Thread nD τ).loc main_arg9) : S1024.Idx → EReal) :=
    (W2_launch m ρ c main_arg9 (by decide) (by decide)).trans rfl
  refine Eq.trans ?_ (congrArg (fun a : S1024.Idx → EReal => shapeCast S1x1024 a shapeCasts_S1024_S1x1024) e)
  show StableHlo.after hostOps1 (W2 m ρ c) (Proc.devRef .tc main_v11) = _
  dsimp only [hostOps1]
  after_results
  rfl
theorem Ve1_w5 (c : Dev nD) : (Ve1 m ρ c (Pipeline.arrRef spec1 5) : S512x1024.Idx → EReal) = (m ((c : Thread nD τ).loc main_arg10) : S512x1024.Idx → EReal) := by
  refine (StableHlo.after_of_writes_sub hostOps1 _ hostOps1_writes (by decide : main_arg10 ∉ hostOps1_W)).trans ?_
  exact (W2_launch m ρ c main_arg10 (by decide) (by decide)).trans rfl
theorem Ve1_w6 (c : Dev nD) : (Ve1 m ρ c (Pipeline.arrRef spec1 6) : S1x512.Idx → EReal) = shapeCast S1x512 (m ((c : Thread nD τ).loc main_arg11) : S512.Idx → EReal) shapeCasts_S512_S1x512 := by
  have e : (W2 m ρ c (Proc.devRef .tc main_arg11) : S512.Idx → EReal) = (m ((c : Thread nD τ).loc main_arg11) : S512.Idx → EReal) :=
    (W2_launch m ρ c main_arg11 (by decide) (by decide)).trans rfl
  refine Eq.trans ?_ (congrArg (fun a : S512.Idx → EReal => shapeCast S1x512 a shapeCasts_S512_S1x512) e)
  show StableHlo.after hostOps1 (W2 m ρ c) (Proc.devRef .tc main_v12) = _
  dsimp only [hostOps1]
  after_results
  rfl
theorem Ve1_w7 (c : Dev nD) : (Ve1 m ρ c (Pipeline.arrRef spec1 7) : S1x512.Idx → EReal) = shapeCast S1x512 (m ((c : Thread nD τ).loc main_arg12) : S512.Idx → EReal) shapeCasts_S512_S1x512 := by
  have e : (W2 m ρ c (Proc.devRef .tc main_arg12) : S512.Idx → EReal) = (m ((c : Thread nD τ).loc main_arg12) : S512.Idx → EReal) :=
    (W2_launch m ρ c main_arg12 (by decide) (by decide)).trans rfl
  refine Eq.trans ?_ (congrArg (fun a : S512.Idx → EReal => shapeCast S1x512 a shapeCasts_S512_S1x512) e)
  show StableHlo.after hostOps1 (W2 m ρ c) (Proc.devRef .tc main_v13) = _
  dsimp only [hostOps1]
  after_results
  rfl
theorem Ve1_w8 (c : Dev nD) : (Ve1 m ρ c (Pipeline.arrRef spec1 8) : S1x512.Idx → EReal) = shapeCast S1x512 (m ((c : Thread nD τ).loc main_arg13) : S512.Idx → EReal) shapeCasts_S512_S1x512 := by
  have e : (W2 m ρ c (Proc.devRef .tc main_arg13) : S512.Idx → EReal) = (m ((c : Thread nD τ).loc main_arg13) : S512.Idx → EReal) :=
    (W2_launch m ρ c main_arg13 (by decide) (by decide)).trans rfl
  refine Eq.trans ?_ (congrArg (fun a : S512.Idx → EReal => shapeCast S1x512 a shapeCasts_S512_S1x512) e)
  show StableHlo.after hostOps1 (W2 m ρ c) (Proc.devRef .tc main_v14) = _
  dsimp only [hostOps1]
  after_results
  rfl

/-! ## The region's output arrays, and their reshapes as region 2 finds them -/

theorem W4_out1_9 (c : Dev nD) : W4 m ρ c (Proc.devRef .tc main_v15_0) = (dat1 (Ve1 m ρ) c).arrAt 9 cfg1.N :=
  W4_arr m ρ c 9

theorem W4_out1_10 (c : Dev nD) : W4 m ρ c (Proc.devRef .tc main_v15_1) = (dat1 (Ve1 m ρ) c).arrAt 10 cfg1.N :=
  W4_arr m ρ c 10

theorem Ve2_main_v17 (c : Dev nD) : (Ve2 m ρ c main_v17 : S8x2048x1024.Idx → EReal)
    = shapeCast S8x2048x1024 (W4 m ρ c (Proc.devRef .tc main_v15_0) : S16384x1024.Idx → EReal) shapeCasts_S16384x1024_S8x2048x1024 := by
  show StableHlo.after hostOps2 (W4 m ρ c) (Proc.devRef .tc main_v17) = _
  dsimp only [hostOps2]
  after_results
  rfl

theorem Ve2_main_v18 (c : Dev nD) : (Ve2 m ρ c main_v18 : S8x2048x512.Idx → EReal)
    = shapeCast S8x2048x512 (W4 m ρ c (Proc.devRef .tc main_v15_1) : S16384x512.Idx → EReal) shapeCasts_S16384x512_S8x2048x512 := by
  show StableHlo.after hostOps2 (W4 m ρ c) (Proc.devRef .tc main_v18) = _
  dsimp only [hostOps2]
  after_results
  rfl

/-! ## The two branches at batch `b`, row `n`, feature `o` -/

/-- A vector's `[1, C]` row read along the row is the vector. -/
theorem row_of_vec1 {C : ℕ} (a : (⟨1, ![C]⟩ : Shape).Idx → EReal) (h : (⟨1, ![C]⟩ : Shape).ShapeCasts ⟨2, ![1, C]⟩) :
    (fun o : Fin C => shapeCast ⟨2, ![1, C]⟩ a h (ix2 (0 : Fin 1) o)) = arr1 a :=
  funext fun o => shapeCast_a_1a_apply a h 0 o

/-- The `[16384, 1024]` reshape of a `[8, 2048, 1024]` array at row `2048 b + n` is batch `b`'s row `n`. -/
theorem batch_row1 (a : S8x2048x1024.Idx → EReal) (b : Fin 8) (n : Fin 2048) (r : Fin 16384) (hr : r.val = b.val * 2048 + n.val) :
    (fun d : Fin 1024 => shapeCast S16384x1024 a shapeCasts_S8x2048x1024_S16384x1024 (ix2 r d)) = arr3 a b n :=
  funext fun d => Cert.ComposeLib.shapeCast_rows_merge_apply a _ b n d r hr

/-- `k` as region 2 finds it. -/
theorem k_apply (c : Dev nD) (b : Fin 8) (n : Fin 2048) (o : Fin 1024) :
    (Ve2 m ρ c main_v17 : S8x2048x1024.Idx → EReal) (ix3 b n o)
      = Cert.Spec.branchKer Cert.Spec.n1024 (arr3 (m ((c : Thread nD τ).loc main_arg1) : S8x2048x1024.Idx → EReal) b) (arr2 (m ((c : Thread nD τ).loc main_arg6) : S1024x1024.Idx → EReal))
          (arr1 (m ((c : Thread nD τ).loc main_arg7) : S1024.Idx → EReal)) (arr1 (m ((c : Thread nD τ).loc main_arg8) : S1024.Idx → EReal)) (arr1 (m ((c : Thread nD τ).loc main_arg9) : S1024.Idx → EReal)) n o := by
  have hr : b.val * 2048 + n.val < 16384 := by have := b.isLt; have := n.isLt; omega
  rw [Ve2_main_v17, Cert.ComposeLib.shapeCast_rows_split_apply _ _ b n o ⟨b.val * 2048 + n.val, hr⟩ rfl, W4_out1_9,
    final1_9_apply (Ve1 m ρ) c _ o, Ve1_w0, Ve1_w1, Ve1_w2, Ve1_w3, Ve1_w4,
    row_of_vec1, row_of_vec1, row_of_vec1]
  exact congrFun (Cert.ComposeLib.branchKer_row _ _ _ _ _ _ _ _ n (batch_row1 _ b n _ rfl)) o

/-- `v1` as region 2 finds it. -/
theorem v1_apply (c : Dev nD) (b : Fin 8) (n : Fin 2048) (o : Fin 512) :
    (Ve2 m ρ c main_v18 : S8x2048x512.Idx → EReal) (ix3 b n o)
      = Cert.Spec.branchKer Cert.Spec.n512 (arr3 (m ((c : Thread nD τ).loc main_arg1) : S8x2048x1024.Idx → EReal) b) (arr2 (m ((c : Thread nD τ).loc main_arg10) : S512x1024.Idx → EReal))
          (arr1 (m ((c : Thread nD τ).loc main_arg11) : S512.Idx → EReal)) (arr1 (m ((c : Thread nD τ).loc main_arg12) : S512.Idx → EReal)) (arr1 (m ((c : Thread nD τ).loc main_arg13) : S512.Idx → EReal)) n o := by
  have hr : b.val * 2048 + n.val < 16384 := by have := b.isLt; have := n.isLt; omega
  rw [Ve2_main_v18, Cert.ComposeLib.shapeCast_rows_split_apply _ _ b n o ⟨b.val * 2048 + n.val, hr⟩ rfl, W4_out1_10,
    final1_10_apply (Ve1 m ρ) c _ o, Ve1_w0, Ve1_w5, Ve1_w6, Ve1_w7, Ve1_w8,
    row_of_vec1, row_of_vec1, row_of_vec1]
  exact congrFun (Cert.ComposeLib.branchKer_row _ _ _ _ _ _ _ _ n (batch_row1 _ b n _ rfl)) o

end Cert.KernelIdeal.Hand

end
-- ==== Proof.KernelValue.lean ====
/- The tiled program's whole result at the exact-arithmetic float instance: the third region's output array after the run
   is, entry by entry, the specification's second spelling (`Cert.Spec.specKer`) of the eighteen argument arrays — its
   columns below 512 are the fourth branch passed through, the others the streaming softmax attention of the first three
   branches, each branch being what the first two regions leave, reshaped, in terms of the arguments. -/
import proofs.«171265_j74741020885605_2_alg».proof.Proof.R2Ideal
import proofs.«171265_j74741020885605_2_alg».proof.Proof.Compose0
import proofs.«171265_j74741020885605_2_alg».proof.Proof.Compose1

set_option maxRecDepth 16384

noncomputable section

namespace Cert.KernelIdeal.Hand

open Cert.KernelIdeal Cert.KernelIdeal.Gen Cert.Arr
open Idealize.ShloMosaic Idealize.ShloMosaic.TcCoe Idealize.ShloMosaic.ValueIdx Idealize.SL.Sem
open Idealize.ShloMosaic.Pipeline (Dat)

/-- The specification's second spelling of the argument arrays a memory holds on device `c`, as an array. -/
def specKerOf (m : (ℓ : Loc nD τ sig) → Buf (Elt Ideal) ℓ) (c : Dev nD) : S8x2048x1024.Idx → EReal :=
  fun i => Cert.Spec.specKer (arr3 (n0 := 8) (n1 := 2048) (n2 := 1024) (m ((c.tc : Thread nD τ).loc main_arg0))) (arr3 (n0 := 8) (n1 := 2048) (n2 := 1024) (m ((c.tc : Thread nD τ).loc main_arg1))) (arr2 (n0 := 1024) (n1 := 1024) (m ((c.tc : Thread nD τ).loc main_arg2))) (arr1 (n := 1024) (m ((c.tc : Thread nD τ).loc main_arg3))) (arr1 (n := 1024) (m ((c.tc : Thread nD τ).loc main_arg4))) (arr1 (n := 1024) (m ((c.tc : Thread nD τ).loc main_arg5))) (arr2 (n0 := 1024) (n1 := 1024) (m ((c.tc : Thread nD τ).loc main_arg6))) (arr1 (n := 1024) (m ((c.tc : Thread nD τ).loc main_arg7))) (arr1 (n := 1024) (m ((c.tc : Thread nD τ).loc main_arg8))) (arr1 (n := 1024) (m ((c.tc : Thread nD τ).loc main_arg9))) (arr2 (n0 := 512) (n1 := 1024) (m ((c.tc : Thread nD τ).loc main_arg10))) (arr1 (n := 512) (m ((c.tc : Thread nD τ).loc main_arg11))) (arr1 (n := 512) (m ((c.tc : Thread nD τ).loc main_arg12))) (arr1 (n := 512) (m ((c.tc : Thread nD τ).loc main_arg13))) (arr2 (n0 := 512) (n1 := 1024) (m ((c.tc : Thread nD τ).loc main_arg14))) (arr1 (n := 512) (m ((c.tc : Thread nD τ).loc main_arg15))) (arr1 (n := 512) (m ((c.tc : Thread nD τ).loc main_arg16))) (arr1 (n := 512) (m ((c.tc : Thread nD τ).loc main_arg17))) (i 0) (i 1) (i 2)

variable (m : (ℓ : Loc nD τ sig) → Buf (Elt Ideal) ℓ) (ρ : Dev nD → PrngReg)

/-- The queries, keys, values and pass-through rows of a batch, as region 2 finds them, are the four branches. -/
theorem qOf_eq (c : Dev nD) (b : Fin 8) : qOf (Ve2 m ρ) c b
    = Cert.Spec.branchKer Cert.Spec.n1024 (arr3 (n0 := 8) (n1 := 2048) (n2 := 1024) (m ((c.tc : Thread nD τ).loc main_arg0)) b)
        (arr2 (n0 := 1024) (n1 := 1024) (m ((c.tc : Thread nD τ).loc main_arg2))) (arr1 (n := 1024) (m ((c.tc : Thread nD τ).loc main_arg3)))
        (arr1 (n := 1024) (m ((c.tc : Thread nD τ).loc main_arg4))) (arr1 (n := 1024) (m ((c.tc : Thread nD τ).loc main_arg5))) :=
  funext fun n => funext fun d => q_apply m ρ c b n d

theorem kOf_eq (c : Dev nD) (b : Fin 8) : kOf (Ve2 m ρ) c b
    = Cert.Spec.branchKer Cert.Spec.n1024 (arr3 (n0 := 8) (n1 := 2048) (n2 := 1024) (m ((c.tc : Thread nD τ).loc main_arg1)) b)
        (arr2 (n0 := 1024) (n1 := 1024) (m ((c.tc : Thread nD τ).loc main_arg6))) (arr1 (n := 1024) (m ((c.tc : Thread nD τ).loc main_arg7)))
        (arr1 (n := 1024) (m ((c.tc : Thread nD τ).loc main_arg8))) (arr1 (n := 1024) (m ((c.tc : Thread nD τ).loc main_arg9))) :=
  funext fun n => funext fun d => k_apply m ρ c b n d

theorem vOf_eq (c : Dev nD) (b : Fin 8) : vOf (Ve2 m ρ) c b
    = Cert.Spec.branchKer Cert.Spec.n512 (arr3 (n0 := 8) (n1 := 2048) (n2 := 1024) (m ((c.tc : Thread nD τ).loc main_arg1)) b)
        (arr2 (n0 := 512) (n1 := 1024) (m ((c.tc : Thread nD τ).loc main_arg10))) (arr1 (n := 512) (m ((c.tc : Thread nD τ).loc main_arg11)))
        (arr1 (n := 512) (m ((c.tc : Thread nD τ).loc main_arg12))) (arr1 (n := 512) (m ((c.tc : Thread nD τ).loc main_arg13))) :=
  funext fun n => funext fun h => v1_apply m ρ c b n h

theorem pOf_eq (c : Dev nD) (b : Fin 8) : pOf (Ve2 m ρ) c b
    = Cert.Spec.branchKer Cert.Spec.n512 (arr3 (n0 := 8) (n1 := 2048) (n2 := 1024) (m ((c.tc : Thread nD τ).loc main_arg0)) b)
        (arr2 (n0 := 512) (n1 := 1024) (m ((c.tc : Thread nD τ).loc main_arg14))) (arr1 (n := 512) (m ((c.tc : Thread nD τ).loc main_arg15)))
        (arr1 (n := 512) (m ((c.tc : Thread nD τ).loc main_arg16))) (arr1 (n := 512) (m ((c.tc : Thread nD τ).loc main_arg17))) :=
  funext fun n => funext fun h => v2_apply m ρ c b n h

/-- The program's result array after the run is the specification's second spelling of the arguments. -/
theorem kernel_value (c : Dev nD) :
    ((dat2 (Ve2 m ρ) c).arrAt 4 cfg2.N : S8x2048x1024.Idx → EReal) = specKerOf m c := by
  rw [final2_4]
  funext i
  obtain ⟨b, n, col, rfl⟩ : ∃ (b : Fin 8) (n : Fin 2048) (col : Fin 1024), i = ix3 b n col := ⟨i 0, i 1, i 2, eq_ix3 i⟩
  show arr2_4 (Ve2 m ρ) c (ix3 b n col) = Cert.Spec.specKer (arr3 (n0 := 8) (n1 := 2048) (n2 := 1024) (m ((c.tc : Thread nD τ).loc main_arg0))) (arr3 (n0 := 8) (n1 := 2048) (n2 := 1024) (m ((c.tc : Thread nD τ).loc main_arg1))) (arr2 (n0 := 1024) (n1 := 1024) (m ((c.tc : Thread nD τ).loc main_arg2))) (arr1 (n := 1024) (m ((c.tc : Thread nD τ).loc main_arg3))) (arr1 (n := 1024) (m ((c.tc : Thread nD τ).loc main_arg4))) (arr1 (n := 1024) (m ((c.tc : Thread nD τ).loc main_arg5))) (arr2 (n0 := 1024) (n1 := 1024) (m ((c.tc : Thread nD τ).loc main_arg6))) (arr1 (n := 1024) (m ((c.tc : Thread nD τ).loc main_arg7))) (arr1 (n := 1024) (m ((c.tc : Thread nD τ).loc main_arg8))) (arr1 (n := 1024) (m ((c.tc : Thread nD τ).loc main_arg9))) (arr2 (n0 := 512) (n1 := 1024) (m ((c.tc : Thread nD τ).loc main_arg10))) (arr1 (n := 512) (m ((c.tc : Thread nD τ).loc main_arg11))) (arr1 (n := 512) (m ((c.tc : Thread nD τ).loc main_arg12))) (arr1 (n := 512) (m ((c.tc : Thread nD τ).loc main_arg13))) (arr2 (n0 := 512) (n1 := 1024) (m ((c.tc : Thread nD τ).loc main_arg14))) (arr1 (n := 512) (m ((c.tc : Thread nD τ).loc main_arg15))) (arr1 (n := 512) (m ((c.tc : Thread nD τ).loc main_arg16))) (arr1 (n := 512) (m ((c.tc : Thread nD τ).loc main_arg17))) b n col
  unfold Cert.Spec.specKer
  have hlt : col.val < 1024 := col.isLt
  by_cases hc : col.val < 512
  · rw [dif_pos hc]
    refine (arr2_4_lo (Ve2 m ρ) c b n ⟨col.val, hc⟩).trans ?_
    rw [pOf_eq]
  · rw [dif_neg hc]
    have e : (⟨(col.val - 512) + 512, by omega⟩ : Fin 1024) = col := Fin.ext (by show col.val - 512 + 512 = col.val; omega)
    have h := arr2_4_hi (Ve2 m ρ) c b n ⟨col.val - 512, by omega⟩
    rw [e] at h
    rw [h, qOf_eq, kOf_eq, vOf_eq]

end Cert.KernelIdeal.Hand

end
-- ==== Proof.RefFrame.lean ====
/- The reference program's frame: its run terminates on every weakly fair execution and leaves the
   eighteen argument arrays as it found them.  The run of the operation list already states the
   result buffer together with the arguments; the frame keeps the arguments and drops the result. -/
import proofs.«171265_j74741020885605_2_alg».proof.Defs
import proofs.«171265_j74741020885605_2_alg».proof.Proof.Gen.ReferenceIdeal
import proofs.«171265_j74741020885605_2_alg».proof.Proof.Gen.Pre_finite_inputs
import proofs.«171265_j74741020885605_2_alg».proof.Proof.RefRunP

noncomputable section

namespace Cert.ReferenceIdeal.RefValue

open Idealize.ShloMosaic Idealize.SL.Sem

/-- The reference runs and its arguments end unchanged, whatever the precondition says. -/
theorem frame_ri :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2)
    (Cert.ReferenceIdeal.Value.run (F := Ideal) m ρ)

end Cert.ReferenceIdeal.RefValue

end
-- ==== Proof.RefBranchQ.lean ====
/- The branch "q (queries, of the first input)" of the plain-array program, read entry by entry: the affine map
   x · Wᵀ + bias over the 1024 input features, the mean and the variance of a row of 1024 outputs (sums
   divided by the literal 1024.0), the normalised row (deviation divided by the square root of
   variance plus the offset) scaled and shifted, and its positive part.  Each stage of the operation
   list is identified with the corresponding function of the specification at explicit coordinates. -/
import proofs.«171265_j74741020885605_2_alg».proof.Proof.RefReadP
import proofs.«171265_j74741020885605_2_alg».proof.Proof.SpecDefs
import proofs.«171265_j74741020885605_2_alg».proof.Proof.RefArr

noncomputable section

namespace Cert.ReferenceIdeal.RefValue

open Cert.ReferenceIdeal Cert.ReferenceIdeal.Gen Cert.ReferenceIdeal.Read Idealize.ShloMosaic Idealize.ShloMosaic.ValueIdx Cert.Arr

/-- The affine map at row (b, n) and output feature o. -/
theorem lin_q (x0 : (⟨S8x2048x1024, .f32⟩ : BufTy).Contents (Elt Ideal)) (x2 : (⟨S1024x1024, .f32⟩ : BufTy).Contents (Elt Ideal)) (x3 : (⟨S1024, .f32⟩ : BufTy).Contents (Elt Ideal)) (b : Fin 8) (n : Fin 2048) (o : Fin 1024) :
    val_main_v3 (F := Ideal) x0 x2 x3 (ix3 b n o) = Cert.Spec.lin (arr3 (n0 := 8) (n1 := 2048) (n2 := 1024) x0 b) (arr2 (n0 := 1024) (n1 := 1024) x2) (arr1 (n := 1024) x3) n o := by
  rw [val_main_v3_apply, val_main_v0_apply, val_main_v2_apply, val_main_v1_apply]
  have e1 : ∀ k : Fin 1024, lidx_main_v0 (ix3 b n o) k = ix3 b n k := fun k => funext fun a => Fin.ext (by match a with | ⟨0, _⟩ => rfl | ⟨1, _⟩ => rfl | ⟨2, _⟩ => rfl)
  have e2 : ∀ k : Fin 1024, ridx_main_v0 (ix3 b n o) k = ix2 o k := fun k => funext fun a => Fin.ext (by match a with | ⟨0, _⟩ => rfl | ⟨1, _⟩ => rfl)
  have e3 : idx_main_v1 (idx_main_v2 (ix3 b n o)) = ix1 o := funext fun a => Fin.ext (by match a with | ⟨0, _⟩ => rfl)
  simp only [e1, e2, e3]
  rfl

/-- The row mean: the sum of the row over its 1024 entries, from the zero word, divided by 1024.0. -/
theorem mean_q (x0 : (⟨S8x2048x1024, .f32⟩ : BufTy).Contents (Elt Ideal)) (x2 : (⟨S1024x1024, .f32⟩ : BufTy).Contents (Elt Ideal)) (x3 : (⟨S1024, .f32⟩ : BufTy).Contents (Elt Ideal)) (b : Fin 8) (n : Fin 2048) :
    val_main_v7 (F := Ideal) x0 x2 x3 (ix3 b n (0 : Fin 1)) = Cert.Spec.mu Cert.Spec.n1024 (Cert.Spec.lin (arr3 (n0 := 8) (n1 := 2048) (n2 := 1024) x0 b) (arr2 (n0 := 1024) (n1 := 1024) x2) (arr1 (n := 1024) x3) n) := by
  rw [val_main_v7_apply, val_main_v5_apply, val_main_v4_apply, val_main_v6_apply, val_main_cst_0_apply, val_main_cst_apply]
  have e : ∀ k : Fin 1024, idx_main_v4 (idx_main_v5 (ix3 b n (0 : Fin 1))) k = ix3 b n k := fun k => funext fun a => Fin.ext (by match a with | ⟨0, _⟩ => rfl | ⟨1, _⟩ => rfl | ⟨2, _⟩ => rfl)
  simp only [e, lin_q, Ideal.ofBits_def, Ideal.ofBits_zero_f32, zero_add]
  rfl

/-- A row entry's deviation from the row mean (the first of the two printed subtractions). -/
theorem dev_q (x0 : (⟨S8x2048x1024, .f32⟩ : BufTy).Contents (Elt Ideal)) (x2 : (⟨S1024x1024, .f32⟩ : BufTy).Contents (Elt Ideal)) (x3 : (⟨S1024, .f32⟩ : BufTy).Contents (Elt Ideal)) (b : Fin 8) (n : Fin 2048) (o : Fin 1024) :
    val_main_v9 (F := Ideal) x0 x2 x3 (ix3 b n o) = Cert.Spec.lin (arr3 (n0 := 8) (n1 := 2048) (n2 := 1024) x0 b) (arr2 (n0 := 1024) (n1 := 1024) x2) (arr1 (n := 1024) x3) n o - Cert.Spec.mu Cert.Spec.n1024 (Cert.Spec.lin (arr3 (n0 := 8) (n1 := 2048) (n2 := 1024) x0 b) (arr2 (n0 := 1024) (n1 := 1024) x2) (arr1 (n := 1024) x3) n) := by
  rw [val_main_v9_apply, val_main_v8_apply, lin_q]
  have e : idx_main_v8 (ix3 b n o) = ix3 b n (0 : Fin 1) := funext fun a => Fin.ext (by match a with | ⟨0, _⟩ => rfl | ⟨1, _⟩ => rfl | ⟨2, _⟩ => rfl)
  rw [e, mean_q]
  rfl

/-- The row variance: the sum of the squared deviations, from the zero word, divided by 1024.0. -/
theorem var_q (x0 : (⟨S8x2048x1024, .f32⟩ : BufTy).Contents (Elt Ideal)) (x2 : (⟨S1024x1024, .f32⟩ : BufTy).Contents (Elt Ideal)) (x3 : (⟨S1024, .f32⟩ : BufTy).Contents (Elt Ideal)) (b : Fin 8) (n : Fin 2048) :
    val_main_v14 (F := Ideal) x0 x2 x3 (ix3 b n (0 : Fin 1)) = Cert.Spec.var Cert.Spec.n1024 (Cert.Spec.lin (arr3 (n0 := 8) (n1 := 2048) (n2 := 1024) x0 b) (arr2 (n0 := 1024) (n1 := 1024) x2) (arr1 (n := 1024) x3) n) := by
  rw [val_main_v14_apply, val_main_v12_apply, val_main_v11_apply, val_main_v13_apply, val_main_cst_2_apply, val_main_cst_1_apply]
  have e : ∀ k : Fin 1024, idx_main_v11 (idx_main_v12 (ix3 b n (0 : Fin 1))) k = ix3 b n k := fun k => funext fun a => Fin.ext (by match a with | ⟨0, _⟩ => rfl | ⟨1, _⟩ => rfl | ⟨2, _⟩ => rfl)
  simp only [e, val_main_v10_apply, dev_q, Ideal.ofBits_def, Ideal.ofBits_zero_f32, zero_add]
  rfl

/-- The branch's result: deviation over the square root of variance plus offset, times the scale, plus
    the shift, and the maximum of that with the zero word. -/
theorem branch_q (x0 : (⟨S8x2048x1024, .f32⟩ : BufTy).Contents (Elt Ideal)) (x2 : (⟨S1024x1024, .f32⟩ : BufTy).Contents (Elt Ideal)) (x3 : (⟨S1024, .f32⟩ : BufTy).Contents (Elt Ideal)) (x4 x5 : (⟨S1024, .f32⟩ : BufTy).Contents (Elt Ideal)) (b : Fin 8) (n : Fin 2048) (o : Fin 1024) :
    val_main_v28 (F := Ideal) x0 x2 x3 x4 x5 (ix3 b n o)
      = Cert.Spec.branchRef Cert.Spec.n1024 (arr3 (n0 := 8) (n1 := 2048) (n2 := 1024) x0 b) (arr2 (n0 := 1024) (n1 := 1024) x2)
          (arr1 (n := 1024) x3) (arr1 (n := 1024) x4) (arr1 (n := 1024) x5) n o := by
  rw [val_main_v28_apply, val_main_v27_apply, val_main_v24_apply, val_main_v21_apply, val_main_v16_apply, val_main_v15_apply, val_main_v20_apply, val_main_v19_apply,
    val_main_v18_apply, val_main_v17_apply, val_main_cst_3_apply, val_main_v23_apply, val_main_v22_apply, val_main_v26_apply, val_main_v25_apply,
    val_main_call0_v0_apply, val_main_call0_cst_apply, lin_q]
  have e15 : idx_main_v15 (ix3 b n o) = ix3 b n (0 : Fin 1) := funext fun a => Fin.ext (by match a with | ⟨0, _⟩ => rfl | ⟨1, _⟩ => rfl | ⟨2, _⟩ => rfl)
  have e20 : idx_main_v20 (ix3 b n o) = ix3 b n (0 : Fin 1) := funext fun a => Fin.ext (by match a with | ⟨0, _⟩ => rfl | ⟨1, _⟩ => rfl | ⟨2, _⟩ => rfl)
  have eg : idx_main_v22 (idx_main_v23 (ix3 b n o)) = ix1 o := funext fun a => Fin.ext (by match a with | ⟨0, _⟩ => rfl)
  have eb : idx_main_v25 (idx_main_v26 (ix3 b n o)) = ix1 o := funext fun a => Fin.ext (by match a with | ⟨0, _⟩ => rfl)
  rw [e15, e20, eg, eb, mean_q, var_q]
  simp only [Ideal.ofBits_def, Ideal.ofBits_zero_f32]
  rfl

end Cert.ReferenceIdeal.RefValue

end
-- ==== Proof.RefBranchK.lean ====
/- The branch "k (keys, of the second input)" of the plain-array program, read entry by entry: the affine map
   x · Wᵀ + bias over the 1024 input features, the mean and the variance of a row of 1024 outputs (sums
   divided by the literal 1024.0), the normalised row (deviation divided by the square root of
   variance plus the offset) scaled and shifted, and its positive part.  Each stage of the operation
   list is identified with the corresponding function of the specification at explicit coordinates. -/
import proofs.«171265_j74741020885605_2_alg».proof.Proof.RefReadP
import proofs.«171265_j74741020885605_2_alg».proof.Proof.SpecDefs
import proofs.«171265_j74741020885605_2_alg».proof.Proof.RefArr

noncomputable section

namespace Cert.ReferenceIdeal.RefValue

open Cert.ReferenceIdeal Cert.ReferenceIdeal.Gen Cert.ReferenceIdeal.Read Idealize.ShloMosaic Idealize.ShloMosaic.ValueIdx Cert.Arr

/-- The affine map at row (b, n) and output feature o. -/
theorem lin_k (x1 : (⟨S8x2048x1024, .f32⟩ : BufTy).Contents (Elt Ideal)) (x6 : (⟨S1024x1024, .f32⟩ : BufTy).Contents (Elt Ideal)) (x7 : (⟨S1024, .f32⟩ : BufTy).Contents (Elt Ideal)) (b : Fin 8) (n : Fin 2048) (o : Fin 1024) :
    val_main_v32 (F := Ideal) x1 x6 x7 (ix3 b n o) = Cert.Spec.lin (arr3 (n0 := 8) (n1 := 2048) (n2 := 1024) x1 b) (arr2 (n0 := 1024) (n1 := 1024) x6) (arr1 (n := 1024) x7) n o := by
  rw [val_main_v32_apply, val_main_v29_apply, val_main_v31_apply, val_main_v30_apply]
  have e1 : ∀ k : Fin 1024, lidx_main_v29 (ix3 b n o) k = ix3 b n k := fun k => funext fun a => Fin.ext (by match a with | ⟨0, _⟩ => rfl | ⟨1, _⟩ => rfl | ⟨2, _⟩ => rfl)
  have e2 : ∀ k : Fin 1024, ridx_main_v29 (ix3 b n o) k = ix2 o k := fun k => funext fun a => Fin.ext (by match a with | ⟨0, _⟩ => rfl | ⟨1, _⟩ => rfl)
  have e3 : idx_main_v30 (idx_main_v31 (ix3 b n o)) = ix1 o := funext fun a => Fin.ext (by match a with | ⟨0, _⟩ => rfl)
  simp only [e1, e2, e3]
  rfl

/-- The row mean: the sum of the row over its 1024 entries, from the zero word, divided by 1024.0. -/
theorem mean_k (x1 : (⟨S8x2048x1024, .f32⟩ : BufTy).Contents (Elt Ideal)) (x6 : (⟨S1024x1024, .f32⟩ : BufTy).Contents (Elt Ideal)) (x7 : (⟨S1024, .f32⟩ : BufTy).Contents (Elt Ideal)) (b : Fin 8) (n : Fin 2048) :
    val_main_v36 (F := Ideal) x1 x6 x7 (ix3 b n (0 : Fin 1)) = Cert.Spec.mu Cert.Spec.n1024 (Cert.Spec.lin (arr3 (n0 := 8) (n1 := 2048) (n2 := 1024) x1 b) (arr2 (n0 := 1024) (n1 := 1024) x6) (arr1 (n := 1024) x7) n) := by
  rw [val_main_v36_apply, val_main_v34_apply, val_main_v33_apply, val_main_v35_apply, val_main_cst_5_apply, val_main_cst_4_apply]
  have e : ∀ k : Fin 1024, idx_main_v33 (idx_main_v34 (ix3 b n (0 : Fin 1))) k = ix3 b n k := fun k => funext fun a => Fin.ext (by match a with | ⟨0, _⟩ => rfl | ⟨1, _⟩ => rfl | ⟨2, _⟩ => rfl)
  simp only [e, lin_k, Ideal.ofBits_def, Ideal.ofBits_zero_f32, zero_add]
  rfl

/-- A row entry's deviation from the row mean (the first of the two printed subtractions). -/
theorem dev_k (x1 : (⟨S8x2048x1024, .f32⟩ : BufTy).Contents (Elt Ideal)) (x6 : (⟨S1024x1024, .f32⟩ : BufTy).Contents (Elt Ideal)) (x7 : (⟨S1024, .f32⟩ : BufTy).Contents (Elt Ideal)) (b : Fin 8) (n : Fin 2048) (o : Fin 1024) :
    val_main_v38 (F := Ideal) x1 x6 x7 (ix3 b n o) = Cert.Spec.lin (arr3 (n0 := 8) (n1 := 2048) (n2 := 1024) x1 b) (arr2 (n0 := 1024) (n1 := 1024) x6) (arr1 (n := 1024) x7) n o - Cert.Spec.mu Cert.Spec.n1024 (Cert.Spec.lin (arr3 (n0 := 8) (n1 := 2048) (n2 := 1024) x1 b) (arr2 (n0 := 1024) (n1 := 1024) x6) (arr1 (n := 1024) x7) n) := by
  rw [val_main_v38_apply, val_main_v37_apply, lin_k]
  have e : idx_main_v37 (ix3 b n o) = ix3 b n (0 : Fin 1) := funext fun a => Fin.ext (by match a with | ⟨0, _⟩ => rfl | ⟨1, _⟩ => rfl | ⟨2, _⟩ => rfl)
  rw [e, mean_k]
  rfl

/-- The row variance: the sum of the squared deviations, from the zero word, divided by 1024.0. -/
theorem var_k (x1 : (⟨S8x2048x1024, .f32⟩ : BufTy).Contents (Elt Ideal)) (x6 : (⟨S1024x1024, .f32⟩ : BufTy).Contents (Elt Ideal)) (x7 : (⟨S1024, .f32⟩ : BufTy).Contents (Elt Ideal)) (b : Fin 8) (n : Fin 2048) :
    val_main_v43 (F := Ideal) x1 x6 x7 (ix3 b n (0 : Fin 1)) = Cert.Spec.var Cert.Spec.n1024 (Cert.Spec.lin (arr3 (n0 := 8) (n1 := 2048) (n2 := 1024) x1 b) (arr2 (n0 := 1024) (n1 := 1024) x6) (arr1 (n := 1024) x7) n) := by
  rw [val_main_v43_apply, val_main_v41_apply, val_main_v40_apply, val_main_v42_apply, val_main_cst_7_apply, val_main_cst_6_apply]
  have e : ∀ k : Fin 1024, idx_main_v40 (idx_main_v41 (ix3 b n (0 : Fin 1))) k = ix3 b n k := fun k => funext fun a => Fin.ext (by match a with | ⟨0, _⟩ => rfl | ⟨1, _⟩ => rfl | ⟨2, _⟩ => rfl)
  simp only [e, val_main_v39_apply, dev_k, Ideal.ofBits_def, Ideal.ofBits_zero_f32, zero_add]
  rfl

/-- The branch's result: deviation over the square root of variance plus offset, times the scale, plus
    the shift, and the maximum of that with the zero word. -/
theorem branch_k (x1 : (⟨S8x2048x1024, .f32⟩ : BufTy).Contents (Elt Ideal)) (x6 : (⟨S1024x1024, .f32⟩ : BufTy).Contents (Elt Ideal)) (x7 : (⟨S1024, .f32⟩ : BufTy).Contents (Elt Ideal)) (x8 x9 : (⟨S1024, .f32⟩ : BufTy).Contents (Elt Ideal)) (b : Fin 8) (n : Fin 2048) (o : Fin 1024) :
    val_main_v57 (F := Ideal) x1 x6 x7 x8 x9 (ix3 b n o)
      = Cert.Spec.branchRef Cert.Spec.n1024 (arr3 (n0 := 8) (n1 := 2048) (n2 := 1024) x1 b) (arr2 (n0 := 1024) (n1 := 1024) x6)
          (arr1 (n := 1024) x7) (arr1 (n := 1024) x8) (arr1 (n := 1024) x9) n o := by
  rw [val_main_v57_apply, val_main_v56_apply, val_main_v53_apply, val_main_v50_apply, val_main_v45_apply, val_main_v44_apply, val_main_v49_apply, val_main_v48_apply,
    val_main_v47_apply, val_main_v46_apply, val_main_cst_8_apply, val_main_v52_apply, val_main_v51_apply, val_main_v55_apply, val_main_v54_apply,
    val_main_call1_v0_apply, val_main_call1_cst_apply, lin_k]
  have e15 : idx_main_v44 (ix3 b n o) = ix3 b n (0 : Fin 1) := funext fun a => Fin.ext (by match a with | ⟨0, _⟩ => rfl | ⟨1, _⟩ => rfl | ⟨2, _⟩ => rfl)
  have e20 : idx_main_v49 (ix3 b n o) = ix3 b n (0 : Fin 1) := funext fun a => Fin.ext (by match a with | ⟨0, _⟩ => rfl | ⟨1, _⟩ => rfl | ⟨2, _⟩ => rfl)
  have eg : idx_main_v51 (idx_main_v52 (ix3 b n o)) = ix1 o := funext fun a => Fin.ext (by match a with | ⟨0, _⟩ => rfl)
  have eb : idx_main_v54 (idx_main_v55 (ix3 b n o)) = ix1 o := funext fun a => Fin.ext (by match a with | ⟨0, _⟩ => rfl)
  rw [e15, e20, eg, eb, mean_k, var_k]
  simp only [Ideal.ofBits_def, Ideal.ofBits_zero_f32]
  rfl

end Cert.ReferenceIdeal.RefValue

end
-- ==== Proof.RefBranchV1.lean ====
/- The branch "v1 (values, of the second input)" of the plain-array program, read entry by entry: the affine map
   x · Wᵀ + bias over the 1024 input features, the mean and the variance of a row of 512 outputs (sums
   divided by the literal 512.0), the normalised row (deviation divided by the square root of
   variance plus the offset) scaled and shifted, and its positive part.  Each stage of the operation
   list is identified with the corresponding function of the specification at explicit coordinates. -/
import proofs.«171265_j74741020885605_2_alg».proof.Proof.RefReadP
import proofs.«171265_j74741020885605_2_alg».proof.Proof.SpecDefs
import proofs.«171265_j74741020885605_2_alg».proof.Proof.RefArr

noncomputable section

namespace Cert.ReferenceIdeal.RefValue

open Cert.ReferenceIdeal Cert.ReferenceIdeal.Gen Cert.ReferenceIdeal.Read Idealize.ShloMosaic Idealize.ShloMosaic.ValueIdx Cert.Arr

/-- The affine map at row (b, n) and output feature o. -/
theorem lin_v1 (x1 : (⟨S8x2048x1024, .f32⟩ : BufTy).Contents (Elt Ideal)) (x10 : (⟨S512x1024, .f32⟩ : BufTy).Contents (Elt Ideal)) (x11 : (⟨S512, .f32⟩ : BufTy).Contents (Elt Ideal)) (b : Fin 8) (n : Fin 2048) (o : Fin 512) :
    val_main_v73 (F := Ideal) x1 x10 x11 (ix3 b n o) = Cert.Spec.lin (arr3 (n0 := 8) (n1 := 2048) (n2 := 1024) x1 b) (arr2 (n0 := 512) (n1 := 1024) x10) (arr1 (n := 512) x11) n o := by
  rw [val_main_v73_apply, val_main_v70_apply, val_main_v72_apply, val_main_v71_apply]
  have e1 : ∀ k : Fin 1024, lidx_main_v70 (ix3 b n o) k = ix3 b n k := fun k => funext fun a => Fin.ext (by match a with | ⟨0, _⟩ => rfl | ⟨1, _⟩ => rfl | ⟨2, _⟩ => rfl)
  have e2 : ∀ k : Fin 1024, ridx_main_v70 (ix3 b n o) k = ix2 o k := fun k => funext fun a => Fin.ext (by match a with | ⟨0, _⟩ => rfl | ⟨1, _⟩ => rfl)
  have e3 : idx_main_v71 (idx_main_v72 (ix3 b n o)) = ix1 o := funext fun a => Fin.ext (by match a with | ⟨0, _⟩ => rfl)
  simp only [e1, e2, e3]
  rfl

/-- The row mean: the sum of the row over its 512 entries, from the zero word, divided by 512.0. -/
theorem mean_v1 (x1 : (⟨S8x2048x1024, .f32⟩ : BufTy).Contents (Elt Ideal)) (x10 : (⟨S512x1024, .f32⟩ : BufTy).Contents (Elt Ideal)) (x11 : (⟨S512, .f32⟩ : BufTy).Contents (Elt Ideal)) (b : Fin 8) (n : Fin 2048) :
    val_main_v77 (F := Ideal) x1 x10 x11 (ix3 b n (0 : Fin 1)) = Cert.Spec.mu Cert.Spec.n512 (Cert.Spec.lin (arr3 (n0 := 8) (n1 := 2048) (n2 := 1024) x1 b) (arr2 (n0 := 512) (n1 := 1024) x10) (arr1 (n := 512) x11) n) := by
  rw [val_main_v77_apply, val_main_v75_apply, val_main_v74_apply, val_main_v76_apply, val_main_cst_13_apply, val_main_cst_12_apply]
  have e : ∀ k : Fin 512, idx_main_v74 (idx_main_v75 (ix3 b n (0 : Fin 1))) k = ix3 b n k := fun k => funext fun a => Fin.ext (by match a with | ⟨0, _⟩ => rfl | ⟨1, _⟩ => rfl | ⟨2, _⟩ => rfl)
  simp only [e, lin_v1, Ideal.ofBits_def, Ideal.ofBits_zero_f32, zero_add]
  rfl

/-- A row entry's deviation from the row mean (the first of the two printed subtractions). -/
theorem dev_v1 (x1 : (⟨S8x2048x1024, .f32⟩ : BufTy).Contents (Elt Ideal)) (x10 : (⟨S512x1024, .f32⟩ : BufTy).Contents (Elt Ideal)) (x11 : (⟨S512, .f32⟩ : BufTy).Contents (Elt Ideal)) (b : Fin 8) (n : Fin 2048) (o : Fin 512) :
    val_main_v79 (F := Ideal) x1 x10 x11 (ix3 b n o) = Cert.Spec.lin (arr3 (n0 := 8) (n1 := 2048) (n2 := 1024) x1 b) (arr2 (n0 := 512) (n1 := 1024) x10) (arr1 (n := 512) x11) n o - Cert.Spec.mu Cert.Spec.n512 (Cert.Spec.lin (arr3 (n0 := 8) (n1 := 2048) (n2 := 1024) x1 b) (arr2 (n0 := 512) (n1 := 1024) x10) (arr1 (n := 512) x11) n) := by
  rw [val_main_v79_apply, val_main_v78_apply, lin_v1]
  have e : idx_main_v78 (ix3 b n o) = ix3 b n (0 : Fin 1) := funext fun a => Fin.ext (by match a with | ⟨0, _⟩ => rfl | ⟨1, _⟩ => rfl | ⟨2, _⟩ => rfl)
  rw [e, mean_v1]
  rfl

/-- The row variance: the sum of the squared deviations, from the zero word, divided by 512.0. -/
theorem var_v1 (x1 : (⟨S8x2048x1024, .f32⟩ : BufTy).Contents (Elt Ideal)) (x10 : (⟨S512x1024, .f32⟩ : BufTy).Contents (Elt Ideal)) (x11 : (⟨S512, .f32⟩ : BufTy).Contents (Elt Ideal)) (b : Fin 8) (n : Fin 2048) :
    val_main_v84 (F := Ideal) x1 x10 x11 (ix3 b n (0 : Fin 1)) = Cert.Spec.var Cert.Spec.n512 (Cert.Spec.lin (arr3 (n0 := 8) (n1 := 2048) (n2 := 1024) x1 b) (arr2 (n0 := 512) (n1 := 1024) x10) (arr1 (n := 512) x11) n) := by
  rw [val_main_v84_apply, val_main_v82_apply, val_main_v81_apply, val_main_v83_apply, val_main_cst_15_apply, val_main_cst_14_apply]
  have e : ∀ k : Fin 512, idx_main_v81 (idx_main_v82 (ix3 b n (0 : Fin 1))) k = ix3 b n k := fun k => funext fun a => Fin.ext (by match a with | ⟨0, _⟩ => rfl | ⟨1, _⟩ => rfl | ⟨2, _⟩ => rfl)
  simp only [e, val_main_v80_apply, dev_v1, Ideal.ofBits_def, Ideal.ofBits_zero_f32, zero_add]
  rfl

/-- The branch's result: deviation over the square root of variance plus offset, times the scale, plus
    the shift, and the maximum of that with the zero word. -/
theorem branch_v1 (x1 : (⟨S8x2048x1024, .f32⟩ : BufTy).Contents (Elt Ideal)) (x10 : (⟨S512x1024, .f32⟩ : BufTy).Contents (Elt Ideal)) (x11 : (⟨S512, .f32⟩ : BufTy).Contents (Elt Ideal)) (x12 x13 : (⟨S512, .f32⟩ : BufTy).Contents (Elt Ideal)) (b : Fin 8) (n : Fin 2048) (o : Fin 512) :
    val_main_v98 (F := Ideal) x1 x10 x11 x12 x13 (ix3 b n o)
      = Cert.Spec.branchRef Cert.Spec.n512 (arr3 (n0 := 8) (n1 := 2048) (n2 := 1024) x1 b) (arr2 (n0 := 512) (n1 := 1024) x10)
          (arr1 (n := 512) x11) (arr1 (n := 512) x12) (arr1 (n := 512) x13) n o := by
  rw [val_main_v98_apply, val_main_v97_apply, val_main_v94_apply, val_main_v91_apply, val_main_v86_apply, val_main_v85_apply, val_main_v90_apply, val_main_v89_apply,
    val_main_v88_apply, val_main_v87_apply, val_main_cst_16_apply, val_main_v93_apply, val_main_v92_apply, val_main_v96_apply, val_main_v95_apply,
    val_main_call2_v0_apply, val_main_call2_cst_apply, lin_v1]
  have e15 : idx_main_v85 (ix3 b n o) = ix3 b n (0 : Fin 1) := funext fun a => Fin.ext (by match a with | ⟨0, _⟩ => rfl | ⟨1, _⟩ => rfl | ⟨2, _⟩ => rfl)
  have e20 : idx_main_v90 (ix3 b n o) = ix3 b n (0 : Fin 1) := funext fun a => Fin.ext (by match a with | ⟨0, _⟩ => rfl | ⟨1, _⟩ => rfl | ⟨2, _⟩ => rfl)
  have eg : idx_main_v92 (idx_main_v93 (ix3 b n o)) = ix1 o := funext fun a => Fin.ext (by match a with | ⟨0, _⟩ => rfl)
  have eb : idx_main_v95 (idx_main_v96 (ix3 b n o)) = ix1 o := funext fun a => Fin.ext (by match a with | ⟨0, _⟩ => rfl)
  rw [e15, e20, eg, eb, mean_v1, var_v1]
  simp only [Ideal.ofBits_def, Ideal.ofBits_zero_f32]
  rfl

end Cert.ReferenceIdeal.RefValue

end
-- ==== Proof.RefSoftmax.lean ====
/- The attention part of the plain-array program, read entry by entry: the scores q · kᵀ, their row
   maximum over the 2048 keys (a fold of max from -inf, met once more with -inf), the exponentials of
   the scores less the row maximum, their row sum from the zero word, the quotient, and the sum of the
   quotients against the values.  Each stage is identified with the specification's function at
   explicit coordinates. -/
import proofs.«171265_j74741020885605_2_alg».proof.Proof.RefBranchQ
import proofs.«171265_j74741020885605_2_alg».proof.Proof.RefBranchK
import proofs.«171265_j74741020885605_2_alg».proof.Proof.RefBranchV1

noncomputable section

namespace Cert.ReferenceIdeal.RefValue

open Cert.ReferenceIdeal Cert.ReferenceIdeal.Gen Cert.ReferenceIdeal.Read Idealize.ShloMosaic Idealize.ShloMosaic.ValueIdx Cert.Arr

/-- The queries of batch b: the first branch of the first input. -/
abbrev Qf (x0 : (⟨S8x2048x1024, .f32⟩ : BufTy).Contents (Elt Ideal)) (x2 : (⟨S1024x1024, .f32⟩ : BufTy).Contents (Elt Ideal)) (x3 x4 x5 : (⟨S1024, .f32⟩ : BufTy).Contents (Elt Ideal)) (b : Fin 8) : Fin 2048 → Fin 1024 → EReal :=
  Cert.Spec.branchRef Cert.Spec.n1024 (arr3 (n0 := 8) (n1 := 2048) (n2 := 1024) x0 b) (arr2 (n0 := 1024) (n1 := 1024) x2)
    (arr1 (n := 1024) x3) (arr1 (n := 1024) x4) (arr1 (n := 1024) x5)

/-- The keys of batch b: the second branch, of the second input. -/
abbrev Kf (x1 : (⟨S8x2048x1024, .f32⟩ : BufTy).Contents (Elt Ideal)) (x6 : (⟨S1024x1024, .f32⟩ : BufTy).Contents (Elt Ideal)) (x7 x8 x9 : (⟨S1024, .f32⟩ : BufTy).Contents (Elt Ideal)) (b : Fin 8) : Fin 2048 → Fin 1024 → EReal :=
  Cert.Spec.branchRef Cert.Spec.n1024 (arr3 (n0 := 8) (n1 := 2048) (n2 := 1024) x1 b) (arr2 (n0 := 1024) (n1 := 1024) x6)
    (arr1 (n := 1024) x7) (arr1 (n := 1024) x8) (arr1 (n := 1024) x9)

/-- The values of batch b: the third branch, of the second input. -/
abbrev V1f (x1 : (⟨S8x2048x1024, .f32⟩ : BufTy).Contents (Elt Ideal)) (x10 : (⟨S512x1024, .f32⟩ : BufTy).Contents (Elt Ideal)) (x11 x12 x13 : (⟨S512, .f32⟩ : BufTy).Contents (Elt Ideal)) (b : Fin 8) : Fin 2048 → Fin 512 → EReal :=
  Cert.Spec.branchRef Cert.Spec.n512 (arr3 (n0 := 8) (n1 := 2048) (n2 := 1024) x1 b) (arr2 (n0 := 512) (n1 := 1024) x10)
    (arr1 (n := 512) x11) (arr1 (n := 512) x12) (arr1 (n := 512) x13)

/-- The -inf word is the bottom of the extended reals. -/
theorem negInf_eq_bot : Ideal.ofBits .f32 0xFF800000#32 = (⊥ : EReal) := by simp [Ideal.ofBits, Ideal.ieee]

/-- The score of query n against key m, in batch b. -/
theorem scores_read (x0 x1 : (⟨S8x2048x1024, .f32⟩ : BufTy).Contents (Elt Ideal)) (x2 : (⟨S1024x1024, .f32⟩ : BufTy).Contents (Elt Ideal)) (x3 x4 x5 : (⟨S1024, .f32⟩ : BufTy).Contents (Elt Ideal)) (x6 : (⟨S1024x1024, .f32⟩ : BufTy).Contents (Elt Ideal)) (x7 x8 x9 : (⟨S1024, .f32⟩ : BufTy).Contents (Elt Ideal)) (b : Fin 8) (n m : Fin 2048) :
    val_main_v58 (F := Ideal) x0 x1 x2 x3 x4 x5 x6 x7 x8 x9 (ix3 b n m) = Cert.Spec.scores (Qf x0 x2 x3 x4 x5 b) (Kf x1 x6 x7 x8 x9 b) n m := by
  rw [val_main_v58_apply]
  have e1 : ∀ k : Fin 1024, lidx_main_v58 (ix3 b n m) k = ix3 b n k := fun k => funext fun a => Fin.ext (by match a with | ⟨0, _⟩ => rfl | ⟨1, _⟩ => rfl | ⟨2, _⟩ => rfl)
  have e2 : ∀ k : Fin 1024, ridx_main_v58 (ix3 b n m) k = ix3 b m k := fun k => funext fun a => Fin.ext (by match a with | ⟨0, _⟩ => rfl | ⟨1, _⟩ => rfl | ⟨2, _⟩ => rfl)
  simp only [e1, e2, branch_q, branch_k]
  rfl

/-- The row maximum over the keys: the fold of max over the 2048 scores of the row, from -inf (the second
    meeting with -inf changes nothing, -inf being the least extended real). -/
theorem rowmax_read (x0 x1 : (⟨S8x2048x1024, .f32⟩ : BufTy).Contents (Elt Ideal)) (x2 : (⟨S1024x1024, .f32⟩ : BufTy).Contents (Elt Ideal)) (x3 x4 x5 : (⟨S1024, .f32⟩ : BufTy).Contents (Elt Ideal)) (x6 : (⟨S1024x1024, .f32⟩ : BufTy).Contents (Elt Ideal)) (x7 x8 x9 : (⟨S1024, .f32⟩ : BufTy).Contents (Elt Ideal)) (b : Fin 8) (n : Fin 2048) :
    val_main_v61 (F := Ideal) x0 x1 x2 x3 x4 x5 x6 x7 x8 x9 (ix2 b n) = Cert.Spec.mxRef (Qf x0 x2 x3 x4 x5 b) (Kf x1 x6 x7 x8 x9 b) n := by
  rw [val_main_v61_apply, val_main_v60_apply, val_main_cst_10_apply]
  unfold val_main_v59
  have hred : S8x2048x2048.Reduces [2] S8x2048 := by decide
  rw [Host.reduce_eq_fold_single FloatOps.maximumf _ _ reducesTo_S8x2048x2048_S8x2048_d2 hred h_S_ (ix2 b n)]
  have hf : (val_main_v58 (F := Ideal) x0 x1 x2 x3 x4 x5 x6 x7 x8 x9 ∘ hred.lift (ix2 b n))
      = Cert.Spec.scores (Qf x0 x2 x3 x4 x5 b) (Kf x1 x6 x7 x8 x9 b) n := by
    funext k
    show val_main_v58 (F := Ideal) x0 x1 x2 x3 x4 x5 x6 x7 x8 x9 (hred.lift (ix2 b n) k) = _
    have e : hred.lift (ix2 b n) k = ix3 b n (⟨k.val, k.isLt⟩ : Fin 2048) := by
      funext a; apply Fin.ext
      match a with | ⟨0, _⟩ => rfl | ⟨1, _⟩ => rfl | ⟨2, _⟩ => rfl
    rw [e, scores_read]
    rfl
  rw [hf]
  show max (Ideal.ofBits .f32 0xFF800000#32)
      ((Finset.univ : Finset (Fin 2048)).fold max (Ideal.ofBits .f32 0xFF800000#32)
        (Cert.Spec.scores (Qf x0 x2 x3 x4 x5 b) (Kf x1 x6 x7 x8 x9 b) n)) = _
  rw [max_eq_right (by rw [negInf_eq_bot]; exact bot_le)]
  rfl

/-- The unnormalised weight: the exponential of the score less the row maximum. -/
theorem exp_read (x0 x1 : (⟨S8x2048x1024, .f32⟩ : BufTy).Contents (Elt Ideal)) (x2 : (⟨S1024x1024, .f32⟩ : BufTy).Contents (Elt Ideal)) (x3 x4 x5 : (⟨S1024, .f32⟩ : BufTy).Contents (Elt Ideal)) (x6 : (⟨S1024x1024, .f32⟩ : BufTy).Contents (Elt Ideal)) (x7 x8 x9 : (⟨S1024, .f32⟩ : BufTy).Contents (Elt Ideal)) (b : Fin 8) (n m : Fin 2048) :
    val_main_v65 (F := Ideal) x0 x1 x2 x3 x4 x5 x6 x7 x8 x9 (ix3 b n m) = Cert.Spec.eRef (Qf x0 x2 x3 x4 x5 b) (Kf x1 x6 x7 x8 x9 b) n m := by
  rw [val_main_v65_apply, val_main_v64_apply, val_main_v63_apply, val_main_v62_apply, scores_read]
  have e : idx_main_v62 (idx_main_v63 (ix3 b n m)) = ix2 b n := funext fun a => Fin.ext (by match a with | ⟨0, _⟩ => rfl | ⟨1, _⟩ => rfl)
  rw [e, rowmax_read]
  rfl

/-- The row sum of the weights over the 2048 keys, from the zero word. -/
theorem den_read (x0 x1 : (⟨S8x2048x1024, .f32⟩ : BufTy).Contents (Elt Ideal)) (x2 : (⟨S1024x1024, .f32⟩ : BufTy).Contents (Elt Ideal)) (x3 x4 x5 : (⟨S1024, .f32⟩ : BufTy).Contents (Elt Ideal)) (x6 : (⟨S1024x1024, .f32⟩ : BufTy).Contents (Elt Ideal)) (x7 x8 x9 : (⟨S1024, .f32⟩ : BufTy).Contents (Elt Ideal)) (b : Fin 8) (n : Fin 2048) :
    val_main_v66 (F := Ideal) x0 x1 x2 x3 x4 x5 x6 x7 x8 x9 (ix2 b n) = ∑ m : Fin 2048, Cert.Spec.eRef (Qf x0 x2 x3 x4 x5 b) (Kf x1 x6 x7 x8 x9 b) n m := by
  rw [val_main_v66_apply, val_main_cst_11_apply]
  have e : ∀ k : Fin 2048, idx_main_v66 (ix2 b n) k = ix3 b n k := fun k => funext fun a => Fin.ext (by match a with | ⟨0, _⟩ => rfl | ⟨1, _⟩ => rfl | ⟨2, _⟩ => rfl)
  simp only [e, exp_read, Ideal.ofBits_def, Ideal.ofBits_zero_f32, zero_add]

/-- The softmax weight: the weight over the row sum. -/
theorem prob_read (x0 x1 : (⟨S8x2048x1024, .f32⟩ : BufTy).Contents (Elt Ideal)) (x2 : (⟨S1024x1024, .f32⟩ : BufTy).Contents (Elt Ideal)) (x3 x4 x5 : (⟨S1024, .f32⟩ : BufTy).Contents (Elt Ideal)) (x6 : (⟨S1024x1024, .f32⟩ : BufTy).Contents (Elt Ideal)) (x7 x8 x9 : (⟨S1024, .f32⟩ : BufTy).Contents (Elt Ideal)) (b : Fin 8) (n m : Fin 2048) :
    val_main_v69 (F := Ideal) x0 x1 x2 x3 x4 x5 x6 x7 x8 x9 (ix3 b n m)
      = Ideal.div (Cert.Spec.eRef (Qf x0 x2 x3 x4 x5 b) (Kf x1 x6 x7 x8 x9 b) n m) (∑ m' : Fin 2048, Cert.Spec.eRef (Qf x0 x2 x3 x4 x5 b) (Kf x1 x6 x7 x8 x9 b) n m') := by
  rw [val_main_v69_apply, val_main_v68_apply, val_main_v67_apply, exp_read]
  have e : idx_main_v67 (idx_main_v68 (ix3 b n m)) = ix2 b n := funext fun a => Fin.ext (by match a with | ⟨0, _⟩ => rfl | ⟨1, _⟩ => rfl)
  rw [e, den_read]
  rfl

/-- The attention output: the softmax weights of the row summed against the values. -/
theorem attn_read (x0 x1 : (⟨S8x2048x1024, .f32⟩ : BufTy).Contents (Elt Ideal)) (x2 : (⟨S1024x1024, .f32⟩ : BufTy).Contents (Elt Ideal)) (x3 x4 x5 : (⟨S1024, .f32⟩ : BufTy).Contents (Elt Ideal)) (x6 : (⟨S1024x1024, .f32⟩ : BufTy).Contents (Elt Ideal)) (x7 x8 x9 : (⟨S1024, .f32⟩ : BufTy).Contents (Elt Ideal)) (x10 : (⟨S512x1024, .f32⟩ : BufTy).Contents (Elt Ideal)) (x11 x12 x13 : (⟨S512, .f32⟩ : BufTy).Contents (Elt Ideal)) (b : Fin 8) (n : Fin 2048) (h : Fin 512) :
    val_main_v99 (F := Ideal) x0 x1 x2 x3 x4 x5 x6 x7 x8 x9 x10 x11 x12 x13 (ix3 b n h)
      = Cert.Spec.attnRef (Qf x0 x2 x3 x4 x5 b) (Kf x1 x6 x7 x8 x9 b) (V1f x1 x10 x11 x12 x13 b) n h := by
  rw [val_main_v99_apply]
  have e1 : ∀ k : Fin 2048, lidx_main_v99 (ix3 b n h) k = ix3 b n k := fun k => funext fun a => Fin.ext (by match a with | ⟨0, _⟩ => rfl | ⟨1, _⟩ => rfl | ⟨2, _⟩ => rfl)
  have e2 : ∀ k : Fin 2048, ridx_main_v99 (ix3 b n h) k = ix3 b k h := fun k => funext fun a => Fin.ext (by match a with | ⟨0, _⟩ => rfl | ⟨1, _⟩ => rfl | ⟨2, _⟩ => rfl)
  simp only [e1, e2, prob_read, branch_v1]
  rfl

end Cert.ReferenceIdeal.RefValue

end
-- ==== Proof.RefBranchV2.lean ====
/- The branch "v2 (pass-through, of the first input)" of the plain-array program, read entry by entry: the affine map
   x · Wᵀ + bias over the 1024 input features, the mean and the variance of a row of 512 outputs (sums
   divided by the literal 512.0), the normalised row (deviation divided by the square root of
   variance plus the offset) scaled and shifted, and its positive part.  Each stage of the operation
   list is identified with the corresponding function of the specification at explicit coordinates. -/
import proofs.«171265_j74741020885605_2_alg».proof.Proof.RefReadP
import proofs.«171265_j74741020885605_2_alg».proof.Proof.SpecDefs
import proofs.«171265_j74741020885605_2_alg».proof.Proof.RefArr

noncomputable section

namespace Cert.ReferenceIdeal.RefValue

open Cert.ReferenceIdeal Cert.ReferenceIdeal.Gen Cert.ReferenceIdeal.Read Idealize.ShloMosaic Idealize.ShloMosaic.ValueIdx Cert.Arr

/-- The affine map at row (b, n) and output feature o. -/
theorem lin_v2 (x0 : (⟨S8x2048x1024, .f32⟩ : BufTy).Contents (Elt Ideal)) (x14 : (⟨S512x1024, .f32⟩ : BufTy).Contents (Elt Ideal)) (x15 : (⟨S512, .f32⟩ : BufTy).Contents (Elt Ideal)) (b : Fin 8) (n : Fin 2048) (o : Fin 512) :
    val_main_v103 (F := Ideal) x0 x14 x15 (ix3 b n o) = Cert.Spec.lin (arr3 (n0 := 8) (n1 := 2048) (n2 := 1024) x0 b) (arr2 (n0 := 512) (n1 := 1024) x14) (arr1 (n := 512) x15) n o := by
  rw [val_main_v103_apply, val_main_v100_apply, val_main_v102_apply, val_main_v101_apply]
  have e1 : ∀ k : Fin 1024, lidx_main_v100 (ix3 b n o) k = ix3 b n k := fun k => funext fun a => Fin.ext (by match a with | ⟨0, _⟩ => rfl | ⟨1, _⟩ => rfl | ⟨2, _⟩ => rfl)
  have e2 : ∀ k : Fin 1024, ridx_main_v100 (ix3 b n o) k = ix2 o k := fun k => funext fun a => Fin.ext (by match a with | ⟨0, _⟩ => rfl | ⟨1, _⟩ => rfl)
  have e3 : idx_main_v101 (idx_main_v102 (ix3 b n o)) = ix1 o := funext fun a => Fin.ext (by match a with | ⟨0, _⟩ => rfl)
  simp only [e1, e2, e3]
  rfl

/-- The row mean: the sum of the row over its 512 entries, from the zero word, divided by 512.0. -/
theorem mean_v2 (x0 : (⟨S8x2048x1024, .f32⟩ : BufTy).Contents (Elt Ideal)) (x14 : (⟨S512x1024, .f32⟩ : BufTy).Contents (Elt Ideal)) (x15 : (⟨S512, .f32⟩ : BufTy).Contents (Elt Ideal)) (b : Fin 8) (n : Fin 2048) :
    val_main_v107 (F := Ideal) x0 x14 x15 (ix3 b n (0 : Fin 1)) = Cert.Spec.mu Cert.Spec.n512 (Cert.Spec.lin (arr3 (n0 := 8) (n1 := 2048) (n2 := 1024) x0 b) (arr2 (n0 := 512) (n1 := 1024) x14) (arr1 (n := 512) x15) n) := by
  rw [val_main_v107_apply, val_main_v105_apply, val_main_v104_apply, val_main_v106_apply, val_main_cst_18_apply, val_main_cst_17_apply]
  have e : ∀ k : Fin 512, idx_main_v104 (idx_main_v105 (ix3 b n (0 : Fin 1))) k = ix3 b n k := fun k => funext fun a => Fin.ext (by match a with | ⟨0, _⟩ => rfl | ⟨1, _⟩ => rfl | ⟨2, _⟩ => rfl)
  simp only [e, lin_v2, Ideal.ofBits_def, Ideal.ofBits_zero_f32, zero_add]
  rfl

/-- A row entry's deviation from the row mean (the first of the two printed subtractions). -/
theorem dev_v2 (x0 : (⟨S8x2048x1024, .f32⟩ : BufTy).Contents (Elt Ideal)) (x14 : (⟨S512x1024, .f32⟩ : BufTy).Contents (Elt Ideal)) (x15 : (⟨S512, .f32⟩ : BufTy).Contents (Elt Ideal)) (b : Fin 8) (n : Fin 2048) (o : Fin 512) :
    val_main_v109 (F := Ideal) x0 x14 x15 (ix3 b n o) = Cert.Spec.lin (arr3 (n0 := 8) (n1 := 2048) (n2 := 1024) x0 b) (arr2 (n0 := 512) (n1 := 1024) x14) (arr1 (n := 512) x15) n o - Cert.Spec.mu Cert.Spec.n512 (Cert.Spec.lin (arr3 (n0 := 8) (n1 := 2048) (n2 := 1024) x0 b) (arr2 (n0 := 512) (n1 := 1024) x14) (arr1 (n := 512) x15) n) := by
  rw [val_main_v109_apply, val_main_v108_apply, lin_v2]
  have e : idx_main_v108 (ix3 b n o) = ix3 b n (0 : Fin 1) := funext fun a => Fin.ext (by match a with | ⟨0, _⟩ => rfl | ⟨1, _⟩ => rfl | ⟨2, _⟩ => rfl)
  rw [e, mean_v2]
  rfl

/-- The row variance: the sum of the squared deviations, from the zero word, divided by 512.0. -/
theorem var_v2 (x0 : (⟨S8x2048x1024, .f32⟩ : BufTy).Contents (Elt Ideal)) (x14 : (⟨S512x1024, .f32⟩ : BufTy).Contents (Elt Ideal)) (x15 : (⟨S512, .f32⟩ : BufTy).Contents (Elt Ideal)) (b : Fin 8) (n : Fin 2048) :
    val_main_v114 (F := Ideal) x0 x14 x15 (ix3 b n (0 : Fin 1)) = Cert.Spec.var Cert.Spec.n512 (Cert.Spec.lin (arr3 (n0 := 8) (n1 := 2048) (n2 := 1024) x0 b) (arr2 (n0 := 512) (n1 := 1024) x14) (arr1 (n := 512) x15) n) := by
  rw [val_main_v114_apply, val_main_v112_apply, val_main_v111_apply, val_main_v113_apply, val_main_cst_20_apply, val_main_cst_19_apply]
  have e : ∀ k : Fin 512, idx_main_v111 (idx_main_v112 (ix3 b n (0 : Fin 1))) k = ix3 b n k := fun k => funext fun a => Fin.ext (by match a with | ⟨0, _⟩ => rfl | ⟨1, _⟩ => rfl | ⟨2, _⟩ => rfl)
  simp only [e, val_main_v110_apply, dev_v2, Ideal.ofBits_def, Ideal.ofBits_zero_f32, zero_add]
  rfl

/-- The branch's result: deviation over the square root of variance plus offset, times the scale, plus
    the shift, and the maximum of that with the zero word. -/
theorem branch_v2 (x0 : (⟨S8x2048x1024, .f32⟩ : BufTy).Contents (Elt Ideal)) (x14 : (⟨S512x1024, .f32⟩ : BufTy).Contents (Elt Ideal)) (x15 : (⟨S512, .f32⟩ : BufTy).Contents (Elt Ideal)) (x16 x17 : (⟨S512, .f32⟩ : BufTy).Contents (Elt Ideal)) (b : Fin 8) (n : Fin 2048) (o : Fin 512) :
    val_main_v128 (F := Ideal) x0 x14 x15 x16 x17 (ix3 b n o)
      = Cert.Spec.branchRef Cert.Spec.n512 (arr3 (n0 := 8) (n1 := 2048) (n2 := 1024) x0 b) (arr2 (n0 := 512) (n1 := 1024) x14)
          (arr1 (n := 512) x15) (arr1 (n := 512) x16) (arr1 (n := 512) x17) n o := by
  rw [val_main_v128_apply, val_main_v127_apply, val_main_v124_apply, val_main_v121_apply, val_main_v116_apply, val_main_v115_apply, val_main_v120_apply, val_main_v119_apply,
    val_main_v118_apply, val_main_v117_apply, val_main_cst_21_apply, val_main_v123_apply, val_main_v122_apply, val_main_v126_apply, val_main_v125_apply,
    val_main_call3_v0_apply, val_main_call3_cst_apply, lin_v2]
  have e15 : idx_main_v115 (ix3 b n o) = ix3 b n (0 : Fin 1) := funext fun a => Fin.ext (by match a with | ⟨0, _⟩ => rfl | ⟨1, _⟩ => rfl | ⟨2, _⟩ => rfl)
  have e20 : idx_main_v120 (ix3 b n o) = ix3 b n (0 : Fin 1) := funext fun a => Fin.ext (by match a with | ⟨0, _⟩ => rfl | ⟨1, _⟩ => rfl | ⟨2, _⟩ => rfl)
  have eg : idx_main_v122 (idx_main_v123 (ix3 b n o)) = ix1 o := funext fun a => Fin.ext (by match a with | ⟨0, _⟩ => rfl)
  have eb : idx_main_v125 (idx_main_v126 (ix3 b n o)) = ix1 o := funext fun a => Fin.ext (by match a with | ⟨0, _⟩ => rfl)
  rw [e15, e20, eg, eb, mean_v2, var_v2]
  simp only [Ideal.ofBits_def, Ideal.ofBits_zero_f32]
  rfl

end Cert.ReferenceIdeal.RefValue

end
-- ==== Proof.RefIsSpec.lean ====
/- The plain-array program's result, entry by entry, is the specification's first spelling: on the last
   axis the first 512 columns are the fourth branch and the last 512 the attention output, joined by a
   concatenation; an entry of the joined array is read from the piece its column falls in. -/
import proofs.«171265_j74741020885605_2_alg».proof.Proof.RefSoftmax
import proofs.«171265_j74741020885605_2_alg».proof.Proof.RefBranchV2

noncomputable section

namespace Cert.ReferenceIdeal.RefValue

open Cert.ReferenceIdeal Cert.ReferenceIdeal.Gen Cert.ReferenceIdeal.Read Idealize.ShloMosaic Idealize.ShloMosaic.ValueIdx Cert.Arr

/-- The last stage of the operation list at (b, n, j) is the specification at (b, n, j). -/
theorem result_read (x0 x1 : (⟨S8x2048x1024, .f32⟩ : BufTy).Contents (Elt Ideal)) (x2 : (⟨S1024x1024, .f32⟩ : BufTy).Contents (Elt Ideal)) (x3 x4 x5 : (⟨S1024, .f32⟩ : BufTy).Contents (Elt Ideal)) (x6 : (⟨S1024x1024, .f32⟩ : BufTy).Contents (Elt Ideal)) (x7 x8 x9 : (⟨S1024, .f32⟩ : BufTy).Contents (Elt Ideal)) (x10 : (⟨S512x1024, .f32⟩ : BufTy).Contents (Elt Ideal)) (x11 x12 x13 : (⟨S512, .f32⟩ : BufTy).Contents (Elt Ideal)) (x14 : (⟨S512x1024, .f32⟩ : BufTy).Contents (Elt Ideal)) (x15 x16 x17 : (⟨S512, .f32⟩ : BufTy).Contents (Elt Ideal)) (b : Fin 8) (n : Fin 2048) (j : Fin 1024) :
    val_main_v129 (F := Ideal) x0 x1 x2 x3 x4 x5 x6 x7 x8 x9 x10 x11 x12 x13 x14 x15 x16 x17 (ix3 b n j)
      = Cert.Spec.specRef (arr3 (n0 := 8) (n1 := 2048) (n2 := 1024) x0) (arr3 (n0 := 8) (n1 := 2048) (n2 := 1024) x1)
        (arr2 (n0 := 1024) (n1 := 1024) x2) (arr1 (n := 1024) x3) (arr1 (n := 1024) x4) (arr1 (n := 1024) x5)
        (arr2 (n0 := 1024) (n1 := 1024) x6) (arr1 (n := 1024) x7) (arr1 (n := 1024) x8) (arr1 (n := 1024) x9)
        (arr2 (n0 := 512) (n1 := 1024) x10) (arr1 (n := 512) x11) (arr1 (n := 512) x12) (arr1 (n := 512) x13)
        (arr2 (n0 := 512) (n1 := 1024) x14) (arr1 (n := 512) x15) (arr1 (n := 512) x16) (arr1 (n := 512) x17) b n j := by
  unfold val_main_v129 Cert.Spec.specRef
  by_cases hc : j.val < 512
  · rw [dif_pos hc]
    rw [concatenate_pair_apply_left (2 : Fin S8x2048x1024.rank) _ _ concatenates_S8x2048x512_S8x2048x512_S8x2048x1024_d2 (ix3 b n j) rfl
      (ix3 b n (⟨j.val, hc⟩ : Fin 512)) (fun a => by match a with | ⟨0, _⟩ => rfl | ⟨1, _⟩ => rfl | ⟨2, _⟩ => rfl)]
    exact branch_v2 x0 x14 x15 x16 x17 b n ⟨j.val, hc⟩
  · rw [dif_neg hc]
    have hj : j.val - 512 < 512 := by have := j.isLt; omega
    rw [concatenate_pair_apply_right (2 : Fin S8x2048x1024.rank) _ _ concatenates_S8x2048x512_S8x2048x512_S8x2048x1024_d2 (ix3 b n j) rfl rfl
      (ix3 b n (⟨j.val - 512, hj⟩ : Fin 512))
      (fun a ha => by match a with | ⟨0, _⟩ => rfl | ⟨1, _⟩ => rfl | ⟨2, _⟩ => exact absurd rfl ha)
      (by show (j.val - 512) + 512 = j.val; omega)]
    exact attn_read x0 x1 x2 x3 x4 x5 x6 x7 x8 x9 x10 x11 x12 x13 b n ⟨j.val - 512, hj⟩

/-- The last stage as a whole array: at every index, the specification at that index's coordinates. -/
theorem result_eq (x0 x1 : (⟨S8x2048x1024, .f32⟩ : BufTy).Contents (Elt Ideal)) (x2 : (⟨S1024x1024, .f32⟩ : BufTy).Contents (Elt Ideal)) (x3 x4 x5 : (⟨S1024, .f32⟩ : BufTy).Contents (Elt Ideal)) (x6 : (⟨S1024x1024, .f32⟩ : BufTy).Contents (Elt Ideal)) (x7 x8 x9 : (⟨S1024, .f32⟩ : BufTy).Contents (Elt Ideal)) (x10 : (⟨S512x1024, .f32⟩ : BufTy).Contents (Elt Ideal)) (x11 x12 x13 : (⟨S512, .f32⟩ : BufTy).Contents (Elt Ideal)) (x14 : (⟨S512x1024, .f32⟩ : BufTy).Contents (Elt Ideal)) (x15 x16 x17 : (⟨S512, .f32⟩ : BufTy).Contents (Elt Ideal)) :
    val_main_v129 (F := Ideal) x0 x1 x2 x3 x4 x5 x6 x7 x8 x9 x10 x11 x12 x13 x14 x15 x16 x17
      = fun i => Cert.Spec.specRef (arr3 (n0 := 8) (n1 := 2048) (n2 := 1024) x0) (arr3 (n0 := 8) (n1 := 2048) (n2 := 1024) x1)
        (arr2 (n0 := 1024) (n1 := 1024) x2) (arr1 (n := 1024) x3) (arr1 (n := 1024) x4) (arr1 (n := 1024) x5)
        (arr2 (n0 := 1024) (n1 := 1024) x6) (arr1 (n := 1024) x7) (arr1 (n := 1024) x8) (arr1 (n := 1024) x9)
        (arr2 (n0 := 512) (n1 := 1024) x10) (arr1 (n := 512) x11) (arr1 (n := 512) x12) (arr1 (n := 512) x13)
        (arr2 (n0 := 512) (n1 := 1024) x14) (arr1 (n := 512) x15) (arr1 (n := 512) x16) (arr1 (n := 512) x17) (i 0) (i 1) (i 2) := by
  funext i
  refine (congrArg (val_main_v129 (F := Ideal) x0 x1 x2 x3 x4 x5 x6 x7 x8 x9 x10 x11 x12 x13 x14 x15 x16 x17) (eq_ix3 i)).trans ?_
  exact result_read x0 x1 x2 x3 x4 x5 x6 x7 x8 x9 x10 x11 x12 x13 x14 x15 x16 x17 (i 0) (i 1) (i 2)

end Cert.ReferenceIdeal.RefValue

end
-- ==== Proof.RefResult.lean ====
/- The plain-array program's run, with its result buffer stated by the specification: every weakly fair
   execution terminates, the result array holds, at each index, the specification's first spelling of the
   eighteen argument arrays at that index's coordinates, and the arguments are unchanged. -/
import proofs.«171265_j74741020885605_2_alg».proof.Proof.RefReadEqP
import proofs.«171265_j74741020885605_2_alg».proof.Proof.RefIsSpec

noncomputable section

namespace Cert.ReferenceIdeal.RefValue

open Cert.ReferenceIdeal Cert.ReferenceIdeal.Gen Idealize.ShloMosaic Idealize.ShloMosaic.TcCoe Idealize.SL.Sem Idealize.ShloMosaic.StableHlo Cert.Arr

/-- The specification's first spelling of the argument arrays a memory holds on device c, as an array. -/
def specOf (m : (ℓ : Loc nD τ sig) → Buf (Elt Ideal) ℓ) (c : Dev nD) : S8x2048x1024.Idx → EReal :=
  fun i => Cert.Spec.specRef (arr3 (n0 := 8) (n1 := 2048) (n2 := 1024) (m ((c.tc : Thread nD τ).loc main_arg0))) (arr3 (n0 := 8) (n1 := 2048) (n2 := 1024) (m ((c.tc : Thread nD τ).loc main_arg1)))
      (arr2 (n0 := 1024) (n1 := 1024) (m ((c.tc : Thread nD τ).loc main_arg2))) (arr1 (n := 1024) (m ((c.tc : Thread nD τ).loc main_arg3))) (arr1 (n := 1024) (m ((c.tc : Thread nD τ).loc main_arg4))) (arr1 (n := 1024) (m ((c.tc : Thread nD τ).loc main_arg5)))
      (arr2 (n0 := 1024) (n1 := 1024) (m ((c.tc : Thread nD τ).loc main_arg6))) (arr1 (n := 1024) (m ((c.tc : Thread nD τ).loc main_arg7))) (arr1 (n := 1024) (m ((c.tc : Thread nD τ).loc main_arg8))) (arr1 (n := 1024) (m ((c.tc : Thread nD τ).loc main_arg9)))
      (arr2 (n0 := 512) (n1 := 1024) (m ((c.tc : Thread nD τ).loc main_arg10))) (arr1 (n := 512) (m ((c.tc : Thread nD τ).loc main_arg11))) (arr1 (n := 512) (m ((c.tc : Thread nD τ).loc main_arg12))) (arr1 (n := 512) (m ((c.tc : Thread nD τ).loc main_arg13)))
      (arr2 (n0 := 512) (n1 := 1024) (m ((c.tc : Thread nD τ).loc main_arg14))) (arr1 (n := 512) (m ((c.tc : Thread nD τ).loc main_arg15))) (arr1 (n := 512) (m ((c.tc : Thread nD τ).loc main_arg16))) (arr1 (n := 512) (m ((c.tc : Thread nD τ).loc main_arg17))) (i 0) (i 1) (i 2)

/-- The composed term of the operation list at the result buffer is that array. -/
theorem res_eq_spec (m : (ℓ : Loc nD τ sig) → Buf (Elt Ideal) ℓ) (c : Dev nD) :
    Cert.ReferenceIdeal.Value.res_main_v129 (F := Ideal) m c = specOf m c :=
  (Cert.ReferenceIdeal.Read.val_main_v129_eq (F := Ideal) m c).trans (result_eq _ _ _ _ _ _ _ _ _ _ _ _ _ _ _ _ _ _)

/-- The run with the result stated by the specification. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v129) = specOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c).1.trans (res_eq_spec m c), (h c).2⟩)
    (Cert.ReferenceIdeal.Value.run (F := Ideal) m ρ)

end Cert.ReferenceIdeal.RefValue

end
-- ==== Proof.SpecCoe.lean ====
/-
  Real numbers inside the extended reals: the coercion `ℝ → EReal` commutes with finite sums,
  products, differences, maxima, division by a nonzero real, square roots of nonnegative reals,
  reciprocal square roots of positive reals and the exponential; the literals of the claim are
  positive reals (the variance offset and the two row lengths) and `-∞`; the maximum of a
  nonempty finite family of reals, folded from `-∞`, is a real; and a sum over 2048 keys is
  the sum over the two tiles of 1024 keys.
-/
import Idealize.ShloMosaic.PureOps.Ideal
import proofs.«171265_j74741020885605_2_alg».proof.Proof.SpecDefs

namespace Cert.Spec

open Idealize.ShloMosaic
open scoped BigOperators

/-! ### The coercion and the operations -/

/-- The coercion commutes with finite sums. -/
theorem coe_sum {ι : Type*} (s : Finset ι) (f : ι → ℝ) :
    (∑ i ∈ s, (f i : EReal)) = ((∑ i ∈ s, f i : ℝ) : EReal) := by
  classical
  refine Finset.induction_on s ?_ ?_
  · simp
  · intro a s ha ih
    rw [Finset.sum_insert ha, Finset.sum_insert ha, ih, EReal.coe_add]

/-- The coercion commutes with the binary maximum. -/
theorem coe_max' (a b : ℝ) : max (a : EReal) (b : EReal) = ((max a b : ℝ) : EReal) :=
  (EReal.coe_strictMono.monotone.map_max).symm

/-- Division of a real by a nonzero real. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The square root of a nonnegative real. -/
theorem sqrt_coe_nonneg {r : ℝ} (hr : 0 ≤ r) :
    Ideal.sqrt (r : EReal) = ((Real.sqrt r : ℝ) : EReal) := by
  rw [Ideal.sqrt_coe, if_neg (not_lt.mpr hr)]

/-- The reciprocal square root of a positive real. -/
theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

/-- `-∞` minus anything is `-∞`. -/
theorem bot_sub' (x : EReal) : (⊥ : EReal) - x = ⊥ := by
  rw [sub_eq_add_neg, EReal.bot_add]

/-- An extended real that is neither infinity is a real. -/
theorem exists_coe_of_ne {x : EReal} (ht : x ≠ ⊤) (hb : x ≠ ⊥) : ∃ r : ℝ, x = (r : EReal) :=
  ⟨x.toReal, (EReal.coe_toReal ht hb).symm⟩

/-! ### The literals -/

/-- The pattern `0xFF800000` is `-∞`. -/
theorem negInf_eq_bot : negInf = (⊥ : EReal) := by
  simp [Ideal.ofBits, Ideal.ieee]

/-- The variance offset is a positive real. -/
theorem eps_pos : ∃ e : ℝ, 0 < e ∧ eps = (e : EReal) := by
  refine ⟨10995116 * (2 ^ 40)⁻¹, by positivity, ?_⟩
  simp [Ideal.ofBits, Ideal.ieee]

/-- `1024.0` is a positive real. -/
theorem n1024_pos : ∃ e : ℝ, 0 < e ∧ n1024 = (e : EReal) := by
  refine ⟨8388608 * (2 ^ 13)⁻¹, by positivity, ?_⟩
  simp [Ideal.ofBits, Ideal.ieee]

/-- `512.0` is a positive real. -/
theorem n512_pos : ∃ e : ℝ, 0 < e ∧ n512 = (e : EReal) := by
  refine ⟨8388608 * (2 ^ 14)⁻¹, by positivity, ?_⟩
  simp [Ideal.ofBits, Ideal.ieee]

/-! ### The folded maximum of reals -/

/-- The maximum of a nonempty family of reals, folded from `-∞`, is a real. -/
theorem rowMax_real {M : ℕ} (hM : 0 < M) (f : Fin M → ℝ) :
    ∃ r : ℝ, rowMax negInf (fun i => (f i : EReal)) = (r : EReal) := by
  have hb : rowMax negInf (fun i => (f i : EReal)) ≠ ⊥ := by
    apply ne_of_gt
    rw [rowMax, Finset.lt_fold_max]
    exact Or.inr ⟨⟨0, hM⟩, Finset.mem_univ _, EReal.bot_lt_coe _⟩
  have ht : rowMax negInf (fun i => (f i : EReal)) ≠ ⊤ := by
    apply ne_of_lt
    rw [rowMax, Finset.fold_max_lt]
    exact ⟨by rw [negInf_eq_bot]; exact bot_lt_top, fun i _ => EReal.coe_lt_top _⟩
  exact exists_coe_of_ne ht hb

/-! ### Keys by tile -/

/-- A sum over the 2048 keys is the sum over tile 0 plus the sum over tile 1. -/
theorem sum_tiles {α : Type*} [AddCommMonoid α] (f : Fin 2048 → α) :
    ∑ m, f m = ∑ c, f (key 0 c) + ∑ c, f (key 1 c) := by
  rw [show (∑ m, f m) = _ from @Fin.sum_univ_add α _ 1024 1024 f]
  congr 1 <;> exact Finset.sum_congr rfl fun c _ => congrArg f (Fin.ext (by simp [key]))

end Cert.Spec
-- ==== Proof.SpecNorm.lean ====
/-
  The affine map, the row normalisation and the positive part on real inputs.

  On a row of reals, with a positive real row length `n` and the positive variance offset, the
  variance is nonnegative, so `σ² + ε` is positive: its square root is a nonzero real and
  dividing by it is multiplying by its reciprocal, which is what the reciprocal square root is
  there.  Hence the two spellings of a branch agree, and their common value is again real.
-/
import Idealize.ShloMosaic.PureOps.Ideal
import proofs.«171265_j74741020885605_2_alg».proof.Proof.SpecDefs
import proofs.«171265_j74741020885605_2_alg».proof.Proof.SpecCoe

namespace Cert.Spec

open Idealize.ShloMosaic
open scoped BigOperators

/-! ### The same quantities over the reals -/

/-- The row mean of a real row. -/
noncomputable def muR {C : ℕ} (nr : ℝ) (y : Fin C → ℝ) : ℝ := (∑ o, y o) / nr

/-- The row variance of a real row. -/
noncomputable def varR {C : ℕ} (nr : ℝ) (y : Fin C → ℝ) : ℝ :=
  (∑ o, (y o - muR nr y) * (y o - muR nr y)) / nr

/-- The normalised, scaled, shifted and clipped row, over the reals. -/
noncomputable def normR {C : ℕ} (nr er : ℝ) (y g beta : Fin C → ℝ) (o : Fin C) : ℝ :=
  max ((y o - muR nr y) / Real.sqrt (varR nr y + er) * g o + beta o) 0

/-- The affine map over the reals. -/
noncomputable def linR {R C : ℕ} (x : Fin R → Fin 1024 → ℝ) (W : Fin C → Fin 1024 → ℝ) (b : Fin C → ℝ)
    (r : Fin R) (o : Fin C) : ℝ :=
  (∑ d, x r d * W o d) + b o

theorem varR_nonneg {C : ℕ} {nr : ℝ} (hn : 0 < nr) (y : Fin C → ℝ) : 0 ≤ varR nr y :=
  div_nonneg (Finset.sum_nonneg fun _ _ => mul_self_nonneg _) hn.le

/-! ### The extended-real quantities on real rows -/

theorem lin_coe {R C : ℕ} (x : Fin R → Fin 1024 → ℝ) (W : Fin C → Fin 1024 → ℝ) (b : Fin C → ℝ)
    (r : Fin R) (o : Fin C) :
    lin (fun r d => (x r d : EReal)) (fun o d => (W o d : EReal)) (fun o => (b o : EReal)) r o
      = (linR x W b r o : EReal) := by
  simp only [lin, linR, ← EReal.coe_mul, coe_sum, ← EReal.coe_add]

theorem mu_coe {C : ℕ} {nr : ℝ} (hn : nr ≠ 0) (y : Fin C → ℝ) :
    mu (nr : EReal) (fun o => (y o : EReal)) = (muR nr y : EReal) := by
  simp only [mu, muR, coe_sum, div_coe_coe _ hn]

theorem var_coe {C : ℕ} {nr : ℝ} (hn : nr ≠ 0) (y : Fin C → ℝ) :
    var (nr : EReal) (fun o => (y o : EReal)) = (varR nr y : EReal) := by
  simp only [var, varR, mu_coe hn, ← EReal.coe_sub, ← EReal.coe_mul, coe_sum, div_coe_coe _ hn]

/-- The first spelling on a real row is the real formula. -/
theorem normRef_coe {C : ℕ} {nr er : ℝ} (hn : 0 < nr) (he : 0 < er) (heps : eps = (er : EReal))
    (y g beta : Fin C → ℝ) (o : Fin C) :
    normRef (nr : EReal) (fun o => (y o : EReal)) (fun o => (g o : EReal)) (fun o => (beta o : EReal)) o
      = (normR nr er y g beta o : EReal) := by
  have hs : 0 < varR nr y + er := add_pos_of_nonneg_of_pos (varR_nonneg hn y) he
  have hq : Real.sqrt (varR nr y + er) ≠ 0 := (Real.sqrt_pos.mpr hs).ne'
  simp only [normRef, normR, mu_coe hn.ne', var_coe hn.ne', heps, ← EReal.coe_add,
    sqrt_coe_nonneg hs.le, ← EReal.coe_sub, div_coe_coe _ hq, ← EReal.coe_mul, ← EReal.coe_zero,
    coe_max']

/-- The second spelling on a real row is the same real formula. -/
theorem normKer_coe {C : ℕ} {nr er : ℝ} (hn : 0 < nr) (he : 0 < er) (heps : eps = (er : EReal))
    (y g beta : Fin C → ℝ) (o : Fin C) :
    normKer (nr : EReal) (fun o => (y o : EReal)) (fun o => (g o : EReal)) (fun o => (beta o : EReal)) o
      = (normR nr er y g beta o : EReal) := by
  have hs : 0 < varR nr y + er := add_pos_of_nonneg_of_pos (varR_nonneg hn y) he
  simp only [normKer, normR, mu_coe hn.ne', var_coe hn.ne', heps, ← EReal.coe_add,
    rsqrt_coe_pos hs, ← EReal.coe_sub, ← EReal.coe_mul, ← EReal.coe_zero, coe_max',
    div_eq_mul_inv]

/-! ### A branch on real inputs -/

/-- A branch over the reals. -/
noncomputable def branchR {R C : ℕ} (nr er : ℝ) (x : Fin R → Fin 1024 → ℝ) (W : Fin C → Fin 1024 → ℝ)
    (b g beta : Fin C → ℝ) (r : Fin R) (o : Fin C) : ℝ :=
  normR nr er (linR x W b r) g beta o

/-- On real inputs the two spellings of a branch are one real-valued array. -/
theorem branch_real {R C : ℕ} {n : EReal} (hn : ∃ e : ℝ, 0 < e ∧ n = (e : EReal))
    (x : Fin R → Fin 1024 → EReal) (W : Fin C → Fin 1024 → EReal) (b g beta : Fin C → EReal)
    (hx : ∀ r d, ∃ t : ℝ, x r d = (t : EReal)) (hW : ∀ o d, ∃ t : ℝ, W o d = (t : EReal))
    (hb : ∀ o, ∃ t : ℝ, b o = (t : EReal)) (hg : ∀ o, ∃ t : ℝ, g o = (t : EReal))
    (hbeta : ∀ o, ∃ t : ℝ, beta o = (t : EReal)) :
    ∃ f : Fin R → Fin C → ℝ,
      branchRef n x W b g beta = (fun r o => (f r o : EReal)) ∧
      branchKer n x W b g beta = (fun r o => (f r o : EReal)) := by
  obtain ⟨nr, hnr, rfl⟩ := hn
  obtain ⟨er, her, heps⟩ := eps_pos
  choose xr hxr using hx
  choose Wr hWr using hW
  choose br hbr using hb
  choose gr hgr using hg
  choose betar hbetar using hbeta
  obtain rfl : x = fun r d => (xr r d : EReal) := funext fun r => funext fun d => hxr r d
  obtain rfl : W = fun o d => (Wr o d : EReal) := funext fun o => funext fun d => hWr o d
  obtain rfl : b = fun o => (br o : EReal) := funext hbr
  obtain rfl : g = fun o => (gr o : EReal) := funext hgr
  obtain rfl : beta = fun o => (betar o : EReal) := funext hbetar
  have hl : ∀ r, lin (fun r d => (xr r d : EReal)) (fun o d => (Wr o d : EReal)) (fun o => (br o : EReal)) r
      = fun o => (linR xr Wr br r o : EReal) := fun r => funext fun o => lin_coe xr Wr br r o
  refine ⟨branchR nr er xr Wr br gr betar, ?_, ?_⟩
  · funext r o
    show normRef _ (lin _ _ _ r) _ _ o = _
    rw [hl r]
    exact normRef_coe hnr her heps _ _ _ o
  · funext r o
    show normKer _ (lin _ _ _ r) _ _ o = _
    rw [hl r]
    exact normKer_coe hnr her heps _ _ _ o

end Cert.Spec
-- ==== Proof.SpecSoftmax.lean ====
/-
  Softmax attention on real inputs: the one-shot spelling and the two-tile streaming spelling
  agree.

  Over the reals a softmax-weighted sum does not depend on the point the scores are shifted by:
  `∑ exp (s m - A) / (∑ exp (s m' - A)) * w m = (∑ exp (s m - B) * w m) / (∑ exp (s m' - B))`
  for any reals `A`, `B`, because `exp (s - A) = exp (B - A) * exp (s - B)` and the common
  factor cancels.  The one-shot spelling shifts by the maximum over all keys, a real.  The
  streaming spelling starts from `-∞`, `0`, `0`; after the first tile its running maximum is
  the first tile's maximum `B₁`, a real (the old running sums are `0`, so the factor
  `exp (-∞ - B₁)` multiplies `0`); after the second tile the running maximum is
  `B₂ = max B₁ T₂`, again a real, and rescaling the first tile's sums by `exp (B₁ - B₂)` turns
  `exp (s - B₁)` into `exp (s - B₂)`, so the running sums are the sums over all 2048 keys
  shifted by `B₂`.  All denominators are sums of exponentials of reals, hence positive.
-/
import Idealize.ShloMosaic.PureOps.Ideal
import proofs.«171265_j74741020885605_2_alg».proof.Proof.SpecDefs
import proofs.«171265_j74741020885605_2_alg».proof.Proof.SpecCoe

namespace Cert.Spec

open Idealize.ShloMosaic
open scoped BigOperators

/-! ### Over the reals -/

/-- A softmax-weighted sum does not depend on the shift. -/
theorem softmax_shift {ι : Type*} (s : Finset ι) (f w : ι → ℝ) (A B : ℝ) :
    ∑ m ∈ s, Real.exp (f m - A) / (∑ m' ∈ s, Real.exp (f m' - A)) * w m
      = (∑ m ∈ s, Real.exp (f m - B) * w m) / (∑ m' ∈ s, Real.exp (f m' - B)) := by
  have hk : ∀ m, Real.exp (f m - A) = Real.exp (B - A) * Real.exp (f m - B) := fun m => by
    rw [← Real.exp_add]; congr 1; ring
  simp only [hk, ← Finset.mul_sum, mul_div_mul_left _ _ (Real.exp_ne_zero (B - A))]
  rw [Finset.sum_div]
  exact Finset.sum_congr rfl fun m _ => div_mul_eq_mul_div _ _ _

/-- Rescaling the first tile's sum of exponentials and adding the second tile's gives the sum
    over all keys at the new shift. -/
theorem stream_sum (f : Fin 2048 → ℝ) (B1 B2 : ℝ) :
    Real.exp (B1 - B2) * (∑ c, Real.exp (f (key 0 c) - B1)) + ∑ c, Real.exp (f (key 1 c) - B2)
      = ∑ m, Real.exp (f m - B2) := by
  rw [sum_tiles (fun m => Real.exp (f m - B2)), Finset.mul_sum]
  congr 1
  exact Finset.sum_congr rfl fun c _ => by rw [← Real.exp_add]; congr 1; ring

/-- The same with weights. -/
theorem stream_wsum (f g : Fin 2048 → ℝ) (B1 B2 : ℝ) :
    Real.exp (B1 - B2) * (∑ c, Real.exp (f (key 0 c) - B1) * g (key 0 c))
        + ∑ c, Real.exp (f (key 1 c) - B2) * g (key 1 c)
      = ∑ m, Real.exp (f m - B2) * g m := by
  rw [sum_tiles (fun m => Real.exp (f m - B2) * g m), Finset.mul_sum]
  congr 1
  exact Finset.sum_congr rfl fun c _ => by rw [← mul_assoc, ← Real.exp_add]; congr 2; ring

/-- A sum of exponentials over the 2048 keys is positive. -/
theorem sum_exp_pos (f : Fin 2048 → ℝ) : 0 < ∑ m, Real.exp (f m) :=
  Finset.sum_pos (fun _ _ => Real.exp_pos _) ⟨⟨0, by norm_num⟩, Finset.mem_univ _⟩

/-! ### The two spellings on real inputs -/

/-- Real scores. -/
noncomputable def scoresR (qr kr : Fin 2048 → Fin 1024 → ℝ) (n m : Fin 2048) : ℝ :=
  ∑ c, qr n c * kr m c

/-- On real queries, keys and values the one-shot and the streaming attention agree, and the
    common value is real. -/
theorem attn_real (q k : Fin 2048 → Fin 1024 → EReal) (v : Fin 2048 → Fin 512 → EReal)
    (qr kr : Fin 2048 → Fin 1024 → ℝ) (vr : Fin 2048 → Fin 512 → ℝ)
    (hq : ∀ n c, q n c = (qr n c : EReal)) (hk : ∀ m c, k m c = (kr m c : EReal))
    (hv : ∀ m h, v m h = (vr m h : EReal)) (n : Fin 2048) (h : Fin 512) :
    attnRef q k v n h = attnKer q k v n h ∧ ∃ t : ℝ, attnKer q k v n h = (t : EReal) := by
  -- the scores are real
  have hs : ∀ m, scores q k n m = (scoresR qr kr n m : EReal) := fun m => by
    simp only [scores, scoresR, hq, hk, ← EReal.coe_mul, coe_sum]
  have hsT : ∀ j, sTile q k j n = fun c => (scoresR qr kr n (key j c) : EReal) := fun j =>
    funext fun c => by simp only [sTile, scoresR, hq, hk, ← EReal.coe_mul, coe_sum]
  -- the one-shot spelling
  obtain ⟨A, hA⟩ : ∃ A : ℝ, mxRef q k n = (A : EReal) := by
    rw [mxRef, show scores q k n = fun m => (scoresR qr kr n m : EReal) from funext hs]
    exact rowMax_real (by norm_num) _
  have he : ∀ m, eRef q k n m = (Real.exp (scoresR qr kr n m - A) : EReal) := fun m => by
    rw [eRef, hA, hs, ← EReal.coe_sub, Ideal.exp_coe]
  have hZA : (∑ m', Real.exp (scoresR qr kr n m' - A)) ≠ 0 := (sum_exp_pos _).ne'
  have hRef : attnRef q k v n h
      = ((∑ m, Real.exp (scoresR qr kr n m - A) / (∑ m', Real.exp (scoresR qr kr n m' - A)) * vr m h : ℝ)
          : EReal) := by
    simp only [attnRef, he, hv, coe_sum, div_coe_coe _ hZA, ← EReal.coe_mul]
  -- the streaming spelling, tile 0
  obtain ⟨B1, hB1⟩ : ∃ B1 : ℝ, kM1 q k n = (B1 : EReal) := by
    obtain ⟨r, hr⟩ := rowMax_real (M := 1024) (by norm_num) (fun c => scoresR qr kr n (key 0 c))
    refine ⟨r, ?_⟩
    rw [kM1, mStep, hsT 0, hr]
    exact max_eq_right (by rw [negInf_eq_bot]; exact bot_le)
  have hL1 : kL1 q k n = ((∑ c, Real.exp (scoresR qr kr n (key 0 c) - B1) : ℝ) : EReal) := by
    rw [kL1, lStep, mul_zero, zero_add, hB1, hsT 0]
    simp only [← EReal.coe_sub, Ideal.exp_coe, coe_sum]
  have hA1 : kAcc1 q k v n h
      = ((∑ c, Real.exp (scoresR qr kr n (key 0 c) - B1) * vr (key 0 c) h : ℝ) : EReal) := by
    rw [kAcc1, accStep, mul_zero, zero_add, hB1, hsT 0]
    simp only [hv, ← EReal.coe_sub, Ideal.exp_coe, ← EReal.coe_mul, coe_sum]
  -- tile 1
  obtain ⟨T2, hT2⟩ : ∃ T2 : ℝ, rowMax negInf (sTile q k 1 n) = (T2 : EReal) := by
    rw [hsT 1]; exact rowMax_real (by norm_num) _
  have hB2 : kM2 q k n = ((max B1 T2 : ℝ) : EReal) := by
    rw [kM2, mStep, hB1, hT2, coe_max']
  have hL2 : kL2 q k n = ((∑ m, Real.exp (scoresR qr kr n m - max B1 T2) : ℝ) : EReal) := by
    rw [kL2, lStep, hB1, hB2, hL1, hsT 1, ← stream_sum (scoresR qr kr n) B1 (max B1 T2)]
    simp only [← EReal.coe_sub, Ideal.exp_coe, ← EReal.coe_mul, coe_sum, ← EReal.coe_add]
  have hA2 : kAcc2 q k v n h
      = ((∑ m, Real.exp (scoresR qr kr n m - max B1 T2) * vr m h : ℝ) : EReal) := by
    rw [kAcc2, accStep, hB1, hB2, hA1, hsT 1,
      ← stream_wsum (scoresR qr kr n) (fun m => vr m h) B1 (max B1 T2)]
    simp only [hv, ← EReal.coe_sub, Ideal.exp_coe, ← EReal.coe_mul, coe_sum, ← EReal.coe_add]
  have hZB : (∑ m', Real.exp (scoresR qr kr n m' - max B1 T2)) ≠ 0 := (sum_exp_pos _).ne'
  have hKer : attnKer q k v n h
      = (((∑ m, Real.exp (scoresR qr kr n m - max B1 T2) * vr m h)
            / (∑ m', Real.exp (scoresR qr kr n m' - max B1 T2)) : ℝ) : EReal) := by
    rw [attnKer, hA2, hL2, div_coe_coe _ hZB]
  refine ⟨?_, _, hKer⟩
  rw [hRef, hKer, softmax_shift Finset.univ (scoresR qr kr n) (fun m => vr m h) A (max B1 T2)]

end Cert.Spec
-- ==== Proof.SpecLaws.lean ====
/-
  The two spellings of the whole result agree on real inputs.

  Each of the four branches is, on real inputs, one real-valued array in both spellings; the
  attention of real queries, keys and values is the same in both spellings; the result takes
  its first 512 columns from the fourth branch and the other 512 from the attention.
-/
import Idealize.ShloMosaic.PureOps.Ideal
import proofs.«171265_j74741020885605_2_alg».proof.Proof.SpecDefs
import proofs.«171265_j74741020885605_2_alg».proof.Proof.SpecCoe
import proofs.«171265_j74741020885605_2_alg».proof.Proof.SpecNorm
import proofs.«171265_j74741020885605_2_alg».proof.Proof.SpecSoftmax

namespace Cert.Spec

open Idealize.ShloMosaic
open scoped BigOperators

/-- When every entry of the eighteen argument arrays is a real number, the two spellings of the
    result are equal. -/
theorem specRef_eq_specKer
    (sgm velo : Fin 8 → Fin 2048 → Fin 1024 → EReal)
    (Wq : Fin 1024 → Fin 1024 → EReal) (bq gq betaq : Fin 1024 → EReal)
    (Wk : Fin 1024 → Fin 1024 → EReal) (bk gk betak : Fin 1024 → EReal)
    (Wv1 : Fin 512 → Fin 1024 → EReal) (bv1 gv1 betav1 : Fin 512 → EReal)
    (Wv2 : Fin 512 → Fin 1024 → EReal) (bv2 gv2 betav2 : Fin 512 → EReal)
    (hsgm : ∀ bt n d, ∃ t : ℝ, sgm bt n d = (t : EReal))
    (hvelo : ∀ bt n d, ∃ t : ℝ, velo bt n d = (t : EReal))
    (hWq : ∀ o d, ∃ t : ℝ, Wq o d = (t : EReal)) (hbq : ∀ o, ∃ t : ℝ, bq o = (t : EReal))
    (hgq : ∀ o, ∃ t : ℝ, gq o = (t : EReal)) (hbetaq : ∀ o, ∃ t : ℝ, betaq o = (t : EReal))
    (hWk : ∀ o d, ∃ t : ℝ, Wk o d = (t : EReal)) (hbk : ∀ o, ∃ t : ℝ, bk o = (t : EReal))
    (hgk : ∀ o, ∃ t : ℝ, gk o = (t : EReal)) (hbetak : ∀ o, ∃ t : ℝ, betak o = (t : EReal))
    (hWv1 : ∀ o d, ∃ t : ℝ, Wv1 o d = (t : EReal)) (hbv1 : ∀ o, ∃ t : ℝ, bv1 o = (t : EReal))
    (hgv1 : ∀ o, ∃ t : ℝ, gv1 o = (t : EReal)) (hbetav1 : ∀ o, ∃ t : ℝ, betav1 o = (t : EReal))
    (hWv2 : ∀ o d, ∃ t : ℝ, Wv2 o d = (t : EReal)) (hbv2 : ∀ o, ∃ t : ℝ, bv2 o = (t : EReal))
    (hgv2 : ∀ o, ∃ t : ℝ, gv2 o = (t : EReal)) (hbetav2 : ∀ o, ∃ t : ℝ, betav2 o = (t : EReal)) :
    specRef sgm velo Wq bq gq betaq Wk bk gk betak Wv1 bv1 gv1 betav1 Wv2 bv2 gv2 betav2
      = specKer sgm velo Wq bq gq betaq Wk bk gk betak Wv1 bv1 gv1 betav1 Wv2 bv2 gv2 betav2 := by
  funext bt n col
  obtain ⟨fq, hqR, hqK⟩ := branch_real n1024_pos (sgm bt) Wq bq gq betaq (hsgm bt) hWq hbq hgq hbetaq
  obtain ⟨fk, hkR, hkK⟩ := branch_real n1024_pos (velo bt) Wk bk gk betak (hvelo bt) hWk hbk hgk hbetak
  obtain ⟨fv1, hv1R, hv1K⟩ :=
    branch_real n512_pos (velo bt) Wv1 bv1 gv1 betav1 (hvelo bt) hWv1 hbv1 hgv1 hbetav1
  obtain ⟨fv2, hv2R, hv2K⟩ :=
    branch_real n512_pos (sgm bt) Wv2 bv2 gv2 betav2 (hsgm bt) hWv2 hbv2 hgv2 hbetav2
  simp only [specRef, specKer]
  split
  · rw [hv2R, hv2K]
  · rw [hqR, hkR, hv1R, hqK, hkK, hv1K]
    exact (attn_real _ _ _ fq fk fv1 (fun _ _ => rfl) (fun _ _ => rfl) (fun _ _ => rfl) n _).1

/-- The same hypotheses make every entry of the result a real number. -/
theorem specKer_real
    (sgm velo : Fin 8 → Fin 2048 → Fin 1024 → EReal)
    (Wq : Fin 1024 → Fin 1024 → EReal) (bq gq betaq : Fin 1024 → EReal)
    (Wk : Fin 1024 → Fin 1024 → EReal) (bk gk betak : Fin 1024 → EReal)
    (Wv1 : Fin 512 → Fin 1024 → EReal) (bv1 gv1 betav1 : Fin 512 → EReal)
    (Wv2 : Fin 512 → Fin 1024 → EReal) (bv2 gv2 betav2 : Fin 512 → EReal)
    (hsgm : ∀ bt n d, ∃ t : ℝ, sgm bt n d = (t : EReal))
    (hvelo : ∀ bt n d, ∃ t : ℝ, velo bt n d = (t : EReal))
    (hWq : ∀ o d, ∃ t : ℝ, Wq o d = (t : EReal)) (hbq : ∀ o, ∃ t : ℝ, bq o = (t : EReal))
    (hgq : ∀ o, ∃ t : ℝ, gq o = (t : EReal)) (hbetaq : ∀ o, ∃ t : ℝ, betaq o = (t : EReal))
    (hWk : ∀ o d, ∃ t : ℝ, Wk o d = (t : EReal)) (hbk : ∀ o, ∃ t : ℝ, bk o = (t : EReal))
    (hgk : ∀ o, ∃ t : ℝ, gk o = (t : EReal)) (hbetak : ∀ o, ∃ t : ℝ, betak o = (t : EReal))
    (hWv1 : ∀ o d, ∃ t : ℝ, Wv1 o d = (t : EReal)) (hbv1 : ∀ o, ∃ t : ℝ, bv1 o = (t : EReal))
    (hgv1 : ∀ o, ∃ t : ℝ, gv1 o = (t : EReal)) (hbetav1 : ∀ o, ∃ t : ℝ, betav1 o = (t : EReal))
    (hWv2 : ∀ o d, ∃ t : ℝ, Wv2 o d = (t : EReal)) (hbv2 : ∀ o, ∃ t : ℝ, bv2 o = (t : EReal))
    (hgv2 : ∀ o, ∃ t : ℝ, gv2 o = (t : EReal)) (hbetav2 : ∀ o, ∃ t : ℝ, betav2 o = (t : EReal))
    (bt : Fin 8) (n : Fin 2048) (col : Fin 1024) :
    ∃ t : ℝ, specKer sgm velo Wq bq gq betaq Wk bk gk betak Wv1 bv1 gv1 betav1 Wv2 bv2 gv2 betav2
      bt n col = (t : EReal) := by
  obtain ⟨fq, _, hqK⟩ := branch_real n1024_pos (sgm bt) Wq bq gq betaq (hsgm bt) hWq hbq hgq hbetaq
  obtain ⟨fk, _, hkK⟩ := branch_real n1024_pos (velo bt) Wk bk gk betak (hvelo bt) hWk hbk hgk hbetak
  obtain ⟨fv1, _, hv1K⟩ :=
    branch_real n512_pos (velo bt) Wv1 bv1 gv1 betav1 (hvelo bt) hWv1 hbv1 hgv1 hbetav1
  obtain ⟨fv2, _, hv2K⟩ :=
    branch_real n512_pos (sgm bt) Wv2 bv2 gv2 betav2 (hsgm bt) hWv2 hbv2 hgv2 hbetav2
  simp only [specKer]
  split
  · rw [hv2K]; exact ⟨_, rfl⟩
  · rw [hqK, hkK, hv1K]
    exact (attn_real _ _ _ fq fk fv1 (fun _ _ => rfl) (fun _ _ => rfl) (fun _ _ => rfl) n _).2

end Cert.Spec
-- ==== Proof.Finite.lean ====
/- From the precondition to real-valuedness.  The predicate `finite_inputs` asks, of each of the
   eighteen argument arrays, that every entry's absolute value be strictly below +inf; on the
   extended reals that says exactly that the entry is neither +inf nor -inf, i.e. a real number.
   Stated once over the printed predicate applied to eighteen abstract arrays, so that it serves
   every program whose precondition is that predicate. -/
import proofs.«171265_j74741020885605_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value lies strictly below the infinity word is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  induction x using EReal.rec with
  | bot => exact absurd h (by simp [Ideal.cmp])
  | coe r => exact ⟨r, rfl⟩
  | top => exact absurd h (by simp [Ideal.cmp])

/-- `all (|x| < +inf)` printed as a reduction by `and` of the comparison: every entry of `x` is real. -/
theorem all_real {s : Shape} (hb : S_.BroadcastsInDim s (![] : Fin 0 → Fin s.rank)) {axes : List (Fin s.rank)}
    (hr : s.ReducesTo axes S_) (hu : 0 < S_.numel) (x : FVec Ideal s .f32)
    (h : Host.reduce IntOp.andi (cmpf .olt (Host.absf x) (broadcastInDim s ![] hb (constant (F := Ideal) S_ .f32 0x7F800000#32)))
      (constantI S_ 1 1#1) hr hu ValueIdx.ix0 = 1#1) (i : s.Idx) : ∃ r : ℝ, x i = (r : EReal) :=
  real_of_abs_lt (x i) (Host.reduce_andi_all _ _ hr hu _ h i)

variable [Facts]
open Facts

/-- The conjunction of two one-bit scalars, read at the only index. -/
theorem andi_ix0 (a b : IVec S_ 1) (i : S_.Idx) : andi a b i = 1#1 ↔ a i = 1#1 ∧ b i = 1#1 := IntOp.andi_eq_one

/-- The precondition `finite_inputs` is the conjunction, over the eighteen argument arrays, of
    `all (|x| < +inf)`.  When it evaluates to one, every entry of every array is a real number. -/
theorem entries_real (a0 : FVec Ideal S8x2048x1024 .f32) (a1 : FVec Ideal S8x2048x1024 .f32) (a2 : FVec Ideal S1024x1024 .f32) (a3 : FVec Ideal S1024 .f32) (a4 : FVec Ideal S1024 .f32) (a5 : FVec Ideal S1024 .f32) (a6 : FVec Ideal S1024x1024 .f32) (a7 : FVec Ideal S1024 .f32) (a8 : FVec Ideal S1024 .f32) (a9 : FVec Ideal S1024 .f32) (a10 : FVec Ideal S512x1024 .f32) (a11 : FVec Ideal S512 .f32) (a12 : FVec Ideal S512 .f32) (a13 : FVec Ideal S512 .f32) (a14 : FVec Ideal S512x1024 .f32) (a15 : FVec Ideal S512 .f32) (a16 : FVec Ideal S512 .f32) (a17 : FVec Ideal S512 .f32)
    (h : fn (F := Ideal) a0 a1 a2 a3 a4 a5 a6 a7 a8 a9 a10 a11 a12 a13 a14 a15 a16 a17 = fun _ => 1#1) :
    (∀ i : S8x2048x1024.Idx, ∃ r : ℝ, a0 i = (r : EReal))
      ∧ (∀ i : S8x2048x1024.Idx, ∃ r : ℝ, a1 i = (r : EReal))
      ∧ (∀ i : S1024x1024.Idx, ∃ r : ℝ, a2 i = (r : EReal))
      ∧ (∀ i : S1024.Idx, ∃ r : ℝ, a3 i = (r : EReal))
      ∧ (∀ i : S1024.Idx, ∃ r : ℝ, a4 i = (r : EReal))
      ∧ (∀ i : S1024.Idx, ∃ r : ℝ, a5 i = (r : EReal))
      ∧ (∀ i : S1024x1024.Idx, ∃ r : ℝ, a6 i = (r : EReal))
      ∧ (∀ i : S1024.Idx, ∃ r : ℝ, a7 i = (r : EReal))
      ∧ (∀ i : S1024.Idx, ∃ r : ℝ, a8 i = (r : EReal))
      ∧ (∀ i : S1024.Idx, ∃ r : ℝ, a9 i = (r : EReal))
      ∧ (∀ i : S512x1024.Idx, ∃ r : ℝ, a10 i = (r : EReal))
      ∧ (∀ i : S512.Idx, ∃ r : ℝ, a11 i = (r : EReal))
      ∧ (∀ i : S512.Idx, ∃ r : ℝ, a12 i = (r : EReal))
      ∧ (∀ i : S512.Idx, ∃ r : ℝ, a13 i = (r : EReal))
      ∧ (∀ i : S512x1024.Idx, ∃ r : ℝ, a14 i = (r : EReal))
      ∧ (∀ i : S512.Idx, ∃ r : ℝ, a15 i = (r : EReal))
      ∧ (∀ i : S512.Idx, ∃ r : ℝ, a16 i = (r : EReal))
      ∧ (∀ i : S512.Idx, ∃ r : ℝ, a17 i = (r : EReal)) := by
  have h' := congrFun h ValueIdx.ix0
  dsimp only [fn, fn_part1, fn_part2, fn_part3, fn_part4, fn_part5] at h'
  simp only [andi_ix0] at h'
  obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩ := h'
  exact ⟨all_real _ _ _ a0 h0,
    all_real _ _ _ a1 h1,
    all_real _ _ _ a2 h2,
    all_real _ _ _ a3 h3,
    all_real _ _ _ a4 h4,
    all_real _ _ _ a5 h5,
    all_real _ _ _ a6 h6,
    all_real _ _ _ a7 h7,
    all_real _ _ _ a8 h8,
    all_real _ _ _ a9 h9,
    all_real _ _ _ a10 h10,
    all_real _ _ _ a11 h11,
    all_real _ _ _ a12 h12,
    all_real _ _ _ a13 h13,
    all_real _ _ _ a14 h14,
    all_real _ _ _ a15 h15,
    all_real _ _ _ a16 h16,
    all_real _ _ _ a17 h17⟩

end Cert.Finite

end
-- ==== Proof.FinitePre.lean ====
/- The preconditions of the two idealized programs are the predicate `finite_inputs` of their argument
   arrays on every device; so under either precondition every argument entry is a real number. -/
import proofs.«171265_j74741020885605_2_alg».proof.Defs
import proofs.«171265_j74741020885605_2_alg».proof.Proof.Gen.Pre_finite_inputs
import proofs.«171265_j74741020885605_2_alg».proof.Proof.Finite

noncomputable section

namespace Cert.Finite

open Idealize.ShloMosaic Idealize.SL.Sem

/-- Under the precondition of `KernelIdeal`, every entry of each of its eighteen argument arrays, on every device, is a real number. -/
theorem pre_real_KernelIdeal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.Pre_finite_inputs.S8x2048x1024.Idx, ∃ r : ℝ, (m ((c.tc : Thread Cert.KernelIdeal.nD Cert.KernelIdeal.τ).loc Cert.KernelIdeal.main_arg0)) i = (r : EReal))
      ∧ (∀ i : Cert.Pre_finite_inputs.S8x2048x1024.Idx, ∃ r : ℝ, (m ((c.tc : Thread Cert.KernelIdeal.nD Cert.KernelIdeal.τ).loc Cert.KernelIdeal.main_arg1)) i = (r : EReal))
      ∧ (∀ i : Cert.Pre_finite_inputs.S1024x1024.Idx, ∃ r : ℝ, (m ((c.tc : Thread Cert.KernelIdeal.nD Cert.KernelIdeal.τ).loc Cert.KernelIdeal.main_arg2)) i = (r : EReal))
      ∧ (∀ i : Cert.Pre_finite_inputs.S1024.Idx, ∃ r : ℝ, (m ((c.tc : Thread Cert.KernelIdeal.nD Cert.KernelIdeal.τ).loc Cert.KernelIdeal.main_arg3)) i = (r : EReal))
      ∧ (∀ i : Cert.Pre_finite_inputs.S1024.Idx, ∃ r : ℝ, (m ((c.tc : Thread Cert.KernelIdeal.nD Cert.KernelIdeal.τ).loc Cert.KernelIdeal.main_arg4)) i = (r : EReal))
      ∧ (∀ i : Cert.Pre_finite_inputs.S1024.Idx, ∃ r : ℝ, (m ((c.tc : Thread Cert.KernelIdeal.nD Cert.KernelIdeal.τ).loc Cert.KernelIdeal.main_arg5)) i = (r : EReal))
      ∧ (∀ i : Cert.Pre_finite_inputs.S1024x1024.Idx, ∃ r : ℝ, (m ((c.tc : Thread Cert.KernelIdeal.nD Cert.KernelIdeal.τ).loc Cert.KernelIdeal.main_arg6)) i = (r : EReal))
      ∧ (∀ i : Cert.Pre_finite_inputs.S1024.Idx, ∃ r : ℝ, (m ((c.tc : Thread Cert.KernelIdeal.nD Cert.KernelIdeal.τ).loc Cert.KernelIdeal.main_arg7)) i = (r : EReal))
      ∧ (∀ i : Cert.Pre_finite_inputs.S1024.Idx, ∃ r : ℝ, (m ((c.tc : Thread Cert.KernelIdeal.nD Cert.KernelIdeal.τ).loc Cert.KernelIdeal.main_arg8)) i = (r : EReal))
      ∧ (∀ i : Cert.Pre_finite_inputs.S1024.Idx, ∃ r : ℝ, (m ((c.tc : Thread Cert.KernelIdeal.nD Cert.KernelIdeal.τ).loc Cert.KernelIdeal.main_arg9)) i = (r : EReal))
      ∧ (∀ i : Cert.Pre_finite_inputs.S512x1024.Idx, ∃ r : ℝ, (m ((c.tc : Thread Cert.KernelIdeal.nD Cert.KernelIdeal.τ).loc Cert.KernelIdeal.main_arg10)) i = (r : EReal))
      ∧ (∀ i : Cert.Pre_finite_inputs.S512.Idx, ∃ r : ℝ, (m ((c.tc : Thread Cert.KernelIdeal.nD Cert.KernelIdeal.τ).loc Cert.KernelIdeal.main_arg11)) i = (r : EReal))
      ∧ (∀ i : Cert.Pre_finite_inputs.S512.Idx, ∃ r : ℝ, (m ((c.tc : Thread Cert.KernelIdeal.nD Cert.KernelIdeal.τ).loc Cert.KernelIdeal.main_arg12)) i = (r : EReal))
      ∧ (∀ i : Cert.Pre_finite_inputs.S512.Idx, ∃ r : ℝ, (m ((c.tc : Thread Cert.KernelIdeal.nD Cert.KernelIdeal.τ).loc Cert.KernelIdeal.main_arg13)) i = (r : EReal))
      ∧ (∀ i : Cert.Pre_finite_inputs.S512x1024.Idx, ∃ r : ℝ, (m ((c.tc : Thread Cert.KernelIdeal.nD Cert.KernelIdeal.τ).loc Cert.KernelIdeal.main_arg14)) i = (r : EReal))
      ∧ (∀ i : Cert.Pre_finite_inputs.S512.Idx, ∃ r : ℝ, (m ((c.tc : Thread Cert.KernelIdeal.nD Cert.KernelIdeal.τ).loc Cert.KernelIdeal.main_arg15)) i = (r : EReal))
      ∧ (∀ i : Cert.Pre_finite_inputs.S512.Idx, ∃ r : ℝ, (m ((c.tc : Thread Cert.KernelIdeal.nD Cert.KernelIdeal.τ).loc Cert.KernelIdeal.main_arg16)) i = (r : EReal))
      ∧ (∀ i : Cert.Pre_finite_inputs.S512.Idx, ∃ r : ℝ, (m ((c.tc : Thread Cert.KernelIdeal.nD Cert.KernelIdeal.τ).loc Cert.KernelIdeal.main_arg17)) i = (r : EReal)) :=
  Cert.Finite.entries_real _ _ _ _ _ _ _ _ _ _ _ _ _ _ _ _ _ _ (h c)

/-- Under the precondition of `ReferenceIdeal`, every entry of each of its eighteen argument arrays, on every device, is a real number. -/
theorem pre_real_ReferenceIdeal (m : (ℓ : Loc Cert.ReferenceIdeal.nD Cert.ReferenceIdeal.τ Cert.ReferenceIdeal.sig) → Buf (Elt Ideal) ℓ)
    (h : Cert.Pre_ReferenceIdeal (hPre_finite_inputs := Cert.Pre_finite_inputs.Gen.facts) m) (c : Dev Cert.ReferenceIdeal.nD) :
    (∀ i : Cert.Pre_finite_inputs.S8x2048x1024.Idx, ∃ r : ℝ, (m ((c.tc : Thread Cert.ReferenceIdeal.nD Cert.ReferenceIdeal.τ).loc Cert.ReferenceIdeal.main_arg0)) i = (r : EReal))
      ∧ (∀ i : Cert.Pre_finite_inputs.S8x2048x1024.Idx, ∃ r : ℝ, (m ((c.tc : Thread Cert.ReferenceIdeal.nD Cert.ReferenceIdeal.τ).loc Cert.ReferenceIdeal.main_arg1)) i = (r : EReal))
      ∧ (∀ i : Cert.Pre_finite_inputs.S1024x1024.Idx, ∃ r : ℝ, (m ((c.tc : Thread Cert.ReferenceIdeal.nD Cert.ReferenceIdeal.τ).loc Cert.ReferenceIdeal.main_arg2)) i = (r : EReal))
      ∧ (∀ i : Cert.Pre_finite_inputs.S1024.Idx, ∃ r : ℝ, (m ((c.tc : Thread Cert.ReferenceIdeal.nD Cert.ReferenceIdeal.τ).loc Cert.ReferenceIdeal.main_arg3)) i = (r : EReal))
      ∧ (∀ i : Cert.Pre_finite_inputs.S1024.Idx, ∃ r : ℝ, (m ((c.tc : Thread Cert.ReferenceIdeal.nD Cert.ReferenceIdeal.τ).loc Cert.ReferenceIdeal.main_arg4)) i = (r : EReal))
      ∧ (∀ i : Cert.Pre_finite_inputs.S1024.Idx, ∃ r : ℝ, (m ((c.tc : Thread Cert.ReferenceIdeal.nD Cert.ReferenceIdeal.τ).loc Cert.ReferenceIdeal.main_arg5)) i = (r : EReal))
      ∧ (∀ i : Cert.Pre_finite_inputs.S1024x1024.Idx, ∃ r : ℝ, (m ((c.tc : Thread Cert.ReferenceIdeal.nD Cert.ReferenceIdeal.τ).loc Cert.ReferenceIdeal.main_arg6)) i = (r : EReal))
      ∧ (∀ i : Cert.Pre_finite_inputs.S1024.Idx, ∃ r : ℝ, (m ((c.tc : Thread Cert.ReferenceIdeal.nD Cert.ReferenceIdeal.τ).loc Cert.ReferenceIdeal.main_arg7)) i = (r : EReal))
      ∧ (∀ i : Cert.Pre_finite_inputs.S1024.Idx, ∃ r : ℝ, (m ((c.tc : Thread Cert.ReferenceIdeal.nD Cert.ReferenceIdeal.τ).loc Cert.ReferenceIdeal.main_arg8)) i = (r : EReal))
      ∧ (∀ i : Cert.Pre_finite_inputs.S1024.Idx, ∃ r : ℝ, (m ((c.tc : Thread Cert.ReferenceIdeal.nD Cert.ReferenceIdeal.τ).loc Cert.ReferenceIdeal.main_arg9)) i = (r : EReal))
      ∧ (∀ i : Cert.Pre_finite_inputs.S512x1024.Idx, ∃ r : ℝ, (m ((c.tc : Thread Cert.ReferenceIdeal.nD Cert.ReferenceIdeal.τ).loc Cert.ReferenceIdeal.main_arg10)) i = (r : EReal))
      ∧ (∀ i : Cert.Pre_finite_inputs.S512.Idx, ∃ r : ℝ, (m ((c.tc : Thread Cert.ReferenceIdeal.nD Cert.ReferenceIdeal.τ).loc Cert.ReferenceIdeal.main_arg11)) i = (r : EReal))
      ∧ (∀ i : Cert.Pre_finite_inputs.S512.Idx, ∃ r : ℝ, (m ((c.tc : Thread Cert.ReferenceIdeal.nD Cert.ReferenceIdeal.τ).loc Cert.ReferenceIdeal.main_arg12)) i = (r : EReal))
      ∧ (∀ i : Cert.Pre_finite_inputs.S512.Idx, ∃ r : ℝ, (m ((c.tc : Thread Cert.ReferenceIdeal.nD Cert.ReferenceIdeal.τ).loc Cert.ReferenceIdeal.main_arg13)) i = (r : EReal))
      ∧ (∀ i : Cert.Pre_finite_inputs.S512x1024.Idx, ∃ r : ℝ, (m ((c.tc : Thread Cert.ReferenceIdeal.nD Cert.ReferenceIdeal.τ).loc Cert.ReferenceIdeal.main_arg14)) i = (r : EReal))
      ∧ (∀ i : Cert.Pre_finite_inputs.S512.Idx, ∃ r : ℝ, (m ((c.tc : Thread Cert.ReferenceIdeal.nD Cert.ReferenceIdeal.τ).loc Cert.ReferenceIdeal.main_arg15)) i = (r : EReal))
      ∧ (∀ i : Cert.Pre_finite_inputs.S512.Idx, ∃ r : ℝ, (m ((c.tc : Thread Cert.ReferenceIdeal.nD Cert.ReferenceIdeal.τ).loc Cert.ReferenceIdeal.main_arg16)) i = (r : EReal))
      ∧ (∀ i : Cert.Pre_finite_inputs.S512.Idx, ∃ r : ℝ, (m ((c.tc : Thread Cert.ReferenceIdeal.nD Cert.ReferenceIdeal.τ).loc Cert.ReferenceIdeal.main_arg17)) i = (r : EReal)) :=
  Cert.Finite.entries_real _ _ _ _ _ _ _ _ _ _ _ _ _ _ _ _ _ _ (h c)

end Cert.Finite

end
-- ==== Proof.Claims.lean ====
/- The five claims. Each program's frame is one run whose post has every unscoped buffer at the fold of the program's
   items, read at the argument arrays. The value: the tiled program's result array is the specification's second
   spelling of its argument arrays, the plain program's the first spelling of its own; the two memories agree on the
   arguments, and for arguments whose every entry is a real number — which the precondition gives — the two spellings are
   equal. -/
import proofs.«171265_j74741020885605_2_alg».proof.Defs
import proofs.«171265_j74741020885605_2_alg».proof.Proof.AssembleK
import proofs.«171265_j74741020885605_2_alg».proof.Proof.Assemble
import proofs.«171265_j74741020885605_2_alg».proof.Proof.KernelValue
import proofs.«171265_j74741020885605_2_alg».proof.Proof.RefFrame
import proofs.«171265_j74741020885605_2_alg».proof.Proof.RefResult
import proofs.«171265_j74741020885605_2_alg».proof.Proof.SpecLaws
import proofs.«171265_j74741020885605_2_alg».proof.Proof.FinitePre
import proofs.«171265_j74741020885605_2_alg».proof.Proof.Gen.Kernel
import proofs.«171265_j74741020885605_2_alg».proof.Proof.Gen.KernelIdeal
import proofs.«171265_j74741020885605_2_alg».proof.Proof.Gen.ReferenceIdeal
import proofs.«171265_j74741020885605_2_alg».proof.Proof.Gen.Pre_finite_inputs
import Idealize.ShloMosaic.Lib.ValueIdx

set_option maxRecDepth 16384

noncomputable section

namespace Cert.Proof.Claims

open Idealize.ShloMosaic Idealize.ShloMosaic.ValueIdx Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := Cert.ReferenceIdeal.RefValue.frame_ri

theorem preserves : Cert.preserves_Kernel_KernelIdeal := trivial

/-- From memories that agree on the arguments, all real, both programs run to the same result array and leave their
    arguments as launched. -/
theorem algebraic : Cert.algebraic_KernelIdeal_ReferenceIdeal := by
  intro m ρ m' ρ' hpre hagree
  refine ⟨fun c => Cert.KernelIdeal.Hand.specKerOf m c, ?_, ?_⟩
  · exact (θ_run (Cert.KernelIdeal.defs (F := Ideal)) _ _).mono (fun r h c =>
      ⟨((h c _ (Cert.KernelIdeal.Hand.mem_uc Cert.KernelIdeal.main_v20 (by decide))).trans (Cert.KernelIdeal.Hand.W6_arr m ρ c 4)).trans
          (Cert.KernelIdeal.Hand.kernel_value m ρ c),
        (h c _ (Cert.KernelIdeal.Hand.mem_uc Cert.KernelIdeal.main_arg0 (by decide))).trans (Cert.KernelIdeal.Hand.W6_main_arg0 m ρ c),
        (h c _ (Cert.KernelIdeal.Hand.mem_uc Cert.KernelIdeal.main_arg1 (by decide))).trans (Cert.KernelIdeal.Hand.W6_main_arg1 m ρ c),
        (h c _ (Cert.KernelIdeal.Hand.mem_uc Cert.KernelIdeal.main_arg2 (by decide))).trans (Cert.KernelIdeal.Hand.W6_main_arg2 m ρ c),
        (h c _ (Cert.KernelIdeal.Hand.mem_uc Cert.KernelIdeal.main_arg3 (by decide))).trans (Cert.KernelIdeal.Hand.W6_main_arg3 m ρ c),
        (h c _ (Cert.KernelIdeal.Hand.mem_uc Cert.KernelIdeal.main_arg4 (by decide))).trans (Cert.KernelIdeal.Hand.W6_main_arg4 m ρ c),
        (h c _ (Cert.KernelIdeal.Hand.mem_uc Cert.KernelIdeal.main_arg5 (by decide))).trans (Cert.KernelIdeal.Hand.W6_main_arg5 m ρ c),
        (h c _ (Cert.KernelIdeal.Hand.mem_uc Cert.KernelIdeal.main_arg6 (by decide))).trans (Cert.KernelIdeal.Hand.W6_main_arg6 m ρ c),
        (h c _ (Cert.KernelIdeal.Hand.mem_uc Cert.KernelIdeal.main_arg7 (by decide))).trans (Cert.KernelIdeal.Hand.W6_main_arg7 m ρ c),
        (h c _ (Cert.KernelIdeal.Hand.mem_uc Cert.KernelIdeal.main_arg8 (by decide))).trans (Cert.KernelIdeal.Hand.W6_main_arg8 m ρ c),
        (h c _ (Cert.KernelIdeal.Hand.mem_uc Cert.KernelIdeal.main_arg9 (by decide))).trans (Cert.KernelIdeal.Hand.W6_main_arg9 m ρ c),
        (h c _ (Cert.KernelIdeal.Hand.mem_uc Cert.KernelIdeal.main_arg10 (by decide))).trans (Cert.KernelIdeal.Hand.W6_main_arg10 m ρ c),
        (h c _ (Cert.KernelIdeal.Hand.mem_uc Cert.KernelIdeal.main_arg11 (by decide))).trans (Cert.KernelIdeal.Hand.W6_main_arg11 m ρ c),
        (h c _ (Cert.KernelIdeal.Hand.mem_uc Cert.KernelIdeal.main_arg12 (by decide))).trans (Cert.KernelIdeal.Hand.W6_main_arg12 m ρ c),
        (h c _ (Cert.KernelIdeal.Hand.mem_uc Cert.KernelIdeal.main_arg13 (by decide))).trans (Cert.KernelIdeal.Hand.W6_main_arg13 m ρ c),
        (h c _ (Cert.KernelIdeal.Hand.mem_uc Cert.KernelIdeal.main_arg14 (by decide))).trans (Cert.KernelIdeal.Hand.W6_main_arg14 m ρ c),
        (h c _ (Cert.KernelIdeal.Hand.mem_uc Cert.KernelIdeal.main_arg15 (by decide))).trans (Cert.KernelIdeal.Hand.W6_main_arg15 m ρ c),
        (h c _ (Cert.KernelIdeal.Hand.mem_uc Cert.KernelIdeal.main_arg16 (by decide))).trans (Cert.KernelIdeal.Hand.W6_main_arg16 m ρ c),
        (h c _ (Cert.KernelIdeal.Hand.mem_uc Cert.KernelIdeal.main_arg17 (by decide))).trans (Cert.KernelIdeal.Hand.W6_main_arg17 m ρ c)⟩)
      (Cert.KernelIdeal.Hand.run_all (F := Ideal) m ρ)
  · refine (θ_run (Cert.ReferenceIdeal.defs (F := Ideal)) _ _).mono (fun r h c => ⟨(h c).1.trans ?_, (h c).2⟩)
      (Cert.ReferenceIdeal.RefValue.run_spec m' ρ')
    obtain ⟨e0, e1, e2, e3, e4, e5, e6, e7, e8, e9, e10, e11, e12, e13, e14, e15, e16, e17⟩ := hagree c
    obtain ⟨r0, r1, r2, r3, r4, r5, r6, r7, r8, r9, r10, r11, r12, r13, r14, r15, r16, r17⟩ := Cert.Finite.pre_real_KernelIdeal m hpre c
    show Cert.ReferenceIdeal.RefValue.specOf m' c = Cert.KernelIdeal.Hand.specKerOf m c
    unfold Cert.ReferenceIdeal.RefValue.specOf Cert.KernelIdeal.Hand.specKerOf
    rw [e0, e1, e2, e3, e4, e5, e6, e7, e8, e9, e10, e11, e12, e13, e14, e15, e16, e17]
    funext i
    exact congrFun (congrFun (congrFun (Cert.Spec.specRef_eq_specKer
      (Cert.Arr.arr3 (n0 := 8) (n1 := 2048) (n2 := 1024) (m ((c.tc : Thread Cert.KernelIdeal.nD Cert.KernelIdeal.τ).loc Cert.KernelIdeal.main_arg0)))
      (Cert.Arr.arr3 (n0 := 8) (n1 := 2048) (n2 := 1024) (m ((c.tc : Thread Cert.KernelIdeal.nD Cert.KernelIdeal.τ).loc Cert.KernelIdeal.main_arg1)))
      (Cert.Arr.arr2 (n0 := 1024) (n1 := 1024) (m ((c.tc : Thread Cert.KernelIdeal.nD Cert.KernelIdeal.τ).loc Cert.KernelIdeal.main_arg2)))
      (Cert.Arr.arr1 (n := 1024) (m ((c.tc : Thread Cert.KernelIdeal.nD Cert.KernelIdeal.τ).loc Cert.KernelIdeal.main_arg3)))
      (Cert.Arr.arr1 (n := 1024) (m ((c.tc : Thread Cert.KernelIdeal.nD Cert.KernelIdeal.τ).loc Cert.KernelIdeal.main_arg4)))
      (Cert.Arr.arr1 (n := 1024) (m ((c.tc : Thread Cert.KernelIdeal.nD Cert.KernelIdeal.τ).loc Cert.KernelIdeal.main_arg5)))
      (Cert.Arr.arr2 (n0 := 1024) (n1 := 1024) (m ((c.tc : Thread Cert.KernelIdeal.nD Cert.KernelIdeal.τ).loc Cert.KernelIdeal.main_arg6)))
      (Cert.Arr.arr1 (n := 1024) (m ((c.tc : Thread Cert.KernelIdeal.nD Cert.KernelIdeal.τ).loc Cert.KernelIdeal.main_arg7)))
      (Cert.Arr.arr1 (n := 1024) (m ((c.tc : Thread Cert.KernelIdeal.nD Cert.KernelIdeal.τ).loc Cert.KernelIdeal.main_arg8)))
      (Cert.Arr.arr1 (n := 1024) (m ((c.tc : Thread Cert.KernelIdeal.nD Cert.KernelIdeal.τ).loc Cert.KernelIdeal.main_arg9)))
      (Cert.Arr.arr2 (n0 := 512) (n1 := 1024) (m ((c.tc : Thread Cert.KernelIdeal.nD Cert.KernelIdeal.τ).loc Cert.KernelIdeal.main_arg10)))
      (Cert.Arr.arr1 (n := 512) (m ((c.tc : Thread Cert.KernelIdeal.nD Cert.KernelIdeal.τ).loc Cert.KernelIdeal.main_arg11)))
      (Cert.Arr.arr1 (n := 512) (m ((c.tc : Thread Cert.KernelIdeal.nD Cert.KernelIdeal.τ).loc Cert.KernelIdeal.main_arg12)))
      (Cert.Arr.arr1 (n := 512) (m ((c.tc : Thread Cert.KernelIdeal.nD Cert.KernelIdeal.τ).loc Cert.KernelIdeal.main_arg13)))
      (Cert.Arr.arr2 (n0 := 512) (n1 := 1024) (m ((c.tc : Thread Cert.KernelIdeal.nD Cert.KernelIdeal.τ).loc Cert.KernelIdeal.main_arg14)))
      (Cert.Arr.arr1 (n := 512) (m ((c.tc : Thread Cert.KernelIdeal.nD Cert.KernelIdeal.τ).loc Cert.KernelIdeal.main_arg15)))
      (Cert.Arr.arr1 (n := 512) (m ((c.tc : Thread Cert.KernelIdeal.nD Cert.KernelIdeal.τ).loc Cert.KernelIdeal.main_arg16)))
      (Cert.Arr.arr1 (n := 512) (m ((c.tc : Thread Cert.KernelIdeal.nD Cert.KernelIdeal.τ).loc Cert.KernelIdeal.main_arg17)))
      (fun a b d => r0 (ix3 a b d)) (fun a b d => r1 (ix3 a b d)) (fun a b => r2 (ix2 a b)) (fun a => r3 (ix1 a)) (fun a => r4 (ix1 a)) (fun a => r5 (ix1 a)) (fun a b => r6 (ix2 a b)) (fun a => r7 (ix1 a)) (fun a => r8 (ix1 a)) (fun a => r9 (ix1 a)) (fun a b => r10 (ix2 a b)) (fun a => r11 (ix1 a)) (fun a => r12 (ix1 a)) (fun a => r13 (ix1 a)) (fun a b => r14 (ix2 a b)) (fun a => r15 (ix1 a)) (fun a => r16 (ix1 a)) (fun a => r17 (ix1 a))) (i 0)) (i 1)) (i 2)

end Cert.Proof.Claims

end
-- ==== Proof.lean ====
/- The proof of `Cert.Claim` (proofs.«171265_j74741020885605_2_alg».proof.Defs): the word-level tiled program, its reading over the extended
   reals and the plain-array program over the extended reals each run to the end with their eighteen argument arrays
   unchanged, and the last two end with equal result arrays when launched from memories that agree on the arguments and
   hold only real numbers there.

   Each program is run once: its post puts every unscoped buffer at the fold of the program's items from the launch
   memory — a stretch of host reshapes applies them, a kernel region replaces its arrays by what its pipeline leaves and
   touches nothing else — and the frames read that fold at the argument arrays. For the value both programs are read as
   one function of the arguments: the tiled program's three regions leave, block by block, the four normalised affine
   branches of the two inputs and the streaming softmax attention over two key tiles; the plain program's operations
   compose to the same branches with a square root in place of the reciprocal square root and a one-shot softmax. For
   inputs whose every entry is a real number the variance plus the positive offset is positive, so the two
   normalisations agree, and the two-tile running maximum, sum and weighted sum equal the one-shot ones; the precondition
   states that every input entry is finite. -/
import proofs.«171265_j74741020885605_2_alg».proof.Defs
import proofs.«171265_j74741020885605_2_alg».proof.Proof.Gen.Kernel
import proofs.«171265_j74741020885605_2_alg».proof.Proof.Gen.KernelIdeal
import proofs.«171265_j74741020885605_2_alg».proof.Proof.Gen.ReferenceIdeal
import proofs.«171265_j74741020885605_2_alg».proof.Proof.Gen.Pre_finite_inputs
import proofs.«171265_j74741020885605_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
